-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S10000 : Shape := ⟨1, ![10000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v100 : IVec S_ 1) (main_v101 : FVec F S2 .f32) : IVec S_ 1 :=
  let main_cst_40 : FVec F S_ .f32 := constant S_ .f32 0x7F800000#32
  let main_v102 : FVec F S2 .f32 := broadcastInDim S2 ![] bcast_S_S2 main_cst_40
  let main_v103 : IVec S2 1 := cmpf .olt main_v101 main_v102
  let main_c_41 : IVec S_ 1 := constantI S_ 1 1#1
  let main_v104 : IVec S_ 1 := (fun x v => Host.reduce IntOp.andi x v reducesTo_S2_S_d0 h_S_) main_v103 main_c_41
  let main_v105 : IVec S_ 1 := andi main_v100 main_v104
  main_v105

def fn_part5 {F : FTy → Type} [FloatOps F] (main_arg20 : FVec F S256x128 .f32) (main_arg21 : FVec F S128 .f32) (main_arg22 : FVec F S128x2 .f32) (main_arg23 : FVec F S2 .f32) (main_v80 : IVec S_ 1) (main_v83 : IVec S256 1) (main_c_33 : IVec S_ 1) : IVec S_ 1 :=
  let main_v84 : IVec S_ 1 := (fun x v => Host.reduce IntOp.andi x v reducesTo_S256_S_d0 h_S_) main_v83 main_c_33
  let main_v85 : IVec S_ 1 := andi main_v80 main_v84
  let main_v86 : FVec F S256x128 .f32 := Host.absf main_arg20
  let main_cst_34 : FVec F S_ .f32 := constant S_ .f32 0x7F800000#32
  let main_v87 : FVec F S256x128 .f32 := broadcastInDim S256x128 ![] bcast_S_S256x128 main_cst_34
  let main_v88 : IVec S256x128 1 := cmpf .olt main_v86 main_v87
  let main_c_35 : IVec S_ 1 := constantI S_ 1 1#1
  let main_v89 : IVec S_ 1 := (fun x v => Host.reduce IntOp.andi x v reducesTo_S256x128_S_d0_1 h_S_) main_v88 main_c_35
  let main_v90 : IVec S_ 1 := andi main_v85 main_v89
  let main_v91 : FVec F S128 .f32 := Host.absf main_arg21
  let main_cst_36 : FVec F S_ .f32 := constant S_ .f32 0x7F800000#32
  let main_v92 : FVec F S128 .f32 := broadcastInDim S128 ![] bcast_S_S128 main_cst_36
  let main_v93 : IVec S128 1 := cmpf .olt main_v91 main_v92
  let main_c_37 : IVec S_ 1 := constantI S_ 1 1#1
  let main_v94 : IVec S_ 1 := (fun x v => Host.reduce IntOp.andi x v reducesTo_S128_S_d0 h_S_) main_v93 main_c_37
  let main_v95 : IVec S_ 1 := andi main_v90 main_v94
  let main_v96 : FVec F S128x2 .f32 := Host.absf main_arg22
  let main_cst_38 : FVec F S_ .f32 := constant S_ .f32 0x7F800000#32
  let main_v97 : FVec F S128x2 .f32 := broadcastInDim S128x2 ![] bcast_S_S128x2 main_cst_38
  let main_v98 : IVec S128x2 1 := cmpf .olt main_v96 main_v97
  let main_c_39 : IVec S_ 1 := constantI S_ 1 1#1
  let main_v99 : IVec S_ 1 := (fun x v => Host.reduce IntOp.andi x v reducesTo_S128x2_S_d0_1 h_S_) main_v98 main_c_39
  let main_v100 : IVec S_ 1 := andi main_v95 main_v99
  let main_v101 : FVec F S2 .f32 := Host.absf main_arg23
  fn_part6 (F := F) main_v100 main_v101

def fn_part4 {F : FTy → Type} [FloatOps F] (main_arg17 : FVec F S256 .f32) (main_arg18 : FVec F S256x256 .f32) (main_arg19 : FVec F S256 .f32) (main_arg20 : FVec F S256x128 .f32) (main_arg21 : FVec F S128 .f32) (main_arg22 : FVec F S128x2 .f32) (main_arg23 : FVec F S2 .f32) (main_v65 : IVec S_ 1) (main_v66 : FVec F S256x256 .f32) (main_cst_26 : FVec F S_ .f32) : IVec S_ 1 :=
  let main_v67 : FVec F S256x256 .f32 := broadcastInDim S256x256 ![] bcast_S_S256x256 main_cst_26
  let main_v68 : IVec S256x256 1 := cmpf .olt main_v66 main_v67
  let main_c_27 : IVec S_ 1 := constantI S_ 1 1#1
  let main_v69 : IVec S_ 1 := (fun x v => Host.reduce IntOp.andi x v reducesTo_S256x256_S_d0_1 h_S_) main_v68 main_c_27
  let main_v70 : IVec S_ 1 := andi main_v65 main_v69
  let main_v71 : FVec F S256 .f32 := Host.absf main_arg17
  let main_cst_28 : FVec F S_ .f32 := constant S_ .f32 0x7F800000#32
  let main_v72 : FVec F S256 .f32 := broadcastInDim S256 ![] bcast_S_S256 main_cst_28
  let main_v73 : IVec S256 1 := cmpf .olt main_v71 main_v72
  let main_c_29 : IVec S_ 1 := constantI S_ 1 1#1
  let main_v74 : IVec S_ 1 := (fun x v => Host.reduce IntOp.andi x v reducesTo_S256_S_d0 h_S_) main_v73 main_c_29
  let main_v75 : IVec S_ 1 := andi main_v70 main_v74
  let main_v76 : FVec F S256x256 .f32 := Host.absf main_arg18
  let main_cst_30 : FVec F S_ .f32 := constant S_ .f32 0x7F800000#32
  let main_v77 : FVec F S256x256 .f32 := broadcastInDim S256x256 ![] bcast_S_S256x256 main_cst_30
  let main_v78 : IVec S256x256 1 := cmpf .olt main_v76 main_v77
  let main_c_31 : IVec S_ 1 := constantI S_ 1 1#1
  let main_v79 : IVec S_ 1 := (fun x v => Host.reduce IntOp.andi x v reducesTo_S256x256_S_d0_1 h_S_) main_v78 main_c_31
  let main_v80 : IVec S_ 1 := andi main_v75 main_v79
  let main_v81 : FVec F S256 .f32 := Host.absf main_arg19
  let main_cst_32 : FVec F S_ .f32 := constant S_ .f32 0x7F800000#32
  let main_v82 : FVec F S256 .f32 := broadcastInDim S256 ![] bcast_S_S256 main_cst_32
  let main_v83 : IVec S256 1 := cmpf .olt main_v81 main_v82
  let main_c_33 : IVec S_ 1 := constantI S_ 1 1#1
  fn_part5 (F := F) main_arg20 main_arg21 main_arg22 main_arg23 main_v80 main_v83 main_c_33

def fn_part3 {F : FTy → Type} [FloatOps F] (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x2 .f32) (main_arg23 : FVec F S2 .f32) (main_v45 : IVec S_ 1) (main_v49 : IVec S_ 1) : IVec S_ 1 :=
  let main_v50 : IVec S_ 1 := andi main_v45 main_v49
  let main_v51 : FVec F S256 .f32 := Host.absf main_arg13
  let main_cst_20 : FVec F S_ .f32 := constant S_ .f32 0x7F800000#32
  let main_v52 : FVec F S256 .f32 := broadcastInDim S256 ![] bcast_S_S256 main_cst_20
  let main_v53 : IVec S256 1 := cmpf .olt main_v51 main_v52
  let main_c_21 : IVec S_ 1 := constantI S_ 1 1#1
  let main_v54 : IVec S_ 1 := (fun x v => Host.reduce IntOp.andi x v reducesTo_S256_S_d0 h_S_) main_v53 main_c_21
  let main_v55 : IVec S_ 1 := andi main_v50 main_v54
  let main_v56 : FVec F S256x256 .f32 := Host.absf main_arg14
  let main_cst_22 : FVec F S_ .f32 := constant S_ .f32 0x7F800000#32
  let main_v57 : FVec F S256x256 .f32 := broadcastInDim S256x256 ![] bcast_S_S256x256 main_cst_22
  let main_v58 : IVec S256x256 1 := cmpf .olt main_v56 main_v57
  let main_c_23 : IVec S_ 1 := constantI S_ 1 1#1
  let main_v59 : IVec S_ 1 := (fun x v => Host.reduce IntOp.andi x v reducesTo_S256x256_S_d0_1 h_S_) main_v58 main_c_23
  let main_v60 : IVec S_ 1 := andi main_v55 main_v59
  let main_v61 : FVec F S256 .f32 := Host.absf main_arg15
  let main_cst_24 : FVec F S_ .f32 := constant S_ .f32 0x7F800000#32
  let main_v62 : FVec F S256 .f32 := broadcastInDim S256 ![] bcast_S_S256 main_cst_24
  let main_v63 : IVec S256 1 := cmpf .olt main_v61 main_v62
  let main_c_25 : IVec S_ 1 := constantI S_ 1 1#1
  let main_v64 : IVec S_ 1 := (fun x v => Host.reduce IntOp.andi x v reducesTo_S256_S_d0 h_S_) main_v63 main_c_25
  let main_v65 : IVec S_ 1 := andi main_v60 main_v64
  let main_v66 : FVec F S256x256 .f32 := Host.absf main_arg16
  let main_cst_26 : FVec F S_ .f32 := constant S_ .f32 0x7F800000#32
  fn_part4 (F := F) main_arg17 main_arg18 main_arg19 main_arg20 main_arg21 main_arg22 main_arg23 main_v65 main_v66 main_cst_26

def fn_part2 {F : FTy → Type} [FloatOps F] (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x2 .f32) (main_arg23 : FVec F S2 .f32) (main_v30 : IVec S_ 1) (main_v31 : FVec F S256 .f32) (main_v32 : FVec F S256 .f32) : IVec S_ 1 :=
  let main_v33 : IVec S256 1 := cmpf .olt main_v31 main_v32
  let main_c_13 : IVec S_ 1 := constantI S_ 1 1#1
  let main_v34 : IVec S_ 1 := (fun x v => Host.reduce IntOp.andi x v reducesTo_S256_S_d0 h_S_) main_v33 main_c_13
  let main_v35 : IVec S_ 1 := andi main_v30 main_v34
  let main_v36 : FVec F S256x256 .f32 := Host.absf main_arg10
  let main_cst_14 : FVec F S_ .f32 := constant S_ .f32 0x7F800000#32
  let main_v37 : FVec F S256x256 .f32 := broadcastInDim S256x256 ![] bcast_S_S256x256 main_cst_14
  let main_v38 : IVec S256x256 1 := cmpf .olt main_v36 main_v37
  let main_c_15 : IVec S_ 1 := constantI S_ 1 1#1
  let main_v39 : IVec S_ 1 := (fun x v => Host.reduce IntOp.andi x v reducesTo_S256x256_S_d0_1 h_S_) main_v38 main_c_15
  let main_v40 : IVec S_ 1 := andi main_v35 main_v39
  let main_v41 : FVec F S256 .f32 := Host.absf main_arg11
  let main_cst_16 : FVec F S_ .f32 := constant S_ .f32 0x7F800000#32
  let main_v42 : FVec F S256 .f32 := broadcastInDim S256 ![] bcast_S_S256 main_cst_16
  let main_v43 : IVec S256 1 := cmpf .olt main_v41 main_v42
  let main_c_17 : IVec S_ 1 := constantI S_ 1 1#1
  let main_v44 : IVec S_ 1 := (fun x v => Host.reduce IntOp.andi x v reducesTo_S256_S_d0 h_S_) main_v43 main_c_17
  let main_v45 : IVec S_ 1 := andi main_v40 main_v44
  let main_v46 : FVec F S256x256 .f32 := Host.absf main_arg12
  let main_cst_18 : FVec F S_ .f32 := constant S_ .f32 0x7F800000#32
  let main_v47 : FVec F S256x256 .f32 := broadcastInDim S256x256 ![] bcast_S_S256x256 main_cst_18
  let main_v48 : IVec S256x256 1 := cmpf .olt main_v46 main_v47
  let main_c_19 : IVec S_ 1 := constantI S_ 1 1#1
  let main_v49 : IVec S_ 1 := (fun x v => Host.reduce IntOp.andi x v reducesTo_S256x256_S_d0_1 h_S_) main_v48 main_c_19
  fn_part3 (F := F) main_arg13 main_arg14 main_arg15 main_arg16 main_arg17 main_arg18 main_arg19 main_arg20 main_arg21 main_arg22 main_arg23 main_v45 main_v49

def fn_part1 {F : FTy → Type} [FloatOps F] (main_arg6 : FVec F S128x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x2 .f32) (main_arg23 : FVec F S2 .f32) (main_v15 : IVec S_ 1) : IVec S_ 1 :=
  let main_v16 : FVec F S128x256 .f32 := Host.absf main_arg6
  let main_cst_6 : FVec F S_ .f32 := constant S_ .f32 0x7F800000#32
  let main_v17 : FVec F S128x256 .f32 := broadcastInDim S128x256 ![] bcast_S_S128x256 main_cst_6
  let main_v18 : IVec S128x256 1 := cmpf .olt main_v16 main_v17
  let main_c_7 : IVec S_ 1 := constantI S_ 1 1#1
  let main_v19 : IVec S_ 1 := (fun x v => Host.reduce IntOp.andi x v reducesTo_S128x256_S_d0_1 h_S_) main_v18 main_c_7
  let main_v20 : IVec S_ 1 := andi main_v15 main_v19
  let main_v21 : FVec F S256 .f32 := Host.absf main_arg7
  let main_cst_8 : FVec F S_ .f32 := constant S_ .f32 0x7F800000#32
  let main_v22 : FVec F S256 .f32 := broadcastInDim S256 ![] bcast_S_S256 main_cst_8
  let main_v23 : IVec S256 1 := cmpf .olt main_v21 main_v22
  let main_c_9 : IVec S_ 1 := constantI S_ 1 1#1
  let main_v24 : IVec S_ 1 := (fun x v => Host.reduce IntOp.andi x v reducesTo_S256_S_d0 h_S_) main_v23 main_c_9
  let main_v25 : IVec S_ 1 := andi main_v20 main_v24
  let main_v26 : FVec F S256x256 .f32 := Host.absf main_arg8
  let main_cst_10 : FVec F S_ .f32 := constant S_ .f32 0x7F800000#32
  let main_v27 : FVec F S256x256 .f32 := broadcastInDim S256x256 ![] bcast_S_S256x256 main_cst_10
  let main_v28 : IVec S256x256 1 := cmpf .olt main_v26 main_v27
  let main_c_11 : IVec S_ 1 := constantI S_ 1 1#1
  let main_v29 : IVec S_ 1 := (fun x v => Host.reduce IntOp.andi x v reducesTo_S256x256_S_d0_1 h_S_) main_v28 main_c_11
  let main_v30 : IVec S_ 1 := andi main_v25 main_v29
  let main_v31 : FVec F S256 .f32 := Host.absf main_arg9
  let main_cst_12 : FVec F S_ .f32 := constant S_ .f32 0x7F800000#32
  let main_v32 : FVec F S256 .f32 := broadcastInDim S256 ![] bcast_S_S256 main_cst_12
  fn_part2 (F := F) main_arg10 main_arg11 main_arg12 main_arg13 main_arg14 main_arg15 main_arg16 main_arg17 main_arg18 main_arg19 main_arg20 main_arg21 main_arg22 main_arg23 main_v30 main_v31 main_v32

def fn {F : FTy → Type} [FloatOps F] (main_arg0 : FVec F S10000x128 .f32) (main_arg1 : IVec S2x320000 32) (main_arg2 : IVec S10000 32) (main_arg3 : FVec F S_ .f32) (main_arg4 : FVec F S_ .f32) (main_arg5 : FVec F S_ .f32) (main_arg6 : FVec F S128x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x2 .f32) (main_arg23 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg4
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S_ .f32 := Host.absf main_arg5
  let main_cst_4 : FVec F S_ .f32 := constant S_ .f32 0x7F800000#32
  let main_v13 : IVec S_ 1 := cmpf .olt main_v12 main_cst_4
  let main_c_5 : IVec S_ 1 := constantI S_ 1 1#1
  let main_v14 : IVec S_ 1 := (fun x v => Host.reduce IntOp.andi x v reducesTo_S_S_d h_S_) main_v13 main_c_5
  let main_v15 : IVec S_ 1 := andi main_v11 main_v14
  fn_part1 (F := F) main_arg6 main_arg7 main_arg8 main_arg9 main_arg10 main_arg11 main_arg12 main_arg13 main_arg14 main_arg15 main_arg16 main_arg17 main_arg18 main_arg19 main_arg20 main_arg21 main_arg22 main_arg23 main_v15
-- ==== Kernel.lean ====
abbrev S10000x128 : Shape := ⟨2, ![10000, 128]⟩
abbrev S2x320000 : Shape := ⟨2, ![2, 320000]⟩
abbrev S10000 : Shape := ⟨1, ![10000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x320000 : Shape := ⟨2, ![1, 320000]⟩
abbrev S320000 : Shape := ⟨1, ![320000]⟩
abbrev S1 : Shape := ⟨1, ![1]⟩
abbrev S1x256 : Shape := ⟨2, ![1, 256]⟩
abbrev S1x128 : Shape := ⟨2, ![1, 128]⟩
abbrev S128x128 : Shape := ⟨2, ![128, 128]⟩
abbrev S1x10240 : Shape := ⟨2, ![1, 10240]⟩
abbrev S320000x1 : Shape := ⟨2, ![320000, 1]⟩
abbrev S320000x128 : Shape := ⟨2, ![320000, 128]⟩
abbrev S10000x256 : Shape := ⟨2, ![10000, 256]⟩
abbrev S2000x128 : Shape := ⟨2, ![2000, 128]⟩
abbrev S2000x256 : Shape := ⟨2, ![2000, 256]⟩
abbrev S20000x128 : Shape := ⟨2, ![20000, 128]⟩
abbrev S320000x256 : Shape := ⟨2, ![320000, 256]⟩
abbrev S10240x256 : Shape := ⟨2, ![10240, 256]⟩
abbrev S240x256 : Shape := ⟨2, ![240, 256]⟩
abbrev S64x128 : Shape := ⟨2, ![64, 128]⟩
abbrev S64x10240 : Shape := ⟨2, ![64, 10240]⟩
abbrev S64x256 : Shape := ⟨2, ![64, 256]⟩
abbrev S64 : Shape := ⟨1, ![64]⟩
abbrev S64x1 : Shape := ⟨2, ![64, 1]⟩
abbrev S64x2 : Shape := ⟨2, ![64, 2]⟩

abbrev nBuf : Space → Nat
  | .hbm => 279
  | .vmem => 43
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S_, .f32⟩
  | 4 => ⟨S_, .f32⟩
  | 5 => ⟨S_, .f32⟩
  | 6 => ⟨S128x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x128, .f32⟩
  | 21 => ⟨S128, .f32⟩
  | 22 => ⟨S128x2, .f32⟩
  | 23 => ⟨S2, .f32⟩
  | 24 => ⟨S1x320000, .i32⟩
  | 25 => ⟨S320000, .i32⟩
  | 26 => ⟨S1x320000, .i32⟩
  | 27 => ⟨S320000, .i32⟩
  | 28 => ⟨S1, .f32⟩
  | 29 => ⟨S1, .f32⟩
  | 30 => ⟨S1, .f32⟩
  | 31 => ⟨S1x256, .f32⟩
  | 32 => ⟨S1x256, .f32⟩
  | 33 => ⟨S1x256, .f32⟩
  | 34 => ⟨S1x256, .f32⟩
  | 35 => ⟨S1x256, .f32⟩
  | 36 => ⟨S1x256, .f32⟩
  | 37 => ⟨S1x256, .f32⟩
  | 38 => ⟨S1x128, .f32⟩
  | 39 => ⟨S_, .f32⟩
  | 40 => ⟨S128x128, .f32⟩
  | 41 => ⟨S_, .i32⟩
  | 42 => ⟨S1, .i32⟩
  | 43 => ⟨S128x128, .f32⟩
  | 44 => ⟨S_, .f32⟩
  | 45 => ⟨S1x128, .f32⟩
  | 46 => ⟨S_, .i32⟩
  | 47 => ⟨S1, .i32⟩
  | 48 => ⟨S_, .i32⟩
  | 49 => ⟨S1, .i32⟩
  | 50 => ⟨S2, .i32⟩
  | 51 => ⟨S1x128, .f32⟩
  | 52 => ⟨S_, .i32⟩
  | 53 => ⟨S1x10240, .i32⟩
  | 54 => ⟨S_, .i32⟩
  | 55 => ⟨S1, .i32⟩
  | 56 => ⟨S_, .i32⟩
  | 57 => ⟨S1, .i32⟩
  | 58 => ⟨S2, .i32⟩
  | 59 => ⟨S1x10240, .i32⟩
  | 60 => ⟨S_, .f32⟩
  | 61 => ⟨S10000x128, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x128, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S10000x128, .f32⟩
  | 80 => ⟨S_, .f32⟩
  | 81 => ⟨S_, .f32⟩
  | 82 => ⟨S10000x128, .f32⟩
  | 83 => ⟨S10000x128, .f32⟩
  | 84 => ⟨S10000x128, .f32⟩
  | 85 => ⟨S10000x256, .f32⟩
  | 86 => ⟨S10000x256, .f32⟩
  | 87 => ⟨S10000x256, .f32⟩
  | 88 => ⟨S10000x256, .f32⟩
  | 89 => ⟨S_, .f32⟩
  | 90 => ⟨S256, .f32⟩
  | 91 => ⟨S1x256, .f32⟩
  | 92 => ⟨S_, .f32⟩
  | 93 => ⟨S1x256, .f32⟩
  | 94 => ⟨S1x256, .f32⟩
  | 95 => ⟨S_, .i32⟩
  | 96 => ⟨S_, .f32⟩
  | 97 => ⟨S256, .f32⟩
  | 98 => ⟨S1x256, .f32⟩
  | 99 => ⟨S_, .f32⟩
  | 100 => ⟨S1x256, .f32⟩
  | 101 => ⟨S1x256, .f32⟩
  | 102 => ⟨S10000x256, .f32⟩
  | 103 => ⟨S10000x256, .f32⟩
  | 104 => ⟨S10000x256, .f32⟩
  | 105 => ⟨S_, .f32⟩
  | 106 => ⟨S_, .f32⟩
  | 107 => ⟨S_, .f32⟩
  | 108 => ⟨S_, .f32⟩
  | 109 => ⟨S256, .f32⟩
  | 110 => ⟨S1x256, .f32⟩
  | 111 => ⟨S1x256, .f32⟩
  | 112 => ⟨S1x256, .f32⟩
  | 113 => ⟨S_, .f32⟩
  | 114 => ⟨S_, .i1⟩
  | 115 => ⟨S_, .f32⟩
  | 116 => ⟨S_, .f32⟩
  | 117 => ⟨S1x256, .f32⟩
  | 118 => ⟨S1x256, .f32⟩
  | 119 => ⟨S20000x128, .f32⟩
  | 120 => ⟨S10000x128, .f32⟩
  | 121 => ⟨S10000x128, .f32⟩
  | 122 => ⟨S10000x256, .f32⟩
  | 123 => ⟨S_, .f32⟩
  | 124 => ⟨S10000x256, .f32⟩
  | 125 => ⟨S_, .i32⟩
  | 126 => ⟨S320000, .i32⟩
  | 127 => ⟨S320000, .i1⟩
  | _ => ⟨S10000x128, .f32⟩

abbrev hbmTy0_1 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S320000x256, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S10000x256, .f32⟩
  | 15 => ⟨S_, .f32⟩
  | 16 => ⟨S_, .f32⟩
  | 17 => ⟨S10000x256, .f32⟩
  | 18 => ⟨S10000x256, .f32⟩
  | 19 => ⟨S10000x256, .f32⟩
  | 20 => ⟨S10000x256, .f32⟩
  | 21 => ⟨S10000x256, .f32⟩
  | 22 => ⟨S10000x256, .f32⟩
  | 23 => ⟨S10000x256, .f32⟩
  | 24 => ⟨S_, .f32⟩
  | 25 => ⟨S256, .f32⟩
  | 26 => ⟨S1x256, .f32⟩
  | 27 => ⟨S_, .f32⟩
  | 28 => ⟨S1x256, .f32⟩
  | 29 => ⟨S1x256, .f32⟩
  | 30 => ⟨S_, .i32⟩
  | 31 => ⟨S_, .f32⟩
  | 32 => ⟨S256, .f32⟩
  | 33 => ⟨S1x256, .f32⟩
  | 34 => ⟨S_, .f32⟩
  | 35 => ⟨S1x256, .f32⟩
  | 36 => ⟨S1x256, .f32⟩
  | 37 => ⟨S10000x256, .f32⟩
  | 38 => ⟨S10000x256, .f32⟩
  | 39 => ⟨S10000x256, .f32⟩
  | 40 => ⟨S_, .f32⟩
  | 41 => ⟨S_, .f32⟩
  | 42 => ⟨S_, .f32⟩
  | 43 => ⟨S_, .f32⟩
  | 44 => ⟨S256, .f32⟩
  | 45 => ⟨S1x256, .f32⟩
  | 46 => ⟨S1x256, .f32⟩
  | 47 => ⟨S1x256, .f32⟩
  | 48 => ⟨S_, .f32⟩
  | 49 => ⟨S_, .i1⟩
  | 50 => ⟨S_, .f32⟩
  | 51 => ⟨S_, .f32⟩
  | 52 => ⟨S1x256, .f32⟩
  | 53 => ⟨S1x256, .f32⟩
  | 54 => ⟨S20000x128, .f32⟩
  | 55 => ⟨S10000x128, .f32⟩
  | 56 => ⟨S10000x128, .f32⟩
  | 57 => ⟨S10000x256, .f32⟩
  | 58 => ⟨S_, .f32⟩
  | 59 => ⟨S10000x256, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x256, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S10000x256, .f32⟩
  | 78 => ⟨S_, .f32⟩
  | 79 => ⟨S_, .f32⟩
  | 80 => ⟨S10000x256, .f32⟩
  | 81 => ⟨S10000x256, .f32⟩
  | 82 => ⟨S10000x256, .f32⟩
  | 83 => ⟨S10000x256, .f32⟩
  | 84 => ⟨S10000x256, .f32⟩
  | 85 => ⟨S10000x256, .f32⟩
  | 86 => ⟨S10000x256, .f32⟩
  | 87 => ⟨S_, .f32⟩
  | 88 => ⟨S256, .f32⟩
  | 89 => ⟨S1x256, .f32⟩
  | 90 => ⟨S_, .f32⟩
  | 91 => ⟨S1x256, .f32⟩
  | 92 => ⟨S1x256, .f32⟩
  | 93 => ⟨S_, .i32⟩
  | 94 => ⟨S_, .f32⟩
  | 95 => ⟨S256, .f32⟩
  | 96 => ⟨S1x256, .f32⟩
  | 97 => ⟨S_, .f32⟩
  | 98 => ⟨S1x256, .f32⟩
  | 99 => ⟨S1x256, .f32⟩
  | 100 => ⟨S10000x256, .f32⟩
  | 101 => ⟨S10000x256, .f32⟩
  | 102 => ⟨S10000x256, .f32⟩
  | 103 => ⟨S_, .f32⟩
  | 104 => ⟨S_, .f32⟩
  | 105 => ⟨S_, .f32⟩
  | 106 => ⟨S_, .f32⟩
  | 107 => ⟨S256, .f32⟩
  | 108 => ⟨S1x256, .f32⟩
  | 109 => ⟨S1x256, .f32⟩
  | 110 => ⟨S1x256, .f32⟩
  | 111 => ⟨S_, .f32⟩
  | 112 => ⟨S_, .i1⟩
  | 113 => ⟨S_, .f32⟩
  | 114 => ⟨S_, .f32⟩
  | 115 => ⟨S1x256, .f32⟩
  | 116 => ⟨S1x256, .f32⟩
  | 117 => ⟨S10240x256, .f32⟩
  | 118 => ⟨S64x128, .f32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S_, .i32⟩
  | 126 => ⟨S_, .f32⟩
  | 127 => ⟨S128, .f32⟩
  | _ => ⟨S10000x128, .f32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S64x128, .f32⟩
  | 5 => ⟨S64x128, .f32⟩
  | 6 => ⟨S64x128, .f32⟩
  | 7 => ⟨S_, .f32⟩
  | 8 => ⟨S_, .f32⟩
  | 9 => ⟨S_, .f32⟩
  | 10 => ⟨S_, .f32⟩
  | 11 => ⟨S128, .f32⟩
  | 12 => ⟨S1x128, .f32⟩
  | 13 => ⟨S1x128, .f32⟩
  | 14 => ⟨S1x128, .f32⟩
  | 15 => ⟨S_, .f32⟩
  | 16 => ⟨S_, .i1⟩
  | 17 => ⟨S_, .f32⟩
  | 18 => ⟨S_, .f32⟩
  | 19 => ⟨S1x128, .f32⟩
  | 20 => ⟨S1x128, .f32⟩
  | 21 => ⟨S64x128, .f32⟩
  | 22 => ⟨S64x2, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x256, .f32⟩
  | .local _ .vmem, ⟨2, _⟩ => ⟨S1x256, .f32⟩
  | .local _ .vmem, ⟨3, _⟩ => ⟨S10000x256, .f32⟩
  | .local _ .vmem, ⟨4, _⟩ => ⟨S10000x256, .f32⟩
  | .local _ .vmem, ⟨5, _⟩ => ⟨S1x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S20000x128, .f32⟩
  | .local _ .vmem, ⟨10, _⟩ => ⟨S10000x256, .f32⟩
  | .local _ .vmem, ⟨11, _⟩ => ⟨S256x256, .f32⟩
  | .local _ .vmem, ⟨12, _⟩ => ⟨S1x256, .f32⟩
  | .local _ .vmem, ⟨13, _⟩ => ⟨S10000x256, .f32⟩
  | .local _ .vmem, ⟨14, _⟩ => ⟨S10000x256, .f32⟩
  | .local _ .vmem, ⟨15, _⟩ => ⟨S1x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S20000x128, .f32⟩
  | .local _ .vmem, ⟨20, _⟩ => ⟨S10000x256, .f32⟩
  | .local _ .vmem, ⟨21, _⟩ => ⟨S256x256, .f32⟩
  | .local _ .vmem, ⟨22, _⟩ => ⟨S1x256, .f32⟩
  | .local _ .vmem, ⟨23, _⟩ => ⟨S10000x256, .f32⟩
  | .local _ .vmem, ⟨24, _⟩ => ⟨S10000x256, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S10240x256, .f32⟩
  | .local _ .vmem, ⟨30, _⟩ => ⟨S10240x256, .f32⟩
  | .local _ .vmem, ⟨31, _⟩ => ⟨S1x10240, .i32⟩
  | .local _ .vmem, ⟨32, _⟩ => ⟨S256x256, .f32⟩
  | .local _ .vmem, ⟨33, _⟩ => ⟨S1x256, .f32⟩
  | .local _ .vmem, ⟨34, _⟩ => ⟨S256x128, .f32⟩
  | .local _ .vmem, ⟨35, _⟩ => ⟨S1x128, .f32⟩
  | .local _ .vmem, ⟨36, _⟩ => ⟨S64x128, .f32⟩
  | .local _ .vmem, ⟨37, _⟩ => ⟨S64x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S64x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_cst_0 : Ref sig .tc := ⟨.hbm, 44, rfl⟩
abbrev main_v18 : Ref sig .tc := ⟨.hbm, 45, rfl⟩
abbrev main_c_1 : Ref sig .tc := ⟨.hbm, 46, rfl⟩
abbrev main_v19 : Ref sig .tc := ⟨.hbm, 47, rfl⟩
abbrev main_c_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_3 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_c_7 : Ref sig .tc := ⟨.hbm, 62, rfl⟩
abbrev main_v29 : Ref sig .tc := ⟨.hbm, 63, rfl⟩
abbrev main_v30 : Ref sig .tc := ⟨.hbm, 64, rfl⟩
abbrev main_c_8 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_9 : Ref sig .tc := ⟨.hbm, 71, rfl⟩
abbrev main_v36 : Ref sig .tc := ⟨.hbm, 72, rfl⟩
abbrev main_v37 : Ref sig .tc := ⟨.hbm, 73, rfl⟩
abbrev main_c_10 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_12 : Ref sig .tc := ⟨.hbm, 89, rfl⟩
abbrev main_v51 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_c_14 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_cst_0 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_cst_1 : Ref sig .tc := ⟨.hbm, 106, rfl⟩
abbrev main_call0_v8 : Ref sig .tc := ⟨.hbm, 107, rfl⟩
abbrev main_call0_cst_2 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_v12 : Ref sig .tc := ⟨.hbm, 112, rfl⟩
abbrev main_call0_cst_3 : Ref sig .tc := ⟨.hbm, 113, rfl⟩
abbrev main_call0_v13 : Ref sig .tc := ⟨.hbm, 114, rfl⟩
abbrev main_call0_cst_4 : Ref sig .tc := ⟨.hbm, 115, rfl⟩
abbrev main_call0_call0_v0 : Ref sig .tc := ⟨.hbm, 116, rfl⟩
abbrev main_call0_call0_v1 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_cst_15 : Ref sig .tc := ⟨.hbm, 123, rfl⟩
abbrev main_v60 : Ref sig .tc := ⟨.hbm, 124, rfl⟩
abbrev main_c_16 : Ref sig .tc := ⟨.hbm, 125, rfl⟩
abbrev main_v61 : Ref sig .tc := ⟨.hbm, 126, rfl⟩
abbrev main_v62 : Ref sig .tc := ⟨.hbm, 127, rfl⟩
abbrev main_c_17 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_c_18 : Ref sig .tc := ⟨.hbm, 134, rfl⟩
abbrev main_v68 : Ref sig .tc := ⟨.hbm, 135, rfl⟩
abbrev main_v69 : Ref sig .tc := ⟨.hbm, 136, rfl⟩
abbrev main_c_19 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_20 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_21 : Ref sig .tc := ⟨.hbm, 152, rfl⟩
abbrev main_v83 : Ref sig .tc := ⟨.hbm, 153, rfl⟩
abbrev main_v84 : Ref sig .tc := ⟨.hbm, 154, rfl⟩
abbrev main_cst_22 : Ref sig .tc := ⟨.hbm, 155, rfl⟩
abbrev main_v85 : Ref sig .tc := ⟨.hbm, 156, rfl⟩
abbrev main_v86 : Ref sig .tc := ⟨.hbm, 157, rfl⟩
abbrev main_c_23 : Ref sig .tc := ⟨.hbm, 158, rfl⟩
abbrev main_call1_cst : Ref sig .tc := ⟨.hbm, 159, rfl⟩
abbrev main_call1_v0 : Ref sig .tc := ⟨.hbm, 160, rfl⟩
abbrev main_call1_v1 : Ref sig .tc := ⟨.hbm, 161, rfl⟩
abbrev main_call1_cst_0 : Ref sig .tc := ⟨.hbm, 162, rfl⟩
abbrev main_call1_v2 : Ref sig .tc := ⟨.hbm, 163, rfl⟩
abbrev main_call1_v3 : Ref sig .tc := ⟨.hbm, 164, rfl⟩
abbrev main_call1_v4 : Ref sig .tc := ⟨.hbm, 165, rfl⟩
abbrev main_call1_v5 : Ref sig .tc := ⟨.hbm, 166, rfl⟩
abbrev main_call1_v6 : Ref sig .tc := ⟨.hbm, 167, rfl⟩
abbrev main_call1_v7 : Ref sig .tc := ⟨.hbm, 168, rfl⟩
abbrev main_call1_cst_1 : Ref sig .tc := ⟨.hbm, 169, rfl⟩
abbrev main_call1_v8 : Ref sig .tc := ⟨.hbm, 170, rfl⟩
abbrev main_call1_cst_2 : Ref sig .tc := ⟨.hbm, 171, rfl⟩
abbrev main_call1_v9 : Ref sig .tc := ⟨.hbm, 172, rfl⟩
abbrev main_call1_v10 : Ref sig .tc := ⟨.hbm, 173, rfl⟩
abbrev main_call1_v11 : Ref sig .tc := ⟨.hbm, 174, rfl⟩
abbrev main_call1_v12 : Ref sig .tc := ⟨.hbm, 175, rfl⟩
abbrev main_call1_cst_3 : Ref sig .tc := ⟨.hbm, 176, rfl⟩
abbrev main_call1_v13 : Ref sig .tc := ⟨.hbm, 177, rfl⟩
abbrev main_call1_cst_4 : Ref sig .tc := ⟨.hbm, 178, rfl⟩
abbrev main_call1_call0_v0 : Ref sig .tc := ⟨.hbm, 179, rfl⟩
abbrev main_call1_call0_v1 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_cst_24 : Ref sig .tc := ⟨.hbm, 186, rfl⟩
abbrev main_v92 : Ref sig .tc := ⟨.hbm, 187, rfl⟩
abbrev main_c_25 : Ref sig .tc := ⟨.hbm, 188, rfl⟩
abbrev main_v93 : Ref sig .tc := ⟨.hbm, 189, rfl⟩
abbrev main_v94 : Ref sig .tc := ⟨.hbm, 190, rfl⟩
abbrev main_c_26 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_c_27 : Ref sig .tc := ⟨.hbm, 197, rfl⟩
abbrev main_v100 : Ref sig .tc := ⟨.hbm, 198, rfl⟩
abbrev main_v101 : Ref sig .tc := ⟨.hbm, 199, rfl⟩
abbrev main_c_28 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_cst_29 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_cst_30 : Ref sig .tc := ⟨.hbm, 215, rfl⟩
abbrev main_v115 : Ref sig .tc := ⟨.hbm, 216, rfl⟩
abbrev main_v116 : Ref sig .tc := ⟨.hbm, 217, rfl⟩
abbrev main_cst_31 : Ref sig .tc := ⟨.hbm, 218, rfl⟩
abbrev main_v117 : Ref sig .tc := ⟨.hbm, 219, rfl⟩
abbrev main_v118 : Ref sig .tc := ⟨.hbm, 220, rfl⟩
abbrev main_c_32 : Ref sig .tc := ⟨.hbm, 221, rfl⟩
abbrev main_call2_cst : Ref sig .tc := ⟨.hbm, 222, rfl⟩
abbrev main_call2_v0 : Ref sig .tc := ⟨.hbm, 223, rfl⟩
abbrev main_call2_v1 : Ref sig .tc := ⟨.hbm, 224, rfl⟩
abbrev main_call2_cst_0 : Ref sig .tc := ⟨.hbm, 225, rfl⟩
abbrev main_call2_v2 : Ref sig .tc := ⟨.hbm, 226, rfl⟩
abbrev main_call2_v3 : Ref sig .tc := ⟨.hbm, 227, rfl⟩
abbrev main_call2_v4 : Ref sig .tc := ⟨.hbm, 228, rfl⟩
abbrev main_call2_v5 : Ref sig .tc := ⟨.hbm, 229, rfl⟩
abbrev main_call2_v6 : Ref sig .tc := ⟨.hbm, 230, rfl⟩
abbrev main_call2_v7 : Ref sig .tc := ⟨.hbm, 231, rfl⟩
abbrev main_call2_cst_1 : Ref sig .tc := ⟨.hbm, 232, rfl⟩
abbrev main_call2_v8 : Ref sig .tc := ⟨.hbm, 233, rfl⟩
abbrev main_call2_cst_2 : Ref sig .tc := ⟨.hbm, 234, rfl⟩
abbrev main_call2_v9 : Ref sig .tc := ⟨.hbm, 235, rfl⟩
abbrev main_call2_v10 : Ref sig .tc := ⟨.hbm, 236, rfl⟩
abbrev main_call2_v11 : Ref sig .tc := ⟨.hbm, 237, rfl⟩
abbrev main_call2_v12 : Ref sig .tc := ⟨.hbm, 238, rfl⟩
abbrev main_call2_cst_3 : Ref sig .tc := ⟨.hbm, 239, rfl⟩
abbrev main_call2_v13 : Ref sig .tc := ⟨.hbm, 240, rfl⟩
abbrev main_call2_cst_4 : Ref sig .tc := ⟨.hbm, 241, rfl⟩
abbrev main_call2_call0_v0 : Ref sig .tc := ⟨.hbm, 242, rfl⟩
abbrev main_call2_call0_v1 : Ref sig .tc := ⟨.hbm, 243, rfl⟩
abbrev main_v119 : Ref sig .tc := ⟨.hbm, 244, rfl⟩
abbrev main_v120 : Ref sig .tc := ⟨.hbm, 245, rfl⟩
abbrev main_v121 : Ref sig .tc := ⟨.hbm, 246, rfl⟩
abbrev main_cst_33 : Ref sig .tc := ⟨.hbm, 247, rfl⟩
abbrev main_v122 : Ref sig .tc := ⟨.hbm, 248, rfl⟩
abbrev main_v123 : Ref sig .tc := ⟨.hbm, 249, rfl⟩
abbrev main_cst_34 : Ref sig .tc := ⟨.hbm, 250, rfl⟩
abbrev main_v124 : Ref sig .tc := ⟨.hbm, 251, rfl⟩
abbrev main_v125 : Ref sig .tc := ⟨.hbm, 252, rfl⟩
abbrev main_c_35 : Ref sig .tc := ⟨.hbm, 253, rfl⟩
abbrev main_call3_cst : Ref sig .tc := ⟨.hbm, 254, rfl⟩
abbrev main_call3_v0 : Ref sig .tc := ⟨.hbm, 255, rfl⟩
abbrev main_call3_v1 : Ref sig .tc := ⟨.hbm, 256, rfl⟩
abbrev main_call3_cst_0 : Ref sig .tc := ⟨.hbm, 257, rfl⟩
abbrev main_call3_v2 : Ref sig .tc := ⟨.hbm, 258, rfl⟩
abbrev main_call3_v3 : Ref sig .tc := ⟨.hbm, 259, rfl⟩
abbrev main_call3_v4 : Ref sig .tc := ⟨.hbm, 260, rfl⟩
abbrev main_call3_v5 : Ref sig .tc := ⟨.hbm, 261, rfl⟩
abbrev main_call3_v6 : Ref sig .tc := ⟨.hbm, 262, rfl⟩
abbrev main_call3_v7 : Ref sig .tc := ⟨.hbm, 263, rfl⟩
abbrev main_call3_cst_1 : Ref sig .tc := ⟨.hbm, 264, rfl⟩
abbrev main_call3_v8 : Ref sig .tc := ⟨.hbm, 265, rfl⟩
abbrev main_call3_cst_2 : Ref sig .tc := ⟨.hbm, 266, rfl⟩
abbrev main_call3_v9 : Ref sig .tc := ⟨.hbm, 267, rfl⟩
abbrev main_call3_v10 : Ref sig .tc := ⟨.hbm, 268, rfl⟩
abbrev main_call3_v11 : Ref sig .tc := ⟨.hbm, 269, rfl⟩
abbrev main_call3_v12 : Ref sig .tc := ⟨.hbm, 270, rfl⟩
abbrev main_call3_cst_3 : Ref sig .tc := ⟨.hbm, 271, rfl⟩
abbrev main_call3_v13 : Ref sig .tc := ⟨.hbm, 272, rfl⟩
abbrev main_call3_cst_4 : Ref sig .tc := ⟨.hbm, 273, rfl⟩
abbrev main_call3_call0_v0 : Ref sig .tc := ⟨.hbm, 274, rfl⟩
abbrev main_call3_call0_v1 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc5_stg0_0 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg3_0 : Ref sig .tc := ⟨.vmem, 27, rfl⟩
abbrev cc5_stg4_0 : Ref sig .tc := ⟨.vmem, 28, rfl⟩
abbrev cc5_stg5_0 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc6_stg6_0 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg4_0 : Ref sig .tc := ⟨.vmem, 41, rfl⟩
abbrev cc7_stg5_0 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc3_sem0_0 : DmaSem sig := 14
abbrev cc3_sem1_0 : DmaSem sig := 15
abbrev cc3_sem2_0 : DmaSem sig := 16
abbrev cc3_sem3_0 : DmaSem sig := 17
abbrev cc3_sem4_0 : DmaSem sig := 18
abbrev cc3_sem5_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc5_sem0_0 : DmaSem sig := 24
abbrev cc5_sem1_0 : DmaSem sig := 25
abbrev cc5_sem2_0 : DmaSem sig := 26
abbrev cc5_sem3_0 : DmaSem sig := 27
abbrev cc5_sem4_0 : DmaSem sig := 28
abbrev cc5_sem5_0 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35
abbrev cc6_sem6_0 : DmaSem sig := 36
abbrev cc7_sem0_0 : DmaSem sig := 37
abbrev cc7_sem1_0 : DmaSem sig := 38
abbrev cc7_sem2_0 : DmaSem sig := 39
abbrev cc7_sem3_0 : DmaSem sig := 40
abbrev cc7_sem4_0 : DmaSem sig := 41
abbrev cc7_sem5_0 : DmaSem sig := 42

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S10000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S20000x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := .none

abbrev stage2_0 : Fin 1 → Memref sig .tc .vmem S10000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S10000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S20000x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := .none

abbrev stage4_0 : Fin 1 → Memref sig .tc .vmem S10000x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S10000x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := .none

abbrev stage5_0 : Fin 1 → Memref sig .tc .vmem S10000x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S10240x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev grid6 : Pipeline.Grid := .none

abbrev stage6_0 : Fin 1 → Memref sig .tc .vmem S10240x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1x10240 .i32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S256x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S64x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev grid7 : Pipeline.Grid := .none

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S64x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S_S1 : S_.ShapeCasts S1
  shapeCasts_S256_S1x256 : S256.ShapeCasts S1x256
  shapeCasts_S128_S1x128 : S128.ShapeCasts S1x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  bcast_S_S1x10240 : S_.BroadcastsInDim S1x10240 (![] : Fin 0 → Fin S1x10240.rank)
  bcast_S_S10000x128 : S_.BroadcastsInDim S10000x128 (![] : Fin 0 → Fin S10000x128.rank)
  bcast_S_S320000 : S_.BroadcastsInDim S320000 (![] : Fin 0 → Fin S320000.rank)
  bcast_S320000_S320000x1_0 : S320000.BroadcastsInDim S320000x1 (![0] : Fin 1 → Fin S320000x1.rank)
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S10000x128_S2000x128_0_0 : ∀ a, (![0, 0] : Fin 2 → Nat) a + S2000x128.size a ≤ S10000x128.size a
  h_S2000x128 : 0 < S2000x128.numel
  shapeCasts_S2000x128_S2000x128 : S2000x128.ShapeCasts S2000x128
  broadcasts_S1x256_S2000x256 : S1x256.Broadcasts S2000x256
  inb_S10000x256_S2000x256_0_0 : ∀ a, (![0, 0] : Fin 2 → Nat) a + S2000x256.size a ≤ S10000x256.size a
  h_S2000x256 : 0 < S2000x256.numel
  inb_S10000x128_S2000x128_2000_0 : ∀ a, (![2000, 0] : Fin 2 → Nat) a + S2000x128.size a ≤ S10000x128.size a
  inb_S10000x256_S2000x256_2000_0 : ∀ a, (![2000, 0] : Fin 2 → Nat) a + S2000x256.size a ≤ S10000x256.size a
  inb_S10000x128_S2000x128_4000_0 : ∀ a, (![4000, 0] : Fin 2 → Nat) a + S2000x128.size a ≤ S10000x128.size a
  inb_S10000x256_S2000x256_4000_0 : ∀ a, (![4000, 0] : Fin 2 → Nat) a + S2000x256.size a ≤ S10000x256.size a
  inb_S10000x128_S2000x128_6000_0 : ∀ a, (![6000, 0] : Fin 2 → Nat) a + S2000x128.size a ≤ S10000x128.size a
  inb_S10000x256_S2000x256_6000_0 : ∀ a, (![6000, 0] : Fin 2 → Nat) a + S2000x256.size a ≤ S10000x256.size a
  inb_S10000x128_S2000x128_8000_0 : ∀ a, (![8000, 0] : Fin 2 → Nat) a + S2000x128.size a ≤ S10000x128.size a
  inb_S10000x256_S2000x256_8000_0 : ∀ a, (![8000, 0] : Fin 2 → Nat) a + S2000x256.size a ≤ S10000x256.size a
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  shapeCasts_S2000x256_S2000x256 : S2000x256.ShapeCasts S2000x256
  slices_S2000x256_o0_0_S2000x128 : S2000x256.Slices ![0, 0] S2000x128
  inb_S20000x128_S2000x128_0_0 : ∀ a, (![0, 0] : Fin 2 → Nat) a + S2000x128.size a ≤ S20000x128.size a
  slices_S2000x256_o0_128_S2000x128 : S2000x256.Slices ![0, 128] S2000x128
  inb_S20000x128_S2000x128_10000_0 : ∀ a, (![10000, 0] : Fin 2 → Nat) a + S2000x128.size a ≤ S20000x128.size a
  inb_S20000x128_S2000x128_2000_0 : ∀ a, (![2000, 0] : Fin 2 → Nat) a + S2000x128.size a ≤ S20000x128.size a
  inb_S20000x128_S2000x128_12000_0 : ∀ a, (![12000, 0] : Fin 2 → Nat) a + S2000x128.size a ≤ S20000x128.size a
  inb_S20000x128_S2000x128_4000_0 : ∀ a, (![4000, 0] : Fin 2 → Nat) a + S2000x128.size a ≤ S20000x128.size a
  inb_S20000x128_S2000x128_14000_0 : ∀ a, (![14000, 0] : Fin 2 → Nat) a + S2000x128.size a ≤ S20000x128.size a
  inb_S20000x128_S2000x128_6000_0 : ∀ a, (![6000, 0] : Fin 2 → Nat) a + S2000x128.size a ≤ S20000x128.size a
  inb_S20000x128_S2000x128_16000_0 : ∀ a, (![16000, 0] : Fin 2 → Nat) a + S2000x128.size a ≤ S20000x128.size a
  inb_S20000x128_S2000x128_8000_0 : ∀ a, (![8000, 0] : Fin 2 → Nat) a + S2000x128.size a ≤ S20000x128.size a
  inb_S20000x128_S2000x128_18000_0 : ∀ a, (![18000, 0] : Fin 2 → Nat) a + S2000x128.size a ≤ S20000x128.size a
  slices_S20000x128_S10000x128_0_0 : S20000x128.Slices ![0, 0] S10000x128
  slices_S20000x128_S10000x128_10000_0 : S20000x128.Slices ![10000, 0] S10000x128
  concatenates_S10000x128_S10000x128_S10000x256_d1 : Shape.Concatenates [S10000x128, S10000x128] S10000x256 1
  bcast_S_S10000x256 : S_.BroadcastsInDim S10000x256 (![] : Fin 0 → Fin S10000x256.rank)
  inb_S10240x256_S2000x256_0_0 : ∀ a, (![0, 0] : Fin 2 → Nat) a + S2000x256.size a ≤ S10240x256.size a
  inb_S10240x256_S2000x256_2000_0 : ∀ a, (![2000, 0] : Fin 2 → Nat) a + S2000x256.size a ≤ S10240x256.size a
  inb_S10240x256_S2000x256_4000_0 : ∀ a, (![4000, 0] : Fin 2 → Nat) a + S2000x256.size a ≤ S10240x256.size a
  inb_S10240x256_S2000x256_6000_0 : ∀ a, (![6000, 0] : Fin 2 → Nat) a + S2000x256.size a ≤ S10240x256.size a
  inb_S10240x256_S2000x256_8000_0 : ∀ a, (![8000, 0] : Fin 2 → Nat) a + S2000x256.size a ≤ S10240x256.size a
  inb_S10240x256_S240x256_10000_0 : ∀ a, (![10000, 0] : Fin 2 → Nat) a + S240x256.size a ≤ S10240x256.size a
  h_S240x256 : 0 < S240x256.numel
  inb_S1x10240_S1x10240_0_0 : ∀ a, (![0, 0] : Fin 2 → Nat) a + S1x10240.size a ≤ S1x10240.size a
  h_S1x10240 : 0 < S1x10240.numel
  shapeCasts_S1x10240_S1x10240 : S1x10240.ShapeCasts S1x10240
  iota_S64x10240_d0_w32 : S64x10240.Iotas .tc 32 [0]
  broadcasts_S1x10240_S64x10240 : S1x10240.Broadcasts S64x10240
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  reduces_S64x10240_S64 : S64x10240.Reduces [1] S64
  shapeCasts_S64_S64x1 : S64.ShapeCasts S64x1
  broadcasts_S64x1_S64x256 : S64x1.Broadcasts S64x256
  broadcasts_S1x256_S64x256 : S1x256.Broadcasts S64x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  reducesTo_S64x128_S128_d0 : S64x128.ReducesTo [0] S128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S64x128_S64x2_0_0 : S64x128.Slices ![0, 0] S64x2
  scatter_S128x128_S1_S128x2_01_n_1_0_wf : ScatterDims.WF S128x128 S1 S128x2 [0, 1] [] [1] 0
  scatter_S1x128_S2_S2_0_0_01_0_wf : ScatterDims.WF S1x128 S2 S2 [0] [0] [0, 1] 0
  scatter_S1x10240_S2_S10000_0_0_01_0_wf : ScatterDims.WF S1x10240 S2 S10000 [0] [0] [0, 1] 0
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S2000x128_S128x256_S2000x256_1_0_0_1_n_n_wf : DotDims.WF S2000x128 S128x256 S2000x256 [1] [0] [0] [1] [] []
  dot_S10000x128_S128x256_S10000x256_1_0_0_1_n_n_wf : DotDims.WF S10000x128 S128x256 S10000x256 [1] [0] [0] [1] [] []
  dot_S2000x256_S256x256_S2000x256_1_0_0_1_n_n_wf : DotDims.WF S2000x256 S256x256 S2000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  dot_S64x10240_S10240x256_S64x256_1_0_0_1_n_n_wf : DotDims.WF S64x10240 S10240x256 S64x256 [1] [0] [0] [1] [] []
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  dot_S64x128_S128x128_S64x128_1_0_0_1_n_n_wf : DotDims.WF S64x128 S128x128 S64x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole
  hstage6_0 : ∀ j, (stage6_0 j).IsWhole
  hstage6_1 : ∀ j, (stage6_1 j).IsWhole
  hstage6_2 : ∀ j, (stage6_2 j).IsWhole
  hstage6_3 : ∀ j, (stage6_3 j).IsWhole
  hstage6_4 : ∀ j, (stage6_4 j).IsWhole
  hstage6_5 : ∀ j, (stage6_5 j).IsWhole
  hstage6_6 : ∀ j, (stage6_6 j).IsWhole
  hstage7_0 : ∀ j, (stage7_0 j).IsWhole
  hstage7_1 : ∀ j, (stage7_1 j).IsWhole
  hstage7_2 : ∀ j, (stage7_2 j).IsWhole
  hstage7_3 : ∀ j, (stage7_3 j).IsWhole
  hstage7_4 : ∀ j, (stage7_4 j).IsWhole
  hstage7_5 : ∀ j, (stage7_5 j).IsWhole

variable [Facts₀]

def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S1x128_S2_S2_0_0_01_0 : ScatterDims S1x128 S2 S2 where
  updateWindowDims := [0]
  insertedWindowDims := [0]
  scatterDimsToOperandDims := [0, 1]
  indexVectorDim := 0
  wf := scatter_S1x128_S2_S2_0_0_01_0_wf
def scatter_S1x10240_S2_S10000_0_0_01_0 : ScatterDims S1x10240 S2 S10000 where
  updateWindowDims := [0]
  insertedWindowDims := [0]
  scatterDimsToOperandDims := [0, 1]
  indexVectorDim := 0
  wf := scatter_S1x10240_S2_S10000_0_0_01_0_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S64x10240_S10240x256_S64x256_1_0_0_1_n_n : DotDims S64x10240 S10240x256 S64x256 where
  lhsContracting := [1]
  rhsContracting := [0]
  lhsNonContracting := [0]
  rhsNonContracting := [1]
  lhsBatch := []
  rhsBatch := []
  wf := dot_S64x10240_S10240x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.whole (Memref.whole main_v46) false false (stage0_0 0) (sem0_0 0) (Memref.isWhole_whole _) (hstage0_0 0)

abbrev win0_1 : Pipeline.Window sig grid0 :=
  Pipeline.Window.whole (Memref.whole main_arg6) false false (stage0_1 0) (sem0_1 0) (Memref.isWhole_whole _) (hstage0_1 0)

abbrev win0_2 : Pipeline.Window sig grid0 :=
  Pipeline.Window.whole (Memref.whole main_v7) false false (stage0_2 0) (sem0_2 0) (Memref.isWhole_whole _) (hstage0_2 0)

abbrev win0_3 : Pipeline.Window sig grid0 :=
  Pipeline.Window.whole (Memref.whole main_v47) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_v47) false false (stage1_0 0) (sem1_0 0) (Memref.isWhole_whole _) (hstage1_0 0)

abbrev win1_1 : Pipeline.Window sig grid1 :=
  Pipeline.Window.whole (Memref.whole main_v54) false false (stage1_1 0) (sem1_1 0) (Memref.isWhole_whole _) (hstage1_1 0)

abbrev win1_2 : Pipeline.Window sig grid1 :=
  Pipeline.Window.whole (Memref.whole main_v55) false false (stage1_2 0) (sem1_2 0) (Memref.isWhole_whole _) (hstage1_2 0)

abbrev win1_3 : Pipeline.Window sig grid1 :=
  Pipeline.Window.whole (Memref.whole main_arg8) false false (stage1_3 0) (sem1_3 0) (Memref.isWhole_whole _) (hstage1_3 0)

abbrev win1_4 : Pipeline.Window sig grid1 :=
  Pipeline.Window.whole (Memref.whole main_v8) false false (stage1_4 0) (sem1_4 0) (Memref.isWhole_whole _) (hstage1_4 0)

abbrev win1_5 : Pipeline.Window sig grid1 :=
  Pipeline.Window.whole (Memref.whole main_v56) true false (stage1_5 0) (sem1_5 0) (Memref.isWhole_whole _) (hstage1_5 0)

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.whole (Memref.whole main_v78) false false (stage2_0 0) (sem2_0 0) (Memref.isWhole_whole _) (hstage2_0 0)

abbrev win2_1 : Pipeline.Window sig grid2 :=
  Pipeline.Window.whole (Memref.whole main_arg10) false false (stage2_1 0) (sem2_1 0) (Memref.isWhole_whole _) (hstage2_1 0)

abbrev win2_2 : Pipeline.Window sig grid2 :=
  Pipeline.Window.whole (Memref.whole main_v9) false false (stage2_2 0) (sem2_2 0) (Memref.isWhole_whole _) (hstage2_2 0)

abbrev win2_3 : Pipeline.Window sig grid2 :=
  Pipeline.Window.whole (Memref.whole main_v79) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.whole (Memref.whole main_v79) false false (stage3_0 0) (sem3_0 0) (Memref.isWhole_whole _) (hstage3_0 0)

abbrev win3_1 : Pipeline.Window sig grid3 :=
  Pipeline.Window.whole (Memref.whole main_v86) false false (stage3_1 0) (sem3_1 0) (Memref.isWhole_whole _) (hstage3_1 0)

abbrev win3_2 : Pipeline.Window sig grid3 :=
  Pipeline.Window.whole (Memref.whole main_v87) false false (stage3_2 0) (sem3_2 0) (Memref.isWhole_whole _) (hstage3_2 0)

abbrev win3_3 : Pipeline.Window sig grid3 :=
  Pipeline.Window.whole (Memref.whole main_arg12) false false (stage3_3 0) (sem3_3 0) (Memref.isWhole_whole _) (hstage3_3 0)

abbrev win3_4 : Pipeline.Window sig grid3 :=
  Pipeline.Window.whole (Memref.whole main_v10) false false (stage3_4 0) (sem3_4 0) (Memref.isWhole_whole _) (hstage3_4 0)

abbrev win3_5 : Pipeline.Window sig grid3 :=
  Pipeline.Window.whole (Memref.whole main_v88) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.whole (Memref.whole main_v110) false false (stage4_0 0) (sem4_0 0) (Memref.isWhole_whole _) (hstage4_0 0)

abbrev win4_1 : Pipeline.Window sig grid4 :=
  Pipeline.Window.whole (Memref.whole main_arg14) false false (stage4_1 0) (sem4_1 0) (Memref.isWhole_whole _) (hstage4_1 0)

abbrev win4_2 : Pipeline.Window sig grid4 :=
  Pipeline.Window.whole (Memref.whole main_v11) false false (stage4_2 0) (sem4_2 0) (Memref.isWhole_whole _) (hstage4_2 0)

abbrev win4_3 : Pipeline.Window sig grid4 :=
  Pipeline.Window.whole (Memref.whole main_v111) true false (stage4_3 0) (sem4_3 0) (Memref.isWhole_whole _) (hstage4_3 0)

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.whole (Memref.whole main_v111) false false (stage5_0 0) (sem5_0 0) (Memref.isWhole_whole _) (hstage5_0 0)

abbrev win5_1 : Pipeline.Window sig grid5 :=
  Pipeline.Window.whole (Memref.whole main_v118) false false (stage5_1 0) (sem5_1 0) (Memref.isWhole_whole _) (hstage5_1 0)

abbrev win5_2 : Pipeline.Window sig grid5 :=
  Pipeline.Window.whole (Memref.whole main_v119) false false (stage5_2 0) (sem5_2 0) (Memref.isWhole_whole _) (hstage5_2 0)

abbrev win5_3 : Pipeline.Window sig grid5 :=
  Pipeline.Window.whole (Memref.whole main_arg16) false false (stage5_3 0) (sem5_3 0) (Memref.isWhole_whole _) (hstage5_3 0)

abbrev win5_4 : Pipeline.Window sig grid5 :=
  Pipeline.Window.whole (Memref.whole main_v12) false false (stage5_4 0) (sem5_4 0) (Memref.isWhole_whole _) (hstage5_4 0)

abbrev win5_5 : Pipeline.Window sig grid5 :=
  Pipeline.Window.whole (Memref.whole main_v120) true false (stage5_5 0) (sem5_5 0) (Memref.isWhole_whole _) (hstage5_5 0)

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.whole (Memref.whole main_v120) false false (stage6_0 0) (sem6_0 0) (Memref.isWhole_whole _) (hstage6_0 0)

abbrev win6_1 : Pipeline.Window sig grid6 :=
  Pipeline.Window.whole (Memref.whole main_v27) false false (stage6_1 0) (sem6_1 0) (Memref.isWhole_whole _) (hstage6_1 0)

abbrev win6_2 : Pipeline.Window sig grid6 :=
  Pipeline.Window.whole (Memref.whole main_arg18) false false (stage6_2 0) (sem6_2 0) (Memref.isWhole_whole _) (hstage6_2 0)

abbrev win6_3 : Pipeline.Window sig grid6 :=
  Pipeline.Window.whole (Memref.whole main_v13) false false (stage6_3 0) (sem6_3 0) (Memref.isWhole_whole _) (hstage6_3 0)

abbrev win6_4 : Pipeline.Window sig grid6 :=
  Pipeline.Window.whole (Memref.whole main_arg20) false false (stage6_4 0) (sem6_4 0) (Memref.isWhole_whole _) (hstage6_4 0)

abbrev win6_5 : Pipeline.Window sig grid6 :=
  Pipeline.Window.whole (Memref.whole main_v14) false false (stage6_5 0) (sem6_5 0) (Memref.isWhole_whole _) (hstage6_5 0)

abbrev win6_6 : Pipeline.Window sig grid6 :=
  Pipeline.Window.whole (Memref.whole main_v121) true false (stage6_6 0) (sem6_6 0) (Memref.isWhole_whole _) (hstage6_6 0)

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.whole (Memref.whole main_v121) false false (stage7_0 0) (sem7_0 0) (Memref.isWhole_whole _) (hstage7_0 0)

abbrev win7_1 : Pipeline.Window sig grid7 :=
  Pipeline.Window.whole (Memref.whole main_v125) false false (stage7_1 0) (sem7_1 0) (Memref.isWhole_whole _) (hstage7_1 0)

abbrev win7_2 : Pipeline.Window sig grid7 :=
  Pipeline.Window.whole (Memref.whole main_v126) false false (stage7_2 0) (sem7_2 0) (Memref.isWhole_whole _) (hstage7_2 0)

abbrev win7_3 : Pipeline.Window sig grid7 :=
  Pipeline.Window.whole (Memref.whole main_v17) false false (stage7_3 0) (sem7_3 0) (Memref.isWhole_whole _) (hstage7_3 0)

abbrev win7_4 : Pipeline.Window sig grid7 :=
  Pipeline.Window.whole (Memref.whole main_v22) false false (stage7_4 0) (sem7_4 0) (Memref.isWhole_whole _) (hstage7_4 0)

abbrev win7_5 : Pipeline.Window sig grid7 :=
  Pipeline.Window.whole (Memref.whole main_v127) true false (stage7_5 0) (sem7_5 0) (Memref.isWhole_whole _) (hstage7_5 0)

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S10000x256 : Shape := ⟨2, ![10000, 256]⟩
abbrev S1x256 : Shape := ⟨2, ![1, 256]⟩
abbrev S320000x256 : Shape := ⟨2, ![320000, 256]⟩
abbrev S64x256 : Shape := ⟨2, ![64, 256]⟩
abbrev S10000x1 : Shape := ⟨2, ![10000, 1]⟩
abbrev S64x1 : Shape := ⟨2, ![64, 1]⟩
abbrev S64x128 : Shape := ⟨2, ![64, 128]⟩
abbrev S1x128 : Shape := ⟨2, ![1, 128]⟩
abbrev S64x2 : Shape := ⟨2, ![64, 2]⟩
abbrev S1x2 : Shape := ⟨2, ![1, 2]⟩

abbrev nBuf : Space → Nat
  | .hbm => 327
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S_, .f32⟩
  | 4 => ⟨S_, .f32⟩
  | 5 => ⟨S_, .f32⟩
  | 6 => ⟨S128x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x128, .f32⟩
  | 21 => ⟨S128, .f32⟩
  | 22 => ⟨S128x2, .f32⟩
  | 23 => ⟨S2, .f32⟩
  | 24 => ⟨S1x320000, .i32⟩
  | 25 => ⟨S320000, .i32⟩
  | 26 => ⟨S1x320000, .i32⟩
  | 27 => ⟨S320000, .i32⟩
  | 28 => ⟨S_, .f32⟩
  | 29 => ⟨S10000x128, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S10000x128, .f32⟩
  | 48 => ⟨S_, .f32⟩
  | 49 => ⟨S_, .f32⟩
  | 50 => ⟨S10000x128, .f32⟩
  | 51 => ⟨S10000x128, .f32⟩
  | 52 => ⟨S10000x128, .f32⟩
  | 53 => ⟨S10000x256, .f32⟩
  | 54 => ⟨S1x256, .f32⟩
  | 55 => ⟨S10000x256, .f32⟩
  | 56 => ⟨S10000x256, .f32⟩
  | 57 => ⟨S_, .f32⟩
  | 58 => ⟨S256, .f32⟩
  | 59 => ⟨S1x256, .f32⟩
  | 60 => ⟨S_, .f32⟩
  | 61 => ⟨S1x256, .f32⟩
  | 62 => ⟨S1x256, .f32⟩
  | 63 => ⟨S_, .i32⟩
  | 64 => ⟨S_, .f32⟩
  | 65 => ⟨S256, .f32⟩
  | 66 => ⟨S1x256, .f32⟩
  | 67 => ⟨S_, .f32⟩
  | 68 => ⟨S1x256, .f32⟩
  | 69 => ⟨S1x256, .f32⟩
  | 70 => ⟨S10000x256, .f32⟩
  | 71 => ⟨S10000x256, .f32⟩
  | 72 => ⟨S10000x256, .f32⟩
  | 73 => ⟨S_, .f32⟩
  | 74 => ⟨S_, .f32⟩
  | 75 => ⟨S_, .f32⟩
  | 76 => ⟨S_, .f32⟩
  | 77 => ⟨S256, .f32⟩
  | 78 => ⟨S1x256, .f32⟩
  | 79 => ⟨S1x256, .f32⟩
  | 80 => ⟨S1x256, .f32⟩
  | 81 => ⟨S_, .f32⟩
  | 82 => ⟨S_, .i1⟩
  | 83 => ⟨S_, .f32⟩
  | 84 => ⟨S_, .f32⟩
  | 85 => ⟨S1x256, .f32⟩
  | 86 => ⟨S1x256, .f32⟩
  | 87 => ⟨S10000x256, .f32⟩
  | 88 => ⟨S10000x256, .f32⟩
  | 89 => ⟨S_, .f32⟩
  | 90 => ⟨S1x256, .f32⟩
  | 91 => ⟨S1x256, .f32⟩
  | 92 => ⟨S1x256, .f32⟩
  | 93 => ⟨S10000x256, .f32⟩
  | 94 => ⟨S10000x256, .f32⟩
  | 95 => ⟨S_, .f32⟩
  | 96 => ⟨S10000x256, .f32⟩
  | 97 => ⟨S10000x256, .f32⟩
  | 98 => ⟨S10000x256, .f32⟩
  | 99 => ⟨S1x256, .f32⟩
  | 100 => ⟨S10000x256, .f32⟩
  | 101 => ⟨S10000x256, .f32⟩
  | 102 => ⟨S_, .f32⟩
  | 103 => ⟨S10000x256, .f32⟩
  | 104 => ⟨S10000x256, .f32⟩
  | 105 => ⟨S_, .f32⟩
  | 106 => ⟨S10000x256, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x256, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S10000x256, .f32⟩
  | 125 => ⟨S_, .f32⟩
  | 126 => ⟨S_, .f32⟩
  | 127 => ⟨S10000x256, .f32⟩
  | _ => ⟨S10000x128, .f32⟩

abbrev hbmTy0_1 (i : Nat) : BufTy := match i % 128 with
  | 0 => ⟨S10000x256, .f32⟩
  | 1 => ⟨S10000x256, .f32⟩
  | 2 => ⟨S10000x256, .f32⟩
  | 3 => ⟨S1x256, .f32⟩
  | 4 => ⟨S10000x256, .f32⟩
  | 5 => ⟨S10000x256, .f32⟩
  | 6 => ⟨S_, .f32⟩
  | 7 => ⟨S256, .f32⟩
  | 8 => ⟨S1x256, .f32⟩
  | 9 => ⟨S_, .f32⟩
  | 10 => ⟨S1x256, .f32⟩
  | 11 => ⟨S1x256, .f32⟩
  | 12 => ⟨S_, .i32⟩
  | 13 => ⟨S_, .f32⟩
  | 14 => ⟨S256, .f32⟩
  | 15 => ⟨S1x256, .f32⟩
  | 16 => ⟨S_, .f32⟩
  | 17 => ⟨S1x256, .f32⟩
  | 18 => ⟨S1x256, .f32⟩
  | 19 => ⟨S10000x256, .f32⟩
  | 20 => ⟨S10000x256, .f32⟩
  | 21 => ⟨S10000x256, .f32⟩
  | 22 => ⟨S_, .f32⟩
  | 23 => ⟨S_, .f32⟩
  | 24 => ⟨S_, .f32⟩
  | 25 => ⟨S_, .f32⟩
  | 26 => ⟨S256, .f32⟩
  | 27 => ⟨S1x256, .f32⟩
  | 28 => ⟨S1x256, .f32⟩
  | 29 => ⟨S1x256, .f32⟩
  | 30 => ⟨S_, .f32⟩
  | 31 => ⟨S_, .i1⟩
  | 32 => ⟨S_, .f32⟩
  | 33 => ⟨S_, .f32⟩
  | 34 => ⟨S1x256, .f32⟩
  | 35 => ⟨S1x256, .f32⟩
  | 36 => ⟨S10000x256, .f32⟩
  | 37 => ⟨S10000x256, .f32⟩
  | 38 => ⟨S_, .f32⟩
  | 39 => ⟨S1x256, .f32⟩
  | 40 => ⟨S1x256, .f32⟩
  | 41 => ⟨S1x256, .f32⟩
  | 42 => ⟨S10000x256, .f32⟩
  | 43 => ⟨S10000x256, .f32⟩
  | 44 => ⟨S_, .f32⟩
  | 45 => ⟨S10000x256, .f32⟩
  | 46 => ⟨S10000x256, .f32⟩
  | 47 => ⟨S10000x256, .f32⟩
  | 48 => ⟨S1x256, .f32⟩
  | 49 => ⟨S10000x256, .f32⟩
  | 50 => ⟨S10000x256, .f32⟩
  | 51 => ⟨S_, .f32⟩
  | 52 => ⟨S10000x256, .f32⟩
  | 53 => ⟨S10000x256, .f32⟩
  | 54 => ⟨S_, .f32⟩
  | 55 => ⟨S10000x256, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x256, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S10000x256, .f32⟩
  | 74 => ⟨S_, .f32⟩
  | 75 => ⟨S_, .f32⟩
  | 76 => ⟨S10000x256, .f32⟩
  | 77 => ⟨S10000x256, .f32⟩
  | 78 => ⟨S10000x256, .f32⟩
  | 79 => ⟨S10000x256, .f32⟩
  | 80 => ⟨S1x256, .f32⟩
  | 81 => ⟨S10000x256, .f32⟩
  | 82 => ⟨S10000x256, .f32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S_, .i32⟩
  | 90 => ⟨S_, .f32⟩
  | 91 => ⟨S256, .f32⟩
  | 92 => ⟨S1x256, .f32⟩
  | 93 => ⟨S_, .f32⟩
  | 94 => ⟨S1x256, .f32⟩
  | 95 => ⟨S1x256, .f32⟩
  | 96 => ⟨S10000x256, .f32⟩
  | 97 => ⟨S10000x256, .f32⟩
  | 98 => ⟨S10000x256, .f32⟩
  | 99 => ⟨S_, .f32⟩
  | 100 => ⟨S_, .f32⟩
  | 101 => ⟨S_, .f32⟩
  | 102 => ⟨S_, .f32⟩
  | 103 => ⟨S256, .f32⟩
  | 104 => ⟨S1x256, .f32⟩
  | 105 => ⟨S1x256, .f32⟩
  | 106 => ⟨S1x256, .f32⟩
  | 107 => ⟨S_, .f32⟩
  | 108 => ⟨S_, .i1⟩
  | 109 => ⟨S_, .f32⟩
  | 110 => ⟨S_, .f32⟩
  | 111 => ⟨S1x256, .f32⟩
  | 112 => ⟨S1x256, .f32⟩
  | 113 => ⟨S10000x256, .f32⟩
  | 114 => ⟨S10000x256, .f32⟩
  | 115 => ⟨S_, .f32⟩
  | 116 => ⟨S1x256, .f32⟩
  | 117 => ⟨S1x256, .f32⟩
  | 118 => ⟨S1x256, .f32⟩
  | 119 => ⟨S10000x256, .f32⟩
  | 120 => ⟨S10000x256, .f32⟩
  | 121 => ⟨S_, .f32⟩
  | 122 => ⟨S10000x256, .f32⟩
  | 123 => ⟨S10000x256, .f32⟩
  | 124 => ⟨S10000x256, .f32⟩
  | 125 => ⟨S1x256, .f32⟩
  | 126 => ⟨S10000x256, .f32⟩
  | 127 => ⟨S10000x256, .f32⟩
  | _ => ⟨S10000x128, .f32⟩

abbrev hbmTy0_2 (i : Nat) : BufTy := match i % 128 with
  | 0 => ⟨S_, .f32⟩
  | 1 => ⟨S10000x256, .f32⟩
  | 2 => ⟨S10000x256, .f32⟩
  | 3 => ⟨S_, .f32⟩
  | 4 => ⟨S64x256, .f32⟩
  | 5 => ⟨S10000x1, .i32⟩
  | 6 => ⟨S64x256, .f32⟩
  | 7 => ⟨S_, .f32⟩
  | 8 => ⟨S10000x1, .f32⟩
  | 9 => ⟨S_, .f32⟩
  | 10 => ⟨S64x1, .f32⟩
  | 11 => ⟨S10000x1, .i32⟩
  | 12 => ⟨S64x1, .f32⟩
  | 13 => ⟨S_, .f32⟩
  | 14 => ⟨S64x1, .f32⟩
  | 15 => ⟨S64x1, .f32⟩
  | 16 => ⟨S64x256, .f32⟩
  | 17 => ⟨S64x256, .f32⟩
  | 18 => ⟨S64x256, .f32⟩
  | 19 => ⟨S1x256, .f32⟩
  | 20 => ⟨S64x256, .f32⟩
  | 21 => ⟨S64x256, .f32⟩
  | 22 => ⟨S64x128, .f32⟩
  | 23 => ⟨S1x128, .f32⟩
  | 24 => ⟨S64x128, .f32⟩
  | 25 => ⟨S64x128, .f32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S_, .i32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S64x128, .f32⟩
  | 40 => ⟨S64x128, .f32⟩
  | 41 => ⟨S64x128, .f32⟩
  | 42 => ⟨S_, .f32⟩
  | 43 => ⟨S_, .f32⟩
  | 44 => ⟨S_, .f32⟩
  | 45 => ⟨S_, .f32⟩
  | 46 => ⟨S128, .f32⟩
  | 47 => ⟨S1x128, .f32⟩
  | 48 => ⟨S1x128, .f32⟩
  | 49 => ⟨S1x128, .f32⟩
  | 50 => ⟨S_, .f32⟩
  | 51 => ⟨S_, .i1⟩
  | 52 => ⟨S_, .f32⟩
  | 53 => ⟨S_, .f32⟩
  | 54 => ⟨S1x128, .f32⟩
  | 55 => ⟨S1x128, .f32⟩
  | 56 => ⟨S64x128, .f32⟩
  | 57 => ⟨S64x128, .f32⟩
  | 58 => ⟨S_, .f32⟩
  | 59 => ⟨S1x128, .f32⟩
  | 60 => ⟨S1x128, .f32⟩
  | 61 => ⟨S1x128, .f32⟩
  | 62 => ⟨S64x128, .f32⟩
  | 63 => ⟨S64x128, .f32⟩
  | 64 => ⟨S_, .f32⟩
  | 65 => ⟨S64x128, .f32⟩
  | 66 => ⟨S64x128, .f32⟩
  | 67 => ⟨S64x2, .f32⟩
  | 68 => ⟨S1x2, .f32⟩
  | 69 => ⟨S64x2, .f32⟩
  | 70 => ⟨S64x2, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_v12 : Ref sig .tc := ⟨.hbm, 80, rfl⟩
abbrev main_call0_cst_3 : Ref sig .tc := ⟨.hbm, 81, rfl⟩
abbrev main_call0_v13 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_7 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_call1_cst : Ref sig .tc := ⟨.hbm, 95, rfl⟩
abbrev main_call1_v0 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_call2_cst : Ref sig .tc := ⟨.hbm, 102, rfl⟩
abbrev main_call2_v0 : Ref sig .tc := ⟨.hbm, 103, rfl⟩
abbrev main_v44 : Ref sig .tc := ⟨.hbm, 104, rfl⟩
abbrev main_cst_8 : Ref sig .tc := ⟨.hbm, 105, rfl⟩
abbrev main_v45 : Ref sig .tc := ⟨.hbm, 106, rfl⟩
abbrev main_c_9 : Ref sig .tc := ⟨.hbm, 107, rfl⟩
abbrev main_v46 : Ref sig .tc := ⟨.hbm, 108, rfl⟩
abbrev main_v47 : Ref sig .tc := ⟨.hbm, 109, rfl⟩
abbrev main_c_10 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_c_11 : Ref sig .tc := ⟨.hbm, 116, rfl⟩
abbrev main_v53 : Ref sig .tc := ⟨.hbm, 117, rfl⟩
abbrev main_v54 : Ref sig .tc := ⟨.hbm, 118, rfl⟩
abbrev main_c_12 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_13 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_14 : Ref sig .tc := ⟨.hbm, 134, rfl⟩
abbrev main_v68 : Ref sig .tc := ⟨.hbm, 135, rfl⟩
abbrev main_v69 : Ref sig .tc := ⟨.hbm, 136, rfl⟩
abbrev main_cst_15 : Ref sig .tc := ⟨.hbm, 137, rfl⟩
abbrev main_v70 : Ref sig .tc := ⟨.hbm, 138, rfl⟩
abbrev main_v71 : Ref sig .tc := ⟨.hbm, 139, rfl⟩
abbrev main_c_16 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_cst_1 : Ref sig .tc := ⟨.hbm, 151, rfl⟩
abbrev main_call3_v8 : Ref sig .tc := ⟨.hbm, 152, rfl⟩
abbrev main_call3_cst_2 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_v12 : Ref sig .tc := ⟨.hbm, 157, rfl⟩
abbrev main_call3_cst_3 : Ref sig .tc := ⟨.hbm, 158, rfl⟩
abbrev main_call3_v13 : Ref sig .tc := ⟨.hbm, 159, rfl⟩
abbrev main_call3_cst_4 : Ref sig .tc := ⟨.hbm, 160, rfl⟩
abbrev main_call3_call0_v0 : Ref sig .tc := ⟨.hbm, 161, rfl⟩
abbrev main_call3_call0_v1 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_cst_17 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_call4_cst : Ref sig .tc := ⟨.hbm, 172, rfl⟩
abbrev main_call4_v0 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_call5_cst : Ref sig .tc := ⟨.hbm, 179, rfl⟩
abbrev main_call5_v0 : Ref sig .tc := ⟨.hbm, 180, rfl⟩
abbrev main_v85 : Ref sig .tc := ⟨.hbm, 181, rfl⟩
abbrev main_cst_18 : Ref sig .tc := ⟨.hbm, 182, rfl⟩
abbrev main_v86 : Ref sig .tc := ⟨.hbm, 183, rfl⟩
abbrev main_c_19 : Ref sig .tc := ⟨.hbm, 184, rfl⟩
abbrev main_v87 : Ref sig .tc := ⟨.hbm, 185, rfl⟩
abbrev main_v88 : Ref sig .tc := ⟨.hbm, 186, rfl⟩
abbrev main_c_20 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_c_21 : Ref sig .tc := ⟨.hbm, 193, rfl⟩
abbrev main_v94 : Ref sig .tc := ⟨.hbm, 194, rfl⟩
abbrev main_v95 : Ref sig .tc := ⟨.hbm, 195, rfl⟩
abbrev main_c_22 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_cst_23 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_cst_24 : Ref sig .tc := ⟨.hbm, 211, rfl⟩
abbrev main_v109 : Ref sig .tc := ⟨.hbm, 212, rfl⟩
abbrev main_v110 : Ref sig .tc := ⟨.hbm, 213, rfl⟩
abbrev main_cst_25 : Ref sig .tc := ⟨.hbm, 214, rfl⟩
abbrev main_v111 : Ref sig .tc := ⟨.hbm, 215, rfl⟩
abbrev main_v112 : Ref sig .tc := ⟨.hbm, 216, rfl⟩
abbrev main_c_26 : Ref sig .tc := ⟨.hbm, 217, rfl⟩
abbrev main_call6_cst : Ref sig .tc := ⟨.hbm, 218, rfl⟩
abbrev main_call6_v0 : Ref sig .tc := ⟨.hbm, 219, rfl⟩
abbrev main_call6_v1 : Ref sig .tc := ⟨.hbm, 220, rfl⟩
abbrev main_call6_cst_0 : Ref sig .tc := ⟨.hbm, 221, rfl⟩
abbrev main_call6_v2 : Ref sig .tc := ⟨.hbm, 222, rfl⟩
abbrev main_call6_v3 : Ref sig .tc := ⟨.hbm, 223, rfl⟩
abbrev main_call6_v4 : Ref sig .tc := ⟨.hbm, 224, rfl⟩
abbrev main_call6_v5 : Ref sig .tc := ⟨.hbm, 225, rfl⟩
abbrev main_call6_v6 : Ref sig .tc := ⟨.hbm, 226, rfl⟩
abbrev main_call6_v7 : Ref sig .tc := ⟨.hbm, 227, rfl⟩
abbrev main_call6_cst_1 : Ref sig .tc := ⟨.hbm, 228, rfl⟩
abbrev main_call6_v8 : Ref sig .tc := ⟨.hbm, 229, rfl⟩
abbrev main_call6_cst_2 : Ref sig .tc := ⟨.hbm, 230, rfl⟩
abbrev main_call6_v9 : Ref sig .tc := ⟨.hbm, 231, rfl⟩
abbrev main_call6_v10 : Ref sig .tc := ⟨.hbm, 232, rfl⟩
abbrev main_call6_v11 : Ref sig .tc := ⟨.hbm, 233, rfl⟩
abbrev main_call6_v12 : Ref sig .tc := ⟨.hbm, 234, rfl⟩
abbrev main_call6_cst_3 : Ref sig .tc := ⟨.hbm, 235, rfl⟩
abbrev main_call6_v13 : Ref sig .tc := ⟨.hbm, 236, rfl⟩
abbrev main_call6_cst_4 : Ref sig .tc := ⟨.hbm, 237, rfl⟩
abbrev main_call6_call0_v0 : Ref sig .tc := ⟨.hbm, 238, rfl⟩
abbrev main_call6_call0_v1 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev main_cst_27 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_call7_cst : Ref sig .tc := ⟨.hbm, 249, rfl⟩
abbrev main_call7_v0 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_call8_cst : Ref sig .tc := ⟨.hbm, 256, rfl⟩
abbrev main_call8_v0 : Ref sig .tc := ⟨.hbm, 257, rfl⟩
abbrev main_v126 : Ref sig .tc := ⟨.hbm, 258, rfl⟩
abbrev main_cst_28 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_cst_29 : Ref sig .tc := ⟨.hbm, 263, rfl⟩
abbrev main_v130 : Ref sig .tc := ⟨.hbm, 264, rfl⟩
abbrev main_cst_30 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_cst_31 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_v138 : Ref sig .tc := ⟨.hbm, 274, rfl⟩
abbrev main_v139 : Ref sig .tc := ⟨.hbm, 275, rfl⟩
abbrev main_v140 : Ref sig .tc := ⟨.hbm, 276, rfl⟩
abbrev main_v141 : Ref sig .tc := ⟨.hbm, 277, rfl⟩
abbrev main_v142 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_cst_32 : Ref sig .tc := ⟨.hbm, 282, rfl⟩
abbrev main_v146 : Ref sig .tc := ⟨.hbm, 283, rfl⟩
abbrev main_v147 : Ref sig .tc := ⟨.hbm, 284, rfl⟩
abbrev main_cst_33 : Ref sig .tc := ⟨.hbm, 285, rfl⟩
abbrev main_v148 : Ref sig .tc := ⟨.hbm, 286, rfl⟩
abbrev main_v149 : Ref sig .tc := ⟨.hbm, 287, rfl⟩
abbrev main_c_34 : Ref sig .tc := ⟨.hbm, 288, rfl⟩
abbrev main_call9_cst : Ref sig .tc := ⟨.hbm, 289, rfl⟩
abbrev main_call9_v0 : Ref sig .tc := ⟨.hbm, 290, rfl⟩
abbrev main_call9_v1 : Ref sig .tc := ⟨.hbm, 291, rfl⟩
abbrev main_call9_cst_0 : Ref sig .tc := ⟨.hbm, 292, rfl⟩
abbrev main_call9_v2 : Ref sig .tc := ⟨.hbm, 293, rfl⟩
abbrev main_call9_v3 : Ref sig .tc := ⟨.hbm, 294, rfl⟩
abbrev main_call9_v4 : Ref sig .tc := ⟨.hbm, 295, rfl⟩
abbrev main_call9_v5 : Ref sig .tc := ⟨.hbm, 296, rfl⟩
abbrev main_call9_v6 : Ref sig .tc := ⟨.hbm, 297, rfl⟩
abbrev main_call9_v7 : Ref sig .tc := ⟨.hbm, 298, rfl⟩
abbrev main_call9_cst_1 : Ref sig .tc := ⟨.hbm, 299, rfl⟩
abbrev main_call9_v8 : Ref sig .tc := ⟨.hbm, 300, rfl⟩
abbrev main_call9_cst_2 : Ref sig .tc := ⟨.hbm, 301, rfl⟩
abbrev main_call9_v9 : Ref sig .tc := ⟨.hbm, 302, rfl⟩
abbrev main_call9_v10 : Ref sig .tc := ⟨.hbm, 303, rfl⟩
abbrev main_call9_v11 : Ref sig .tc := ⟨.hbm, 304, rfl⟩
abbrev main_call9_v12 : Ref sig .tc := ⟨.hbm, 305, rfl⟩
abbrev main_call9_cst_3 : Ref sig .tc := ⟨.hbm, 306, rfl⟩
abbrev main_call9_v13 : Ref sig .tc := ⟨.hbm, 307, rfl⟩
abbrev main_call9_cst_4 : Ref sig .tc := ⟨.hbm, 308, rfl⟩
abbrev main_call9_call0_v0 : Ref sig .tc := ⟨.hbm, 309, rfl⟩
abbrev main_call9_call0_v1 : Ref sig .tc := ⟨.hbm, 310, rfl⟩
abbrev main_v150 : Ref sig .tc := ⟨.hbm, 311, rfl⟩
abbrev main_v151 : Ref sig .tc := ⟨.hbm, 312, rfl⟩
abbrev main_v152 : Ref sig .tc := ⟨.hbm, 313, rfl⟩
abbrev main_cst_35 : Ref sig .tc := ⟨.hbm, 314, rfl⟩
abbrev main_v153 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_v157 : Ref sig .tc := ⟨.hbm, 319, rfl⟩
abbrev main_call10_cst : Ref sig .tc := ⟨.hbm, 320, rfl⟩
abbrev main_call10_v0 : Ref sig .tc := ⟨.hbm, 321, rfl⟩
abbrev main_v158 : Ref sig .tc := ⟨.hbm, 322, rfl⟩
abbrev main_v159 : Ref sig .tc := ⟨.hbm, 323, rfl⟩
abbrev main_v160 : Ref sig .tc := ⟨.hbm, 324, rfl⟩
abbrev main_v161 : Ref sig .tc := ⟨.hbm, 325, rfl⟩
abbrev main_v162 : Ref sig .tc := ⟨.hbm, 326, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000x128 : S_.BroadcastsInDim S10000x128 (![] : Fin 0 → Fin S10000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S1x256 : S_.BroadcastsInDim S1x256 (![] : Fin 0 → Fin S1x256.rank)
  bcast_S_S10000x256 : S_.BroadcastsInDim S10000x256 (![] : Fin 0 → Fin S10000x256.rank)
  bcast_S_S64x256 : S_.BroadcastsInDim S64x256 (![] : Fin 0 → Fin S64x256.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  reducesTo_S64x128_S128_d0 : S64x128.ReducesTo [0] S128
  bcast_S_S1x128 : S_.BroadcastsInDim S1x128 (![] : Fin 0 → Fin S1x128.rank)
  bcast_S_S64x128 : S_.BroadcastsInDim S64x128 (![] : Fin 0 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x256_S10000x256_1_0_0_1_n_n_wf : DotDims.WF S10000x128 S128x256 S10000x256 [1] [0] [0] [1] [] []
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S64x256_S10000x1_S10000x256_1_0_0_1_wf : ScatterDims.WF S64x256 S10000x1 S10000x256 [1] [0] [0] 1
  scatter_S64x1_S10000x1_S10000x1_1_0_0_1_wf : ScatterDims.WF S64x1 S10000x1 S10000x1 [1] [0] [0] 1
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  dot_S64x128_S128x2_S64x2_1_0_0_1_n_n_wf : DotDims.WF S64x128 S128x2 S64x2 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64x1_S10000x1_S10000x1_1_0_0_1 : ScatterDims S64x1 S10000x1 S10000x1 where
  updateWindowDims := [1]
  insertedWindowDims := [0]
  scatterDimsToOperandDims := [0]
  indexVectorDim := 1
  wf := scatter_S64x1_S10000x1_S10000x1_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRun.lean ====
/-
  The idealized kernel program's run with its result named: every weakly fair execution of @main from a memory
  with zero counters terminates, nothing faulting, with the result buffer holding what the last boundary of the
  program's fold of buffer contents gives it (`Gen.W20`: the launch memory pushed through each stretch of host
  operations and each region's write-backs in turn), and every argument array as launched. The run is the
  launch of the eight regions among the host stretches; the final thread state says every unscoped buffer is
  at the last boundary's contents, read here at the result buffer as well as at the arguments.
-/
import proofs.«138131_g70763881169291_cont_9to1c4b_616_12_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel program with the result buffer read at the last boundary's contents. -/
theorem run_value : θ_run defs (onTc (τ := τ) (main (F := F))) ⟨m, fun _ => 0, ρ⟩ (fun r => ∀ c : Dev nD,
      r.2.mem ((c.tc : Thread nD τ).loc main_v128) = W20 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v128 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c),
       (h c _ (mem_uc main_arg23 (by decide))).trans (W20_main_arg23 m ρ c)⟩)

end Cert.KernelIdeal.Gen

end
-- ==== Proof.KChains.lean ====
/-
  The idealized kernel program's host stretches read as pure terms: for each buffer a later region or stretch consumes, the
  composition of the printed operation functions that computes it from the buffers the stretch finds on entry (a table: one definition per buffer).
-/
import proofs.«138131_g70763881169291_cont_9to1c4b_616_12_alg».proof.Proof.Gen.KernelIdeal

noncomputable section

namespace Cert.KernelIdeal.KChain

open Cert.KernelIdeal Cert.KernelIdeal.Gen Idealize.ShloMosaic Idealize.ShloMosaic.TcCoe

variable {F : FTy → Type} [FloatOps F]

/-- The buffer main_v46 from main_arg3, main_arg0, main_arg1 (stretch hostOps0). -/
def k_v46 (x_arg3 : (⟨S_, .f32⟩ : BufTy).Contents (Elt F)) (x_arg0 : (⟨S10000x128, .f32⟩ : BufTy).Contents (Elt F)) (x_arg1 : (⟨S2x320000, .i32⟩ : BufTy).Contents (Elt F)) : (⟨S10000x128, .f32⟩ : BufTy).Contents (Elt F) :=
  ((addf : (⟨S10000x128, .f32⟩ : BufTy).Contents (Elt F) → (⟨S10000x128, .f32⟩ : BufTy).Contents (Elt F) → (⟨S10000x128, .f32⟩ : BufTy).Contents (Elt F)) ((mulf : (⟨S10000x128, .f32⟩ : BufTy).Contents (Elt F) → (⟨S10000x128, .f32⟩ : BufTy).Contents (Elt F) → (⟨S10000x128, .f32⟩ : BufTy).Contents (Elt F)) ((broadcastInDim S10000x128 ![] bcast_S_S10000x128 : (⟨S_, .f32⟩ : BufTy).Contents (Elt F) → (⟨S10000x128, .f32⟩ : BufTy).Contents (Elt F)) ((addf : (⟨S_, .f32⟩ : BufTy).Contents (Elt F) → (⟨S_, .f32⟩ : BufTy).Contents (Elt F) → (⟨S_, .f32⟩ : BufTy).Contents (Elt F)) (constant S_ .f32 0x3F800000#32) x_arg3)) x_arg0) (((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) ((broadcastInDim S10000x128 ![] bcast_S_S10000x128 : (⟨S_, .f32⟩ : BufTy).Contents (Elt F) → (⟨S10000x128, .f32⟩ : BufTy).Contents (Elt F)) (constant S_ .f32 0x00000000#32)) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (shapeCast S320000 (((extractStridedSlice S1x320000 ![1, 0] · slices_S2x320000_S1x320000_1_0) : (⟨S2x320000, .i32⟩ : BufTy).Contents (Elt F) → (⟨S1x320000, .i32⟩ : BufTy).Contents (Elt F)) x_arg1) shapeCasts_S1x320000_S320000) ((broadcastInDim S320000 ![] bcast_S_S320000 : (⟨S_, .i32⟩ : BufTy).Contents (Elt F) → (⟨S320000, .i32⟩ : BufTy).Contents (Elt F)) (constantI S_ 32 0#32))) ((addi : (⟨S320000, .i32⟩ : BufTy).Contents (Elt F) → (⟨S320000, .i32⟩ : BufTy).Contents (Elt F) → (⟨S320000, .i32⟩ : BufTy).Contents (Elt F)) (shapeCast S320000 (((extractStridedSlice S1x320000 ![1, 0] · slices_S2x320000_S1x320000_1_0) : (⟨S2x320000, .i32⟩ : BufTy).Contents (Elt F) → (⟨S1x320000, .i32⟩ : BufTy).Contents (Elt F)) x_arg1) shapeCasts_S1x320000_S320000) ((broadcastInDim S320000 ![] bcast_S_S320000 : (⟨S_, .i32⟩ : BufTy).Contents (Elt F) → (⟨S320000, .i32⟩ : BufTy).Contents (Elt F)) (constantI S_ 32 10000#32))) (shapeCast S320000 (((extractStridedSlice S1x320000 ![1, 0] · slices_S2x320000_S1x320000_1_0) : (⟨S2x320000, .i32⟩ : BufTy).Contents (Elt F) → (⟨S1x320000, .i32⟩ : BufTy).Contents (Elt F)) x_arg1) shapeCasts_S1x320000_S320000))) (((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) x_arg0 ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (shapeCast S320000 (((extractStridedSlice S1x320000 ![0, 0] · slices_S2x320000_S1x320000_0_0) : (⟨S2x320000, .i32⟩ : BufTy).Contents (Elt F) → (⟨S1x320000, .i32⟩ : BufTy).Contents (Elt F)) x_arg1) shapeCasts_S1x320000_S320000) ((broadcastInDim S320000 ![] bcast_S_S320000 : (⟨S_, .i32⟩ : BufTy).Contents (Elt F) → (⟨S320000, .i32⟩ : BufTy).Contents (Elt F)) (constantI S_ 32 0#32))) ((addi : (⟨S320000, .i32⟩ : BufTy).Contents (Elt F) → (⟨S320000, .i32⟩ : BufTy).Contents (Elt F) → (⟨S320000, .i32⟩ : BufTy).Contents (Elt F)) (shapeCast S320000 (((extractStridedSlice S1x320000 ![0, 0] · slices_S2x320000_S1x320000_0_0) : (⟨S2x320000, .i32⟩ : BufTy).Contents (Elt F) → (⟨S1x320000, .i32⟩ : BufTy).Contents (Elt F)) x_arg1) shapeCasts_S1x320000_S320000) ((broadcastInDim S320000 ![] bcast_S_S320000 : (⟨S_, .i32⟩ : BufTy).Contents (Elt F) → (⟨S320000, .i32⟩ : BufTy).Contents (Elt F)) (constantI S_ 32 10000#32))) (shapeCast S320000 (((extractStridedSlice S1x320000 ![0, 0] · slices_S2x320000_S1x320000_0_0) : (⟨S2x320000, .i32⟩ : BufTy).Contents (Elt F) → (⟨S1x320000, .i32⟩ : BufTy).Contents (Elt F)) x_arg1) shapeCasts_S1x320000_S320000))))))

/-- The buffer main_v7 from main_arg7 (stretch hostOps0). -/
def k_v7 (x_arg7 : (⟨S256, .f32⟩ : BufTy).Contents (Elt F)) : (⟨S1x256, .f32⟩ : BufTy).Contents (Elt F) :=
  (shapeCast S1x256 x_arg7 shapeCasts_S256_S1x256)

/-- The buffer main_v8 from main_arg9 (stretch hostOps0). -/
def k_v8 (x_arg9 : (⟨S256, .f32⟩ : BufTy).Contents (Elt F)) : (⟨S1x256, .f32⟩ : BufTy).Contents (Elt F) :=
  (shapeCast S1x256 x_arg9 shapeCasts_S256_S1x256)

/-- The buffer main_v9 from main_arg11 (stretch hostOps0). -/
def k_v9 (x_arg11 : (⟨S256, .f32⟩ : BufTy).Contents (Elt F)) : (⟨S1x256, .f32⟩ : BufTy).Contents (Elt F) :=
  (shapeCast S1x256 x_arg11 shapeCasts_S256_S1x256)

/-- The buffer main_v10 from main_arg13 (stretch hostOps0). -/
def k_v10 (x_arg13 : (⟨S256, .f32⟩ : BufTy).Contents (Elt F)) : (⟨S1x256, .f32⟩ : BufTy).Contents (Elt F) :=
  (shapeCast S1x256 x_arg13 shapeCasts_S256_S1x256)

/-- The buffer main_v11 from main_arg15 (stretch hostOps0). -/
def k_v11 (x_arg15 : (⟨S256, .f32⟩ : BufTy).Contents (Elt F)) : (⟨S1x256, .f32⟩ : BufTy).Contents (Elt F) :=
  (shapeCast S1x256 x_arg15 shapeCasts_S256_S1x256)

/-- The buffer main_v12 from main_arg17 (stretch hostOps0). -/
def k_v12 (x_arg17 : (⟨S256, .f32⟩ : BufTy).Contents (Elt F)) : (⟨S1x256, .f32⟩ : BufTy).Contents (Elt F) :=
  (shapeCast S1x256 x_arg17 shapeCasts_S256_S1x256)

/-- The buffer main_v13 from main_arg19 (stretch hostOps0). -/
def k_v13 (x_arg19 : (⟨S256, .f32⟩ : BufTy).Contents (Elt F)) : (⟨S1x256, .f32⟩ : BufTy).Contents (Elt F) :=
  (shapeCast S1x256 x_arg19 shapeCasts_S256_S1x256)

/-- The buffer main_v14 from main_arg21 (stretch hostOps0). -/
def k_v14 (x_arg21 : (⟨S128, .f32⟩ : BufTy).Contents (Elt F)) : (⟨S1x128, .f32⟩ : BufTy).Contents (Elt F) :=
  (shapeCast S1x128 x_arg21 shapeCasts_S128_S1x128)

/-- The buffer main_v17 from main_arg22 (stretch hostOps0). -/
def k_v17 (x_arg22 : (⟨S128x2, .f32⟩ : BufTy).Contents (Elt F)) : (⟨S128x128, .f32⟩ : BufTy).Contents (Elt F) :=
  (((fun x i u => Host.scatter scatter_S128x128_S1_S128x2_01_n_1_0 (fun _ b => b) x i u) : (⟨S128x128, .f32⟩ : BufTy).Contents (Elt F) → (⟨S1, .i32⟩ : BufTy).Contents (Elt F) → (⟨S128x2, .f32⟩ : BufTy).Contents (Elt F) → (⟨S128x128, .f32⟩ : BufTy).Contents (Elt F)) ((broadcastInDim S128x128 ![] bcast_S_S128x128 : (⟨S_, .f32⟩ : BufTy).Contents (Elt F) → (⟨S128x128, .f32⟩ : BufTy).Contents (Elt F)) (constant S_ .f32 0x00000000#32)) ((broadcastInDim S1 ![] bcast_S_S1 : (⟨S_, .i32⟩ : BufTy).Contents (Elt F) → (⟨S1, .i32⟩ : BufTy).Contents (Elt F)) (constantI S_ 32 0#32)) x_arg22)

/-- The buffer main_v22 from main_arg23 (stretch hostOps0). -/
def k_v22 (x_arg23 : (⟨S2, .f32⟩ : BufTy).Contents (Elt F)) : (⟨S1x128, .f32⟩ : BufTy).Contents (Elt F) :=
  (((fun x i u => Host.scatter scatter_S1x128_S2_S2_0_0_01_0 (fun _ b => b) x i u) : (⟨S1x128, .f32⟩ : BufTy).Contents (Elt F) → (⟨S2, .i32⟩ : BufTy).Contents (Elt F) → (⟨S2, .f32⟩ : BufTy).Contents (Elt F) → (⟨S1x128, .f32⟩ : BufTy).Contents (Elt F)) ((broadcastInDim S1x128 ![] bcast_S_S1x128 : (⟨S_, .f32⟩ : BufTy).Contents (Elt F) → (⟨S1x128, .f32⟩ : BufTy).Contents (Elt F)) (constant S_ .f32 0x00000000#32)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) (constantI S_ 32 0#32)) ((broadcastInDim S1 ![] bcast_S_S1 : (⟨S_, .i32⟩ : BufTy).Contents (Elt F) → (⟨S1, .i32⟩ : BufTy).Contents (Elt F)) (constantI S_ 32 0#32))) x_arg23)

/-- The buffer main_v27 from main_arg2 (stretch hostOps0). -/
def k_v27 (x_arg2 : (⟨S10000, .i32⟩ : BufTy).Contents (Elt F)) : (⟨S1x10240, .i32⟩ : BufTy).Contents (Elt F) :=
  (((fun x i u => Host.scatter scatter_S1x10240_S2_S10000_0_0_01_0 (fun _ b => b) x i u) : (⟨S1x10240, .i32⟩ : BufTy).Contents (Elt F) → (⟨S2, .i32⟩ : BufTy).Contents (Elt F) → (⟨S10000, .i32⟩ : BufTy).Contents (Elt F) → (⟨S1x10240, .i32⟩ : BufTy).Contents (Elt F)) ((broadcastInDim S1x10240 ![] bcast_S_S1x10240 : (⟨S_, .i32⟩ : BufTy).Contents (Elt F) → (⟨S1x10240, .i32⟩ : BufTy).Contents (Elt F)) (constantI S_ 32 64#32)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) (constantI S_ 32 0#32)) ((broadcastInDim S1 ![] bcast_S_S1 : (⟨S_, .i32⟩ : BufTy).Contents (Elt F) → (⟨S1, .i32⟩ : BufTy).Contents (Elt F)) (constantI S_ 32 0#32))) x_arg2)

/-- The buffer main_v1 from main_arg1 (stretch hostOps0). -/
def k_v1 (x_arg1 : (⟨S2x320000, .i32⟩ : BufTy).Contents (Elt F)) : (⟨S320000, .i32⟩ : BufTy).Contents (Elt F) :=
  (shapeCast S320000 (((extractStridedSlice S1x320000 ![0, 0] · slices_S2x320000_S1x320000_0_0) : (⟨S2x320000, .i32⟩ : BufTy).Contents (Elt F) → (⟨S1x320000, .i32⟩ : BufTy).Contents (Elt F)) x_arg1) shapeCasts_S1x320000_S320000)

/-- The buffer main_v3 from main_arg1 (stretch hostOps0). -/
def k_v3 (x_arg1 : (⟨S2x320000, .i32⟩ : BufTy).Contents (Elt F)) : (⟨S320000, .i32⟩ : BufTy).Contents (Elt F) :=
  (shapeCast S320000 (((extractStridedSlice S1x320000 ![1, 0] · slices_S2x320000_S1x320000_1_0) : (⟨S2x320000, .i32⟩ : BufTy).Contents (Elt F) → (⟨S1x320000, .i32⟩ : BufTy).Contents (Elt F)) x_arg1) shapeCasts_S1x320000_S320000)

/-- The buffer main_v50 from main_v46, main_arg6, main_v7 (stretch hostOps1). -/
def k_v50 (x_v46 : (⟨S10000x128, .f32⟩ : BufTy).Contents (Elt F)) (x_arg6 : (⟨S128x256, .f32⟩ : BufTy).Contents (Elt F)) (x_v7 : (⟨S1x256, .f32⟩ : BufTy).Contents (Elt F)) : (⟨S10000x256, .f32⟩ : BufTy).Contents (Elt F) :=
  ((addf : (⟨S10000x256, .f32⟩ : BufTy).Contents (Elt F) → (⟨S10000x256, .f32⟩ : BufTy).Contents (Elt F) → (⟨S10000x256, .f32⟩ : BufTy).Contents (Elt F)) (((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)) x_v46 x_arg6) ((broadcastInDim S10000x256 ![0, 1] bcast_S1x256_S10000x256_0_1 : (⟨S1x256, .f32⟩ : BufTy).Contents (Elt F) → (⟨S10000x256, .f32⟩ : BufTy).Contents (Elt F)) x_v7))

/-- The buffer main_v54 from main_v50 (stretch hostOps1). -/
def k_v54 (x_v50 : (⟨S10000x256, .f32⟩ : BufTy).Contents (Elt F)) : (⟨S1x256, .f32⟩ : BufTy).Contents (Elt F) :=
  ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v50 (constant S_ .f32 0x00000000#32))) ((broadcastInDim S1x256 ![] bcast_S_S1x256 : (⟨S_, .f32⟩ : BufTy).Contents (Elt F) → (⟨S1x256, .f32⟩ : BufTy).Contents (Elt F)) (constant S_ .f32 0x461C4000#32)))

/-- The buffer main_c_14 from nothing (stretch hostOps1). -/
def k_c_14  : (⟨S_, .i32⟩ : BufTy).Contents (Elt F) :=
  (constantI S_ 32 0#32)

/-- The buffer main_v55 from main_c_14, main_v50 (stretch hostOps1_1). -/
def k_v55 (x_c_14 : (⟨S_, .i32⟩ : BufTy).Contents (Elt F)) (x_v50 : (⟨S10000x256, .f32⟩ : BufTy).Contents (Elt F)) : (⟨S1x256, .f32⟩ : BufTy).Contents (Elt F) :=
  (((fun p a b => select (broadcastInDim S1x256 ![] bcast_S_S1x256 p) a b) : (⟨S_, .i1⟩ : BufTy).Contents (Elt F) → (⟨S1x256, .f32⟩ : BufTy).Contents (Elt F) → (⟨S1x256, .f32⟩ : BufTy).Contents (Elt F) → (⟨S1x256, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x461C4000#32) : (⟨S_, .f32⟩ : BufTy).Contents (Elt F)) (((sitofp .f32) : (⟨S_, .i32⟩ : BufTy).Contents (Elt F) → (⟨S_, .f32⟩ : BufTy).Contents (Elt F)) x_c_14)) ((constant S_ .f32 0x00000000#32) : (⟨S_, .f32⟩ : BufTy).Contents (Elt F))) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) (((mulf) : (⟨S10000x256, .f32⟩ : BufTy).Contents (Elt F) → (⟨S10000x256, .f32⟩ : BufTy).Contents (Elt F) → (⟨S10000x256, .f32⟩ : BufTy).Contents (Elt F)) (((subf) : (⟨S10000x256, .f32⟩ : BufTy).Contents (Elt F) → (⟨S10000x256, .f32⟩ : BufTy).Contents (Elt F) → (⟨S10000x256, .f32⟩ : BufTy).Contents (Elt F)) x_v50 (((broadcastInDim S10000x256 ![0, 1] bcast_S1x256_S10000x256_0_1) : (⟨S1x256, .f32⟩ : BufTy).Contents (Elt F) → (⟨S10000x256, .f32⟩ : BufTy).Contents (Elt F)) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v50 ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) ((constant S_ .f32 0x461C4000#32) : (⟨S_, .f32⟩ : BufTy).Contents (Elt F)))))) (((subf) : (⟨S10000x256, .f32⟩ : BufTy).Contents (Elt F) → (⟨S10000x256, .f32⟩ : BufTy).Contents (Elt F) → (⟨S10000x256, .f32⟩ : BufTy).Contents (Elt F)) x_v50 (((broadcastInDim S10000x256 ![0, 1] bcast_S1x256_S10000x256_0_1) : (⟨S1x256, .f32⟩ : BufTy).Contents (Elt F) → (⟨S10000x256, .f32⟩ : BufTy).Contents (Elt F)) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v50 ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) ((constant S_ .f32 0x461C4000#32) : (⟨S_, .f32⟩ : BufTy).Contents (Elt F))))))) ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x461C4000#32) : (⟨S_, .f32⟩ : BufTy).Contents (Elt F)) (((sitofp .f32) : (⟨S_, .i32⟩ : BufTy).Contents (Elt F) → (⟨S_, .f32⟩ : BufTy).Contents (Elt F)) x_c_14)))) (((broadcastInDim S1x256 ![] bcast_S_S1x256) : (⟨S_, .f32⟩ : BufTy).Contents (Elt F) → (⟨S1x256, .f32⟩ : BufTy).Contents (Elt F)) (((id) : (⟨S_, .f32⟩ : BufTy).Contents (Elt F) → (⟨S_, .f32⟩ : BufTy).Contents (Elt F)) ((constant S_ .f32 0x7FC00000#32) : (⟨S_, .f32⟩ : BufTy).Contents (Elt F)))))

/-- The buffer main_v59 from main_v56 (stretch hostOps2). -/
def k_v59 (x_v56 : (⟨S20000x128, .f32⟩ : BufTy).Contents (Elt F)) : (⟨S10000x256, .f32⟩ : BufTy).Contents (Elt F) :=
  (((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)) (((extractStridedSlice S10000x128 ![0, 0] · slices_S20000x128_S10000x128_0_0) : (⟨S20000x128, .f32⟩ : BufTy).Contents (Elt F) → (⟨S10000x128, .f32⟩ : BufTy).Contents (Elt F)) x_v56) (((extractStridedSlice S10000x128 ![10000, 0] · slices_S20000x128_S10000x128_10000_0) : (⟨S20000x128, .f32⟩ : BufTy).Contents (Elt F) → (⟨S10000x128, .f32⟩ : BufTy).Contents (Elt F)) x_v56))

/-- The buffer main_v78 from main_arg4, main_v59, main_v3, main_v1 (stretch hostOps2). -/
def k_v78 (x_arg4 : (⟨S_, .f32⟩ : BufTy).Contents (Elt F)) (x_v59 : (⟨S10000x256, .f32⟩ : BufTy).Contents (Elt F)) (x_v3 : (⟨S320000, .i32⟩ : BufTy).Contents (Elt F)) (x_v1 : (⟨S320000, .i32⟩ : BufTy).Contents (Elt F)) : (⟨S10000x256, .f32⟩ : BufTy).Contents (Elt F) :=
  ((addf : (⟨S10000x256, .f32⟩ : BufTy).Contents (Elt F) → (⟨S10000x256, .f32⟩ : BufTy).Contents (Elt F) → (⟨S10000x256, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) ((broadcastInDim S10000x256 ![] bcast_S_S10000x256 : (⟨S_, .f32⟩ : BufTy).Contents (Elt F) → (⟨S10000x256, .f32⟩ : BufTy).Contents (Elt F)) ((addf : (⟨S_, .f32⟩ : BufTy).Contents (Elt F) → (⟨S_, .f32⟩ : BufTy).Contents (Elt F) → (⟨S_, .f32⟩ : BufTy).Contents (Elt F)) (constant S_ .f32 0x3F800000#32) x_arg4)) x_v59) (((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ((broadcastInDim S10000x256 ![] bcast_S_S10000x256 : (⟨S_, .f32⟩ : BufTy).Contents (Elt F) → (⟨S10000x256, .f32⟩ : BufTy).Contents (Elt F)) (constant S_ .f32 0x00000000#32)) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) x_v3 ((broadcastInDim S320000 ![] bcast_S_S320000 : (⟨S_, .i32⟩ : BufTy).Contents (Elt F) → (⟨S320000, .i32⟩ : BufTy).Contents (Elt F)) (constantI S_ 32 0#32))) ((addi : (⟨S320000, .i32⟩ : BufTy).Contents (Elt F) → (⟨S320000, .i32⟩ : BufTy).Contents (Elt F) → (⟨S320000, .i32⟩ : BufTy).Contents (Elt F)) x_v3 ((broadcastInDim S320000 ![] bcast_S_S320000 : (⟨S_, .i32⟩ : BufTy).Contents (Elt F) → (⟨S320000, .i32⟩ : BufTy).Contents (Elt F)) (constantI S_ 32 10000#32))) x_v3)) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) x_v59 ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) x_v1 ((broadcastInDim S320000 ![] bcast_S_S320000 : (⟨S_, .i32⟩ : BufTy).Contents (Elt F) → (⟨S320000, .i32⟩ : BufTy).Contents (Elt F)) (constantI S_ 32 0#32))) ((addi : (⟨S320000, .i32⟩ : BufTy).Contents (Elt F) → (⟨S320000, .i32⟩ : BufTy).Contents (Elt F) → (⟨S320000, .i32⟩ : BufTy).Contents (Elt F)) x_v1 ((broadcastInDim S320000 ![] bcast_S_S320000 : (⟨S_, .i32⟩ : BufTy).Contents (Elt F) → (⟨S320000, .i32⟩ : BufTy).Contents (Elt F)) (constantI S_ 32 10000#32))) x_v1)))))

/-- The buffer main_v82 from main_v78, main_arg10, main_v9 (stretch hostOps3). -/
def k_v82 (x_v78 : (⟨S10000x256, .f32⟩ : BufTy).Contents (Elt F)) (x_arg10 : (⟨S256x256, .f32⟩ : BufTy).Contents (Elt F)) (x_v9 : (⟨S1x256, .f32⟩ : BufTy).Contents (Elt F)) : (⟨S10000x256, .f32⟩ : BufTy).Contents (Elt F) :=
  ((addf : (⟨S10000x256, .f32⟩ : BufTy).Contents (Elt F) → (⟨S10000x256, .f32⟩ : BufTy).Contents (Elt F) → (⟨S10000x256, .f32⟩ : BufTy).Contents (Elt F)) (((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) x_v78 x_arg10) ((broadcastInDim S10000x256 ![0, 1] bcast_S1x256_S10000x256_0_1 : (⟨S1x256, .f32⟩ : BufTy).Contents (Elt F) → (⟨S10000x256, .f32⟩ : BufTy).Contents (Elt F)) x_v9))

/-- The buffer main_v86 from main_v82 (stretch hostOps3). -/
def k_v86 (x_v82 : (⟨S10000x256, .f32⟩ : BufTy).Contents (Elt F)) : (⟨S1x256, .f32⟩ : BufTy).Contents (Elt F) :=
  ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v82 (constant S_ .f32 0x00000000#32))) ((broadcastInDim S1x256 ![] bcast_S_S1x256 : (⟨S_, .f32⟩ : BufTy).Contents (Elt F) → (⟨S1x256, .f32⟩ : BufTy).Contents (Elt F)) (constant S_ .f32 0x461C4000#32)))

/-- The buffer main_c_23 from nothing (stretch hostOps3). -/
def k_c_23  : (⟨S_, .i32⟩ : BufTy).Contents (Elt F) :=
  (constantI S_ 32 0#32)

/-- The buffer main_v87 from main_c_23, main_v82 (stretch hostOps3_1). -/
def k_v87 (x_c_23 : (⟨S_, .i32⟩ : BufTy).Contents (Elt F)) (x_v82 : (⟨S10000x256, .f32⟩ : BufTy).Contents (Elt F)) : (⟨S1x256, .f32⟩ : BufTy).Contents (Elt F) :=
  (((fun p a b => select (broadcastInDim S1x256 ![] bcast_S_S1x256 p) a b) : (⟨S_, .i1⟩ : BufTy).Contents (Elt F) → (⟨S1x256, .f32⟩ : BufTy).Contents (Elt F) → (⟨S1x256, .f32⟩ : BufTy).Contents (Elt F) → (⟨S1x256, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x461C4000#32) : (⟨S_, .f32⟩ : BufTy).Contents (Elt F)) (((sitofp .f32) : (⟨S_, .i32⟩ : BufTy).Contents (Elt F) → (⟨S_, .f32⟩ : BufTy).Contents (Elt F)) x_c_23)) ((constant S_ .f32 0x00000000#32) : (⟨S_, .f32⟩ : BufTy).Contents (Elt F))) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) (((mulf) : (⟨S10000x256, .f32⟩ : BufTy).Contents (Elt F) → (⟨S10000x256, .f32⟩ : BufTy).Contents (Elt F) → (⟨S10000x256, .f32⟩ : BufTy).Contents (Elt F)) (((subf) : (⟨S10000x256, .f32⟩ : BufTy).Contents (Elt F) → (⟨S10000x256, .f32⟩ : BufTy).Contents (Elt F) → (⟨S10000x256, .f32⟩ : BufTy).Contents (Elt F)) x_v82 (((broadcastInDim S10000x256 ![0, 1] bcast_S1x256_S10000x256_0_1) : (⟨S1x256, .f32⟩ : BufTy).Contents (Elt F) → (⟨S10000x256, .f32⟩ : BufTy).Contents (Elt F)) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v82 ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) ((constant S_ .f32 0x461C4000#32) : (⟨S_, .f32⟩ : BufTy).Contents (Elt F)))))) (((subf) : (⟨S10000x256, .f32⟩ : BufTy).Contents (Elt F) → (⟨S10000x256, .f32⟩ : BufTy).Contents (Elt F) → (⟨S10000x256, .f32⟩ : BufTy).Contents (Elt F)) x_v82 (((broadcastInDim S10000x256 ![0, 1] bcast_S1x256_S10000x256_0_1) : (⟨S1x256, .f32⟩ : BufTy).Contents (Elt F) → (⟨S10000x256, .f32⟩ : BufTy).Contents (Elt F)) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v82 ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) ((constant S_ .f32 0x461C4000#32) : (⟨S_, .f32⟩ : BufTy).Contents (Elt F))))))) ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x461C4000#32) : (⟨S_, .f32⟩ : BufTy).Contents (Elt F)) (((sitofp .f32) : (⟨S_, .i32⟩ : BufTy).Contents (Elt F) → (⟨S_, .f32⟩ : BufTy).Contents (Elt F)) x_c_23)))) (((broadcastInDim S1x256 ![] bcast_S_S1x256) : (⟨S_, .f32⟩ : BufTy).Contents (Elt F) → (⟨S1x256, .f32⟩ : BufTy).Contents (Elt F)) (((id) : (⟨S_, .f32⟩ : BufTy).Contents (Elt F) → (⟨S_, .f32⟩ : BufTy).Contents (Elt F)) ((constant S_ .f32 0x7FC00000#32) : (⟨S_, .f32⟩ : BufTy).Contents (Elt F)))))

/-- The buffer main_v91 from main_v88 (stretch hostOps4). -/
def k_v91 (x_v88 : (⟨S20000x128, .f32⟩ : BufTy).Contents (Elt F)) : (⟨S10000x256, .f32⟩ : BufTy).Contents (Elt F) :=
  (((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)) (((extractStridedSlice S10000x128 ![0, 0] · slices_S20000x128_S10000x128_0_0) : (⟨S20000x128, .f32⟩ : BufTy).Contents (Elt F) → (⟨S10000x128, .f32⟩ : BufTy).Contents (Elt F)) x_v88) (((extractStridedSlice S10000x128 ![10000, 0] · slices_S20000x128_S10000x128_10000_0) : (⟨S20000x128, .f32⟩ : BufTy).Contents (Elt F) → (⟨S10000x128, .f32⟩ : BufTy).Contents (Elt F)) x_v88))

/-- The buffer main_v110 from main_arg5, main_v91, main_v3, main_v1 (stretch hostOps4). -/
def k_v110 (x_arg5 : (⟨S_, .f32⟩ : BufTy).Contents (Elt F)) (x_v91 : (⟨S10000x256, .f32⟩ : BufTy).Contents (Elt F)) (x_v3 : (⟨S320000, .i32⟩ : BufTy).Contents (Elt F)) (x_v1 : (⟨S320000, .i32⟩ : BufTy).Contents (Elt F)) : (⟨S10000x256, .f32⟩ : BufTy).Contents (Elt F) :=
  ((addf : (⟨S10000x256, .f32⟩ : BufTy).Contents (Elt F) → (⟨S10000x256, .f32⟩ : BufTy).Contents (Elt F) → (⟨S10000x256, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) ((broadcastInDim S10000x256 ![] bcast_S_S10000x256 : (⟨S_, .f32⟩ : BufTy).Contents (Elt F) → (⟨S10000x256, .f32⟩ : BufTy).Contents (Elt F)) ((addf : (⟨S_, .f32⟩ : BufTy).Contents (Elt F) → (⟨S_, .f32⟩ : BufTy).Contents (Elt F) → (⟨S_, .f32⟩ : BufTy).Contents (Elt F)) (constant S_ .f32 0x3F800000#32) x_arg5)) x_v91) (((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ((broadcastInDim S10000x256 ![] bcast_S_S10000x256 : (⟨S_, .f32⟩ : BufTy).Contents (Elt F) → (⟨S10000x256, .f32⟩ : BufTy).Contents (Elt F)) (constant S_ .f32 0x00000000#32)) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) x_v3 ((broadcastInDim S320000 ![] bcast_S_S320000 : (⟨S_, .i32⟩ : BufTy).Contents (Elt F) → (⟨S320000, .i32⟩ : BufTy).Contents (Elt F)) (constantI S_ 32 0#32))) ((addi : (⟨S320000, .i32⟩ : BufTy).Contents (Elt F) → (⟨S320000, .i32⟩ : BufTy).Contents (Elt F) → (⟨S320000, .i32⟩ : BufTy).Contents (Elt F)) x_v3 ((broadcastInDim S320000 ![] bcast_S_S320000 : (⟨S_, .i32⟩ : BufTy).Contents (Elt F) → (⟨S320000, .i32⟩ : BufTy).Contents (Elt F)) (constantI S_ 32 10000#32))) x_v3)) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) x_v91 ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) x_v1 ((broadcastInDim S320000 ![] bcast_S_S320000 : (⟨S_, .i32⟩ : BufTy).Contents (Elt F) → (⟨S320000, .i32⟩ : BufTy).Contents (Elt F)) (constantI S_ 32 0#32))) ((addi : (⟨S320000, .i32⟩ : BufTy).Contents (Elt F) → (⟨S320000, .i32⟩ : BufTy).Contents (Elt F) → (⟨S320000, .i32⟩ : BufTy).Contents (Elt F)) x_v1 ((broadcastInDim S320000 ![] bcast_S_S320000 : (⟨S_, .i32⟩ : BufTy).Contents (Elt F) → (⟨S320000, .i32⟩ : BufTy).Contents (Elt F)) (constantI S_ 32 10000#32))) x_v1)))))

/-- The buffer main_v114 from main_v110, main_arg14, main_v11 (stretch hostOps5). -/
def k_v114 (x_v110 : (⟨S10000x256, .f32⟩ : BufTy).Contents (Elt F)) (x_arg14 : (⟨S256x256, .f32⟩ : BufTy).Contents (Elt F)) (x_v11 : (⟨S1x256, .f32⟩ : BufTy).Contents (Elt F)) : (⟨S10000x256, .f32⟩ : BufTy).Contents (Elt F) :=
  ((addf : (⟨S10000x256, .f32⟩ : BufTy).Contents (Elt F) → (⟨S10000x256, .f32⟩ : BufTy).Contents (Elt F) → (⟨S10000x256, .f32⟩ : BufTy).Contents (Elt F)) (((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) x_v110 x_arg14) ((broadcastInDim S10000x256 ![0, 1] bcast_S1x256_S10000x256_0_1 : (⟨S1x256, .f32⟩ : BufTy).Contents (Elt F) → (⟨S10000x256, .f32⟩ : BufTy).Contents (Elt F)) x_v11))

/-- The buffer main_v118 from main_v114 (stretch hostOps5). -/
def k_v118 (x_v114 : (⟨S10000x256, .f32⟩ : BufTy).Contents (Elt F)) : (⟨S1x256, .f32⟩ : BufTy).Contents (Elt F) :=
  ((Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v114 (constant S_ .f32 0x00000000#32))) ((broadcastInDim S1x256 ![] bcast_S_S1x256 : (⟨S_, .f32⟩ : BufTy).Contents (Elt F) → (⟨S1x256, .f32⟩ : BufTy).Contents (Elt F)) (constant S_ .f32 0x461C4000#32)))

/-- The buffer main_c_32 from nothing (stretch hostOps5). -/
def k_c_32  : (⟨S_, .i32⟩ : BufTy).Contents (Elt F) :=
  (constantI S_ 32 0#32)

/-- The buffer main_v119 from main_c_32, main_v114 (stretch hostOps5_1). -/
def k_v119 (x_c_32 : (⟨S_, .i32⟩ : BufTy).Contents (Elt F)) (x_v114 : (⟨S10000x256, .f32⟩ : BufTy).Contents (Elt F)) : (⟨S1x256, .f32⟩ : BufTy).Contents (Elt F) :=
  (((fun p a b => select (broadcastInDim S1x256 ![] bcast_S_S1x256 p) a b) : (⟨S_, .i1⟩ : BufTy).Contents (Elt F) → (⟨S1x256, .f32⟩ : BufTy).Contents (Elt F) → (⟨S1x256, .f32⟩ : BufTy).Contents (Elt F) → (⟨S1x256, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x461C4000#32) : (⟨S_, .f32⟩ : BufTy).Contents (Elt F)) (((sitofp .f32) : (⟨S_, .i32⟩ : BufTy).Contents (Elt F) → (⟨S_, .f32⟩ : BufTy).Contents (Elt F)) x_c_32)) ((constant S_ .f32 0x00000000#32) : (⟨S_, .f32⟩ : BufTy).Contents (Elt F))) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) (((mulf) : (⟨S10000x256, .f32⟩ : BufTy).Contents (Elt F) → (⟨S10000x256, .f32⟩ : BufTy).Contents (Elt F) → (⟨S10000x256, .f32⟩ : BufTy).Contents (Elt F)) (((subf) : (⟨S10000x256, .f32⟩ : BufTy).Contents (Elt F) → (⟨S10000x256, .f32⟩ : BufTy).Contents (Elt F) → (⟨S10000x256, .f32⟩ : BufTy).Contents (Elt F)) x_v114 (((broadcastInDim S10000x256 ![0, 1] bcast_S1x256_S10000x256_0_1) : (⟨S1x256, .f32⟩ : BufTy).Contents (Elt F) → (⟨S10000x256, .f32⟩ : BufTy).Contents (Elt F)) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v114 ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) ((constant S_ .f32 0x461C4000#32) : (⟨S_, .f32⟩ : BufTy).Contents (Elt F)))))) (((subf) : (⟨S10000x256, .f32⟩ : BufTy).Contents (Elt F) → (⟨S10000x256, .f32⟩ : BufTy).Contents (Elt F) → (⟨S10000x256, .f32⟩ : BufTy).Contents (Elt F)) x_v114 (((broadcastInDim S10000x256 ![0, 1] bcast_S1x256_S10000x256_0_1) : (⟨S1x256, .f32⟩ : BufTy).Contents (Elt F) → (⟨S10000x256, .f32⟩ : BufTy).Contents (Elt F)) (((Host.divf) : (⟨S1x256, .f32⟩ : BufTy).Contents (Elt F) → (⟨S1x256, .f32⟩ : BufTy).Contents (Elt F) → (⟨S1x256, .f32⟩ : BufTy).Contents (Elt F)) (((broadcastInDim S1x256 ![1] bcast_S256_S1x256_1) : (⟨S256, .f32⟩ : BufTy).Contents (Elt F) → (⟨S1x256, .f32⟩ : BufTy).Contents (Elt F)) (((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) x_v114 ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) ((constant S_ .f32 0x461C4000#32) : (⟨S_, .f32⟩ : BufTy).Contents (Elt F))))))) ((constant S_ .f32 0x00000000#32) : (⟨S_, .f32⟩ : BufTy).Contents (Elt F)))) (((broadcastInDim S1x256 ![] bcast_S_S1x256) : (⟨S_, .f32⟩ : BufTy).Contents (Elt F) → (⟨S1x256, .f32⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x461C4000#32) : (⟨S_, .f32⟩ : BufTy).Contents (Elt F)) (((sitofp .f32) : (⟨S_, .i32⟩ : BufTy).Contents (Elt F) → (⟨S_, .f32⟩ : BufTy).Contents (Elt F)) x_c_32)))) (((broadcastInDim S1x256 ![] bcast_S_S1x256) : (⟨S_, .f32⟩ : BufTy).Contents (Elt F) → (⟨S1x256, .f32⟩ : BufTy).Contents (Elt F)) (((id) : (⟨S_, .f32⟩ : BufTy).Contents (Elt F) → (⟨S_, .f32⟩ : BufTy).Contents (Elt F)) ((constant S_ .f32 0x7FC00000#32) : (⟨S_, .f32⟩ : BufTy).Contents (Elt F)))))

/-- The buffer main_v125 from main_v121 (stretch hostOps7). -/
def k_v125 (x_v121 : (⟨S64x128, .f32⟩ : BufTy).Contents (Elt F)) : (⟨S1x128, .f32⟩ : BufTy).Contents (Elt F) :=
  ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) x_v121 (constant S_ .f32 0x00000000#32))) ((broadcastInDim S1x128 ![] bcast_S_S1x128 : (⟨S_, .f32⟩ : BufTy).Contents (Elt F) → (⟨S1x128, .f32⟩ : BufTy).Contents (Elt F)) (constant S_ .f32 0x42800000#32)))

/-- The buffer main_c_35 from nothing (stretch hostOps7). -/
def k_c_35  : (⟨S_, .i32⟩ : BufTy).Contents (Elt F) :=
  (constantI S_ 32 0#32)

/-- The buffer main_v126 from main_c_35, main_v121 (stretch hostOps7_1). -/
def k_v126 (x_c_35 : (⟨S_, .i32⟩ : BufTy).Contents (Elt F)) (x_v121 : (⟨S64x128, .f32⟩ : BufTy).Contents (Elt F)) : (⟨S1x128, .f32⟩ : BufTy).Contents (Elt F) :=
  (((fun p a b => select (broadcastInDim S1x128 ![] bcast_S_S1x128 p) a b) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x42800000#32) : (⟨S_, .f32⟩ : BufTy).Contents (Elt F)) (((sitofp .f32) : (⟨S_, .i32⟩ : BufTy).Contents (Elt F) → (⟨S_, .f32⟩ : BufTy).Contents (Elt F)) x_c_35)) ((constant S_ .f32 0x00000000#32) : (⟨S_, .f32⟩ : BufTy).Contents (Elt F))) (((Host.divf) : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) (((mulf) : (⟨S64x128, .f32⟩ : BufTy).Contents (Elt F) → (⟨S64x128, .f32⟩ : BufTy).Contents (Elt F) → (⟨S64x128, .f32⟩ : BufTy).Contents (Elt F)) (((subf) : (⟨S64x128, .f32⟩ : BufTy).Contents (Elt F) → (⟨S64x128, .f32⟩ : BufTy).Contents (Elt F) → (⟨S64x128, .f32⟩ : BufTy).Contents (Elt F)) x_v121 (((broadcastInDim S64x128 ![0, 1] bcast_S1x128_S64x128_0_1) : (⟨S1x128, .f32⟩ : BufTy).Contents (Elt F) → (⟨S64x128, .f32⟩ : BufTy).Contents (Elt F)) (((Host.divf) : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) x_v121 ((constant S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) ((constant S_ .f32 0x42800000#32) : (⟨S_, .f32⟩ : BufTy).Contents (Elt F)))))) (((subf) : (⟨S64x128, .f32⟩ : BufTy).Contents (Elt F) → (⟨S64x128, .f32⟩ : BufTy).Contents (Elt F) → (⟨S64x128, .f32⟩ : BufTy).Contents (Elt F)) x_v121 (((broadcastInDim S64x128 ![0, 1] bcast_S1x128_S64x128_0_1) : (⟨S1x128, .f32⟩ : BufTy).Contents (Elt F) → (⟨S64x128, .f32⟩ : BufTy).Contents (Elt F)) (((Host.divf) : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) x_v121 ((constant S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) ((constant S_ .f32 0x42800000#32) : (⟨S_, .f32⟩ : BufTy).Contents (Elt F))))))) ((constant S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) (((subf) : (⟨S_, .f32⟩ : BufTy).Contents (Elt F) → (⟨S_, .f32⟩ : BufTy).Contents (Elt F) → (⟨S_, .f32⟩ : BufTy).Contents (Elt F)) ((constant S_ .f32 0x42800000#32) : (⟨S_, .f32⟩ : BufTy).Contents (Elt F)) (((sitofp .f32) : (⟨S_, .i32⟩ : BufTy).Contents (Elt F) → (⟨S_, .f32⟩ : BufTy).Contents (Elt F)) x_c_35)))) (((broadcastInDim S1x128 ![] bcast_S_S1x128) : (⟨S_, .f32⟩ : BufTy).Contents (Elt F) → (⟨S1x128, .f32⟩ : BufTy).Contents (Elt F)) (((id) : (⟨S_, .f32⟩ : BufTy).Contents (Elt F) → (⟨S_, .f32⟩ : BufTy).Contents (Elt F)) ((constant S_ .f32 0x7FC00000#32) : (⟨S_, .f32⟩ : BufTy).Contents (Elt F)))))

/-- The buffer main_v128 from main_v127 (stretch hostOps8). -/
def k_v128 (x_v127 : (⟨S64x128, .f32⟩ : BufTy).Contents (Elt F)) : (⟨S64x2, .f32⟩ : BufTy).Contents (Elt F) :=
  (((extractStridedSlice S64x2 ![0, 0] · slices_S64x128_S64x2_0_0) : (⟨S64x128, .f32⟩ : BufTy).Contents (Elt F) → (⟨S64x2, .f32⟩ : BufTy).Contents (Elt F)) x_v127)

end Cert.KernelIdeal.KChain

end
-- ==== Proof.KStages.lean ====
/-
  Each definition of the table of composed terms is what its stretch leaves in its buffer: for ANY contents W on entry, the fold of the stretch's
  operations from W reads, at the buffer, the composed term of W at the buffers the stretch finds (one equation per definition).
-/
import proofs.«138131_g70763881169291_cont_9to1c4b_616_12_alg».proof.Proof.Gen.KernelIdeal.Launch
import proofs.«138131_g70763881169291_cont_9to1c4b_616_12_alg».proof.Proof.KChains
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.ShloMosaic.StableHlo

variable {F : FTy → Type} [FloatOps F]

set_option maxHeartbeats 2000000 in
theorem st_v46 (W : Valuation τ sig (Elt F)) :
    StableHlo.after (hostOps0 (F := F)) W (Proc.devRef .tc main_v46) = k_v46 (W (Proc.devRef .tc main_arg3)) (W (Proc.devRef .tc main_arg0)) (W (Proc.devRef .tc main_arg1)) := by
  unfold k_v46
  after_results_simp
  all_goals rfl

set_option maxHeartbeats 2000000 in
theorem st_v7 (W : Valuation τ sig (Elt F)) :
    StableHlo.after (hostOps0 (F := F)) W (Proc.devRef .tc main_v7) = k_v7 (W (Proc.devRef .tc main_arg7)) := by
  unfold k_v7
  after_results_simp
  all_goals rfl

set_option maxHeartbeats 2000000 in
theorem st_v8 (W : Valuation τ sig (Elt F)) :
    StableHlo.after (hostOps0 (F := F)) W (Proc.devRef .tc main_v8) = k_v8 (W (Proc.devRef .tc main_arg9)) := by
  unfold k_v8
  after_results_simp
  all_goals rfl

set_option maxHeartbeats 2000000 in
theorem st_v9 (W : Valuation τ sig (Elt F)) :
    StableHlo.after (hostOps0 (F := F)) W (Proc.devRef .tc main_v9) = k_v9 (W (Proc.devRef .tc main_arg11)) := by
  unfold k_v9
  after_results_simp
  all_goals rfl

set_option maxHeartbeats 2000000 in
theorem st_v10 (W : Valuation τ sig (Elt F)) :
    StableHlo.after (hostOps0 (F := F)) W (Proc.devRef .tc main_v10) = k_v10 (W (Proc.devRef .tc main_arg13)) := by
  unfold k_v10
  after_results_simp
  all_goals rfl

set_option maxHeartbeats 2000000 in
theorem st_v11 (W : Valuation τ sig (Elt F)) :
    StableHlo.after (hostOps0 (F := F)) W (Proc.devRef .tc main_v11) = k_v11 (W (Proc.devRef .tc main_arg15)) := by
  unfold k_v11
  after_results_simp
  all_goals rfl

set_option maxHeartbeats 2000000 in
theorem st_v12 (W : Valuation τ sig (Elt F)) :
    StableHlo.after (hostOps0 (F := F)) W (Proc.devRef .tc main_v12) = k_v12 (W (Proc.devRef .tc main_arg17)) := by
  unfold k_v12
  after_results_simp
  all_goals rfl

set_option maxHeartbeats 2000000 in
theorem st_v13 (W : Valuation τ sig (Elt F)) :
    StableHlo.after (hostOps0 (F := F)) W (Proc.devRef .tc main_v13) = k_v13 (W (Proc.devRef .tc main_arg19)) := by
  unfold k_v13
  after_results_simp
  all_goals rfl

set_option maxHeartbeats 2000000 in
theorem st_v14 (W : Valuation τ sig (Elt F)) :
    StableHlo.after (hostOps0 (F := F)) W (Proc.devRef .tc main_v14) = k_v14 (W (Proc.devRef .tc main_arg21)) := by
  unfold k_v14
  after_results_simp
  all_goals rfl

set_option maxHeartbeats 2000000 in
theorem st_v17 (W : Valuation τ sig (Elt F)) :
    StableHlo.after (hostOps0 (F := F)) W (Proc.devRef .tc main_v17) = k_v17 (W (Proc.devRef .tc main_arg22)) := by
  unfold k_v17
  after_results_simp
  all_goals rfl

set_option maxHeartbeats 2000000 in
theorem st_v22 (W : Valuation τ sig (Elt F)) :
    StableHlo.after (hostOps0 (F := F)) W (Proc.devRef .tc main_v22) = k_v22 (W (Proc.devRef .tc main_arg23)) := by
  unfold k_v22
  after_results_simp
  all_goals rfl

set_option maxHeartbeats 2000000 in
theorem st_v27 (W : Valuation τ sig (Elt F)) :
    StableHlo.after (hostOps0 (F := F)) W (Proc.devRef .tc main_v27) = k_v27 (W (Proc.devRef .tc main_arg2)) := by
  unfold k_v27
  after_results_simp
  all_goals rfl

set_option maxHeartbeats 2000000 in
theorem st_v1 (W : Valuation τ sig (Elt F)) :
    StableHlo.after (hostOps0 (F := F)) W (Proc.devRef .tc main_v1) = k_v1 (W (Proc.devRef .tc main_arg1)) := by
  unfold k_v1
  after_results_simp
  all_goals rfl

set_option maxHeartbeats 2000000 in
theorem st_v3 (W : Valuation τ sig (Elt F)) :
    StableHlo.after (hostOps0 (F := F)) W (Proc.devRef .tc main_v3) = k_v3 (W (Proc.devRef .tc main_arg1)) := by
  unfold k_v3
  after_results_simp
  all_goals rfl

set_option maxHeartbeats 2000000 in
theorem st_v50 (W : Valuation τ sig (Elt F)) :
    StableHlo.after (hostOps1 (F := F)) W (Proc.devRef .tc main_v50) = k_v50 (W (Proc.devRef .tc main_v46)) (W (Proc.devRef .tc main_arg6)) (W (Proc.devRef .tc main_v7)) := by
  unfold k_v50
  after_results_simp
  all_goals rfl

set_option maxHeartbeats 2000000 in
theorem st_v54 (W : Valuation τ sig (Elt F)) :
    StableHlo.after (hostOps1 (F := F)) W (Proc.devRef .tc main_v54) = k_v54 (StableHlo.after (hostOps1 (F := F)) W (Proc.devRef .tc main_v50)) := by
  unfold k_v54
  after_results_simp
  all_goals rfl

set_option maxHeartbeats 2000000 in
theorem st_c_14 (W : Valuation τ sig (Elt F)) :
    StableHlo.after (hostOps1 (F := F)) W (Proc.devRef .tc main_c_14) = k_c_14 := by
  unfold k_c_14
  after_results_simp
  all_goals rfl

set_option maxHeartbeats 2000000 in
theorem st_v55 (W : Valuation τ sig (Elt F)) :
    StableHlo.after (hostOps1_1 (F := F)) W (Proc.devRef .tc main_v55) = k_v55 (W (Proc.devRef .tc main_c_14)) (W (Proc.devRef .tc main_v50)) := by
  unfold k_v55
  after_results_simp
  all_goals rfl

set_option maxHeartbeats 2000000 in
theorem st_v59 (W : Valuation τ sig (Elt F)) :
    StableHlo.after (hostOps2 (F := F)) W (Proc.devRef .tc main_v59) = k_v59 (W (Proc.devRef .tc main_v56)) := by
  unfold k_v59
  after_results_simp
  all_goals rfl

set_option maxHeartbeats 2000000 in
theorem st_v78 (W : Valuation τ sig (Elt F)) :
    StableHlo.after (hostOps2 (F := F)) W (Proc.devRef .tc main_v78) = k_v78 (W (Proc.devRef .tc main_arg4)) (StableHlo.after (hostOps2 (F := F)) W (Proc.devRef .tc main_v59)) (W (Proc.devRef .tc main_v3)) (W (Proc.devRef .tc main_v1)) := by
  unfold k_v78
  after_results_simp
  all_goals rfl

set_option maxHeartbeats 2000000 in
theorem st_v82 (W : Valuation τ sig (Elt F)) :
    StableHlo.after (hostOps3 (F := F)) W (Proc.devRef .tc main_v82) = k_v82 (W (Proc.devRef .tc main_v78)) (W (Proc.devRef .tc main_arg10)) (W (Proc.devRef .tc main_v9)) := by
  unfold k_v82
  after_results_simp
  all_goals rfl

set_option maxHeartbeats 2000000 in
theorem st_v86 (W : Valuation τ sig (Elt F)) :
    StableHlo.after (hostOps3 (F := F)) W (Proc.devRef .tc main_v86) = k_v86 (StableHlo.after (hostOps3 (F := F)) W (Proc.devRef .tc main_v82)) := by
  unfold k_v86
  after_results_simp
  all_goals rfl

set_option maxHeartbeats 2000000 in
theorem st_c_23 (W : Valuation τ sig (Elt F)) :
    StableHlo.after (hostOps3 (F := F)) W (Proc.devRef .tc main_c_23) = k_c_23 := by
  unfold k_c_23
  after_results_simp
  all_goals rfl

set_option maxHeartbeats 2000000 in
theorem st_v87 (W : Valuation τ sig (Elt F)) :
    StableHlo.after (hostOps3_1 (F := F)) W (Proc.devRef .tc main_v87) = k_v87 (W (Proc.devRef .tc main_c_23)) (W (Proc.devRef .tc main_v82)) := by
  unfold k_v87
  after_results_simp
  all_goals rfl

set_option maxHeartbeats 2000000 in
theorem st_v91 (W : Valuation τ sig (Elt F)) :
    StableHlo.after (hostOps4 (F := F)) W (Proc.devRef .tc main_v91) = k_v91 (W (Proc.devRef .tc main_v88)) := by
  unfold k_v91
  after_results_simp
  all_goals rfl

set_option maxHeartbeats 2000000 in
theorem st_v110 (W : Valuation τ sig (Elt F)) :
    StableHlo.after (hostOps4 (F := F)) W (Proc.devRef .tc main_v110) = k_v110 (W (Proc.devRef .tc main_arg5)) (StableHlo.after (hostOps4 (F := F)) W (Proc.devRef .tc main_v91)) (W (Proc.devRef .tc main_v3)) (W (Proc.devRef .tc main_v1)) := by
  unfold k_v110
  after_results_simp
  all_goals rfl

set_option maxHeartbeats 2000000 in
theorem st_v114 (W : Valuation τ sig (Elt F)) :
    StableHlo.after (hostOps5 (F := F)) W (Proc.devRef .tc main_v114) = k_v114 (W (Proc.devRef .tc main_v110)) (W (Proc.devRef .tc main_arg14)) (W (Proc.devRef .tc main_v11)) := by
  unfold k_v114
  after_results_simp
  all_goals rfl

set_option maxHeartbeats 2000000 in
theorem st_v118 (W : Valuation τ sig (Elt F)) :
    StableHlo.after (hostOps5 (F := F)) W (Proc.devRef .tc main_v118) = k_v118 (StableHlo.after (hostOps5 (F := F)) W (Proc.devRef .tc main_v114)) := by
  unfold k_v118
  after_results_simp
  all_goals rfl

set_option maxHeartbeats 2000000 in
theorem st_c_32 (W : Valuation τ sig (Elt F)) :
    StableHlo.after (hostOps5 (F := F)) W (Proc.devRef .tc main_c_32) = k_c_32 := by
  unfold k_c_32
  after_results_simp
  all_goals rfl

set_option maxHeartbeats 2000000 in
theorem st_v119 (W : Valuation τ sig (Elt F)) :
    StableHlo.after (hostOps5_1 (F := F)) W (Proc.devRef .tc main_v119) = k_v119 (W (Proc.devRef .tc main_c_32)) (W (Proc.devRef .tc main_v114)) := by
  unfold k_v119
  after_results_simp
  all_goals rfl

set_option maxHeartbeats 2000000 in
theorem st_v125 (W : Valuation τ sig (Elt F)) :
    StableHlo.after (hostOps7 (F := F)) W (Proc.devRef .tc main_v125) = k_v125 (W (Proc.devRef .tc main_v121)) := by
  unfold k_v125
  after_results_simp
  all_goals rfl

set_option maxHeartbeats 2000000 in
theorem st_c_35 (W : Valuation τ sig (Elt F)) :
    StableHlo.after (hostOps7 (F := F)) W (Proc.devRef .tc main_c_35) = k_c_35 := by
  unfold k_c_35
  after_results_simp
  all_goals rfl

set_option maxHeartbeats 2000000 in
theorem st_v126 (W : Valuation τ sig (Elt F)) :
    StableHlo.after (hostOps7_1 (F := F)) W (Proc.devRef .tc main_v126) = k_v126 (W (Proc.devRef .tc main_c_35)) (W (Proc.devRef .tc main_v121)) := by
  unfold k_v126
  after_results_simp
  all_goals rfl

set_option maxHeartbeats 2000000 in
theorem st_v128 (W : Valuation τ sig (Elt F)) :
    StableHlo.after (hostOps8 (F := F)) W (Proc.devRef .tc main_v128) = k_v128 (W (Proc.devRef .tc main_v127)) := by
  unfold k_v128
  after_results_simp
  all_goals rfl

end Cert.KernelIdeal.KChain

end
-- ==== Proof.KCarryA.lean ====
/-
  A buffer that no operation of a host stretch writes, and that a region does not stage as one of its arrays' outputs, holds after that
  boundary step what it held before it (one equation per buffer and step: a table). Steps 0 to 9.
-/
import proofs.«138131_g70763881169291_cont_9to1c4b_616_12_alg».proof.Proof.Gen.KernelIdeal.Frame

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

theorem step_arg10_0 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg12_0 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_0 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_0 (c : Dev nD) : W1 m ρ c (Proc.devRef .tc main_arg16) = W0 m ρ c (Proc.devRef .tc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_0 (c : Dev nD) : W1 m ρ c (Proc.devRef .tc main_arg18) = W0 m ρ c (Proc.devRef .tc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_0 (c : Dev nD) : W1 m ρ c (Proc.devRef .tc main_arg20) = W0 m ρ c (Proc.devRef .tc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg4_0 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg5_0 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg6_0 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg8_0 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg10_1 (c : Dev nD) : W2 m ρ c (Proc.devRef .tc main_arg10) = W1 m ρ c (Proc.devRef .tc main_arg10) :=
  W2_of_ne m ρ c main_arg10 (by decide)

theorem step_arg12_1 (c : Dev nD) : W2 m ρ c (Proc.devRef .tc main_arg12) = W1 m ρ c (Proc.devRef .tc main_arg12) :=
  W2_of_ne m ρ c main_arg12 (by decide)

theorem step_arg14_1 (c : Dev nD) : W2 m ρ c (Proc.devRef .tc main_arg14) = W1 m ρ c (Proc.devRef .tc main_arg14) :=
  W2_of_ne m ρ c main_arg14 (by decide)

theorem step_arg16_1 (c : Dev nD) : W2 m ρ c (Proc.devRef .tc main_arg16) = W1 m ρ c (Proc.devRef .tc main_arg16) :=
  W2_of_ne m ρ c main_arg16 (by decide)

theorem step_arg18_1 (c : Dev nD) : W2 m ρ c (Proc.devRef .tc main_arg18) = W1 m ρ c (Proc.devRef .tc main_arg18) :=
  W2_of_ne m ρ c main_arg18 (by decide)

theorem step_arg20_1 (c : Dev nD) : W2 m ρ c (Proc.devRef .tc main_arg20) = W1 m ρ c (Proc.devRef .tc main_arg20) :=
  W2_of_ne m ρ c main_arg20 (by decide)

theorem step_arg4_1 (c : Dev nD) : W2 m ρ c (Proc.devRef .tc main_arg4) = W1 m ρ c (Proc.devRef .tc main_arg4) :=
  W2_of_ne m ρ c main_arg4 (by decide)

theorem step_arg5_1 (c : Dev nD) : W2 m ρ c (Proc.devRef .tc main_arg5) = W1 m ρ c (Proc.devRef .tc main_arg5) :=
  W2_of_ne m ρ c main_arg5 (by decide)

theorem step_arg6_1 (c : Dev nD) : W2 m ρ c (Proc.devRef .tc main_arg6) = W1 m ρ c (Proc.devRef .tc main_arg6) :=
  (W2_arr m ρ c 1).trans (((dat0 (V1 m ρ) c).arrAt_in 1 rfl _).trans (A_eq0 (V1 m ρ) c 1))

theorem step_arg8_1 (c : Dev nD) : W2 m ρ c (Proc.devRef .tc main_arg8) = W1 m ρ c (Proc.devRef .tc main_arg8) :=
  W2_of_ne m ρ c main_arg8 (by decide)

theorem step_v1_1 (c : Dev nD) : W2 m ρ c (Proc.devRef .tc main_v1) = W1 m ρ c (Proc.devRef .tc main_v1) :=
  W2_of_ne m ρ c main_v1 (by decide)

theorem step_v10_1 (c : Dev nD) : W2 m ρ c (Proc.devRef .tc main_v10) = W1 m ρ c (Proc.devRef .tc main_v10) :=
  W2_of_ne m ρ c main_v10 (by decide)

theorem step_v11_1 (c : Dev nD) : W2 m ρ c (Proc.devRef .tc main_v11) = W1 m ρ c (Proc.devRef .tc main_v11) :=
  W2_of_ne m ρ c main_v11 (by decide)

theorem step_v12_1 (c : Dev nD) : W2 m ρ c (Proc.devRef .tc main_v12) = W1 m ρ c (Proc.devRef .tc main_v12) :=
  W2_of_ne m ρ c main_v12 (by decide)

theorem step_v13_1 (c : Dev nD) : W2 m ρ c (Proc.devRef .tc main_v13) = W1 m ρ c (Proc.devRef .tc main_v13) :=
  W2_of_ne m ρ c main_v13 (by decide)

theorem step_v14_1 (c : Dev nD) : W2 m ρ c (Proc.devRef .tc main_v14) = W1 m ρ c (Proc.devRef .tc main_v14) :=
  W2_of_ne m ρ c main_v14 (by decide)

theorem step_v17_1 (c : Dev nD) : W2 m ρ c (Proc.devRef .tc main_v17) = W1 m ρ c (Proc.devRef .tc main_v17) :=
  W2_of_ne m ρ c main_v17 (by decide)

theorem step_v22_1 (c : Dev nD) : W2 m ρ c (Proc.devRef .tc main_v22) = W1 m ρ c (Proc.devRef .tc main_v22) :=
  W2_of_ne m ρ c main_v22 (by decide)

theorem step_v27_1 (c : Dev nD) : W2 m ρ c (Proc.devRef .tc main_v27) = W1 m ρ c (Proc.devRef .tc main_v27) :=
  W2_of_ne m ρ c main_v27 (by decide)

theorem step_v3_1 (c : Dev nD) : W2 m ρ c (Proc.devRef .tc main_v3) = W1 m ρ c (Proc.devRef .tc main_v3) :=
  W2_of_ne m ρ c main_v3 (by decide)

theorem step_v46_1 (c : Dev nD) : W2 m ρ c (Proc.devRef .tc main_v46) = W1 m ρ c (Proc.devRef .tc main_v46) :=
  (W2_arr m ρ c 0).trans (((dat0 (V1 m ρ) c).arrAt_in 0 rfl _).trans (A_eq0 (V1 m ρ) c 0))

theorem step_v7_1 (c : Dev nD) : W2 m ρ c (Proc.devRef .tc main_v7) = W1 m ρ c (Proc.devRef .tc main_v7) :=
  (W2_arr m ρ c 2).trans (((dat0 (V1 m ρ) c).arrAt_in 2 rfl _).trans (A_eq0 (V1 m ρ) c 2))

theorem step_v8_1 (c : Dev nD) : W2 m ρ c (Proc.devRef .tc main_v8) = W1 m ρ c (Proc.devRef .tc main_v8) :=
  W2_of_ne m ρ c main_v8 (by decide)

theorem step_v9_1 (c : Dev nD) : W2 m ρ c (Proc.devRef .tc main_v9) = W1 m ρ c (Proc.devRef .tc main_v9) :=
  W2_of_ne m ρ c main_v9 (by decide)

theorem step_arg10_2 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg12_2 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_2 (c : Dev nD) : W3 m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_2 (c : Dev nD) : W3 m ρ c (Proc.devRef .tc main_arg16) = W2 m ρ c (Proc.devRef .tc main_arg16) :=
  StableHlo.after_of_forall_not_mem (b := Proc.devRef .tc main_arg16) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_2 (c : Dev nD) : W3 m ρ c (Proc.devRef .tc main_arg18) = W2 m ρ c (Proc.devRef .tc main_arg18) :=
  StableHlo.after_of_forall_not_mem (b := Proc.devRef .tc main_arg18) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_2 (c : Dev nD) : W3 m ρ c (Proc.devRef .tc main_arg20) = W2 m ρ c (Proc.devRef .tc main_arg20) :=
  StableHlo.after_of_forall_not_mem (b := Proc.devRef .tc main_arg20) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg4_2 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg5_2 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg8_2 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v1_2 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v10_2 (c : Dev nD) : W3 m ρ c (Proc.devRef .tc main_v10) = W2 m ρ c (Proc.devRef .tc main_v10) :=
  StableHlo.after_of_forall_not_mem (b := Proc.devRef .tc main_v10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v11_2 (c : Dev nD) : W3 m ρ c (Proc.devRef .tc main_v11) = W2 m ρ c (Proc.devRef .tc main_v11) :=
  StableHlo.after_of_forall_not_mem (b := Proc.devRef .tc main_v11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_2 (c : Dev nD) : W3 m ρ c (Proc.devRef .tc main_v12) = W2 m ρ c (Proc.devRef .tc main_v12) :=
  StableHlo.after_of_forall_not_mem (b := Proc.devRef .tc main_v12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_2 (c : Dev nD) : W3 m ρ c (Proc.devRef .tc main_v13) = W2 m ρ c (Proc.devRef .tc main_v13) :=
  StableHlo.after_of_forall_not_mem (b := Proc.devRef .tc main_v13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_2 (c : Dev nD) : W3 m ρ c (Proc.devRef .tc main_v14) = W2 m ρ c (Proc.devRef .tc main_v14) :=
  StableHlo.after_of_forall_not_mem (b := Proc.devRef .tc main_v14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_2 (c : Dev nD) : W3 m ρ c (Proc.devRef .tc main_v17) = W2 m ρ c (Proc.devRef .tc main_v17) :=
  StableHlo.after_of_forall_not_mem (b := Proc.devRef .tc main_v17) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_2 (c : Dev nD) : W3 m ρ c (Proc.devRef .tc main_v22) = W2 m ρ c (Proc.devRef .tc main_v22) :=
  StableHlo.after_of_forall_not_mem (b := Proc.devRef .tc main_v22) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_2 (c : Dev nD) : W3 m ρ c (Proc.devRef .tc main_v27) = W2 m ρ c (Proc.devRef .tc main_v27) :=
  StableHlo.after_of_forall_not_mem (b := Proc.devRef .tc main_v27) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v3_2 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v47_2 (c : Dev nD) : W3 m ρ c (Proc.devRef .tc main_v47) = W2 m ρ c (Proc.devRef .tc main_v47) :=
  StableHlo.after_of_forall_not_mem (b := Proc.devRef .tc main_v47) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v8_2 (c : Dev nD) : W3 m ρ c (Proc.devRef .tc main_v8) = W2 m ρ c (Proc.devRef .tc main_v8) :=
  StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v9_2 (c : Dev nD) : W3 m ρ c (Proc.devRef .tc main_v9) = W2 m ρ c (Proc.devRef .tc main_v9) :=
  StableHlo.after_of_forall_not_mem (b := Proc.devRef .tc main_v9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg10_3 (c : Dev nD) : W4 m ρ c (Proc.devRef .tc main_arg10) = W3 m ρ c (Proc.devRef .tc main_arg10) :=
  StableHlo.after_of_forall_not_mem (b := Proc.devRef .tc main_arg10) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg12_3 (c : Dev nD) : W4 m ρ c (Proc.devRef .tc main_arg12) = W3 m ρ c (Proc.devRef .tc main_arg12) :=
  StableHlo.after_of_forall_not_mem (b := Proc.devRef .tc main_arg12) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_3 (c : Dev nD) : W4 m ρ c (Proc.devRef .tc main_arg14) = W3 m ρ c (Proc.devRef .tc main_arg14) :=
  StableHlo.after_of_forall_not_mem (b := Proc.devRef .tc main_arg14) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_3 (c : Dev nD) : W4 m ρ c (Proc.devRef .tc main_arg16) = W3 m ρ c (Proc.devRef .tc main_arg16) :=
  StableHlo.after_of_forall_not_mem (b := Proc.devRef .tc main_arg16) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_3 (c : Dev nD) : W4 m ρ c (Proc.devRef .tc main_arg18) = W3 m ρ c (Proc.devRef .tc main_arg18) :=
  StableHlo.after_of_forall_not_mem (b := Proc.devRef .tc main_arg18) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_3 (c : Dev nD) : W4 m ρ c (Proc.devRef .tc main_arg20) = W3 m ρ c (Proc.devRef .tc main_arg20) :=
  StableHlo.after_of_forall_not_mem (b := Proc.devRef .tc main_arg20) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg4_3 (c : Dev nD) : W4 m ρ c (Proc.devRef .tc main_arg4) = W3 m ρ c (Proc.devRef .tc main_arg4) :=
  StableHlo.after_of_forall_not_mem (b := Proc.devRef .tc main_arg4) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg5_3 (c : Dev nD) : W4 m ρ c (Proc.devRef .tc main_arg5) = W3 m ρ c (Proc.devRef .tc main_arg5) :=
  StableHlo.after_of_forall_not_mem (b := Proc.devRef .tc main_arg5) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg8_3 (c : Dev nD) : W4 m ρ c (Proc.devRef .tc main_arg8) = W3 m ρ c (Proc.devRef .tc main_arg8) :=
  StableHlo.after_of_forall_not_mem (b := Proc.devRef .tc main_arg8) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v1_3 (c : Dev nD) : W4 m ρ c (Proc.devRef .tc main_v1) = W3 m ρ c (Proc.devRef .tc main_v1) :=
  StableHlo.after_of_forall_not_mem (b := Proc.devRef .tc main_v1) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v10_3 (c : Dev nD) : W4 m ρ c (Proc.devRef .tc main_v10) = W3 m ρ c (Proc.devRef .tc main_v10) :=
  StableHlo.after_of_forall_not_mem (b := Proc.devRef .tc main_v10) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v11_3 (c : Dev nD) : W4 m ρ c (Proc.devRef .tc main_v11) = W3 m ρ c (Proc.devRef .tc main_v11) :=
  StableHlo.after_of_forall_not_mem (b := Proc.devRef .tc main_v11) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_3 (c : Dev nD) : W4 m ρ c (Proc.devRef .tc main_v12) = W3 m ρ c (Proc.devRef .tc main_v12) :=
  StableHlo.after_of_forall_not_mem (b := Proc.devRef .tc main_v12) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_3 (c : Dev nD) : W4 m ρ c (Proc.devRef .tc main_v13) = W3 m ρ c (Proc.devRef .tc main_v13) :=
  StableHlo.after_of_forall_not_mem (b := Proc.devRef .tc main_v13) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_3 (c : Dev nD) : W4 m ρ c (Proc.devRef .tc main_v14) = W3 m ρ c (Proc.devRef .tc main_v14) :=
  StableHlo.after_of_forall_not_mem (b := Proc.devRef .tc main_v14) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_3 (c : Dev nD) : W4 m ρ c (Proc.devRef .tc main_v17) = W3 m ρ c (Proc.devRef .tc main_v17) :=
  StableHlo.after_of_forall_not_mem (b := Proc.devRef .tc main_v17) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_3 (c : Dev nD) : W4 m ρ c (Proc.devRef .tc main_v22) = W3 m ρ c (Proc.devRef .tc main_v22) :=
  StableHlo.after_of_forall_not_mem (b := Proc.devRef .tc main_v22) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_3 (c : Dev nD) : W4 m ρ c (Proc.devRef .tc main_v27) = W3 m ρ c (Proc.devRef .tc main_v27) :=
  StableHlo.after_of_forall_not_mem (b := Proc.devRef .tc main_v27) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v3_3 (c : Dev nD) : W4 m ρ c (Proc.devRef .tc main_v3) = W3 m ρ c (Proc.devRef .tc main_v3) :=
  StableHlo.after_of_forall_not_mem (b := Proc.devRef .tc main_v3) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v47_3 (c : Dev nD) : W4 m ρ c (Proc.devRef .tc main_v47) = W3 m ρ c (Proc.devRef .tc main_v47) :=
  StableHlo.after_of_forall_not_mem (b := Proc.devRef .tc main_v47) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v54_3 (c : Dev nD) : W4 m ρ c (Proc.devRef .tc main_v54) = W3 m ρ c (Proc.devRef .tc main_v54) :=
  StableHlo.after_of_forall_not_mem (b := Proc.devRef .tc main_v54) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v8_3 (c : Dev nD) : W4 m ρ c (Proc.devRef .tc main_v8) = W3 m ρ c (Proc.devRef .tc main_v8) :=
  StableHlo.after_of_forall_not_mem (b := Proc.devRef .tc main_v8) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v9_3 (c : Dev nD) : W4 m ρ c (Proc.devRef .tc main_v9) = W3 m ρ c (Proc.devRef .tc main_v9) :=
  StableHlo.after_of_forall_not_mem (b := Proc.devRef .tc main_v9) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg10_4 (c : Dev nD) : W5 m ρ c (Proc.devRef .tc main_arg10) = W4 m ρ c (Proc.devRef .tc main_arg10) :=
  W5_of_ne m ρ c main_arg10 (by decide)

theorem step_arg12_4 (c : Dev nD) : W5 m ρ c (Proc.devRef .tc main_arg12) = W4 m ρ c (Proc.devRef .tc main_arg12) :=
  W5_of_ne m ρ c main_arg12 (by decide)

theorem step_arg14_4 (c : Dev nD) : W5 m ρ c (Proc.devRef .tc main_arg14) = W4 m ρ c (Proc.devRef .tc main_arg14) :=
  W5_of_ne m ρ c main_arg14 (by decide)

theorem step_arg16_4 (c : Dev nD) : W5 m ρ c (Proc.devRef .tc main_arg16) = W4 m ρ c (Proc.devRef .tc main_arg16) :=
  W5_of_ne m ρ c main_arg16 (by decide)

theorem step_arg18_4 (c : Dev nD) : W5 m ρ c (Proc.devRef .tc main_arg18) = W4 m ρ c (Proc.devRef .tc main_arg18) :=
  W5_of_ne m ρ c main_arg18 (by decide)

theorem step_arg20_4 (c : Dev nD) : W5 m ρ c (Proc.devRef .tc main_arg20) = W4 m ρ c (Proc.devRef .tc main_arg20) :=
  W5_of_ne m ρ c main_arg20 (by decide)

theorem step_arg4_4 (c : Dev nD) : W5 m ρ c (Proc.devRef .tc main_arg4) = W4 m ρ c (Proc.devRef .tc main_arg4) :=
  W5_of_ne m ρ c main_arg4 (by decide)

theorem step_arg5_4 (c : Dev nD) : W5 m ρ c (Proc.devRef .tc main_arg5) = W4 m ρ c (Proc.devRef .tc main_arg5) :=
  W5_of_ne m ρ c main_arg5 (by decide)

theorem step_v1_4 (c : Dev nD) : W5 m ρ c (Proc.devRef .tc main_v1) = W4 m ρ c (Proc.devRef .tc main_v1) :=
  W5_of_ne m ρ c main_v1 (by decide)

theorem step_v10_4 (c : Dev nD) : W5 m ρ c (Proc.devRef .tc main_v10) = W4 m ρ c (Proc.devRef .tc main_v10) :=
  W5_of_ne m ρ c main_v10 (by decide)

theorem step_v11_4 (c : Dev nD) : W5 m ρ c (Proc.devRef .tc main_v11) = W4 m ρ c (Proc.devRef .tc main_v11) :=
  W5_of_ne m ρ c main_v11 (by decide)

theorem step_v12_4 (c : Dev nD) : W5 m ρ c (Proc.devRef .tc main_v12) = W4 m ρ c (Proc.devRef .tc main_v12) :=
  W5_of_ne m ρ c main_v12 (by decide)

theorem step_v13_4 (c : Dev nD) : W5 m ρ c (Proc.devRef .tc main_v13) = W4 m ρ c (Proc.devRef .tc main_v13) :=
  W5_of_ne m ρ c main_v13 (by decide)

theorem step_v14_4 (c : Dev nD) : W5 m ρ c (Proc.devRef .tc main_v14) = W4 m ρ c (Proc.devRef .tc main_v14) :=
  W5_of_ne m ρ c main_v14 (by decide)

theorem step_v17_4 (c : Dev nD) : W5 m ρ c (Proc.devRef .tc main_v17) = W4 m ρ c (Proc.devRef .tc main_v17) :=
  W5_of_ne m ρ c main_v17 (by decide)

theorem step_v22_4 (c : Dev nD) : W5 m ρ c (Proc.devRef .tc main_v22) = W4 m ρ c (Proc.devRef .tc main_v22) :=
  W5_of_ne m ρ c main_v22 (by decide)

theorem step_v27_4 (c : Dev nD) : W5 m ρ c (Proc.devRef .tc main_v27) = W4 m ρ c (Proc.devRef .tc main_v27) :=
  W5_of_ne m ρ c main_v27 (by decide)

theorem step_v3_4 (c : Dev nD) : W5 m ρ c (Proc.devRef .tc main_v3) = W4 m ρ c (Proc.devRef .tc main_v3) :=
  W5_of_ne m ρ c main_v3 (by decide)

theorem step_v9_4 (c : Dev nD) : W5 m ρ c (Proc.devRef .tc main_v9) = W4 m ρ c (Proc.devRef .tc main_v9) :=
  W5_of_ne m ρ c main_v9 (by decide)

theorem step_arg10_5 (c : Dev nD) : W6 m ρ c (Proc.devRef .tc main_arg10) = W5 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg12_5 (c : Dev nD) : W6 m ρ c (Proc.devRef .tc main_arg12) = W5 m ρ c (Proc.devRef .tc main_arg12) :=
  StableHlo.after_of_forall_not_mem (b := Proc.devRef .tc main_arg12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_5 (c : Dev nD) : W6 m ρ c (Proc.devRef .tc main_arg14) = W5 m ρ c (Proc.devRef .tc main_arg14) :=
  StableHlo.after_of_forall_not_mem (b := Proc.devRef .tc main_arg14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_5 (c : Dev nD) : W6 m ρ c (Proc.devRef .tc main_arg16) = W5 m ρ c (Proc.devRef .tc main_arg16) :=
  StableHlo.after_of_forall_not_mem (b := Proc.devRef .tc main_arg16) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_5 (c : Dev nD) : W6 m ρ c (Proc.devRef .tc main_arg18) = W5 m ρ c (Proc.devRef .tc main_arg18) :=
  StableHlo.after_of_forall_not_mem (b := Proc.devRef .tc main_arg18) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_5 (c : Dev nD) : W6 m ρ c (Proc.devRef .tc main_arg20) = W5 m ρ c (Proc.devRef .tc main_arg20) :=
  StableHlo.after_of_forall_not_mem (b := Proc.devRef .tc main_arg20) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg5_5 (c : Dev nD) : W6 m ρ c (Proc.devRef .tc main_arg5) = W5 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v1_5 (c : Dev nD) : W6 m ρ c (Proc.devRef .tc main_v1) = W5 m ρ c (Proc.devRef .tc main_v1) :=
  StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v10_5 (c : Dev nD) : W6 m ρ c (Proc.devRef .tc main_v10) = W5 m ρ c (Proc.devRef .tc main_v10) :=
  StableHlo.after_of_forall_not_mem (b := Proc.devRef .tc main_v10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v11_5 (c : Dev nD) : W6 m ρ c (Proc.devRef .tc main_v11) = W5 m ρ c (Proc.devRef .tc main_v11) :=
  StableHlo.after_of_forall_not_mem (b := Proc.devRef .tc main_v11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_5 (c : Dev nD) : W6 m ρ c (Proc.devRef .tc main_v12) = W5 m ρ c (Proc.devRef .tc main_v12) :=
  StableHlo.after_of_forall_not_mem (b := Proc.devRef .tc main_v12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_5 (c : Dev nD) : W6 m ρ c (Proc.devRef .tc main_v13) = W5 m ρ c (Proc.devRef .tc main_v13) :=
  StableHlo.after_of_forall_not_mem (b := Proc.devRef .tc main_v13) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_5 (c : Dev nD) : W6 m ρ c (Proc.devRef .tc main_v14) = W5 m ρ c (Proc.devRef .tc main_v14) :=
  StableHlo.after_of_forall_not_mem (b := Proc.devRef .tc main_v14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_5 (c : Dev nD) : W6 m ρ c (Proc.devRef .tc main_v17) = W5 m ρ c (Proc.devRef .tc main_v17) :=
  StableHlo.after_of_forall_not_mem (b := Proc.devRef .tc main_v17) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_5 (c : Dev nD) : W6 m ρ c (Proc.devRef .tc main_v22) = W5 m ρ c (Proc.devRef .tc main_v22) :=
  StableHlo.after_of_forall_not_mem (b := Proc.devRef .tc main_v22) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_5 (c : Dev nD) : W6 m ρ c (Proc.devRef .tc main_v27) = W5 m ρ c (Proc.devRef .tc main_v27) :=
  StableHlo.after_of_forall_not_mem (b := Proc.devRef .tc main_v27) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v3_5 (c : Dev nD) : W6 m ρ c (Proc.devRef .tc main_v3) = W5 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v9_5 (c : Dev nD) : W6 m ρ c (Proc.devRef .tc main_v9) = W5 m ρ c (Proc.devRef .tc main_v9) :=
  StableHlo.after_of_forall_not_mem (b := Proc.devRef .tc main_v9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg10_6 (c : Dev nD) : W7 m ρ c (Proc.devRef .tc main_arg10) = W6 m ρ c (Proc.devRef .tc main_arg10) :=
  (W7_arr m ρ c 1).trans (((dat2 (V6 m ρ) c).arrAt_in 1 rfl _).trans (A_eq2 (V6 m ρ) c 1))

theorem step_arg12_6 (c : Dev nD) : W7 m ρ c (Proc.devRef .tc main_arg12) = W6 m ρ c (Proc.devRef .tc main_arg12) :=
  W7_of_ne m ρ c main_arg12 (by decide)

theorem step_arg14_6 (c : Dev nD) : W7 m ρ c (Proc.devRef .tc main_arg14) = W6 m ρ c (Proc.devRef .tc main_arg14) :=
  W7_of_ne m ρ c main_arg14 (by decide)

theorem step_arg16_6 (c : Dev nD) : W7 m ρ c (Proc.devRef .tc main_arg16) = W6 m ρ c (Proc.devRef .tc main_arg16) :=
  W7_of_ne m ρ c main_arg16 (by decide)

theorem step_arg18_6 (c : Dev nD) : W7 m ρ c (Proc.devRef .tc main_arg18) = W6 m ρ c (Proc.devRef .tc main_arg18) :=
  W7_of_ne m ρ c main_arg18 (by decide)

theorem step_arg20_6 (c : Dev nD) : W7 m ρ c (Proc.devRef .tc main_arg20) = W6 m ρ c (Proc.devRef .tc main_arg20) :=
  W7_of_ne m ρ c main_arg20 (by decide)

theorem step_arg5_6 (c : Dev nD) : W7 m ρ c (Proc.devRef .tc main_arg5) = W6 m ρ c (Proc.devRef .tc main_arg5) :=
  W7_of_ne m ρ c main_arg5 (by decide)

theorem step_v1_6 (c : Dev nD) : W7 m ρ c (Proc.devRef .tc main_v1) = W6 m ρ c (Proc.devRef .tc main_v1) :=
  W7_of_ne m ρ c main_v1 (by decide)

theorem step_v10_6 (c : Dev nD) : W7 m ρ c (Proc.devRef .tc main_v10) = W6 m ρ c (Proc.devRef .tc main_v10) :=
  W7_of_ne m ρ c main_v10 (by decide)

theorem step_v11_6 (c : Dev nD) : W7 m ρ c (Proc.devRef .tc main_v11) = W6 m ρ c (Proc.devRef .tc main_v11) :=
  W7_of_ne m ρ c main_v11 (by decide)

theorem step_v12_6 (c : Dev nD) : W7 m ρ c (Proc.devRef .tc main_v12) = W6 m ρ c (Proc.devRef .tc main_v12) :=
  W7_of_ne m ρ c main_v12 (by decide)

theorem step_v13_6 (c : Dev nD) : W7 m ρ c (Proc.devRef .tc main_v13) = W6 m ρ c (Proc.devRef .tc main_v13) :=
  W7_of_ne m ρ c main_v13 (by decide)

theorem step_v14_6 (c : Dev nD) : W7 m ρ c (Proc.devRef .tc main_v14) = W6 m ρ c (Proc.devRef .tc main_v14) :=
  W7_of_ne m ρ c main_v14 (by decide)

theorem step_v17_6 (c : Dev nD) : W7 m ρ c (Proc.devRef .tc main_v17) = W6 m ρ c (Proc.devRef .tc main_v17) :=
  W7_of_ne m ρ c main_v17 (by decide)

theorem step_v22_6 (c : Dev nD) : W7 m ρ c (Proc.devRef .tc main_v22) = W6 m ρ c (Proc.devRef .tc main_v22) :=
  W7_of_ne m ρ c main_v22 (by decide)

theorem step_v27_6 (c : Dev nD) : W7 m ρ c (Proc.devRef .tc main_v27) = W6 m ρ c (Proc.devRef .tc main_v27) :=
  W7_of_ne m ρ c main_v27 (by decide)

theorem step_v3_6 (c : Dev nD) : W7 m ρ c (Proc.devRef .tc main_v3) = W6 m ρ c (Proc.devRef .tc main_v3) :=
  W7_of_ne m ρ c main_v3 (by decide)

theorem step_v78_6 (c : Dev nD) : W7 m ρ c (Proc.devRef .tc main_v78) = W6 m ρ c (Proc.devRef .tc main_v78) :=
  (W7_arr m ρ c 0).trans (((dat2 (V6 m ρ) c).arrAt_in 0 rfl _).trans (A_eq2 (V6 m ρ) c 0))

theorem step_v9_6 (c : Dev nD) : W7 m ρ c (Proc.devRef .tc main_v9) = W6 m ρ c (Proc.devRef .tc main_v9) :=
  (W7_arr m ρ c 2).trans (((dat2 (V6 m ρ) c).arrAt_in 2 rfl _).trans (A_eq2 (V6 m ρ) c 2))

theorem step_arg12_7 (c : Dev nD) : W8 m ρ c (Proc.devRef .tc main_arg12) = W7 m ρ c (Proc.devRef .tc main_arg12) :=
  StableHlo.after_of_forall_not_mem (b := Proc.devRef .tc main_arg12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_7 (c : Dev nD) : W8 m ρ c (Proc.devRef .tc main_arg14) = W7 m ρ c (Proc.devRef .tc main_arg14) :=
  StableHlo.after_of_forall_not_mem (b := Proc.devRef .tc main_arg14) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_7 (c : Dev nD) : W8 m ρ c (Proc.devRef .tc main_arg16) = W7 m ρ c (Proc.devRef .tc main_arg16) :=
  StableHlo.after_of_forall_not_mem (b := Proc.devRef .tc main_arg16) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_7 (c : Dev nD) : W8 m ρ c (Proc.devRef .tc main_arg18) = W7 m ρ c (Proc.devRef .tc main_arg18) :=
  StableHlo.after_of_forall_not_mem (b := Proc.devRef .tc main_arg18) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_7 (c : Dev nD) : W8 m ρ c (Proc.devRef .tc main_arg20) = W7 m ρ c (Proc.devRef .tc main_arg20) :=
  StableHlo.after_of_forall_not_mem (b := Proc.devRef .tc main_arg20) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg5_7 (c : Dev nD) : W8 m ρ c (Proc.devRef .tc main_arg5) = W7 m ρ c (Proc.devRef .tc main_arg5) :=
  StableHlo.after_of_forall_not_mem (b := Proc.devRef .tc main_arg5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v1_7 (c : Dev nD) : W8 m ρ c (Proc.devRef .tc main_v1) = W7 m ρ c (Proc.devRef .tc main_v1) :=
  StableHlo.after_of_forall_not_mem (b := Proc.devRef .tc main_v1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v10_7 (c : Dev nD) : W8 m ρ c (Proc.devRef .tc main_v10) = W7 m ρ c (Proc.devRef .tc main_v10) :=
  StableHlo.after_of_forall_not_mem (b := Proc.devRef .tc main_v10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v11_7 (c : Dev nD) : W8 m ρ c (Proc.devRef .tc main_v11) = W7 m ρ c (Proc.devRef .tc main_v11) :=
  StableHlo.after_of_forall_not_mem (b := Proc.devRef .tc main_v11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_7 (c : Dev nD) : W8 m ρ c (Proc.devRef .tc main_v12) = W7 m ρ c (Proc.devRef .tc main_v12) :=
  StableHlo.after_of_forall_not_mem (b := Proc.devRef .tc main_v12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_7 (c : Dev nD) : W8 m ρ c (Proc.devRef .tc main_v13) = W7 m ρ c (Proc.devRef .tc main_v13) :=
  StableHlo.after_of_forall_not_mem (b := Proc.devRef .tc main_v13) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_7 (c : Dev nD) : W8 m ρ c (Proc.devRef .tc main_v14) = W7 m ρ c (Proc.devRef .tc main_v14) :=
  StableHlo.after_of_forall_not_mem (b := Proc.devRef .tc main_v14) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_7 (c : Dev nD) : W8 m ρ c (Proc.devRef .tc main_v17) = W7 m ρ c (Proc.devRef .tc main_v17) :=
  StableHlo.after_of_forall_not_mem (b := Proc.devRef .tc main_v17) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_7 (c : Dev nD) : W8 m ρ c (Proc.devRef .tc main_v22) = W7 m ρ c (Proc.devRef .tc main_v22) :=
  StableHlo.after_of_forall_not_mem (b := Proc.devRef .tc main_v22) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_7 (c : Dev nD) : W8 m ρ c (Proc.devRef .tc main_v27) = W7 m ρ c (Proc.devRef .tc main_v27) :=
  StableHlo.after_of_forall_not_mem (b := Proc.devRef .tc main_v27) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v3_7 (c : Dev nD) : W8 m ρ c (Proc.devRef .tc main_v3) = W7 m ρ c (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v79_7 (c : Dev nD) : W8 m ρ c (Proc.devRef .tc main_v79) = W7 m ρ c (Proc.devRef .tc main_v79) :=
  StableHlo.after_of_forall_not_mem (b := Proc.devRef .tc main_v79) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg12_8 (c : Dev nD) : W9 m ρ c (Proc.devRef .tc main_arg12) = W8 m ρ c (Proc.devRef .tc main_arg12) :=
  StableHlo.after_of_forall_not_mem (b := Proc.devRef .tc main_arg12) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_8 (c : Dev nD) : W9 m ρ c (Proc.devRef .tc main_arg14) = W8 m ρ c (Proc.devRef .tc main_arg14) :=
  StableHlo.after_of_forall_not_mem (b := Proc.devRef .tc main_arg14) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_8 (c : Dev nD) : W9 m ρ c (Proc.devRef .tc main_arg16) = W8 m ρ c (Proc.devRef .tc main_arg16) :=
  StableHlo.after_of_forall_not_mem (b := Proc.devRef .tc main_arg16) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_8 (c : Dev nD) : W9 m ρ c (Proc.devRef .tc main_arg18) = W8 m ρ c (Proc.devRef .tc main_arg18) :=
  StableHlo.after_of_forall_not_mem (b := Proc.devRef .tc main_arg18) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_8 (c : Dev nD) : W9 m ρ c (Proc.devRef .tc main_arg20) = W8 m ρ c (Proc.devRef .tc main_arg20) :=
  StableHlo.after_of_forall_not_mem (b := Proc.devRef .tc main_arg20) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg5_8 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v1_8 (c : Dev nD) : W9 m ρ c (Proc.devRef .tc main_v1) = W8 m ρ c (Proc.devRef .tc main_v1) :=
  StableHlo.after_of_forall_not_mem (b := Proc.devRef .tc main_v1) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v10_8 (c : Dev nD) : W9 m ρ c (Proc.devRef .tc main_v10) = W8 m ρ c (Proc.devRef .tc main_v10) :=
  StableHlo.after_of_forall_not_mem (b := Proc.devRef .tc main_v10) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v11_8 (c : Dev nD) : W9 m ρ c (Proc.devRef .tc main_v11) = W8 m ρ c (Proc.devRef .tc main_v11) :=
  StableHlo.after_of_forall_not_mem (b := Proc.devRef .tc main_v11) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_8 (c : Dev nD) : W9 m ρ c (Proc.devRef .tc main_v12) = W8 m ρ c (Proc.devRef .tc main_v12) :=
  StableHlo.after_of_forall_not_mem (b := Proc.devRef .tc main_v12) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_8 (c : Dev nD) : W9 m ρ c (Proc.devRef .tc main_v13) = W8 m ρ c (Proc.devRef .tc main_v13) :=
  StableHlo.after_of_forall_not_mem (b := Proc.devRef .tc main_v13) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_8 (c : Dev nD) : W9 m ρ c (Proc.devRef .tc main_v14) = W8 m ρ c (Proc.devRef .tc main_v14) :=
  StableHlo.after_of_forall_not_mem (b := Proc.devRef .tc main_v14) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_8 (c : Dev nD) : W9 m ρ c (Proc.devRef .tc main_v17) = W8 m ρ c (Proc.devRef .tc main_v17) :=
  StableHlo.after_of_forall_not_mem (b := Proc.devRef .tc main_v17) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_8 (c : Dev nD) : W9 m ρ c (Proc.devRef .tc main_v22) = W8 m ρ c (Proc.devRef .tc main_v22) :=
  StableHlo.after_of_forall_not_mem (b := Proc.devRef .tc main_v22) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_8 (c : Dev nD) : W9 m ρ c (Proc.devRef .tc main_v27) = W8 m ρ c (Proc.devRef .tc main_v27) :=
  StableHlo.after_of_forall_not_mem (b := Proc.devRef .tc main_v27) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v3_8 (c : Dev nD) : W9 m ρ c (Proc.devRef .tc main_v3) = W8 m ρ c (Proc.devRef .tc main_v3) :=
  StableHlo.after_of_forall_not_mem (b := Proc.devRef .tc main_v3) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v79_8 (c : Dev nD) : W9 m ρ c (Proc.devRef .tc main_v79) = W8 m ρ c (Proc.devRef .tc main_v79) :=
  StableHlo.after_of_forall_not_mem (b := Proc.devRef .tc main_v79) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v86_8 (c : Dev nD) : W9 m ρ c (Proc.devRef .tc main_v86) = W8 m ρ c (Proc.devRef .tc main_v86) :=
  StableHlo.after_of_forall_not_mem (b := Proc.devRef .tc main_v86) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_9 (c : Dev nD) : W10 m ρ c (Proc.devRef .tc main_arg14) = W9 m ρ c (Proc.devRef .tc main_arg14) :=
  W10_of_ne m ρ c main_arg14 (by decide)

theorem step_arg16_9 (c : Dev nD) : W10 m ρ c (Proc.devRef .tc main_arg16) = W9 m ρ c (Proc.devRef .tc main_arg16) :=
  W10_of_ne m ρ c main_arg16 (by decide)

theorem step_arg18_9 (c : Dev nD) : W10 m ρ c (Proc.devRef .tc main_arg18) = W9 m ρ c (Proc.devRef .tc main_arg18) :=
  W10_of_ne m ρ c main_arg18 (by decide)

theorem step_arg20_9 (c : Dev nD) : W10 m ρ c (Proc.devRef .tc main_arg20) = W9 m ρ c (Proc.devRef .tc main_arg20) :=
  W10_of_ne m ρ c main_arg20 (by decide)

theorem step_arg5_9 (c : Dev nD) : W10 m ρ c (Proc.devRef .tc main_arg5) = W9 m ρ c (Proc.devRef .tc main_arg5) :=
  W10_of_ne m ρ c main_arg5 (by decide)

theorem step_v1_9 (c : Dev nD) : W10 m ρ c (Proc.devRef .tc main_v1) = W9 m ρ c (Proc.devRef .tc main_v1) :=
  W10_of_ne m ρ c main_v1 (by decide)

theorem step_v11_9 (c : Dev nD) : W10 m ρ c (Proc.devRef .tc main_v11) = W9 m ρ c (Proc.devRef .tc main_v11) :=
  W10_of_ne m ρ c main_v11 (by decide)

theorem step_v12_9 (c : Dev nD) : W10 m ρ c (Proc.devRef .tc main_v12) = W9 m ρ c (Proc.devRef .tc main_v12) :=
  W10_of_ne m ρ c main_v12 (by decide)

theorem step_v13_9 (c : Dev nD) : W10 m ρ c (Proc.devRef .tc main_v13) = W9 m ρ c (Proc.devRef .tc main_v13) :=
  W10_of_ne m ρ c main_v13 (by decide)

theorem step_v14_9 (c : Dev nD) : W10 m ρ c (Proc.devRef .tc main_v14) = W9 m ρ c (Proc.devRef .tc main_v14) :=
  W10_of_ne m ρ c main_v14 (by decide)

theorem step_v17_9 (c : Dev nD) : W10 m ρ c (Proc.devRef .tc main_v17) = W9 m ρ c (Proc.devRef .tc main_v17) :=
  W10_of_ne m ρ c main_v17 (by decide)

theorem step_v22_9 (c : Dev nD) : W10 m ρ c (Proc.devRef .tc main_v22) = W9 m ρ c (Proc.devRef .tc main_v22) :=
  W10_of_ne m ρ c main_v22 (by decide)

theorem step_v27_9 (c : Dev nD) : W10 m ρ c (Proc.devRef .tc main_v27) = W9 m ρ c (Proc.devRef .tc main_v27) :=
  W10_of_ne m ρ c main_v27 (by decide)

theorem step_v3_9 (c : Dev nD) : W10 m ρ c (Proc.devRef .tc main_v3) = W9 m ρ c (Proc.devRef .tc main_v3) :=
  W10_of_ne m ρ c main_v3 (by decide)

end Cert.KernelIdeal.Gen

end
-- ==== Proof.KCarryB.lean ====
/-
  A buffer that no operation of a host stretch writes, and that a region does not stage as one of its arrays' outputs, holds after that
  boundary step what it held before it (one equation per buffer and step: a table). Steps 10 to 19.
-/
import proofs.«138131_g70763881169291_cont_9to1c4b_616_12_alg».proof.Proof.Gen.KernelIdeal.Frame

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

theorem step_arg14_10 (c : Dev nD) : W11 m ρ c (Proc.devRef .tc main_arg14) = W10 m ρ c (Proc.devRef .tc main_arg14) :=
  StableHlo.after_of_forall_not_mem (b := Proc.devRef .tc main_arg14) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_10 (c : Dev nD) : W11 m ρ c (Proc.devRef .tc main_arg16) = W10 m ρ c (Proc.devRef .tc main_arg16) :=
  StableHlo.after_of_forall_not_mem (b := Proc.devRef .tc main_arg16) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_10 (c : Dev nD) : W11 m ρ c (Proc.devRef .tc main_arg18) = W10 m ρ c (Proc.devRef .tc main_arg18) :=
  StableHlo.after_of_forall_not_mem (b := Proc.devRef .tc main_arg18) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_10 (c : Dev nD) : W11 m ρ c (Proc.devRef .tc main_arg20) = W10 m ρ c (Proc.devRef .tc main_arg20) :=
  StableHlo.after_of_forall_not_mem (b := Proc.devRef .tc main_arg20) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v11_10 (c : Dev nD) : W11 m ρ c (Proc.devRef .tc main_v11) = W10 m ρ c (Proc.devRef .tc main_v11) :=
  StableHlo.after_of_forall_not_mem (b := Proc.devRef .tc main_v11) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_10 (c : Dev nD) : W11 m ρ c (Proc.devRef .tc main_v12) = W10 m ρ c (Proc.devRef .tc main_v12) :=
  StableHlo.after_of_forall_not_mem (b := Proc.devRef .tc main_v12) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_10 (c : Dev nD) : W11 m ρ c (Proc.devRef .tc main_v13) = W10 m ρ c (Proc.devRef .tc main_v13) :=
  StableHlo.after_of_forall_not_mem (b := Proc.devRef .tc main_v13) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_10 (c : Dev nD) : W11 m ρ c (Proc.devRef .tc main_v14) = W10 m ρ c (Proc.devRef .tc main_v14) :=
  StableHlo.after_of_forall_not_mem (b := Proc.devRef .tc main_v14) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_10 (c : Dev nD) : W11 m ρ c (Proc.devRef .tc main_v17) = W10 m ρ c (Proc.devRef .tc main_v17) :=
  StableHlo.after_of_forall_not_mem (b := Proc.devRef .tc main_v17) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_10 (c : Dev nD) : W11 m ρ c (Proc.devRef .tc main_v22) = W10 m ρ c (Proc.devRef .tc main_v22) :=
  StableHlo.after_of_forall_not_mem (b := Proc.devRef .tc main_v22) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_10 (c : Dev nD) : W11 m ρ c (Proc.devRef .tc main_v27) = W10 m ρ c (Proc.devRef .tc main_v27) :=
  StableHlo.after_of_forall_not_mem (b := Proc.devRef .tc main_v27) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg14_11 (c : Dev nD) : W12 m ρ c (Proc.devRef .tc main_arg14) = W11 m ρ c (Proc.devRef .tc main_arg14) :=
  (W12_arr m ρ c 1).trans (((dat4 (V11 m ρ) c).arrAt_in 1 rfl _).trans (A_eq4 (V11 m ρ) c 1))

theorem step_arg16_11 (c : Dev nD) : W12 m ρ c (Proc.devRef .tc main_arg16) = W11 m ρ c (Proc.devRef .tc main_arg16) :=
  W12_of_ne m ρ c main_arg16 (by decide)

theorem step_arg18_11 (c : Dev nD) : W12 m ρ c (Proc.devRef .tc main_arg18) = W11 m ρ c (Proc.devRef .tc main_arg18) :=
  W12_of_ne m ρ c main_arg18 (by decide)

theorem step_arg20_11 (c : Dev nD) : W12 m ρ c (Proc.devRef .tc main_arg20) = W11 m ρ c (Proc.devRef .tc main_arg20) :=
  W12_of_ne m ρ c main_arg20 (by decide)

theorem step_v11_11 (c : Dev nD) : W12 m ρ c (Proc.devRef .tc main_v11) = W11 m ρ c (Proc.devRef .tc main_v11) :=
  (W12_arr m ρ c 2).trans (((dat4 (V11 m ρ) c).arrAt_in 2 rfl _).trans (A_eq4 (V11 m ρ) c 2))

theorem step_v110_11 (c : Dev nD) : W12 m ρ c (Proc.devRef .tc main_v110) = W11 m ρ c (Proc.devRef .tc main_v110) :=
  (W12_arr m ρ c 0).trans (((dat4 (V11 m ρ) c).arrAt_in 0 rfl _).trans (A_eq4 (V11 m ρ) c 0))

theorem step_v12_11 (c : Dev nD) : W12 m ρ c (Proc.devRef .tc main_v12) = W11 m ρ c (Proc.devRef .tc main_v12) :=
  W12_of_ne m ρ c main_v12 (by decide)

theorem step_v13_11 (c : Dev nD) : W12 m ρ c (Proc.devRef .tc main_v13) = W11 m ρ c (Proc.devRef .tc main_v13) :=
  W12_of_ne m ρ c main_v13 (by decide)

theorem step_v14_11 (c : Dev nD) : W12 m ρ c (Proc.devRef .tc main_v14) = W11 m ρ c (Proc.devRef .tc main_v14) :=
  W12_of_ne m ρ c main_v14 (by decide)

theorem step_v17_11 (c : Dev nD) : W12 m ρ c (Proc.devRef .tc main_v17) = W11 m ρ c (Proc.devRef .tc main_v17) :=
  W12_of_ne m ρ c main_v17 (by decide)

theorem step_v22_11 (c : Dev nD) : W12 m ρ c (Proc.devRef .tc main_v22) = W11 m ρ c (Proc.devRef .tc main_v22) :=
  W12_of_ne m ρ c main_v22 (by decide)

theorem step_v27_11 (c : Dev nD) : W12 m ρ c (Proc.devRef .tc main_v27) = W11 m ρ c (Proc.devRef .tc main_v27) :=
  W12_of_ne m ρ c main_v27 (by decide)

theorem step_arg16_12 (c : Dev nD) : W13 m ρ c (Proc.devRef .tc main_arg16) = W12 m ρ c (Proc.devRef .tc main_arg16) :=
  StableHlo.after_of_forall_not_mem (b := Proc.devRef .tc main_arg16) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_12 (c : Dev nD) : W13 m ρ c (Proc.devRef .tc main_arg18) = W12 m ρ c (Proc.devRef .tc main_arg18) :=
  StableHlo.after_of_forall_not_mem (b := Proc.devRef .tc main_arg18) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_12 (c : Dev nD) : W13 m ρ c (Proc.devRef .tc main_arg20) = W12 m ρ c (Proc.devRef .tc main_arg20) :=
  StableHlo.after_of_forall_not_mem (b := Proc.devRef .tc main_arg20) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v111_12 (c : Dev nD) : W13 m ρ c (Proc.devRef .tc main_v111) = W12 m ρ c (Proc.devRef .tc main_v111) :=
  StableHlo.after_of_forall_not_mem (b := Proc.devRef .tc main_v111) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_12 (c : Dev nD) : W13 m ρ c (Proc.devRef .tc main_v12) = W12 m ρ c (Proc.devRef .tc main_v12) :=
  StableHlo.after_of_forall_not_mem (b := Proc.devRef .tc main_v12) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_12 (c : Dev nD) : W13 m ρ c (Proc.devRef .tc main_v13) = W12 m ρ c (Proc.devRef .tc main_v13) :=
  StableHlo.after_of_forall_not_mem (b := Proc.devRef .tc main_v13) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_12 (c : Dev nD) : W13 m ρ c (Proc.devRef .tc main_v14) = W12 m ρ c (Proc.devRef .tc main_v14) :=
  StableHlo.after_of_forall_not_mem (b := Proc.devRef .tc main_v14) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_12 (c : Dev nD) : W13 m ρ c (Proc.devRef .tc main_v17) = W12 m ρ c (Proc.devRef .tc main_v17) :=
  StableHlo.after_of_forall_not_mem (b := Proc.devRef .tc main_v17) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_12 (c : Dev nD) : W13 m ρ c (Proc.devRef .tc main_v22) = W12 m ρ c (Proc.devRef .tc main_v22) :=
  StableHlo.after_of_forall_not_mem (b := Proc.devRef .tc main_v22) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_12 (c : Dev nD) : W13 m ρ c (Proc.devRef .tc main_v27) = W12 m ρ c (Proc.devRef .tc main_v27) :=
  StableHlo.after_of_forall_not_mem (b := Proc.devRef .tc main_v27) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg16_13 (c : Dev nD) : W14 m ρ c (Proc.devRef .tc main_arg16) = W13 m ρ c (Proc.devRef .tc main_arg16) :=
  StableHlo.after_of_forall_not_mem (b := Proc.devRef .tc main_arg16) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_13 (c : Dev nD) : W14 m ρ c (Proc.devRef .tc main_arg18) = W13 m ρ c (Proc.devRef .tc main_arg18) :=
  StableHlo.after_of_forall_not_mem (b := Proc.devRef .tc main_arg18) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg20_13 (c : Dev nD) : W14 m ρ c (Proc.devRef .tc main_arg20) = W13 m ρ c (Proc.devRef .tc main_arg20) :=
  StableHlo.after_of_forall_not_mem (b := Proc.devRef .tc main_arg20) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v111_13 (c : Dev nD) : W14 m ρ c (Proc.devRef .tc main_v111) = W13 m ρ c (Proc.devRef .tc main_v111) :=
  StableHlo.after_of_forall_not_mem (b := Proc.devRef .tc main_v111) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v118_13 (c : Dev nD) : W14 m ρ c (Proc.devRef .tc main_v118) = W13 m ρ c (Proc.devRef .tc main_v118) :=
  StableHlo.after_of_forall_not_mem (b := Proc.devRef .tc main_v118) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v12_13 (c : Dev nD) : W14 m ρ c (Proc.devRef .tc main_v12) = W13 m ρ c (Proc.devRef .tc main_v12) :=
  StableHlo.after_of_forall_not_mem (b := Proc.devRef .tc main_v12) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v13_13 (c : Dev nD) : W14 m ρ c (Proc.devRef .tc main_v13) = W13 m ρ c (Proc.devRef .tc main_v13) :=
  StableHlo.after_of_forall_not_mem (b := Proc.devRef .tc main_v13) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v14_13 (c : Dev nD) : W14 m ρ c (Proc.devRef .tc main_v14) = W13 m ρ c (Proc.devRef .tc main_v14) :=
  StableHlo.after_of_forall_not_mem (b := Proc.devRef .tc main_v14) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_13 (c : Dev nD) : W14 m ρ c (Proc.devRef .tc main_v17) = W13 m ρ c (Proc.devRef .tc main_v17) :=
  StableHlo.after_of_forall_not_mem (b := Proc.devRef .tc main_v17) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_13 (c : Dev nD) : W14 m ρ c (Proc.devRef .tc main_v22) = W13 m ρ c (Proc.devRef .tc main_v22) :=
  StableHlo.after_of_forall_not_mem (b := Proc.devRef .tc main_v22) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v27_13 (c : Dev nD) : W14 m ρ c (Proc.devRef .tc main_v27) = W13 m ρ c (Proc.devRef .tc main_v27) :=
  StableHlo.after_of_forall_not_mem (b := Proc.devRef .tc main_v27) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_arg18_14 (c : Dev nD) : W15 m ρ c (Proc.devRef .tc main_arg18) = W14 m ρ c (Proc.devRef .tc main_arg18) :=
  W15_of_ne m ρ c main_arg18 (by decide)

theorem step_arg20_14 (c : Dev nD) : W15 m ρ c (Proc.devRef .tc main_arg20) = W14 m ρ c (Proc.devRef .tc main_arg20) :=
  W15_of_ne m ρ c main_arg20 (by decide)

theorem step_v13_14 (c : Dev nD) : W15 m ρ c (Proc.devRef .tc main_v13) = W14 m ρ c (Proc.devRef .tc main_v13) :=
  W15_of_ne m ρ c main_v13 (by decide)

theorem step_v14_14 (c : Dev nD) : W15 m ρ c (Proc.devRef .tc main_v14) = W14 m ρ c (Proc.devRef .tc main_v14) :=
  W15_of_ne m ρ c main_v14 (by decide)

theorem step_v17_14 (c : Dev nD) : W15 m ρ c (Proc.devRef .tc main_v17) = W14 m ρ c (Proc.devRef .tc main_v17) :=
  W15_of_ne m ρ c main_v17 (by decide)

theorem step_v22_14 (c : Dev nD) : W15 m ρ c (Proc.devRef .tc main_v22) = W14 m ρ c (Proc.devRef .tc main_v22) :=
  W15_of_ne m ρ c main_v22 (by decide)

theorem step_v27_14 (c : Dev nD) : W15 m ρ c (Proc.devRef .tc main_v27) = W14 m ρ c (Proc.devRef .tc main_v27) :=
  W15_of_ne m ρ c main_v27 (by decide)

theorem step_v17_15 (c : Dev nD) : W16 m ρ c (Proc.devRef .tc main_v17) = W15 m ρ c (Proc.devRef .tc main_v17) :=
  W16_of_ne m ρ c main_v17 (by decide)

theorem step_v22_15 (c : Dev nD) : W16 m ρ c (Proc.devRef .tc main_v22) = W15 m ρ c (Proc.devRef .tc main_v22) :=
  W16_of_ne m ρ c main_v22 (by decide)

theorem step_v121_16 (c : Dev nD) : W17 m ρ c (Proc.devRef .tc main_v121) = W16 m ρ c (Proc.devRef .tc main_v121) :=
  StableHlo.after_of_forall_not_mem (b := Proc.devRef .tc main_v121) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_16 (c : Dev nD) : W17 m ρ c (Proc.devRef .tc main_v17) = W16 m ρ c (Proc.devRef .tc main_v17) :=
  StableHlo.after_of_forall_not_mem (b := Proc.devRef .tc main_v17) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_16 (c : Dev nD) : W17 m ρ c (Proc.devRef .tc main_v22) = W16 m ρ c (Proc.devRef .tc main_v22) :=
  StableHlo.after_of_forall_not_mem (b := Proc.devRef .tc main_v22) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v121_17 (c : Dev nD) : W18 m ρ c (Proc.devRef .tc main_v121) = W17 m ρ c (Proc.devRef .tc main_v121) :=
  StableHlo.after_of_forall_not_mem (b := Proc.devRef .tc main_v121) _ _ (List.forall_iff_forall_mem.mp (by
    simp only [hostOps7_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v125_17 (c : Dev nD) : W18 m ρ c (Proc.devRef .tc main_v125) = W17 m ρ c (Proc.devRef .tc main_v125) :=
  StableHlo.after_of_forall_not_mem (b := Proc.devRef .tc main_v125) _ _ (List.forall_iff_forall_mem.mp (by
    simp only [hostOps7_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v17_17 (c : Dev nD) : W18 m ρ c (Proc.devRef .tc main_v17) = W17 m ρ c (Proc.devRef .tc main_v17) :=
  StableHlo.after_of_forall_not_mem (b := Proc.devRef .tc main_v17) _ _ (List.forall_iff_forall_mem.mp (by
    simp only [hostOps7_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step_v22_17 (c : Dev nD) : W18 m ρ c (Proc.devRef .tc main_v22) = W17 m ρ c (Proc.devRef .tc main_v22) :=
  StableHlo.after_of_forall_not_mem (b := Proc.devRef .tc main_v22) _ _ (List.forall_iff_forall_mem.mp (by
    simp only [hostOps7_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Gen

end
-- ==== Proof.KCarry.lean ====
/-
  The single steps chained: each buffer a later stretch or region reads holds there what it held where it was produced.
-/
import proofs.«138131_g70763881169291_cont_9to1c4b_616_12_alg».proof.Proof.KCarryA
import proofs.«138131_g70763881169291_cont_9to1c4b_616_12_alg».proof.Proof.KCarryB

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

theorem carry_v46_1_2 (c : Dev nD) : W2 m ρ c (Proc.devRef .tc main_v46) = W1 m ρ c (Proc.devRef .tc main_v46) :=
  step_v46_1 m ρ c

theorem carry_arg6_0_2 (c : Dev nD) : W2 m ρ c (Proc.devRef .tc main_arg6) = W0 m ρ c (Proc.devRef .tc main_arg6) :=
  (step_arg6_1 m ρ c).trans (step_arg6_0 m ρ c)

theorem carry_v7_1_2 (c : Dev nD) : W2 m ρ c (Proc.devRef .tc main_v7) = W1 m ρ c (Proc.devRef .tc main_v7) :=
  step_v7_1 m ρ c

theorem carry_v47_2_4 (c : Dev nD) : W4 m ρ c (Proc.devRef .tc main_v47) = W2 m ρ c (Proc.devRef .tc main_v47) :=
  (step_v47_3 m ρ c).trans (step_v47_2 m ρ c)

theorem carry_v54_3_4 (c : Dev nD) : W4 m ρ c (Proc.devRef .tc main_v54) = W3 m ρ c (Proc.devRef .tc main_v54) :=
  step_v54_3 m ρ c

theorem carry_arg8_0_4 (c : Dev nD) : W4 m ρ c (Proc.devRef .tc main_arg8) = W0 m ρ c (Proc.devRef .tc main_arg8) :=
  (((step_arg8_3 m ρ c).trans (step_arg8_2 m ρ c)).trans (step_arg8_1 m ρ c)).trans (step_arg8_0 m ρ c)

theorem carry_v8_1_4 (c : Dev nD) : W4 m ρ c (Proc.devRef .tc main_v8) = W1 m ρ c (Proc.devRef .tc main_v8) :=
  ((step_v8_3 m ρ c).trans (step_v8_2 m ρ c)).trans (step_v8_1 m ρ c)

theorem carry_arg4_0_5 (c : Dev nD) : W5 m ρ c (Proc.devRef .tc main_arg4) = W0 m ρ c (Proc.devRef .tc main_arg4) :=
  ((((step_arg4_4 m ρ c).trans (step_arg4_3 m ρ c)).trans (step_arg4_2 m ρ c)).trans (step_arg4_1 m ρ c)).trans (step_arg4_0 m ρ c)

theorem carry_v3_1_5 (c : Dev nD) : W5 m ρ c (Proc.devRef .tc main_v3) = W1 m ρ c (Proc.devRef .tc main_v3) :=
  (((step_v3_4 m ρ c).trans (step_v3_3 m ρ c)).trans (step_v3_2 m ρ c)).trans (step_v3_1 m ρ c)

theorem carry_v1_1_5 (c : Dev nD) : W5 m ρ c (Proc.devRef .tc main_v1) = W1 m ρ c (Proc.devRef .tc main_v1) :=
  (((step_v1_4 m ρ c).trans (step_v1_3 m ρ c)).trans (step_v1_2 m ρ c)).trans (step_v1_1 m ρ c)

theorem carry_arg10_0_6 (c : Dev nD) : W6 m ρ c (Proc.devRef .tc main_arg10) = W0 m ρ c (Proc.devRef .tc main_arg10) :=
  (((((step_arg10_5 m ρ c).trans (step_arg10_4 m ρ c)).trans (step_arg10_3 m ρ c)).trans (step_arg10_2 m ρ c)).trans (step_arg10_1 m ρ c)).trans (step_arg10_0 m ρ c)

theorem carry_v9_1_6 (c : Dev nD) : W6 m ρ c (Proc.devRef .tc main_v9) = W1 m ρ c (Proc.devRef .tc main_v9) :=
  ((((step_v9_5 m ρ c).trans (step_v9_4 m ρ c)).trans (step_v9_3 m ρ c)).trans (step_v9_2 m ρ c)).trans (step_v9_1 m ρ c)

theorem carry_v78_6_7 (c : Dev nD) : W7 m ρ c (Proc.devRef .tc main_v78) = W6 m ρ c (Proc.devRef .tc main_v78) :=
  step_v78_6 m ρ c

theorem carry_arg10_0_7 (c : Dev nD) : W7 m ρ c (Proc.devRef .tc main_arg10) = W0 m ρ c (Proc.devRef .tc main_arg10) :=
  ((((((step_arg10_6 m ρ c).trans (step_arg10_5 m ρ c)).trans (step_arg10_4 m ρ c)).trans (step_arg10_3 m ρ c)).trans (step_arg10_2 m ρ c)).trans (step_arg10_1 m ρ c)).trans (step_arg10_0 m ρ c)

theorem carry_v9_1_7 (c : Dev nD) : W7 m ρ c (Proc.devRef .tc main_v9) = W1 m ρ c (Proc.devRef .tc main_v9) :=
  (((((step_v9_6 m ρ c).trans (step_v9_5 m ρ c)).trans (step_v9_4 m ρ c)).trans (step_v9_3 m ρ c)).trans (step_v9_2 m ρ c)).trans (step_v9_1 m ρ c)

theorem carry_v79_7_9 (c : Dev nD) : W9 m ρ c (Proc.devRef .tc main_v79) = W7 m ρ c (Proc.devRef .tc main_v79) :=
  (step_v79_8 m ρ c).trans (step_v79_7 m ρ c)

theorem carry_v86_8_9 (c : Dev nD) : W9 m ρ c (Proc.devRef .tc main_v86) = W8 m ρ c (Proc.devRef .tc main_v86) :=
  step_v86_8 m ρ c

theorem carry_arg12_0_9 (c : Dev nD) : W9 m ρ c (Proc.devRef .tc main_arg12) = W0 m ρ c (Proc.devRef .tc main_arg12) :=
  ((((((((step_arg12_8 m ρ c).trans (step_arg12_7 m ρ c)).trans (step_arg12_6 m ρ c)).trans (step_arg12_5 m ρ c)).trans (step_arg12_4 m ρ c)).trans (step_arg12_3 m ρ c)).trans (step_arg12_2 m ρ c)).trans (step_arg12_1 m ρ c)).trans (step_arg12_0 m ρ c)

theorem carry_v10_1_9 (c : Dev nD) : W9 m ρ c (Proc.devRef .tc main_v10) = W1 m ρ c (Proc.devRef .tc main_v10) :=
  (((((((step_v10_8 m ρ c).trans (step_v10_7 m ρ c)).trans (step_v10_6 m ρ c)).trans (step_v10_5 m ρ c)).trans (step_v10_4 m ρ c)).trans (step_v10_3 m ρ c)).trans (step_v10_2 m ρ c)).trans (step_v10_1 m ρ c)

theorem carry_arg5_0_10 (c : Dev nD) : W10 m ρ c (Proc.devRef .tc main_arg5) = W0 m ρ c (Proc.devRef .tc main_arg5) :=
  (((((((((step_arg5_9 m ρ c).trans (step_arg5_8 m ρ c)).trans (step_arg5_7 m ρ c)).trans (step_arg5_6 m ρ c)).trans (step_arg5_5 m ρ c)).trans (step_arg5_4 m ρ c)).trans (step_arg5_3 m ρ c)).trans (step_arg5_2 m ρ c)).trans (step_arg5_1 m ρ c)).trans (step_arg5_0 m ρ c)

theorem carry_v3_1_10 (c : Dev nD) : W10 m ρ c (Proc.devRef .tc main_v3) = W1 m ρ c (Proc.devRef .tc main_v3) :=
  ((((((((step_v3_9 m ρ c).trans (step_v3_8 m ρ c)).trans (step_v3_7 m ρ c)).trans (step_v3_6 m ρ c)).trans (step_v3_5 m ρ c)).trans (step_v3_4 m ρ c)).trans (step_v3_3 m ρ c)).trans (step_v3_2 m ρ c)).trans (step_v3_1 m ρ c)

theorem carry_v1_1_10 (c : Dev nD) : W10 m ρ c (Proc.devRef .tc main_v1) = W1 m ρ c (Proc.devRef .tc main_v1) :=
  ((((((((step_v1_9 m ρ c).trans (step_v1_8 m ρ c)).trans (step_v1_7 m ρ c)).trans (step_v1_6 m ρ c)).trans (step_v1_5 m ρ c)).trans (step_v1_4 m ρ c)).trans (step_v1_3 m ρ c)).trans (step_v1_2 m ρ c)).trans (step_v1_1 m ρ c)

theorem carry_arg14_0_11 (c : Dev nD) : W11 m ρ c (Proc.devRef .tc main_arg14) = W0 m ρ c (Proc.devRef .tc main_arg14) :=
  ((((((((((step_arg14_10 m ρ c).trans (step_arg14_9 m ρ c)).trans (step_arg14_8 m ρ c)).trans (step_arg14_7 m ρ c)).trans (step_arg14_6 m ρ c)).trans (step_arg14_5 m ρ c)).trans (step_arg14_4 m ρ c)).trans (step_arg14_3 m ρ c)).trans (step_arg14_2 m ρ c)).trans (step_arg14_1 m ρ c)).trans (step_arg14_0 m ρ c)

theorem carry_v11_1_11 (c : Dev nD) : W11 m ρ c (Proc.devRef .tc main_v11) = W1 m ρ c (Proc.devRef .tc main_v11) :=
  (((((((((step_v11_10 m ρ c).trans (step_v11_9 m ρ c)).trans (step_v11_8 m ρ c)).trans (step_v11_7 m ρ c)).trans (step_v11_6 m ρ c)).trans (step_v11_5 m ρ c)).trans (step_v11_4 m ρ c)).trans (step_v11_3 m ρ c)).trans (step_v11_2 m ρ c)).trans (step_v11_1 m ρ c)

theorem carry_v110_11_12 (c : Dev nD) : W12 m ρ c (Proc.devRef .tc main_v110) = W11 m ρ c (Proc.devRef .tc main_v110) :=
  step_v110_11 m ρ c

theorem carry_arg14_0_12 (c : Dev nD) : W12 m ρ c (Proc.devRef .tc main_arg14) = W0 m ρ c (Proc.devRef .tc main_arg14) :=
  (((((((((((step_arg14_11 m ρ c).trans (step_arg14_10 m ρ c)).trans (step_arg14_9 m ρ c)).trans (step_arg14_8 m ρ c)).trans (step_arg14_7 m ρ c)).trans (step_arg14_6 m ρ c)).trans (step_arg14_5 m ρ c)).trans (step_arg14_4 m ρ c)).trans (step_arg14_3 m ρ c)).trans (step_arg14_2 m ρ c)).trans (step_arg14_1 m ρ c)).trans (step_arg14_0 m ρ c)

theorem carry_v11_1_12 (c : Dev nD) : W12 m ρ c (Proc.devRef .tc main_v11) = W1 m ρ c (Proc.devRef .tc main_v11) :=
  ((((((((((step_v11_11 m ρ c).trans (step_v11_10 m ρ c)).trans (step_v11_9 m ρ c)).trans (step_v11_8 m ρ c)).trans (step_v11_7 m ρ c)).trans (step_v11_6 m ρ c)).trans (step_v11_5 m ρ c)).trans (step_v11_4 m ρ c)).trans (step_v11_3 m ρ c)).trans (step_v11_2 m ρ c)).trans (step_v11_1 m ρ c)

theorem carry_v111_12_14 (c : Dev nD) : W14 m ρ c (Proc.devRef .tc main_v111) = W12 m ρ c (Proc.devRef .tc main_v111) :=
  (step_v111_13 m ρ c).trans (step_v111_12 m ρ c)

theorem carry_v118_13_14 (c : Dev nD) : W14 m ρ c (Proc.devRef .tc main_v118) = W13 m ρ c (Proc.devRef .tc main_v118) :=
  step_v118_13 m ρ c

theorem carry_arg16_0_14 (c : Dev nD) : W14 m ρ c (Proc.devRef .tc main_arg16) = W0 m ρ c (Proc.devRef .tc main_arg16) :=
  (((((((((((((step_arg16_13 m ρ c).trans (step_arg16_12 m ρ c)).trans (step_arg16_11 m ρ c)).trans (step_arg16_10 m ρ c)).trans (step_arg16_9 m ρ c)).trans (step_arg16_8 m ρ c)).trans (step_arg16_7 m ρ c)).trans (step_arg16_6 m ρ c)).trans (step_arg16_5 m ρ c)).trans (step_arg16_4 m ρ c)).trans (step_arg16_3 m ρ c)).trans (step_arg16_2 m ρ c)).trans (step_arg16_1 m ρ c)).trans (step_arg16_0 m ρ c)

theorem carry_v12_1_14 (c : Dev nD) : W14 m ρ c (Proc.devRef .tc main_v12) = W1 m ρ c (Proc.devRef .tc main_v12) :=
  ((((((((((((step_v12_13 m ρ c).trans (step_v12_12 m ρ c)).trans (step_v12_11 m ρ c)).trans (step_v12_10 m ρ c)).trans (step_v12_9 m ρ c)).trans (step_v12_8 m ρ c)).trans (step_v12_7 m ρ c)).trans (step_v12_6 m ρ c)).trans (step_v12_5 m ρ c)).trans (step_v12_4 m ρ c)).trans (step_v12_3 m ρ c)).trans (step_v12_2 m ρ c)).trans (step_v12_1 m ρ c)

theorem carry_v27_1_15 (c : Dev nD) : W15 m ρ c (Proc.devRef .tc main_v27) = W1 m ρ c (Proc.devRef .tc main_v27) :=
  (((((((((((((step_v27_14 m ρ c).trans (step_v27_13 m ρ c)).trans (step_v27_12 m ρ c)).trans (step_v27_11 m ρ c)).trans (step_v27_10 m ρ c)).trans (step_v27_9 m ρ c)).trans (step_v27_8 m ρ c)).trans (step_v27_7 m ρ c)).trans (step_v27_6 m ρ c)).trans (step_v27_5 m ρ c)).trans (step_v27_4 m ρ c)).trans (step_v27_3 m ρ c)).trans (step_v27_2 m ρ c)).trans (step_v27_1 m ρ c)

theorem carry_arg18_0_15 (c : Dev nD) : W15 m ρ c (Proc.devRef .tc main_arg18) = W0 m ρ c (Proc.devRef .tc main_arg18) :=
  ((((((((((((((step_arg18_14 m ρ c).trans (step_arg18_13 m ρ c)).trans (step_arg18_12 m ρ c)).trans (step_arg18_11 m ρ c)).trans (step_arg18_10 m ρ c)).trans (step_arg18_9 m ρ c)).trans (step_arg18_8 m ρ c)).trans (step_arg18_7 m ρ c)).trans (step_arg18_6 m ρ c)).trans (step_arg18_5 m ρ c)).trans (step_arg18_4 m ρ c)).trans (step_arg18_3 m ρ c)).trans (step_arg18_2 m ρ c)).trans (step_arg18_1 m ρ c)).trans (step_arg18_0 m ρ c)

theorem carry_v13_1_15 (c : Dev nD) : W15 m ρ c (Proc.devRef .tc main_v13) = W1 m ρ c (Proc.devRef .tc main_v13) :=
  (((((((((((((step_v13_14 m ρ c).trans (step_v13_13 m ρ c)).trans (step_v13_12 m ρ c)).trans (step_v13_11 m ρ c)).trans (step_v13_10 m ρ c)).trans (step_v13_9 m ρ c)).trans (step_v13_8 m ρ c)).trans (step_v13_7 m ρ c)).trans (step_v13_6 m ρ c)).trans (step_v13_5 m ρ c)).trans (step_v13_4 m ρ c)).trans (step_v13_3 m ρ c)).trans (step_v13_2 m ρ c)).trans (step_v13_1 m ρ c)

theorem carry_arg20_0_15 (c : Dev nD) : W15 m ρ c (Proc.devRef .tc main_arg20) = W0 m ρ c (Proc.devRef .tc main_arg20) :=
  ((((((((((((((step_arg20_14 m ρ c).trans (step_arg20_13 m ρ c)).trans (step_arg20_12 m ρ c)).trans (step_arg20_11 m ρ c)).trans (step_arg20_10 m ρ c)).trans (step_arg20_9 m ρ c)).trans (step_arg20_8 m ρ c)).trans (step_arg20_7 m ρ c)).trans (step_arg20_6 m ρ c)).trans (step_arg20_5 m ρ c)).trans (step_arg20_4 m ρ c)).trans (step_arg20_3 m ρ c)).trans (step_arg20_2 m ρ c)).trans (step_arg20_1 m ρ c)).trans (step_arg20_0 m ρ c)

theorem carry_v14_1_15 (c : Dev nD) : W15 m ρ c (Proc.devRef .tc main_v14) = W1 m ρ c (Proc.devRef .tc main_v14) :=
  (((((((((((((step_v14_14 m ρ c).trans (step_v14_13 m ρ c)).trans (step_v14_12 m ρ c)).trans (step_v14_11 m ρ c)).trans (step_v14_10 m ρ c)).trans (step_v14_9 m ρ c)).trans (step_v14_8 m ρ c)).trans (step_v14_7 m ρ c)).trans (step_v14_6 m ρ c)).trans (step_v14_5 m ρ c)).trans (step_v14_4 m ρ c)).trans (step_v14_3 m ρ c)).trans (step_v14_2 m ρ c)).trans (step_v14_1 m ρ c)

theorem carry_v121_16_17 (c : Dev nD) : W17 m ρ c (Proc.devRef .tc main_v121) = W16 m ρ c (Proc.devRef .tc main_v121) :=
  step_v121_16 m ρ c

theorem carry_v121_16_18 (c : Dev nD) : W18 m ρ c (Proc.devRef .tc main_v121) = W16 m ρ c (Proc.devRef .tc main_v121) :=
  (step_v121_17 m ρ c).trans (step_v121_16 m ρ c)

theorem carry_v125_17_18 (c : Dev nD) : W18 m ρ c (Proc.devRef .tc main_v125) = W17 m ρ c (Proc.devRef .tc main_v125) :=
  step_v125_17 m ρ c

theorem carry_v17_1_18 (c : Dev nD) : W18 m ρ c (Proc.devRef .tc main_v17) = W1 m ρ c (Proc.devRef .tc main_v17) :=
  ((((((((((((((((step_v17_17 m ρ c).trans (step_v17_16 m ρ c)).trans (step_v17_15 m ρ c)).trans (step_v17_14 m ρ c)).trans (step_v17_13 m ρ c)).trans (step_v17_12 m ρ c)).trans (step_v17_11 m ρ c)).trans (step_v17_10 m ρ c)).trans (step_v17_9 m ρ c)).trans (step_v17_8 m ρ c)).trans (step_v17_7 m ρ c)).trans (step_v17_6 m ρ c)).trans (step_v17_5 m ρ c)).trans (step_v17_4 m ρ c)).trans (step_v17_3 m ρ c)).trans (step_v17_2 m ρ c)).trans (step_v17_1 m ρ c)

theorem carry_v22_1_18 (c : Dev nD) : W18 m ρ c (Proc.devRef .tc main_v22) = W1 m ρ c (Proc.devRef .tc main_v22) :=
  ((((((((((((((((step_v22_17 m ρ c).trans (step_v22_16 m ρ c)).trans (step_v22_15 m ρ c)).trans (step_v22_14 m ρ c)).trans (step_v22_13 m ρ c)).trans (step_v22_12 m ρ c)).trans (step_v22_11 m ρ c)).trans (step_v22_10 m ρ c)).trans (step_v22_9 m ρ c)).trans (step_v22_8 m ρ c)).trans (step_v22_7 m ρ c)).trans (step_v22_6 m ρ c)).trans (step_v22_5 m ρ c)).trans (step_v22_4 m ρ c)).trans (step_v22_3 m ρ c)).trans (step_v22_2 m ρ c)).trans (step_v22_1 m ρ c)

end Cert.KernelIdeal.Gen

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Mm1Math.lean ====
/-
  The first linear map of each layer as the host computes it: a matrix product with one contracted axis plus a
  row of biases broadcast over the rows, read at one entry on the extended reals. Entry (i, j) of u · W + b is
  (Σ_k u (i, k) · W (k, j)) + b (0, j): no rounding and no order of accumulation is left in it.
-/
import proofs.«138131_g70763881169291_cont_9to1c4b_616_12_alg».proof.Proof.Gen.KernelIdeal
import proofs.«138131_g70763881169291_cont_9to1c4b_616_12_alg».proof.Proof.LibPlainMatmul
import Idealize.ShloMosaic.Lib.ValueLayout

noncomputable section

namespace Cert.Bridge

open Idealize.ShloMosaic Idealize.ShloMosaic.ValueIdx
open Cert.KernelIdeal Cert.KernelIdeal.Gen

/-- Entry (i, j) of the host's product of an M × K by a K × N matrix: the sum over the contracted axis. -/
theorem plain_dotGeneral_apply (M K N : Nat) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- The host's dimension numbers of the 10000 × 128 by 128 × 256 product are the plain ones. -/
theorem dotH128_eq : dot_S10000x128_S128x256_S10000x256_1_0_0_1_n_n = DotDims.plain 10000 128 256 := rfl

/-- A row of biases broadcast over M rows reads, at (i, j), the row at j. -/
theorem bcastRow_apply {M N : Nat} (h : (⟨2, ![1, N]⟩ : Shape).BroadcastsInDim ⟨2, ![M, N]⟩ ![0, 1])
    (b : (⟨2, ![1, N]⟩ : Shape).Idx → EReal) (i : Fin M) (j : Fin N) :
    broadcastInDim ⟨2, ![M, N]⟩ ![0, 1] h b (ix2 i j) = b (ix2 (0 : Fin 1) j) := by
  refine broadcastInDim_apply _ h b (ix2 i j) (ix2 (0 : Fin 1) j) fun ax => ?_
  match ax with
  | ⟨0, _⟩ => rfl
  | ⟨1, _⟩ =>
    show j.val = if N = 1 then 0 else j.val
    split
    · have := j.isLt; omega
    · rfl

/-- The first linear map of layer 1 as the host computes it: u · Wa + b1, the bias row broadcast over the rows. -/
def linK0 (u : FVec Ideal S10000x128 .f32) (Wa : FVec Ideal S128x256 .f32) (b1 : FVec Ideal S1x256 .f32) :
    FVec Ideal S10000x256 .f32 :=
  addf (Host.dotGeneral (F := Ideal) dot_S10000x128_S128x256_S10000x256_1_0_0_1_n_n none u Wa)
    (broadcastInDim S10000x256 ![0, 1] bcast_S1x256_S10000x256_0_1 b1)

/-- Its entry (i, j): (Σ_k u (i, k) · Wa (k, j)) + b1 (0, j). -/
theorem linK0_apply (u : FVec Ideal S10000x128 .f32) (Wa : FVec Ideal S128x256 .f32) (b1 : FVec Ideal S1x256 .f32)
    (i : Fin 10000) (j : Fin 256) :
    linK0 u Wa b1 (ix2 i j) = (∑ k : Fin 128, u (ix2 i k) * Wa (ix2 k j)) + b1 (ix2 (0 : Fin 1) j) := by
  unfold linK0
  rw [addf_apply, dotH128_eq]
  exact congrArg₂ (· + ·) (plain_dotGeneral_apply 10000 128 256 none .single u Wa i j)
    (bcastRow_apply bcast_S1x256_S10000x256_0_1 b1 i j)

end Cert.Bridge

end
-- ==== Proof.Mm1R0.lean ====
/-
  The first linear map of layer 1 as the kernel computes it. The body cuts the 10000 rows into five blocks of
  2000 rows; on each block it multiplies the block of u by Wa into a zero accumulator and adds the bias row
  broadcast over the block's rows, and stores the block of the result. Read at one entry on the extended
  reals, entry (i, j) of the stored array is (Σ_k u (i, k) · Wa (k, j)) + b1 (0, j), which is the entry of the
  product as the host computes it; the five stores tile the array, so the whole array is that product.
-/
import proofs.«138131_g70763881169291_cont_9to1c4b_616_12_alg».proof.Proof.Gen.KernelIdeal.Frame
import proofs.«138131_g70763881169291_cont_9to1c4b_616_12_alg».proof.Proof.Mm1Math
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

/-- Two zero offsets, however spelt. -/
theorem zeros2 : (![0, 0] : Fin 2 → Nat) = fun _ => 0 := funext fun a => by fin_cases a <;> rfl

/-- Row p, column q of the block of 2000 rows starting at row o sits at row o + p, column q of the array. -/
theorem rowBlock_idx {R C : Nat} (o : Nat) (inb : ∀ a, (![o, 0] : Fin 2 → Nat) a + (![2000, C] : Fin 2 → Nat) a ≤ (⟨2, ![R, C]⟩ : Shape).size a)
    (p : Fin 2000) (q : Fin C) (h : o + p.val < R) :
    (Rect.unit (s := ⟨2, ![R, C]⟩) ![o, 0] ![2000, C] inb).idx (ix2 p q) = ix2 ⟨o + p.val, h⟩ q :=
  funext fun a => Fin.ext (by
    match a with
    | ⟨0, _⟩ => show o + 1 * p.val = o + p.val; omega
    | ⟨1, _⟩ => show 0 + 1 * q.val = q.val; omega)

/-- The kernel's dimension numbers of the 2000 × 128 by 128 × 256 product are the plain ones. -/
theorem dotK128_eq : dot_S2000x128_S128x256_S2000x256_1_0_0_1_n_n = DotDims.plain 2000 128 256 := rfl

/-- One row block's stored value at entry (p, q): the block of u times Wa, plus the bias row. -/
theorem pay3_apply (v0 : Vec Ideal S128x256 .f32) (v1 : Vec Ideal S1x256 .f32) (v3 : Vec Ideal S2000x128 .f32)
    (p : Fin 2000) (q : Fin 256) :
    k0_pay3 (F := Ideal) v0 v1 v3 (ix2 p q)
      = (∑ k : Fin 128, v3 (ix2 p k) * v0 (ix2 k q)) + v1 (ix2 (0 : Fin 1) q) := by
  unfold k0_pay3 k0_pay2
  dsimp only
  rw [shapeCast_self, shapeCast_self, addf_apply, dotK128_eq]
  exact congrArg₂ (· + ·) (Cert.PlainMatmul.matmul_zero_apply 2000 128 256 none v3 v0 p q)
    (broadcastTo_1b_ab_apply v1 broadcasts_S1x256_S2000x256 p q)

/-- The five blocks' stored values are one function of the loaded blocks. -/
theorem pay4_eq (v0 : Vec Ideal S128x256 .f32) (v1 : Vec Ideal S1x256 .f32) (v : Vec Ideal S2000x128 .f32) :
    k0_pay4 (F := Ideal) v0 v1 v = k0_pay3 v0 v1 v := rfl
theorem pay5_eq (v0 : Vec Ideal S128x256 .f32) (v1 : Vec Ideal S1x256 .f32) (v : Vec Ideal S2000x128 .f32) :
    k0_pay5 (F := Ideal) v0 v1 v = k0_pay3 v0 v1 v := rfl
theorem pay6_eq (v0 : Vec Ideal S128x256 .f32) (v1 : Vec Ideal S1x256 .f32) (v : Vec Ideal S2000x128 .f32) :
    k0_pay6 (F := Ideal) v0 v1 v = k0_pay3 v0 v1 v := rfl
theorem pay1_eq (v0 : Vec Ideal S128x256 .f32) (v1 : Vec Ideal S1x256 .f32) (v : Vec Ideal S2000x128 .f32) :
    k0_pay1 (F := Ideal) v0 (k0_pay2 v1) (k0_pay7 v) (constant S2000x256 .f32 0x00000000#32) = k0_pay3 v0 v1 v := rfl

/-- A row block's stored value, at its entry (p, q), is the host's product at the array's entry under it. -/
theorem block_apply (x0 : Vec Ideal S10000x128 .f32) (x1 : Vec Ideal S128x256 .f32) (x2 : Vec Ideal S1x256 .f32)
    (o : Nat) (inbI : ∀ a, (![o, 0] : Fin 2 → Nat) a + S2000x128.size a ≤ S10000x128.size a)
    (inbO : ∀ a, (![o, 0] : Fin 2 → Nat) a + S2000x256.size a ≤ S10000x256.size a) (x : S2000x256.Idx) :
    k0_pay3 (F := Ideal) (View.ld x1 r0_0) (View.ld x2 r0_1) (View.ld x0 (Rect.unit (s := S10000x128) ![o, 0] S2000x128.size inbI)) x
      = linK0 x0 x1 x2 ((Rect.unit (s := S10000x256) ![o, 0] S2000x256.size inbO).emb x) := by
  obtain ⟨p, q, rfl⟩ : ∃ (p : Fin 2000) (q : Fin 256), x = ix2 p q := ⟨x 0, x 1, eq_ix2 x⟩
  have h0 : o + 2000 ≤ 10000 := inbO 0
  have hp : o + p.val < 10000 := by have := p.isLt; omega
  have eO : (Rect.unit (s := S10000x256) ![o, 0] S2000x256.size inbO).emb (ix2 p q) = ix2 ⟨o + p.val, hp⟩ q :=
    rowBlock_idx (R := 10000) (C := 256) o inbO p q hp
  have eI : ∀ k : Fin 128, (Rect.unit (s := S10000x128) ![o, 0] S2000x128.size inbI).idx (ix2 p k) = ix2 ⟨o + p.val, hp⟩ k :=
    fun k => rowBlock_idx (R := 10000) (C := 128) o inbI p k hp
  rw [eO, pay3_apply, linK0_apply, View.ld_unit_zero zeros2 _ x1, View.ld_unit_zero zeros2 _ x2]
  refine congrArg (· + x2 (ix2 (0 : Fin 1) q)) (Finset.sum_congr rfl fun k _ => ?_)
  exact congrArg (· * x1 (ix2 k q)) (congrArg x0 (eI k))

/-- What the body leaves in the output buffer is the host's product of the loaded arrays: each of the five
    stores writes the block of it under its rows, and the stores tile the buffer. -/
theorem out0_3_eq (x0 : Vec Ideal S10000x128 .f32) (x1 : Vec Ideal S128x256 .f32) (x2 : Vec Ideal S1x256 .f32) :
    out0_3 (F := Ideal) x0 x1 x2 = linK0 x0 x1 x2 := by
  funext y
  unfold out0_3
  refine View.canon_apply_of_pieces (Val := Elt Ideal) (S := S10000x256) (e := .f32) (linK0 x0 x1 x2) _ ?_ y (cover0_3 _ _ _ _ _ y)
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, fun _ h => absurd h List.not_mem_nil⟩⟩⟩⟩⟩
  · exact (congrFun (pay1_eq _ _ _) x).trans (block_apply x0 x1 x2 8000 inb_S10000x128_S2000x128_8000_0 inb_S10000x256_S2000x256_8000_0 x)
  · exact (congrFun (pay6_eq _ _ _) x).trans (block_apply x0 x1 x2 6000 inb_S10000x128_S2000x128_6000_0 inb_S10000x256_S2000x256_6000_0 x)
  · exact (congrFun (pay5_eq _ _ _) x).trans (block_apply x0 x1 x2 4000 inb_S10000x128_S2000x128_4000_0 inb_S10000x256_S2000x256_4000_0 x)
  · exact (congrFun (pay4_eq _ _ _) x).trans (block_apply x0 x1 x2 2000 inb_S10000x128_S2000x128_2000_0 inb_S10000x256_S2000x256_2000_0 x)
  · exact block_apply x0 x1 x2 0 inb_S10000x128_S2000x128_0_0 inb_S10000x256_S2000x256_0_0 x

/-! ## From the buffer to the array: one grid point, whole-array blocks -/

section Region
variable (V : (c : Dev nD) → (b : Ref sig .tc) → Buf (Elt Ideal) ((c : Thread nD τ).loc b))

/-- Each input window's block is its whole array. -/
theorem iblk0_0_eq (c : Dev nD) (t : Fin cfg0.N) : iblk0 (F := Ideal) V c 0 t = V c (Pipeline.arrRef spec0 0) := by
  unfold iblk0
  exact Memref.read_access_unit_zero (Elt Ideal) main_v46 (funext fun a => Nat.zero_mul _) _ (V c main_v46)
theorem iblk0_1_eq (c : Dev nD) (t : Fin cfg0.N) : iblk0 (F := Ideal) V c 1 t = V c (Pipeline.arrRef spec0 1) := by
  unfold iblk0
  exact Memref.read_access_unit_zero (Elt Ideal) main_arg6 (funext fun a => Nat.zero_mul _) _ (V c main_arg6)
theorem iblk0_2_eq (c : Dev nD) (t : Fin cfg0.N) : iblk0 (F := Ideal) V c 2 t = V c (Pipeline.arrRef spec0 2) := by
  unfold iblk0
  exact Memref.read_access_unit_zero (Elt Ideal) main_v7 (funext fun a => Nat.zero_mul _) _ (V c main_v7)

/-- What the one grid point writes back is the host's product of the three arrays, read through the output
    window's block, which is the whole array. -/
theorem flushed0_eq (c : Dev nD) (t : Fin cfg0.N) :
    (dat0 (F := Ideal) V c).flushed 3 t
      = ((cfg0.win 3).blk t).view.read (Elt Ideal)
          (linK0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3, iblk0_0_eq, iblk0_1_eq, iblk0_2_eq, out0_3_eq]
  exact (Memref.read_access_unit_zero (Elt Ideal) main_v47 (funext fun a => Nat.zero_mul _) _ _).symm

/-- REGION 0: when the region is left its output array holds u · Wa + b1 as the host computes it. -/
theorem mm1_0 (c : Dev nD) :
    (dat0 (F := Ideal) V c).arrAt 3 cfg0.N
      = linK0 (V c (Pipeline.arrRef spec0 0)) (V c (Pipeline.arrRef spec0 1)) (V c (Pipeline.arrRef spec0 2)) :=
  (dat0 (F := Ideal) V c).arrAt_eq_of_cover 3 _ (fun t _ => flushed0_eq V c t) fun i =>
    ⟨t0_0, flush0_3 t0_0, by
      show i ∈ ((View.whole main_v47).slice (win0_3.rect t0_0)).set
      rw [View.set_slice_whole, Rect.mem_set_unit]
      intro a
      have h0 : (i 0 : Nat) < 10000 := (i 0).isLt
      have h1 : (i 1 : Nat) < 256 := (i 1).isLt
      match a with
      | ⟨0, _⟩ => show 0 * 10000 ≤ (i 0 : Nat) ∧ (i 0 : Nat) < 0 * 10000 + 10000; omega
      | ⟨1, _⟩ => show 0 * 256 ≤ (i 1 : Nat) ∧ (i 1 : Nat) < 0 * 256 + 256; omega⟩

end Region

end Cert.Bridge

end
-- ==== Proof.KValue0.lean ====
/-
  Layer 0 of the idealized kernel program, read off the fold of buffer contents: the first matmul's input u₀ is the
  host's (1 + ε₀)·x + (sum of x over incoming edges); the first region leaves t₀ = u₀·W₀ₐ + b₀ₐ, which is also what the
  host's own product of the same operands gives (so the column means and variances the host computes from its copy
  are those of the region's t₀); the second region leaves, after the host has put its two column halves side by
  side again, h₁ = relu(relu((t₀ − μ)/√(σ² + ε))·W₀ᵦ + b₀ᵦ) as the reference's own chain of operations on (t₀, μ, σ²).
-/
import proofs.«138131_g70763881169291_cont_9to1c4b_616_12_alg».proof.Proof.KStages
import proofs.«138131_g70763881169291_cont_9to1c4b_616_12_alg».proof.Proof.KCarry
import proofs.«138131_g70763881169291_cont_9to1c4b_616_12_alg».proof.Proof.Mm1R0

set_option maxRecDepth 16384

noncomputable section

namespace Cert.KernelIdeal.KValue

open Idealize.ShloMosaic Idealize.ShloMosaic.TcCoe Idealize.SL.Sem
open Cert.KernelIdeal Cert.KernelIdeal.Gen Cert.KernelIdeal.KChain Cert.Bridge

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The first matmul's input: the host's aggregation of x over the edges plus (1 + ε₀)·x. -/
theorem u0_eq : W1 m ρ c (Proc.devRef .tc main_v46) = k_v46 (arg m c main_arg3) (arg m c main_arg0) (arg m c main_arg1) :=
  st_v46 (W0 m ρ c)

/-- The first bias as a row. -/
theorem b0a_eq : W1 m ρ c (Proc.devRef .tc main_v7) = k_v7 (arg m c main_arg7) := st_v7 (W0 m ρ c)

/-- Region 0 leaves t₀ = u₀·W₀ₐ + b₀ₐ. -/
theorem t0_eq : W2 m ρ c (Proc.devRef .tc main_v47)
    = linK0 (W1 m ρ c (Proc.devRef .tc main_v46)) (W1 m ρ c (Proc.devRef .tc main_arg6)) (W1 m ρ c (Proc.devRef .tc main_v7)) :=
  (W2_arr m ρ c 3).trans (mm1_0 (V1 m ρ) c)

/-- The host's own copy of the product is the region's. -/
theorem ts0_eq : W3 m ρ c (Proc.devRef .tc main_v50) = W2 m ρ c (Proc.devRef .tc main_v47) := by
  rw [t0_eq]
  refine (st_v50 (W2 m ρ c)).trans ?_
  rw [step_v46_1, step_arg6_1, step_v7_1]
  rfl

/-- The column means of t₀. -/
theorem mu0_eq : W3 m ρ c (Proc.devRef .tc main_v54) = k_v54 (W2 m ρ c (Proc.devRef .tc main_v47)) := by
  rw [← ts0_eq]; exact st_v54 (W2 m ρ c)

/-- The column variances of t₀. -/
theorem var0_eq : W4 m ρ c (Proc.devRef .tc main_v55) = k_v55 k_c_14 (W2 m ρ c (Proc.devRef .tc main_v47)) := by
  refine (st_v55 (W3 m ρ c)).trans ?_
  rw [ts0_eq]
  exact congrArg (fun z => k_v55 z _) (st_c_14 (W2 m ρ c))

end Cert.KernelIdeal.KValue

end
-- ==== Proof.RefPoolDef.lean ====
/-
  The reference's pooling stage and final head as pure functions of the arrays they read.

  Pooling: every node row of the last layer's output is added into the row of its graph (a scatter-add into a
  zero 64 × 256 array, the graph of node n being batch n), a one is added per node into a 64 × 1 array of
  counts, each count is raised to at least one, each sum row is divided by its count, and the pooled rows pass
  through two affine maps (256 → 256, then 256 → 128).

  Head: the 64 × 128 array is centred by a row of means, divided by the square root of a row of variances plus
  a small constant, clamped below at zero, and mapped affinely to 64 × 2.
-/
import proofs.«138131_g70763881169291_cont_9to1c4b_616_12_alg».proof.ReferenceIdeal
import Idealize.ShloMosaic.PureOps.Ideal.Laws

noncomputable section

namespace Cert.Bridge

open Idealize.ShloMosaic
open Cert.ReferenceIdeal
open Cert.ReferenceIdeal.Facts₀

variable [Cert.ReferenceIdeal.Facts₀]

/-- Segment sums of the node rows over the graphs, segment counts, the mean per graph, and the two affine maps
    that follow: the 64 × 128 array the final head normalizes. -/
def refPool (h3 : FVec Ideal S10000x256 .f32) (batch : IVec S10000 32) (Wp : FVec Ideal S256x256 .f32)
    (bp1 : FVec Ideal S1x256 .f32) (Wc1 : FVec Ideal S256x128 .f32) (bc11 : FVec Ideal S1x128 .f32) :
    FVec Ideal S64x128 .f32 :=
  let sums : FVec Ideal S64x256 .f32 :=
    Host.scatterAdd (F := Ideal) scatter_S64x256_S10000x1_S10000x256_1_0_0_1
      (broadcastInDim S64x256 ![] bcast_S_S64x256 (constant (F := Ideal) S_ .f32 0x00000000#32))
      (broadcastInDim S10000x1 ![0] bcast_S10000_S10000x1_0 batch) h3
  let counts : FVec Ideal S64x1 .f32 :=
    Host.scatterAdd (F := Ideal) scatter_S64x1_S10000x1_S10000x1_1_0_0_1
      (broadcastInDim S64x1 ![] bcast_S_S64x1 (constant (F := Ideal) S_ .f32 0x00000000#32))
      (broadcastInDim S10000x1 ![0] bcast_S10000_S10000x1_0 batch)
      (broadcastInDim S10000x1 ![] bcast_S_S10000x1 (constant (F := Ideal) S_ .f32 0x3F800000#32))
  let denom : FVec Ideal S64x1 .f32 :=
    maximumf counts (broadcastInDim S64x1 ![] bcast_S_S64x1 (constant (F := Ideal) S_ .f32 0x3F800000#32))
  let pooled : FVec Ideal S64x256 .f32 :=
    Host.divf (F := Ideal) sums (broadcastInDim S64x256 ![0, 1] bcast_S64x1_S64x256_0_1 denom)
  let emb : FVec Ideal S64x256 .f32 :=
    addf (Host.dotGeneral (F := Ideal) dot_S64x256_S256x256_S64x256_1_0_0_1_n_n none pooled Wp)
      (broadcastInDim S64x256 ![0, 1] bcast_S1x256_S64x256_0_1 bp1)
  addf (Host.dotGeneral (F := Ideal) dot_S64x256_S256x128_S64x128_1_0_0_1_n_n none emb Wc1)
    (broadcastInDim S64x128 ![0, 1] bcast_S1x128_S64x128_0_1 bc11)

/-- The final head: centre by the means, divide by the square root of the variances plus the small constant,
    clamp below at zero, then the affine map to two columns. -/
def refHead2 (zz : FVec Ideal S64x128 .f32) (mu var : FVec Ideal S1x128 .f32) (Wc2 : FVec Ideal S128x2 .f32)
    (bc21 : FVec Ideal S1x2 .f32) : FVec Ideal S64x2 .f32 :=
  let centred : FVec Ideal S64x128 .f32 :=
    subf zz (broadcastInDim S64x128 ![0, 1] bcast_S1x128_S64x128_0_1 mu)
  let sd : FVec Ideal S1x128 .f32 :=
    Host.sqrt (F := Ideal)
      (addf var (broadcastInDim S1x128 ![] bcast_S_S1x128 (constant (F := Ideal) S_ .f32 0x3727C5AC#32)))
  let normed : FVec Ideal S64x128 .f32 :=
    Host.divf (F := Ideal) centred (broadcastInDim S64x128 ![0, 1] bcast_S1x128_S64x128_0_1 sd)
  let act : FVec Ideal S64x128 .f32 :=
    maximumf normed (broadcastInDim S64x128 ![] bcast_S_S64x128 (constant (F := Ideal) S_ .f32 0x00000000#32))
  addf (Host.dotGeneral (F := Ideal) dot_S64x128_S128x2_S64x2_1_0_0_1_n_n none act Wc2)
    (broadcastInDim S64x2 ![0, 1] bcast_S1x2_S64x2_0_1 bc21)

end Cert.Bridge

end
-- ==== Proof.PoolMath.lean ====
/-
  Matrix products, segment sums and one-row, one-column layouts on the extended reals.

  (1) A product of an M × K by a K × N matrix, whether accumulated into zeros or taken with no accumulator, read at
      entry (i, j), is the sum over k of lhs (i, k) · rhs (k, j); so the two are the same array.
  (2) Segment sums by a one-hot product. Let batch n be the segment of row n < N, and pad the rows up to N' ≥ N. For a
      segment g, the sum over all N' padded rows of onehot (g, n) · f (n), where onehot (g, n) is 1 when the padded
      segment word of row n is g and 0 otherwise, is the sum of f over the rows n < N with batch n = g: 0 · x = 0 and
      1 · x = x hold for every extended real, and the padded rows contribute zero.
  (3) A scatter-add of rows (update row n goes to the operand row named by the n-th index word, read signed and not
      clamped; a row landing outside the operand contributes nothing), read at (g, c), is the operand there plus the
      sum over the rows whose index word is g of the update at column c.
  (4) A 32-bit word is the word of g < 64 exactly when it reads g as a signed integer.
-/
import Idealize.ShloMosaic.PureOps.Ideal.Laws
import Idealize.ShloMosaic.Lib.ValueIdx
import Idealize.ShloMosaic.Lib.ValueLayout

noncomputable section

namespace Cert.PoolMath

open Idealize.ShloMosaic Idealize.ShloMosaic.ValueIdx

/-! ## Products -/

/-- The operand indices of the plain M × K by K × N product at output (i, j) and contraction position k are
    (i, k) and (k, j). -/
theorem plain_idx (M K N : Nat) (i : Fin M) (j : Fin N) (k : Fin K) :
    (DotDims.plain M K N).lhsIdx (ix2 i j) ((contrEquiv1 (DotDims.plain M K N) K rfl rfl).symm k) = ix2 i k
    ∧ (DotDims.plain M K N).rhsIdx (ix2 i j) ((contrEquiv1 (DotDims.plain M K N) K rfl rfl).symm k) = ix2 k j := by
  have hk := contrEquiv1_symm_val (DotDims.plain M K N) K rfl rfl k
  refine ⟨funext fun a => Fin.ext ?_, funext fun a => Fin.ext ?_⟩
  · match a with
    | ⟨0, _⟩ => rfl
    | ⟨1, _⟩ => exact ((DotDims.plain M K N).lhsIdx_val_of_single rfl _ _).trans hk
  · match a with
    | ⟨0, _⟩ => exact ((DotDims.plain M K N).rhsIdx_val_of_single rfl _ _).trans hk
    | ⟨1, _⟩ => rfl

/-- Entry (i, j) of a product accumulated into zeros. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (i : Fin M) (j : Fin N) :
    FloatOps.matmul d prec lhs rhs (constant ⟨2, ![M, N]⟩ .f32 0x00000000#32) (ix2 i j)
      = ∑ k : Fin K, lhs (ix2 i k) * rhs (ix2 k j) := by
  subst hd
  rw [Ideal.matmul_constant_zero_apply, ← Equiv.sum_comp (contrEquiv1 (DotDims.plain M K N) K rfl rfl).symm]
  refine Finset.sum_congr rfl fun k _ => ?_
  rw [(plain_idx M K N i j k).1, (plain_idx M K N i j k).2]

/-- Entry (i, j) of a product taken with no accumulator. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (i : Fin M) (j : Fin N) :
    FloatOps.dotGeneral d prec sched lhs rhs (ix2 i j) = ∑ k : Fin K, lhs (ix2 i k) * rhs (ix2 k j) := by
  subst hd
  rw [Ideal.dotGeneral_apply, ← Equiv.sum_comp (contrEquiv1 (DotDims.plain M K N) K rfl rfl).symm]
  refine Finset.sum_congr rfl fun k _ => ?_
  rw [(plain_idx M K N i j k).1, (plain_idx M K N i j k).2]

/-- So the product accumulated into zeros is the product with no accumulator, whatever the precision marks. -/
theorem matmul_zero_eq_dotGeneral {M K N : Nat} {φ₁ φ₂ : FTy} (d d' : DotDims ⟨2, ![M, K]⟩ ⟨2, ![K, N]⟩ ⟨2, ![M, N]⟩)
    (hd : d = DotDims.plain M K N) (hd' : d' = DotDims.plain M K N) (prec prec' : Option ContractPrecision)
    (sched : HostSchedule) (lhs : FVec Ideal ⟨2, ![M, K]⟩ φ₁) (rhs : FVec Ideal ⟨2, ![K, N]⟩ φ₂) :
    FloatOps.matmul d prec lhs rhs (constant ⟨2, ![M, N]⟩ .f32 0x00000000#32)
      = FloatOps.dotGeneral d' prec' sched lhs rhs := by
  funext q
  obtain ⟨i, j, rfl⟩ : ∃ (i : Fin M) (j : Fin N), q = ix2 i j := ⟨q 0, q 1, eq_ix2 q⟩
  rw [matmul_zero_apply d hd, dotGeneral_apply d' hd']

/-! ## One row or one column laid over a matrix, a vector stood up as a column -/

section Layout
variable {α : Type}

/-- An `[a, 1]` array broadcast to `[a, b]` reads, at (p, c), the operand's column entry at p. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a, 1]` array to `[a, b]` reads the same. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` array to `[a, b]` reads, at (p, c), the row's entry at c. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The two ways of laying one row over a matrix agree. -/
theorem broadcastTo_row_eq {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ ![0, 1]) :
    broadcastTo ⟨2, ![a, b]⟩ v h = broadcastInDim ⟨2, ![a, b]⟩ ![0, 1] h' v := by
  funext q
  obtain ⟨p, c, rfl⟩ : ∃ (p : Fin a) (c : Fin b), q = ix2 p c := ⟨q 0, q 1, eq_ix2 q⟩
  rw [broadcastTo_1b_ab_apply, broadcastInDim_row_apply]

/-- The two ways of laying one column over a matrix agree. -/
theorem broadcastTo_col_eq {a b : ℕ} (v : (⟨2, ![a, 1]⟩ : Shape).Idx → α)
    (h : (⟨2, ![a, 1]⟩ : Shape).Broadcasts ⟨2, ![a, b]⟩)
    (h' : (⟨2, ![a, 1]⟩ : Shape).BroadcastsInDim ⟨2, ![a, b]⟩ ![0, 1]) :
    broadcastTo ⟨2, ![a, b]⟩ v h = broadcastInDim ⟨2, ![a, b]⟩ ![0, 1] h' v := by
  funext q
  obtain ⟨p, c, rfl⟩ : ∃ (p : Fin a) (c : Fin b), q = ix2 p c := ⟨q 0, q 1, eq_ix2 q⟩
  rw [broadcastTo_col_apply, broadcastInDim_col_apply]

/-- An `[a]` array cast to `[a, 1]` reads, at (p, 0), the operand at p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    rw [Nat.mul_one, Nat.add_zero])

/-- An `[n]` array of words made an `[n, 1]` column by the host reads, at (p, 0), the operand at p. -/
theorem broadcastInDim_a_a1_apply {a : ℕ} (x : (⟨1, ![a]⟩ : Shape).Idx → α)
    (h : (⟨1, ![a]⟩ : Shape).BroadcastsInDim ⟨2, ![a, 1]⟩ ![0]) (p : Fin a) :
    broadcastInDim ⟨2, ![a, 1]⟩ ![0] h x (ix2 p (0 : Fin 1)) = x (ix1 p) := by
  refine broadcastInDim_apply ![0] h x (ix2 p (0 : Fin 1)) (ix1 p) fun ax => ?_
  match ax with
  | ⟨0, _⟩ =>
    show p.val = if a = 1 then 0 else p.val
    split
    · have := p.isLt; omega
    · rfl

end Layout

/-! ## Segment sums by a one-hot product -/

/-- A sum over the first N' naturals of a function vanishing from N on is the sum over the first N. -/
theorem sum_pad {N N' : ℕ} (hN : N ≤ N') (F : ℕ → EReal) (hF : ∀ n, N ≤ n → F n = 0) :
    ∑ n : Fin N', F n.val = ∑ n : Fin N, F n.val := by
  rw [Fin.sum_univ_eq_sum_range (fun n => F n) N', Fin.sum_univ_eq_sum_range (fun n => F n) N]
  exact (Finset.sum_subset (Finset.range_mono hN) (fun n _ hn => hF n (by simpa using hn))).symm

/-- The one-hot product is the segment sum: see (2) in the header. The padded rows are asked to contribute zero
    (`hz`): either their value is zero or their segment word is not g. -/
theorem onehot_sum {N N' : ℕ} (hN : N ≤ N') (g : BitVec 32) (bpad : Fin N' → BitVec 32) (fpad : Fin N' → EReal)
    (batch : Fin N → BitVec 32) (f : Fin N → EReal)
    (hb : ∀ (n : Fin N') (h : n.val < N), bpad n = batch ⟨n.val, h⟩)
    (hf : ∀ (n : Fin N') (h : n.val < N), fpad n = f ⟨n.val, h⟩)
    (hz : ∀ n : Fin N', N ≤ n.val → (if bpad n = g then (1 : EReal) else 0) * fpad n = 0) :
    ∑ n : Fin N', (if bpad n = g then (1 : EReal) else 0) * fpad n
      = ∑ n ∈ Finset.univ.filter (fun n : Fin N => batch n = g), f n := by
  let F : ℕ → EReal := fun n => if h : n < N then (if batch ⟨n, h⟩ = g then (1 : EReal) else 0) * f ⟨n, h⟩ else 0
  have h1 : ∀ n : Fin N', (if bpad n = g then (1 : EReal) else 0) * fpad n = F n.val := by
    intro n
    by_cases h : n.val < N
    · simp only [F, dif_pos h, hb n h, hf n h]
    · simp only [F, dif_neg h]; exact hz n (not_lt.mp h)
  have h2 : ∀ n : Fin N, F n.val = if batch n = g then f n else 0 := by
    intro n
    simp only [F, dif_pos n.isLt, Fin.eta]
    split_ifs <;> simp
  rw [Finset.sum_congr rfl fun n _ => h1 n, sum_pad hN F (fun n hn => by simp only [F, dif_neg (not_lt.mpr hn)]),
    Finset.sum_congr rfl fun n _ => h2 n, Finset.sum_filter]

/-! ## Words of small segment numbers -/

theorem toInt_small (g : Fin 64) : (BitVec.ofNat 32 g.val).toInt = (g.val : ℤ) := by
  revert g; decide

/-- A word is the word of g < 64 exactly when, read signed, it is g. -/
theorem eq_ofNat_iff (x : BitVec 32) (g : Fin 64) : x = BitVec.ofNat 32 g.val ↔ x.toInt = (g.val : ℤ) := by
  constructor
  · rintro rfl; exact toInt_small g
  · intro h; exact BitVec.eq_of_toInt_eq (h.trans (toInt_small g).symm)

/-- The word 64 is the word of no g < 64. -/
theorem pad_ne (g : Fin 64) : (64#32 : BitVec 32) ≠ BitVec.ofNat 32 g.val := by
  revert g; decide

/-! ## A scatter-add of rows -/

section Scatter
variable {G N C : ℕ} (wf : ScatterDims.WF ⟨2, ![G, C]⟩ ⟨2, ![N, 1]⟩ ⟨2, ![N, C]⟩ [1] [0] [0] 1)

/-- The record of a scatter of rows: update (n, c) goes to the row named by index word (n, 0), column c. -/
def rs : ScatterDims ⟨2, ![G, C]⟩ ⟨2, ![N, 1]⟩ ⟨2, ![N, C]⟩ := ⟨[1], [0], [0], 1, wf⟩

theorem rs_start0 {w : ℕ} (n : Fin N) (c : Fin C) (idx : IVec ⟨2, ![N, 1]⟩ w) :
    (rs wf).start (ix2 n c) idx 0 = (idx (ix2 n (0 : Fin 1))).toInt := by
  unfold ScatterDims.start
  rw [dif_pos (show (0 : Fin 2) ∈ (rs wf).scatterDimsToOperandDims from List.mem_singleton_self _)]
  congr 2
  funext b
  apply Fin.ext
  match b with
  | ⟨0, _⟩ => rfl
  | ⟨1, _⟩ => rfl

theorem rs_start1 {w : ℕ} (n : Fin N) (c : Fin C) (idx : IVec ⟨2, ![N, 1]⟩ w) :
    (rs wf).start (ix2 n c) idx 1 = 0 := by
  unfold ScatterDims.start
  rw [dif_neg (show (1 : Fin 2) ∉ (rs wf).scatterDimsToOperandDims from fun h =>
    Nat.one_ne_zero (congrArg Fin.val (List.mem_singleton.mp h)))]

theorem rs_window0 (n : Fin N) (c : Fin C) : (rs wf).window (ix2 n c) 0 = 0 := by
  unfold ScatterDims.window
  rw [dif_neg (show (0 : Fin 2) ∉ (rs wf).sKept from fun h =>
    Nat.one_ne_zero (congrArg Fin.val (List.mem_singleton.mp h)).symm)]

theorem rs_window1 (n : Fin N) (c : Fin C) : (rs wf).window (ix2 n c) 1 = c.val := by
  unfold ScatterDims.window
  rw [dif_pos (show (1 : Fin 2) ∈ (rs wf).sKept from List.mem_singleton_self _)]
  rfl

theorem rs_resultIdx {w : ℕ} (n : Fin N) (c : Fin C) (idx : IVec ⟨2, ![N, 1]⟩ w) (g : Fin G) (c' : Fin C) :
    (rs wf).resultIdx? (ix2 n c) idx = some (ix2 g c')
      ↔ (idx (ix2 n (0 : Fin 1))).toInt = (g.val : ℤ) ∧ c = c' := by
  have s0 := rs_start0 wf n c idx
  have s1 := rs_start1 wf n c idx
  have w0 := rs_window0 wf n c
  have w1 := rs_window1 wf n c
  have hG : (⟨2, ![G, C]⟩ : Shape).size 0 = G := rfl
  have hC : (⟨2, ![G, C]⟩ : Shape).size 1 = C := rfl
  have hg := g.isLt
  have hc := c.isLt
  have hc' := c'.isLt
  unfold ScatterDims.resultIdx?
  split
  · rename_i h
    have h0 := h 0
    have h1 := h 1
    rw [s0, w0, hG] at h0
    rw [s1, w1, hC] at h1
    constructor
    · intro e
      have e' := Option.some.inj e
      have e0 : ((rs wf).start (ix2 n c) idx 0 + ((rs wf).window (ix2 n c) 0 : ℕ)).toNat = g.val :=
        congrArg (fun q => (q 0).val) e'
      have e1 : ((rs wf).start (ix2 n c) idx 1 + ((rs wf).window (ix2 n c) 1 : ℕ)).toNat = c'.val :=
        congrArg (fun q => (q 1).val) e'
      rw [s0, w0] at e0
      rw [s1, w1] at e1
      exact ⟨by omega, Fin.ext (by omega)⟩
    · rintro ⟨hgi, rfl⟩
      refine congrArg some (funext fun a => Fin.ext ?_)
      match a with
      | ⟨0, _⟩ =>
        show ((rs wf).start (ix2 n c) idx 0 + ((rs wf).window (ix2 n c) 0 : ℕ)).toNat = g.val
        rw [s0, w0]; omega
      | ⟨1, _⟩ =>
        show ((rs wf).start (ix2 n c) idx 1 + ((rs wf).window (ix2 n c) 1 : ℕ)).toNat = c.val
        rw [s1, w1]; omega
  · rename_i h
    constructor
    · intro e; cases e
    · rintro ⟨hgi, rfl⟩
      exfalso
      apply h
      intro a
      match a with
      | ⟨0, _⟩ =>
        show 0 ≤ (rs wf).start (ix2 n c) idx 0 + ((rs wf).window (ix2 n c) 0 : ℕ)
          ∧ (rs wf).start (ix2 n c) idx 0 + ((rs wf).window (ix2 n c) 0 : ℕ) < ((⟨2, ![G, C]⟩ : Shape).size 0 : ℕ)
        rw [s0, w0, hG]; omega
      | ⟨1, _⟩ =>
        show 0 ≤ (rs wf).start (ix2 n c) idx 1 + ((rs wf).window (ix2 n c) 1 : ℕ)
          ∧ (rs wf).start (ix2 n c) idx 1 + ((rs wf).window (ix2 n c) 1 : ℕ) < ((⟨2, ![G, C]⟩ : Shape).size 1 : ℕ)
        rw [s1, w1, hC]; omega

/-- A scatter-add of rows read at (g, c): the operand there plus the sum, over the update rows whose index word,
    read signed, is g, of the update at column c. A row whose index is outside the operand's rows contributes to
    no entry. -/
theorem scatter_rows_apply {w : ℕ} (x : (⟨2, ![G, C]⟩ : Shape).Idx → EReal) (idx : IVec ⟨2, ![N, 1]⟩ w)
    (upd : (⟨2, ![N, C]⟩ : Shape).Idx → EReal) (g : Fin G) (c : Fin C) :
    Ideal.hostScatterAdd (rs wf) x idx upd (ix2 g c)
      = x (ix2 g c) + ∑ n ∈ Finset.univ.filter (fun n : Fin N => (idx (ix2 n (0 : Fin 1))).toInt = (g.val : ℤ)),
          upd (ix2 n c) := by
  unfold Ideal.hostScatterAdd
  refine congrArg (x (ix2 g c) + ·) ?_
  rw [Finset.sum_filter, Finset.sum_filter, sum_idx2]
  refine Finset.sum_congr rfl fun n _ => ?_
  by_cases hg : (idx (ix2 n (0 : Fin 1))).toInt = (g.val : ℤ)
  · rw [if_pos hg]
    simp only [rs_resultIdx wf, hg, true_and]
    rw [Finset.sum_ite_eq' Finset.univ c fun c' => upd (ix2 n c'), if_pos (Finset.mem_univ _)]
  · rw [if_neg hg]
    simp only [rs_resultIdx wf, hg, false_and, if_false, Finset.sum_const_zero]

end Scatter

end Cert.PoolMath

end
-- ==== Proof.HeadR7.lean ====
/-
  The final head. The last kernel region reads the 64 × 128 array of the first head layer, a row of means and a
  row of variances, a 128 × 128 weight matrix whose columns from 2 on are zero and a 1 × 128 bias row whose
  entries from 2 on are zero; it centres, divides by the square root of the variance plus a small constant,
  clamps below at zero, multiplies by the weight matrix and adds the bias row. The host keeps columns 0 and 1.
  Column j < 2 of the product is the sum over k of act (i, k) · W (k, j) with W the unpadded 128 × 2 matrix, and the
  bias entry is the unpadded one: the padded columns never reach the slice. So the slice is the reference's head
  applied to the same three arrays.
-/
import proofs.«138131_g70763881169291_cont_9to1c4b_616_12_alg».proof.Proof.Gen.KernelIdeal.Frame
import proofs.«138131_g70763881169291_cont_9to1c4b_616_12_alg».proof.Proof.RefPoolDef
import proofs.«138131_g70763881169291_cont_9to1c4b_616_12_alg».proof.Proof.PoolMath
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

open Idealize.ShloMosaic Idealize.ShloMosaic.TcCoe Idealize.SL.Sem
open Idealize.ShloMosaic.Pipeline (Dat)
open Idealize.ShloMosaic.ValueIdx

namespace Cert.Bridge

open Cert.KernelIdeal

/-- Both offsets of a whole-array access are zero. -/
theorem head_zero_offsets : (![0, 0] : Fin 2 → Nat) = fun _ => 0 := funext fun a => by fin_cases a <;> rfl

/-! ## The region's output array is the body's arithmetic on the arrays it reads

The region has one grid point and every window's block is its whole array: each input block is the array, the one
store writes the whole staging buffer, and the one write-back writes the whole output array. -/

section Array
variable {F : FTy → Type} [FloatOps F]
variable (V : (c : Dev nD) → (b : Ref sig .tc) → Buf (Elt F) ((c : Thread nD τ).loc b))

theorem head_iblk7_0 (c : Dev nD) (t : Fin cfg7.N) : Gen.iblk7 V c 0 t = V c (Pipeline.arrRef spec7 0) := by
  unfold Gen.iblk7
  have hz' : (fun a => win7_0.index t a * main_v121.ty.shape.size a) = fun _ => 0 := funext fun a => Nat.zero_mul _
  exact Memref.read_access_unit_zero (Elt F) main_v121 hz' (fun a => by rw [congrFun hz' a]; simp) _

theorem head_iblk7_1 (c : Dev nD) (t : Fin cfg7.N) : Gen.iblk7 V c 1 t = V c (Pipeline.arrRef spec7 1) := by
  unfold Gen.iblk7
  have hz' : (fun a => win7_1.index t a * main_v125.ty.shape.size a) = fun _ => 0 := funext fun a => Nat.zero_mul _
  exact Memref.read_access_unit_zero (Elt F) main_v125 hz' (fun a => by rw [congrFun hz' a]; simp) _

theorem head_iblk7_2 (c : Dev nD) (t : Fin cfg7.N) : Gen.iblk7 V c 2 t = V c (Pipeline.arrRef spec7 2) := by
  unfold Gen.iblk7
  have hz' : (fun a => win7_2.index t a * main_v126.ty.shape.size a) = fun _ => 0 := funext fun a => Nat.zero_mul _
  exact Memref.read_access_unit_zero (Elt F) main_v126 hz' (fun a => by rw [congrFun hz' a]; simp) _

theorem head_iblk7_3 (c : Dev nD) (t : Fin cfg7.N) : Gen.iblk7 V c 3 t = V c (Pipeline.arrRef spec7 3) := by
  unfold Gen.iblk7
  have hz' : (fun a => win7_3.index t a * main_v17.ty.shape.size a) = fun _ => 0 := funext fun a => Nat.zero_mul _
  exact Memref.read_access_unit_zero (Elt F) main_v17 hz' (fun a => by rw [congrFun hz' a]; simp) _

theorem head_iblk7_4 (c : Dev nD) (t : Fin cfg7.N) : Gen.iblk7 V c 4 t = V c (Pipeline.arrRef spec7 4) := by
  unfold Gen.iblk7
  have hz' : (fun a => win7_4.index t a * main_v22.ty.shape.size a) = fun _ => 0 := funext fun a => Nat.zero_mul _
  exact Memref.read_access_unit_zero (Elt F) main_v22 hz' (fun a => by rw [congrFun hz' a]; simp) _

/-- The output array when the region is left: the body's one payload of the five arrays it reads. -/
theorem arr7 (c : Dev nD) : (Gen.dat7 V c).arrAt 5 cfg7.N
    = Gen.k7_pay1 (V c (Pipeline.arrRef spec7 0)) (V c (Pipeline.arrRef spec7 1)) (V c (Pipeline.arrRef spec7 2))
        (V c (Pipeline.arrRef spec7 3)) (V c (Pipeline.arrRef spec7 4)) := by
  refine (Gen.dat7 V c).arrAt_eq_of_cover 5 _ (fun t _ => ?_) (fun i => ⟨Gen.t7_0, Gen.flush7_5 _, ?_⟩)
  · show (cfg7.win 5).cut (cfg7.grid.coords t) ((Gen.dat7 V c).after 5 t) = _
    rw [Gen.after7_5]
    unfold Gen.out7_5
    rw [View.canon_unit_zero head_zero_offsets]
    simp only [View.ld_unit_zero (S := S64x128) head_zero_offsets, View.ld_unit_zero (S := S1x128) head_zero_offsets,
      View.ld_unit_zero (S := S128x128) head_zero_offsets]
    rw [head_iblk7_0, head_iblk7_1, head_iblk7_2, head_iblk7_3, head_iblk7_4]
    have hz' : (fun a => win7_5.index t a * main_v127.ty.shape.size a) = fun _ => 0 := funext fun a => Nat.zero_mul _
    exact (Memref.read_access_unit_zero (Elt F) main_v127 hz' (fun a => by rw [congrFun hz' a]; simp) _).symm
  · show i ∈ ((View.whole main_v127).slice (win7_5.rect Gen.t7_0)).set
    rw [View.set_slice_whole, Rect.mem_set_unit]
    intro a
    rw [show win7_5.index Gen.t7_0 a = 0 from rfl, Nat.zero_mul, Nat.zero_add]
    exact ⟨Nat.zero_le _, (i a).isLt⟩
end Array

/-! ## The head at an entry -/

section Head
variable [Cert.ReferenceIdeal.Facts₀]

/-- The host's slice of columns 0 and 1 of the region's output. -/
def sliceK (o : FVec Ideal S64x128 .f32) : FVec Ideal S64x2 .f32 :=
  extractStridedSlice S64x2 ![0, 0] o Facts₀.slices_S64x128_S64x2_0_0

/-- Entry (i, l) of the normalized and clamped array: (zz (i, l) − mu (l)) / sqrt (var (l) + the small constant),
    raised to at least zero. -/
def head_actAt (x0 : FVec Ideal S64x128 .f32) (x1 x2 : FVec Ideal S1x128 .f32) (i : Fin 64) (l : Fin 128) : Ideal .f32 :=
  max (Ideal.div (x0 (ix2 i l) - x1 (ix2 (0 : Fin 1) l))
        (Ideal.sqrt (x2 (ix2 (0 : Fin 1) l) + Ideal.ofBits .f32 0x3727C5AC#32)))
    (Ideal.ofBits .f32 0x00000000#32)

theorem head_hostDivf_apply {s : Shape} {φ : FTy} (a b : FVec Ideal s φ) (q : s.Idx) :
    Host.divf a b q = Ideal.div (a q) (b q) := rfl

theorem head_hostSqrt_apply {s : Shape} {φ : FTy} (a : FVec Ideal s φ) (q : s.Idx) :
    Host.sqrt a q = Ideal.sqrt (a q) := rfl

theorem head_sqrt_apply {s : Shape} {φ : FTy} (a : FVec Ideal s φ) (q : s.Idx) : sqrt a q = Ideal.sqrt (a q) := rfl

/-- The kernel body's payload at entry (i, k): the product row by column of the normalized array with the padded
    weights, plus the padded bias entry. -/
theorem head_kernel_at (x0 : FVec Ideal S64x128 .f32) (x1 x2 : FVec Ideal S1x128 .f32) (x3 : FVec Ideal S128x128 .f32)
    (x4 : FVec Ideal S1x128 .f32) (i : Fin 64) (k : Fin 128) :
    Gen.k7_pay1 (F := Ideal) x0 x1 x2 x3 x4 (ix2 i k)
      = (∑ l : Fin 128, head_actAt x0 x1 x2 i l * x3 (ix2 l k)) + x4 (ix2 (0 : Fin 1) k) := by
  unfold Gen.k7_pay1
  simp only [shapeCast_self]
  rw [addf_apply, broadcastTo_1b_ab_apply]
  refine congrArg₂ (· + ·) ?_ rfl
  refine (PoolMath.matmul_zero_apply _ rfl none _ _ i k).trans ?_
  refine Finset.sum_congr rfl fun l _ => ?_
  refine congrArg₂ (· * ·) ?_ rfl
  rw [maximumf_apply, divf_apply, subf_apply, broadcastTo_1b_ab_apply, broadcastTo_1b_ab_apply, head_sqrt_apply,
    addf_apply]
  rfl

/-- The reference's head at entry (i, j): the same product with the unpadded weights, plus the bias entry. -/
theorem head_ref_at (x0 : FVec Ideal S64x128 .f32) (x1 x2 : FVec Ideal S1x128 .f32)
    (Wc2 : FVec Ideal Cert.ReferenceIdeal.S128x2 .f32) (bc21 : FVec Ideal Cert.ReferenceIdeal.S1x2 .f32)
    (i : Fin 64) (j : Fin 2) :
    refHead2 x0 x1 x2 Wc2 bc21 (ix2 i j)
      = (∑ l : Fin 128, head_actAt x0 x1 x2 i l * Wc2 (ix2 l j)) + bc21 (ix2 (0 : Fin 1) j) := by
  unfold refHead2
  dsimp only
  rw [addf_apply, broadcastInDim_oneRow_apply]
  refine congrArg₂ (· + ·) ?_ rfl
  refine (PoolMath.dotGeneral_apply _ rfl none .single _ _ i j).trans ?_
  refine Finset.sum_congr rfl fun l _ => ?_
  refine congrArg₂ (· * ·) ?_ rfl
  rw [maximumf_apply, head_hostDivf_apply, subf_apply, broadcastInDim_oneRow_apply, broadcastInDim_oneRow_apply,
    head_hostSqrt_apply, addf_apply]
  rfl

/-- The sliced kernel payload is the reference's head, when the weight matrix and the bias row the region reads are
    the reference's padded with zeros from column 2 on. -/
theorem head_core (x0 : FVec Ideal S64x128 .f32) (x1 x2 : FVec Ideal S1x128 .f32) (x3 : FVec Ideal S128x128 .f32)
    (x4 : FVec Ideal S1x128 .f32)
    (Wc2 : FVec Ideal Cert.ReferenceIdeal.S128x2 .f32) (bc21 : FVec Ideal Cert.ReferenceIdeal.S1x2 .f32)
    (hW : ∀ (k : Fin 128) (j : Fin 128), x3 (ix2 k j) = if h : j.val < 2 then Wc2 (ix2 k ⟨j.val, h⟩) else 0)
    (hB : ∀ j : Fin 128, x4 (ix2 (0 : Fin 1) j) = if h : j.val < 2 then bc21 (ix2 (0 : Fin 1) ⟨j.val, h⟩) else 0) :
    sliceK (Gen.k7_pay1 x0 x1 x2 x3 x4) = refHead2 x0 x1 x2 Wc2 bc21 := by
  funext q
  obtain ⟨i, j, rfl⟩ : ∃ (i : Fin 64) (j : Fin 2), q = ix2 i j := ⟨q 0, q 1, eq_ix2 q⟩
  have hj : j.val < 128 := lt_of_lt_of_le j.isLt (by decide)
  have hj2 : (⟨j.val, hj⟩ : Fin 128).val < 2 := j.isLt
  unfold sliceK
  rw [slice2_axis1_apply 0 _ _ i j ⟨j.val, hj⟩ (Nat.zero_add _).symm, head_kernel_at, head_ref_at, hB, dif_pos hj2]
  refine congrArg₂ (· + ·) (Finset.sum_congr rfl fun l _ => ?_) rfl
  rw [hW, dif_pos hj2]

/-- Region 7 and the host's slice after it give the reference's head of the arrays the region reads. -/
theorem head_7 (V : (c : Dev nD) → (b : Ref sig .tc) → Buf (Elt Ideal) ((c : Thread nD τ).loc b)) (c : Dev nD)
    (Wc2 : FVec Ideal Cert.ReferenceIdeal.S128x2 .f32) (bc21 : FVec Ideal Cert.ReferenceIdeal.S1x2 .f32)
    (hW : ∀ (k : Fin 128) (j : Fin 128), V c (Pipeline.arrRef spec7 3) (ix2 k j)
      = if h : j.val < 2 then Wc2 (ix2 k ⟨j.val, h⟩) else 0)
    (hB : ∀ j : Fin 128, V c (Pipeline.arrRef spec7 4) (ix2 (0 : Fin 1) j)
      = if h : j.val < 2 then bc21 (ix2 (0 : Fin 1) ⟨j.val, h⟩) else 0) :
    sliceK ((Gen.dat7 (F := Ideal) V c).arrAt 5 cfg7.N)
      = refHead2 (V c (Pipeline.arrRef spec7 0)) (V c (Pipeline.arrRef spec7 1)) (V c (Pipeline.arrRef spec7 2))
          Wc2 bc21 := by
  rw [arr7]
  exact head_core _ _ _ _ _ Wc2 bc21 hW hB
end Head

end Cert.Bridge

end
-- ==== Proof.HostPads.lean ====
/-
  Three arrays the host pads before the kernels read them: a 128 × 2 weight matrix written into the first two
  columns of a 128 × 128 matrix of zeros, a bias of two entries written into the first two entries of a row of
  128 zeros, and a vector of 10000 integers written into the first 10000 entries of a row of 10240 entries all
  equal to 64. Each is a scatter of the small array into the constant one at start indices all zero: the small
  array's entries land one to one on the leading entries, and every other entry keeps the constant.
-/
import proofs.«138131_g70763881169291_cont_9to1c4b_616_12_alg».proof.Proof.Gen.KernelIdeal
import Idealize.ShloMosaic.Lib.ValueLayout
import Idealize.ShloMosaic.PureOps.Ideal.Laws

noncomputable section

namespace Cert.Bridge

open Idealize.ShloMosaic Idealize.ShloMosaic.ValueIdx
open Cert.KernelIdeal Cert.KernelIdeal.Gen

/-! ## A left fold of writes, read at one place -/

/-- A fold of steps none of which touches what `rd` reads leaves it as it was. -/
theorem foldl_read_of_miss {ι σ β : Type} (step : σ → ι → σ) (rd : σ → β) (P : ι → Prop)
    (hmiss : ∀ r n, ¬P n → rd (step r n) = rd r) :
    ∀ (L : List ι) (x : σ), (∀ n ∈ L, ¬P n) → rd (L.foldl step x) = rd x
  | [], _, _ => rfl
  | n :: L, x, h => by
    rw [List.foldl_cons, foldl_read_of_miss step rd P hmiss L (step x n) fun n' hn' => h n' (List.mem_cons_of_mem _ hn')]
    exact hmiss x n (h n List.mem_cons_self)

/-- A fold of steps exactly one of which writes what `rd` reads leaves what that step wrote. -/
theorem foldl_read_of_hit {ι σ β : Type} (step : σ → ι → σ) (rd : σ → β) (P : ι → Prop) (v : ι → β)
    (hmiss : ∀ r n, ¬P n → rd (step r n) = rd r) (hhit : ∀ r n, P n → rd (step r n) = v n) :
    ∀ (L : List ι) (x : σ) (n₀ : ι), L.Nodup → n₀ ∈ L → P n₀ → (∀ n ∈ L, P n → n = n₀) → rd (L.foldl step x) = v n₀
  | [], _, _, _, hm, _, _ => absurd hm List.not_mem_nil
  | n :: L, x, n₀, hnd, hm, hP, hu => by
    rw [List.foldl_cons]
    by_cases hn : n = n₀
    · subst hn
      rw [foldl_read_of_miss step rd P hmiss L (step x n) fun n' hn' hPn' =>
        (List.nodup_cons.mp hnd).1 (hu n' (List.mem_cons_of_mem _ hn') hPn' ▸ hn')]
      exact hhit x n hP
    · have hm' : n₀ ∈ L := by
        rcases List.mem_cons.mp hm with h | h
        · exact absurd h.symm hn
        · exact h
      exact foldl_read_of_hit step rd P v hmiss hhit L (step x n) n₀ (List.nodup_cons.mp hnd).2 hm' hP
        fun n' hn' => hu n' (List.mem_cons_of_mem _ hn')

/-! ## A scatter that sets, read at one index -/

section Scatter
variable {s si u : Shape} {w : Nat} {α : Type}

/-- An index no update lands on keeps the operand's element. -/
theorem scatter_set_of_miss (d : ScatterDims s si u) (x : s.Idx → α) (idx : IVec si w) (upd : u.Idx → α) (i : s.Idx)
    (hmiss : ∀ j, d.resultIdx? j idx ≠ some i) :
    Host.scatter d (fun _ b => b) x idx upd i = x i := by
  unfold Host.scatter
  refine foldl_read_of_miss _ (fun r : s.Idx → α => r i) (fun n => d.resultIdx? (u.rowMajor.symm n) idx = some i)
    (fun r n hn => ?_) _ x fun n _ => hmiss _
  dsimp only
  cases h₀ : d.resultIdx? (u.rowMajor.symm n) idx with
  | none => rfl
  | some i₀ => exact if_neg fun e : i = i₀ => hn (by rw [h₀, e])

/-- An index exactly one update lands on holds that update. -/
theorem scatter_set_of_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  have key := foldl_read_of_hit
    (fun (r : s.Idx → α) (n : Fin u.numel) =>
      match d.resultIdx? (u.rowMajor.symm n) idx with
      | some i₀ => fun i' => if i' = i₀ then (fun _ b => b) (r i₀) (upd (u.rowMajor.symm n)) else r i'
      | none => r)
    (fun r : s.Idx → α => r i) (fun n => d.resultIdx? (u.rowMajor.symm n) idx = some i)
    (fun n => upd (u.rowMajor.symm n))
    (fun r n hn => by
      dsimp only
      cases h₀ : d.resultIdx? (u.rowMajor.symm n) idx with
      | none => rfl
      | some i₀ => exact if_neg fun e : i = i₀ => hn (by rw [h₀, e]))
    (fun r n hn => by
      dsimp only at hn ⊢
      cases h₀ : d.resultIdx? (u.rowMajor.symm n) idx with
      | none => rw [h₀] at hn; exact nomatch hn
      | some i₀ =>
        rw [h₀] at hn
        exact if_pos (Option.some.inj hn).symm)
    (List.finRange u.numel) x (u.rowMajor j) (List.nodup_finRange _) (List.mem_finRange _)
    (by show d.resultIdx? (u.rowMajor.symm (u.rowMajor j)) idx = some i; rw [Equiv.symm_apply_apply]; exact hj)
    (fun n _ hn => by
      have := huniq _ hn
      rw [← this, Equiv.apply_symm_apply])
  rw [Equiv.symm_apply_apply] at key
  exact key

end Scatter

/-! ## The padded second head weight: 128 × 2 into the first two columns of 128 × 128 zeros -/

/-- Where the update entry (p, q) lands when the one start index is zero: at (p, q). -/
theorem resWc2 (idx : IVec S1 32) (hidx : ∀ k, idx k = 0#32) (p : Fin 128) (q : Fin 2) :
    scatter_S128x128_S1_S128x2_01_n_1_0.resultIdx? (ix2 p q) idx = some (ix2 p ⟨q.val, by omega⟩) := by
  have hs : ∀ a, scatter_S128x128_S1_S128x2_01_n_1_0.start (ix2 p q) idx a = 0 := fun a => by
    unfold ScatterDims.start
    split
    · rw [hidx]; rfl
    · rfl
  have hw0 : scatter_S128x128_S1_S128x2_01_n_1_0.window (ix2 p q) 0 = p.val := rfl
  have hw1 : scatter_S128x128_S1_S128x2_01_n_1_0.window (ix2 p q) 1 = q.val := rfl
  have hin : ∀ a, 0 ≤ scatter_S128x128_S1_S128x2_01_n_1_0.start (ix2 p q) idx a + scatter_S128x128_S1_S128x2_01_n_1_0.window (ix2 p q) a
      ∧ scatter_S128x128_S1_S128x2_01_n_1_0.start (ix2 p q) idx a + scatter_S128x128_S1_S128x2_01_n_1_0.window (ix2 p q) a < S128x128.size a := fun a => by
    rw [hs a]
    match a with
    | ⟨0, _⟩ => rw [show scatter_S128x128_S1_S128x2_01_n_1_0.window (ix2 p q) ⟨0, by decide⟩ = p.val from hw0]; show (0 : Int) ≤ 0 + (p.val : Int) ∧ 0 + (p.val : Int) < (128 : Nat); have := p.isLt; omega
    | ⟨1, _⟩ => rw [show scatter_S128x128_S1_S128x2_01_n_1_0.window (ix2 p q) ⟨1, by decide⟩ = q.val from hw1]; show (0 : Int) ≤ 0 + (q.val : Int) ∧ 0 + (q.val : Int) < (128 : Nat); have := q.isLt; omega
  unfold ScatterDims.resultIdx?
  rw [dif_pos hin]
  refine congrArg some (funext fun a => Fin.ext ?_)
  show (scatter_S128x128_S1_S128x2_01_n_1_0.start (ix2 p q) idx a + scatter_S128x128_S1_S128x2_01_n_1_0.window (ix2 p q) a).toNat = _
  rw [hs a]
  match a with
  | ⟨0, _⟩ => rw [show scatter_S128x128_S1_S128x2_01_n_1_0.window (ix2 p q) ⟨0, by decide⟩ = p.val from hw0]; show ((0 : Int) + (p.val : Int)).toNat = p.val; omega
  | ⟨1, _⟩ => rw [show scatter_S128x128_S1_S128x2_01_n_1_0.window (ix2 p q) ⟨1, by decide⟩ = q.val from hw1]; show ((0 : Int) + (q.val : Int)).toNat = q.val; omega

/-- The second head weight padded with zero columns, as the host builds it. -/
def padWc2 (w : FVec Ideal S128x2 .f32) : FVec Ideal S128x128 .f32 :=
  Host.scatter scatter_S128x128_S1_S128x2_01_n_1_0 (fun _ b => b)
    (broadcastInDim S128x128 ![] bcast_S_S128x128 (constant (F := Ideal) S_ .f32 0x00000000#32))
    (broadcastInDim S1 ![] bcast_S_S1 (constantI S_ 32 0#32)) w

/-- Its entry (k, j): the weight's entry when j is one of the first two columns, zero otherwise. -/
theorem padWc2_apply (w : FVec Ideal S128x2 .f32) (k j : Fin 128) :
    padWc2 w (ix2 k j) = if h : j.val < 2 then w (ix2 k ⟨j.val, h⟩) else 0 := by
  have hidx : ∀ i, (broadcastInDim S1 ![] bcast_S_S1 (constantI S_ 32 0#32) : IVec S1 32) i = 0#32 := fun _ => rfl
  unfold padWc2
  split
  · rename_i h
    refine scatter_set_of_hit _ _ _ w (ix2 k j) (ix2 k ⟨j.val, h⟩) (resWc2 _ hidx k ⟨j.val, h⟩) fun j' hj' => ?_
    obtain ⟨p, q, rfl⟩ : ∃ (p : Fin 128) (q : Fin 2), j' = ix2 p q := ⟨j' 0, j' 1, eq_ix2 j'⟩
    rw [resWc2 _ hidx p q] at hj'
    have e := Option.some.inj hj'
    have e0 : p = k := congrFun e 0
    have e1 : q.val = j.val := congrArg Fin.val (congrFun e 1)
    subst e0
    exact congrArg (ix2 p) (Fin.ext e1)
  · rename_i h
    refine (scatter_set_of_miss _ _ _ w (ix2 k j) fun j' hj' => ?_).trans Ideal.ofBits_zero_f32
    obtain ⟨p, q, rfl⟩ : ∃ (p : Fin 128) (q : Fin 2), j' = ix2 p q := ⟨j' 0, j' 1, eq_ix2 j'⟩
    rw [resWc2 _ hidx p q] at hj'
    have e1 : q.val = j.val := congrArg Fin.val (congrFun (Option.some.inj hj') 1)
    have := q.isLt
    omega

/-! ## The two start indices (0, 0), as the host concatenates them -/

/-- The pair of start indices the host builds by concatenating two zeros is zero at both places. -/
theorem zeroPair (k : S2.Idx) :
    (concatenate S2 0 [⟨S1, (broadcastInDim S1 ![] bcast_S_S1 (constantI S_ 32 0#32) : IVec S1 32)⟩,
      ⟨S1, (broadcastInDim S1 ![] bcast_S_S1 (constantI S_ 32 0#32) : IVec S1 32)⟩] concatenates_S1_S1_S2_d0 : IVec S2 32) k = 0#32 := by
  obtain ⟨q, rfl⟩ : ∃ q : Fin 2, k = ix1 q := ⟨k 0, eq_ix1 k⟩
  match q with
  | ⟨0, h0⟩ =>
    exact (concatenate_pair_apply_left (t := S2) (s₁ := S1) (s₂ := S1) (0 : Fin S2.rank)
      (broadcastInDim S1 ![] bcast_S_S1 (constantI S_ 32 0#32) : IVec S1 32) (broadcastInDim S1 ![] bcast_S_S1 (constantI S_ 32 0#32) : IVec S1 32)
      concatenates_S1_S1_S2_d0 (ix1 (⟨0, h0⟩ : Fin 2)) rfl (ix1 (0 : Fin 1)) (fun b => by match b with | ⟨0, _⟩ => rfl)).trans rfl
  | ⟨1, h1⟩ =>
    exact (concatenate_pair_apply_right (t := S2) (s₁ := S1) (s₂ := S1) (0 : Fin S2.rank)
      (broadcastInDim S1 ![] bcast_S_S1 (constantI S_ 32 0#32) : IVec S1 32) (broadcastInDim S1 ![] bcast_S_S1 (constantI S_ 32 0#32) : IVec S1 32)
      concatenates_S1_S1_S2_d0 (ix1 (⟨1, h1⟩ : Fin 2)) rfl rfl (ix1 (0 : Fin 1))
      (fun b hb => by match b with | ⟨0, _⟩ => exact absurd rfl hb) rfl).trans rfl

/-! ## The padded second head bias: two entries into the first two of a row of 128 zeros -/

/-- Where the update entry q lands when both start indices are zero: at (0, q). -/
theorem resBc2 (idx : IVec S2 32) (hidx : ∀ k, idx k = 0#32) (q : Fin 2) :
    scatter_S1x128_S2_S2_0_0_01_0.resultIdx? (ix1 q) idx = some (ix2 (0 : Fin 1) ⟨q.val, by omega⟩) := by
  have hs : ∀ a, scatter_S1x128_S2_S2_0_0_01_0.start (ix1 q) idx a = 0 := fun a => by
    unfold ScatterDims.start
    split
    · rw [hidx]; rfl
    · rfl
  have hw0 : scatter_S1x128_S2_S2_0_0_01_0.window (ix1 q) 0 = 0 := rfl
  have hw1 : scatter_S1x128_S2_S2_0_0_01_0.window (ix1 q) 1 = q.val := rfl
  have hin : ∀ a, 0 ≤ scatter_S1x128_S2_S2_0_0_01_0.start (ix1 q) idx a + scatter_S1x128_S2_S2_0_0_01_0.window (ix1 q) a
      ∧ scatter_S1x128_S2_S2_0_0_01_0.start (ix1 q) idx a + scatter_S1x128_S2_S2_0_0_01_0.window (ix1 q) a < S1x128.size a := fun a => by
    rw [hs a]
    match a with
    | ⟨0, _⟩ => rw [show scatter_S1x128_S2_S2_0_0_01_0.window (ix1 q) ⟨0, by decide⟩ = 0 from hw0]; show (0 : Int) ≤ 0 + ((0 : Nat) : Int) ∧ 0 + ((0 : Nat) : Int) < (1 : Nat); omega
    | ⟨1, _⟩ => rw [show scatter_S1x128_S2_S2_0_0_01_0.window (ix1 q) ⟨1, by decide⟩ = q.val from hw1]; show (0 : Int) ≤ 0 + (q.val : Int) ∧ 0 + (q.val : Int) < (128 : Nat); have := q.isLt; omega
  unfold ScatterDims.resultIdx?
  rw [dif_pos hin]
  refine congrArg some (funext fun a => Fin.ext ?_)
  show (scatter_S1x128_S2_S2_0_0_01_0.start (ix1 q) idx a + scatter_S1x128_S2_S2_0_0_01_0.window (ix1 q) a).toNat = _
  rw [hs a]
  match a with
  | ⟨0, _⟩ => rw [show scatter_S1x128_S2_S2_0_0_01_0.window (ix1 q) ⟨0, by decide⟩ = 0 from hw0]; show ((0 : Int) + ((0 : Nat) : Int)).toNat = 0; omega
  | ⟨1, _⟩ => rw [show scatter_S1x128_S2_S2_0_0_01_0.window (ix1 q) ⟨1, by decide⟩ = q.val from hw1]; show ((0 : Int) + (q.val : Int)).toNat = q.val; omega

/-- The second head bias padded with zeros, as the host builds it. -/
def padBc2 (b : FVec Ideal S2 .f32) : FVec Ideal S1x128 .f32 :=
  Host.scatter scatter_S1x128_S2_S2_0_0_01_0 (fun _ b => b)
    (broadcastInDim S1x128 ![] bcast_S_S1x128 (constant (F := Ideal) S_ .f32 0x00000000#32))
    (concatenate S2 0 [⟨S1, (broadcastInDim S1 ![] bcast_S_S1 (constantI S_ 32 0#32) : IVec S1 32)⟩,
      ⟨S1, (broadcastInDim S1 ![] bcast_S_S1 (constantI S_ 32 0#32) : IVec S1 32)⟩] concatenates_S1_S1_S2_d0) b

/-- Its entry (0, j): the bias's entry when j is one of the first two, zero otherwise. -/
theorem padBc2_apply (b : FVec Ideal S2 .f32) (j : Fin 128) :
    padBc2 b (ix2 (0 : Fin 1) j) = if h : j.val < 2 then b (ix1 ⟨j.val, h⟩) else 0 := by
  unfold padBc2
  split
  · rename_i h
    refine scatter_set_of_hit _ _ _ b (ix2 (0 : Fin 1) j) (ix1 ⟨j.val, h⟩) (resBc2 _ zeroPair ⟨j.val, h⟩) fun j' hj' => ?_
    obtain ⟨q, rfl⟩ : ∃ q : Fin 2, j' = ix1 q := ⟨j' 0, eq_ix1 j'⟩
    rw [resBc2 _ zeroPair q] at hj'
    have e1 : q.val = j.val := congrArg Fin.val (congrFun (Option.some.inj hj') 1)
    exact congrArg ix1 (Fin.ext e1)
  · rename_i h
    refine (scatter_set_of_miss _ _ _ b (ix2 (0 : Fin 1) j) fun j' hj' => ?_).trans Ideal.ofBits_zero_f32
    obtain ⟨q, rfl⟩ : ∃ q : Fin 2, j' = ix1 q := ⟨j' 0, eq_ix1 j'⟩
    rw [resBc2 _ zeroPair q] at hj'
    have e1 : q.val = j.val := congrArg Fin.val (congrFun (Option.some.inj hj') 1)
    have := q.isLt
    omega

/-! ## The padded graph ids: 10000 entries into the first 10000 of a row of 10240 entries equal to 64 -/

/-- Where the update entry n lands when both start indices are zero: at (0, n). -/
theorem resBatch (idx : IVec S2 32) (hidx : ∀ k, idx k = 0#32) (q : Fin 10000) :
    scatter_S1x10240_S2_S10000_0_0_01_0.resultIdx? (ix1 q) idx = some (ix2 (0 : Fin 1) ⟨q.val, by omega⟩) := by
  have hs : ∀ a, scatter_S1x10240_S2_S10000_0_0_01_0.start (ix1 q) idx a = 0 := fun a => by
    unfold ScatterDims.start
    split
    · rw [hidx]; rfl
    · rfl
  have hw0 : scatter_S1x10240_S2_S10000_0_0_01_0.window (ix1 q) 0 = 0 := rfl
  have hw1 : scatter_S1x10240_S2_S10000_0_0_01_0.window (ix1 q) 1 = q.val := rfl
  have hin : ∀ a, 0 ≤ scatter_S1x10240_S2_S10000_0_0_01_0.start (ix1 q) idx a + scatter_S1x10240_S2_S10000_0_0_01_0.window (ix1 q) a
      ∧ scatter_S1x10240_S2_S10000_0_0_01_0.start (ix1 q) idx a + scatter_S1x10240_S2_S10000_0_0_01_0.window (ix1 q) a < S1x10240.size a := fun a => by
    rw [hs a]
    match a with
    | ⟨0, _⟩ => rw [show scatter_S1x10240_S2_S10000_0_0_01_0.window (ix1 q) ⟨0, by decide⟩ = 0 from hw0]; show (0 : Int) ≤ 0 + ((0 : Nat) : Int) ∧ 0 + ((0 : Nat) : Int) < (1 : Nat); omega
    | ⟨1, _⟩ => rw [show scatter_S1x10240_S2_S10000_0_0_01_0.window (ix1 q) ⟨1, by decide⟩ = q.val from hw1]; show (0 : Int) ≤ 0 + (q.val : Int) ∧ 0 + (q.val : Int) < (10240 : Nat); have := q.isLt; omega
  unfold ScatterDims.resultIdx?
  rw [dif_pos hin]
  refine congrArg some (funext fun a => Fin.ext ?_)
  show (scatter_S1x10240_S2_S10000_0_0_01_0.start (ix1 q) idx a + scatter_S1x10240_S2_S10000_0_0_01_0.window (ix1 q) a).toNat = _
  rw [hs a]
  match a with
  | ⟨0, _⟩ => rw [show scatter_S1x10240_S2_S10000_0_0_01_0.window (ix1 q) ⟨0, by decide⟩ = 0 from hw0]; show ((0 : Int) + ((0 : Nat) : Int)).toNat = 0; omega
  | ⟨1, _⟩ => rw [show scatter_S1x10240_S2_S10000_0_0_01_0.window (ix1 q) ⟨1, by decide⟩ = q.val from hw1]; show ((0 : Int) + (q.val : Int)).toNat = q.val; omega

/-- The graph ids padded with the id 64, as the host builds them. -/
def padBatch (b : IVec S10000 32) : IVec S1x10240 32 :=
  Host.scatter scatter_S1x10240_S2_S10000_0_0_01_0 (fun _ b => b)
    (broadcastInDim S1x10240 ![] bcast_S_S1x10240 (constantI S_ 32 64#32))
    (concatenate S2 0 [⟨S1, (broadcastInDim S1 ![] bcast_S_S1 (constantI S_ 32 0#32) : IVec S1 32)⟩,
      ⟨S1, (broadcastInDim S1 ![] bcast_S_S1 (constantI S_ 32 0#32) : IVec S1 32)⟩] concatenates_S1_S1_S2_d0) b

/-- Its entry (0, n): the node's graph id for the first 10000 entries, 64 afterwards. -/
theorem padBatch_apply (b : IVec S10000 32) (n : Fin 10240) :
    padBatch b (ix2 (0 : Fin 1) n) = if h : n.val < 10000 then b (ix1 ⟨n.val, h⟩) else 64#32 := by
  unfold padBatch
  split
  · rename_i h
    refine scatter_set_of_hit _ _ _ b (ix2 (0 : Fin 1) n) (ix1 ⟨n.val, h⟩) (resBatch _ zeroPair ⟨n.val, h⟩) fun j' hj' => ?_
    obtain ⟨q, rfl⟩ : ∃ q : Fin 10000, j' = ix1 q := ⟨j' 0, eq_ix1 j'⟩
    rw [resBatch _ zeroPair q] at hj'
    have e1 : q.val = n.val := congrArg Fin.val (congrFun (Option.some.inj hj') 1)
    exact congrArg ix1 (Fin.ext e1)
  · rename_i h
    refine scatter_set_of_miss _ _ _ b (ix2 (0 : Fin 1) n) fun j' hj' => ?_
    obtain ⟨q, rfl⟩ : ∃ q : Fin 10000, j' = ix1 q := ⟨j' 0, eq_ix1 j'⟩
    rw [resBatch _ zeroPair q] at hj'
    have e1 : q.val = n.val := congrArg Fin.val (congrFun (Option.some.inj hj') 1)
    have := q.isLt
    omega

end Cert.Bridge

end
-- ==== Proof.RefMm2Def.lean ====
/-
  The second half of one encoder layer as the reference computes it, as ONE function of its five operands:
  h' = relu(relu((t - mu) / sqrt(var + eps)) · Wb + bb), with mu, var, bb rows broadcast down the 10000 rows.
  The operations are the reference program's own, in its order; the three layers apply the same operations to
  different buffers, so one definition serves all three. It is then read at an entry (i, j) on the extended reals.
-/
import proofs.«138131_g70763881169291_cont_9to1c4b_616_12_alg».proof.ReferenceIdeal
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx Cert.ReferenceIdeal

variable [Cert.ReferenceIdeal.Facts₀]
open Cert.ReferenceIdeal.Facts₀

/-- relu((t - mu) / sqrt(var + eps)): the normalised, rectified activations (the reference's %32 … %39). -/
def refNorm (t : FVec Ideal S10000x256 .f32) (mu var : FVec Ideal S1x256 .f32) : FVec Ideal S10000x256 .f32 :=
  maximumf
    (Host.divf
      (subf t (broadcastInDim S10000x256 ![0, 1] bcast_S1x256_S10000x256_0_1 mu))
      (broadcastInDim S10000x256 ![0, 1] bcast_S1x256_S10000x256_0_1
        (Host.sqrt (addf var (broadcastInDim S1x256 ![] bcast_S_S1x256 (constant (F := Ideal) S_ .f32 0x3727C5AC#32))))))
    (broadcastInDim S10000x256 ![] bcast_S_S10000x256 (constant (F := Ideal) S_ .f32 0x00000000#32))

/-- relu(refNorm · Wb + bb): the layer's second linear map and rectifier (the reference's %40 … %44). -/
def refMm2 (t : FVec Ideal S10000x256 .f32) (mu var : FVec Ideal S1x256 .f32) (Wb : FVec Ideal S256x256 .f32)
    (bb1 : FVec Ideal S1x256 .f32) : FVec Ideal S10000x256 .f32 :=
  maximumf
    (addf
      (Host.dotGeneral dot_S10000x256_S256x256_S10000x256_1_0_0_1_n_n none (refNorm t mu var) Wb)
      (broadcastInDim S10000x256 ![0, 1] bcast_S1x256_S10000x256_0_1 bb1))
    (broadcastInDim S10000x256 ![] bcast_S_S10000x256 (constant (F := Ideal) S_ .f32 0x00000000#32))

/-- A plain M × K by K × N host product read at an entry: the sum over the contraction coordinate. -/
theorem dotGeneral_plain_apply (M K N : Nat) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- The normalised activations at an entry. -/
theorem refNorm_apply (t : FVec Ideal S10000x256 .f32) (mu var : FVec Ideal S1x256 .f32) (i : Fin 10000) (k : Fin 256) :
    refNorm t mu var (ix2 i k)
      = max (Ideal.div (t (ix2 i k) - mu (ix2 (0 : Fin 1) k))
          (Ideal.sqrt (var (ix2 (0 : Fin 1) k) + Ideal.ofBits .f32 0x3727C5AC#32))) 0 := by
  have hmu : broadcastInDim S10000x256 ![0, 1] bcast_S1x256_S10000x256_0_1 mu (ix2 i k) = mu (ix2 (0 : Fin 1) k) :=
    broadcastInDim_apply _ _ mu (ix2 i k) (ix2 (0 : Fin 1) k) (fun a => by
      match a with
      | ⟨0, _⟩ => rfl
      | ⟨1, _⟩ => rfl)
  unfold refNorm
  rw [maximumf_apply]
  refine congrArg₂ max ?_ Ideal.ofBits_zero_f32
  show Ideal.div (t (ix2 i k) - broadcastInDim S10000x256 ![0, 1] bcast_S1x256_S10000x256_0_1 mu (ix2 i k)) _ = _
  rw [hmu]
  refine congrArg (Ideal.div _) ?_
  refine (broadcastInDim_apply _ _ _ (ix2 i k) (ix2 (0 : Fin 1) k) (fun a => by
      match a with
      | ⟨0, _⟩ => rfl
      | ⟨1, _⟩ => rfl)).trans ?_
  rfl

/-- The layer's second half at an entry (i, j): the rectified, biased sum over k of the normalised activation
    (i, k) times the weight (k, j). -/
theorem refMm2_apply (t : FVec Ideal S10000x256 .f32) (mu var : FVec Ideal S1x256 .f32) (Wb : FVec Ideal S256x256 .f32)
    (bb1 : FVec Ideal S1x256 .f32) (i : Fin 10000) (j : Fin 256) :
    refMm2 t mu var Wb bb1 (ix2 i j)
      = max ((∑ k : Fin 256,
                max (Ideal.div (t (ix2 i k) - mu (ix2 (0 : Fin 1) k))
                  (Ideal.sqrt (var (ix2 (0 : Fin 1) k) + Ideal.ofBits .f32 0x3727C5AC#32))) 0 * Wb (ix2 k j))
              + bb1 (ix2 (0 : Fin 1) j)) 0 := by
  have hbb : broadcastInDim S10000x256 ![0, 1] bcast_S1x256_S10000x256_0_1 bb1 (ix2 i j) = bb1 (ix2 (0 : Fin 1) j) :=
    broadcastInDim_apply _ _ bb1 (ix2 i j) (ix2 (0 : Fin 1) j) (fun a => by
      match a with
      | ⟨0, _⟩ => rfl
      | ⟨1, _⟩ => rfl)
  unfold refMm2
  rw [maximumf_apply, addf_apply, hbb]
  refine congrArg₂ max (congrArg (· + bb1 (ix2 (0 : Fin 1) j)) ?_) Ideal.ofBits_zero_f32
  refine (dotGeneral_plain_apply 10000 256 256 none .single (refNorm t mu var) Wb i j).trans ?_
  exact Finset.sum_congr rfl fun k _ => by rw [refNorm_apply]

end Cert.Bridge

end
-- ==== Proof.RefChains.lean ====
/-
  The reference program's result, cut into named stages. Each definition is a composition of the reference's own
  host operations, in its order, as a pure function of the arrays it reads:
  the layer's aggregation u = (1 + eps) * h + (sum over the edges into a node of the source node's row),
  the affine map t = u * Wa + ba, the column means and column variances of t over the 10000 rows, and a
  whole layer; the pooled head's column means and variances over its 64 rows.
-/
import proofs.«138131_g70763881169291_cont_9to1c4b_616_12_alg».proof.ReferenceIdeal
import proofs.«138131_g70763881169291_cont_9to1c4b_616_12_alg».proof.Proof.RefMm2Def
import proofs.«138131_g70763881169291_cont_9to1c4b_616_12_alg».proof.Proof.RefPoolDef

noncomputable section

namespace Cert.Bridge

open Idealize.ShloMosaic
open Cert.ReferenceIdeal
open Cert.ReferenceIdeal.Facts₀

variable [Cert.ReferenceIdeal.Facts₀]

/-! ## The edge list -/

/-- Row 0 of the 2 x 320000 edge list (the source node of each edge), as a flat vector. -/
def refRow0 (e : IVec S2x320000 32) : IVec S320000 32 :=
  fun i => shapeCast S320000 (extractStridedSlice S1x320000 ![0, 0] e slices_S2x320000_S1x320000_0_0)
    shapeCasts_S1x320000_S320000 i

/-- Row 1 of the edge list (the target node of each edge), as a flat vector. -/
def refRow1 (e : IVec S2x320000 32) : IVec S320000 32 :=
  fun i => shapeCast S320000 (extractStridedSlice S1x320000 ![1, 0] e slices_S2x320000_S1x320000_1_0)
    shapeCasts_S1x320000_S320000 i

/-- A node number made non-negative (a negative one counts from the end: 10000 is added), as a column. -/
def refWrap (r : IVec S320000 32) : IVec S320000x1 32 :=
  broadcastInDim S320000x1 ![0] bcast_S320000_S320000x1_0
    (select (cmpi .slt r (broadcastInDim S320000 ![] bcast_S_S320000 (constantI S_ 32 0#32)))
      (addi r (broadcastInDim S320000 ![] bcast_S_S320000 (constantI S_ 32 10000#32))) r)

/-! ## The aggregation u = (1 + eps) * h + scatter-add of the gathered source rows -/

/-- Layer 0's aggregation over 128 feature columns. -/
def refPre128 (eps : FVec Ideal S_ .f32) (h : FVec Ideal S10000x128 .f32) (e : IVec S2x320000 32) :
    FVec Ideal S10000x128 .f32 :=
  addf
    (mulf (broadcastInDim S10000x128 ![] bcast_S_S10000x128 (addf (constant (F := Ideal) S_ .f32 0x3F800000#32) eps)) h)
    (Host.scatterAdd (F := Ideal) scatter_S10000x128_S320000x1_S320000x128_1_0_0_1
      (broadcastInDim S10000x128 ![] bcast_S_S10000x128 (constant (F := Ideal) S_ .f32 0x00000000#32))
      (refWrap (refRow1 e))
      (Host.gather gather_S10000x128_S320000x1_S320000x128_1_0_n_n_0_1_1128 h (refWrap (refRow0 e))))

/-- Layers 1 and 2's aggregation over 256 feature columns. -/
def refPre256 (eps : FVec Ideal S_ .f32) (h : FVec Ideal S10000x256 .f32) (e : IVec S2x320000 32) :
    FVec Ideal S10000x256 .f32 :=
  addf
    (mulf (broadcastInDim S10000x256 ![] bcast_S_S10000x256 (addf (constant (F := Ideal) S_ .f32 0x3F800000#32) eps)) h)
    (Host.scatterAdd (F := Ideal) scatter_S10000x256_S320000x1_S320000x256_1_0_0_1
      (broadcastInDim S10000x256 ![] bcast_S_S10000x256 (constant (F := Ideal) S_ .f32 0x00000000#32))
      (refWrap (refRow1 e))
      (Host.gather gather_S10000x256_S320000x1_S320000x256_1_0_n_n_0_1_1256 h (refWrap (refRow0 e))))

/-! ## Bias rows -/

/-- A bias vector of length 256 as a 1 x 256 row. -/
def refB256 (b : FVec Ideal S256 .f32) : FVec Ideal S1x256 .f32 :=
  broadcastInDim S1x256 ![1] bcast_S256_S1x256_1 b

/-- A bias vector of length 128 as a 1 x 128 row. -/
def refB128 (b : FVec Ideal S128 .f32) : FVec Ideal S1x128 .f32 :=
  broadcastInDim S1x128 ![1] bcast_S128_S1x128_1 b

/-- A bias vector of length 2 as a 1 x 2 row. -/
def refB2 (b : FVec Ideal S2 .f32) : FVec Ideal S1x2 .f32 :=
  broadcastInDim S1x2 ![1] bcast_S2_S1x2_1 b

/-! ## The affine map t = u * Wa + ba -/

/-- Layer 0's first affine map, 128 to 256 columns. -/
def refLin128 (u : FVec Ideal S10000x128 .f32) (Wa : FVec Ideal S128x256 .f32) (b1 : FVec Ideal S1x256 .f32) :
    FVec Ideal S10000x256 .f32 :=
  addf (Host.dotGeneral (F := Ideal) dot_S10000x128_S128x256_S10000x256_1_0_0_1_n_n none u Wa)
    (broadcastInDim S10000x256 ![0, 1] bcast_S1x256_S10000x256_0_1 b1)

/-- Layers 1 and 2's first affine map, 256 to 256 columns. -/
def refLin256 (u : FVec Ideal S10000x256 .f32) (Wa : FVec Ideal S256x256 .f32) (b1 : FVec Ideal S1x256 .f32) :
    FVec Ideal S10000x256 .f32 :=
  addf (Host.dotGeneral (F := Ideal) dot_S10000x256_S256x256_S10000x256_1_0_0_1_n_n none u Wa)
    (broadcastInDim S10000x256 ![0, 1] bcast_S1x256_S10000x256_0_1 b1)

/-! ## Column statistics over the 10000 rows -/

/-- The column means: the column sums divided by 10000, as a 1 x 256 row. -/
def refMu (t : FVec Ideal S10000x256 .f32) : FVec Ideal S1x256 .f32 :=
  Host.divf (F := Ideal)
    (broadcastInDim S1x256 ![1] bcast_S256_S1x256_1
      (Host.reduceAdd (F := Ideal) t (constant (F := Ideal) S_ .f32 0x00000000#32) reducesTo_S10000x256_S256_d0 h_S_))
    (broadcastInDim S1x256 ![] bcast_S_S1x256 (constant (F := Ideal) S_ .f32 0x461C4000#32))

/-- The column variances with the degrees-of-freedom correction an integer scalar `ddof`: the column sums of the squared
    deviations from the column means, divided by 10000 - ddof where that is positive (and the not-a-number word
    otherwise), as a 1 x 256 row. -/
def refVarD (t : FVec Ideal S10000x256 .f32) (ddof : IVec S_ 32) : FVec Ideal S1x256 .f32 :=
  let dev : FVec Ideal S10000x256 .f32 :=
    subf t (broadcastInDim S10000x256 ![0, 1] bcast_S1x256_S10000x256_0_1
      (Host.divf (F := Ideal)
        (broadcastInDim S1x256 ![1] bcast_S256_S1x256_1
          (Host.reduceAdd (F := Ideal) t (constant (F := Ideal) S_ .f32 0x00000000#32) reducesTo_S10000x256_S256_d0 h_S_))
        (broadcastInDim S1x256 ![] bcast_S_S1x256 (constant (F := Ideal) S_ .f32 0x461C4000#32))))
  let n : FVec Ideal S_ .f32 := subf (constant (F := Ideal) S_ .f32 0x461C4000#32) (sitofp .f32 ddof)
  select
    (broadcastInDim S1x256 ![] bcast_S_S1x256 (cmpf .ogt n (constant (F := Ideal) S_ .f32 0x00000000#32)))
    (Host.divf (F := Ideal)
      (broadcastInDim S1x256 ![1] bcast_S256_S1x256_1
        (Host.reduceAdd (F := Ideal) (mulf dev dev) (constant (F := Ideal) S_ .f32 0x00000000#32) reducesTo_S10000x256_S256_d0 h_S_))
      (broadcastInDim S1x256 ![] bcast_S_S1x256 n))
    (broadcastInDim S1x256 ![] bcast_S_S1x256 (id (constant (F := Ideal) S_ .f32 0x7FC00000#32)))

/-- The column variances as the reference takes them: no degrees-of-freedom correction (ddof = 0). -/
def refVar (t : FVec Ideal S10000x256 .f32) : FVec Ideal S1x256 .f32 :=
  refVarD t (constantI S_ 32 0#32)

/-! ## Column statistics over the head's 64 rows -/

/-- The column means of a 64 x 128 array: the column sums divided by 64, as a 1 x 128 row. -/
def refMu64 (z : FVec Ideal S64x128 .f32) : FVec Ideal S1x128 .f32 :=
  Host.divf (F := Ideal)
    (broadcastInDim S1x128 ![1] bcast_S128_S1x128_1
      (Host.reduceAdd (F := Ideal) z (constant (F := Ideal) S_ .f32 0x00000000#32) reducesTo_S64x128_S128_d0 h_S_))
    (broadcastInDim S1x128 ![] bcast_S_S1x128 (constant (F := Ideal) S_ .f32 0x42800000#32))

/-- The column variances of a 64 x 128 array with correction `ddof`. -/
def refVarD64 (z : FVec Ideal S64x128 .f32) (ddof : IVec S_ 32) : FVec Ideal S1x128 .f32 :=
  let dev : FVec Ideal S64x128 .f32 :=
    subf z (broadcastInDim S64x128 ![0, 1] bcast_S1x128_S64x128_0_1
      (Host.divf (F := Ideal)
        (broadcastInDim S1x128 ![1] bcast_S128_S1x128_1
          (Host.reduceAdd (F := Ideal) z (constant (F := Ideal) S_ .f32 0x00000000#32) reducesTo_S64x128_S128_d0 h_S_))
        (broadcastInDim S1x128 ![] bcast_S_S1x128 (constant (F := Ideal) S_ .f32 0x42800000#32))))
  let n : FVec Ideal S_ .f32 := subf (constant (F := Ideal) S_ .f32 0x42800000#32) (sitofp .f32 ddof)
  select
    (broadcastInDim S1x128 ![] bcast_S_S1x128 (cmpf .ogt n (constant (F := Ideal) S_ .f32 0x00000000#32)))
    (Host.divf (F := Ideal)
      (broadcastInDim S1x128 ![1] bcast_S128_S1x128_1
        (Host.reduceAdd (F := Ideal) (mulf dev dev) (constant (F := Ideal) S_ .f32 0x00000000#32) reducesTo_S64x128_S128_d0 h_S_))
      (broadcastInDim S1x128 ![] bcast_S_S1x128 n))
    (broadcastInDim S1x128 ![] bcast_S_S1x128 (id (constant (F := Ideal) S_ .f32 0x7FC00000#32)))

/-- The head's column variances as the reference takes them (ddof = 0). -/
def refVar64 (z : FVec Ideal S64x128 .f32) : FVec Ideal S1x128 .f32 :=
  refVarD64 z (constantI S_ 32 0#32)

/-! ## A whole layer -/

/-- Layer 0: aggregation, affine map, normalisation by the column statistics, rectifier, second affine map, rectifier. -/
def refLayer128 (eps : FVec Ideal S_ .f32) (Wa : FVec Ideal S128x256 .f32) (ba : FVec Ideal S256 .f32)
    (Wb : FVec Ideal S256x256 .f32) (bb : FVec Ideal S256 .f32) (h : FVec Ideal S10000x128 .f32) (e : IVec S2x320000 32) :
    FVec Ideal S10000x256 .f32 :=
  let t := refLin128 (refPre128 eps h e) Wa (refB256 ba)
  refMm2 t (refMu t) (refVar t) Wb (refB256 bb)

/-- Layers 1 and 2. -/
def refLayer256 (eps : FVec Ideal S_ .f32) (Wa : FVec Ideal S256x256 .f32) (ba : FVec Ideal S256 .f32)
    (Wb : FVec Ideal S256x256 .f32) (bb : FVec Ideal S256 .f32) (h : FVec Ideal S10000x256 .f32) (e : IVec S2x320000 32) :
    FVec Ideal S10000x256 .f32 :=
  let t := refLin256 (refPre256 eps h e) Wa (refB256 ba)
  refMm2 t (refMu t) (refVar t) Wb (refB256 bb)

end Cert.Bridge

end
-- ==== Proof.KRef.lean ====
/-
  The idealized kernel program's host stretches compute the reference's own stages. Between the regions the kernel
  program applies the same operations as the reference does — the aggregation over the edges and (1 + ε)·h + agg,
  the product with the first weight and the bias row, the column means and variances — so each composed term of the
  kernel program's table IS the reference's stage, operation for operation (the two programs' shape and dimension
  records differ only in name). One difference: the kernel program RESHAPES a bias b : [n] to the row [1, n] where
  the reference BROADCASTS it there; both rows hold b j at column j.
-/
import proofs.«138131_g70763881169291_cont_9to1c4b_616_12_alg».proof.Proof.KChains
import proofs.«138131_g70763881169291_cont_9to1c4b_616_12_alg».proof.Proof.RefChains
import proofs.«138131_g70763881169291_cont_9to1c4b_616_12_alg».proof.Proof.Mm1Math
import proofs.«138131_g70763881169291_cont_9to1c4b_616_12_alg».proof.Proof.Gen.ReferenceIdeal
import Idealize.ShloMosaic.Lib.Pipeline.Value
import Idealize.ShloMosaic.Lib.ValueIdx

set_option maxRecDepth 16384

noncomputable section

namespace Cert.KernelIdeal.KRef

open Idealize.ShloMosaic Idealize.ShloMosaic.ValueIdx
open Cert.KernelIdeal Cert.KernelIdeal.KChain Cert.Bridge

/-- A bias reshaped to a row is the bias broadcast to a row: column j of either holds b j. -/
theorem row_eq {n : Nat} (b : (⟨1, ![n]⟩ : Shape).Idx → EReal)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ b hc = broadcastInDim ⟨2, ![1, n]⟩ ![1] hb b := by
  funext j
  have h0 : (j 0).val = 0 := by have := idx2_lt0 j; omega
  rw [shapeCast_apply b hc j (ix1 (j 1)) (by
      rw [Shape.rowMajor_val_one, Shape.rowMajor_val_two, h0, Nat.zero_mul, Nat.zero_add]; rfl),
    broadcastInDim_apply ![1] hb b j (ix1 (j 1)) (by
      intro a
      have ha : a = (0 : Fin 1) := Subsingleton.elim _ _
      subst ha
      by_cases h1 : (⟨1, ![n]⟩ : Shape).size (0 : Fin 1) = 1
      · rw [if_pos h1]
        have h1' : n = 1 := h1
        have := idx2_lt1 j
        show (j 1).val = 0
        omega
      · rw [if_neg h1]; rfl)]

/-- A vector broadcast to a row holds b j at column j. -/
theorem bcastRow1_apply {n : Nat} (b : (⟨1, ![n]⟩ : Shape).Idx → EReal)
    (hb : (⟨1, ![n]⟩ : Shape).BroadcastsInDim ⟨2, ![1, n]⟩ ![1]) (j : Fin n) :
    broadcastInDim ⟨2, ![1, n]⟩ ![1] hb b (ix2 (0 : Fin 1) j) = b (ix1 j) :=
  broadcastInDim_apply ![1] hb b (ix2 (0 : Fin 1) j) (ix1 j) (by
    intro a
    have ha : a = (0 : Fin 1) := Subsingleton.elim _ _
    subst ha
    by_cases h1 : (⟨1, ![n]⟩ : Shape).size (0 : Fin 1) = 1
    · rw [if_pos h1]
      have h1' : n = 1 := h1
      have := j.isLt
      show j.val = 0
      omega
    · rw [if_neg h1]; rfl)

/-- The head's last bias as the reference's row. -/
theorem refB2_apply (b : FVec Ideal Cert.ReferenceIdeal.S2 .f32) (j : Fin 2) : refB2 b (ix2 (0 : Fin 1) j) = b (ix1 j) :=
  bcastRow1_apply (n := 2) b _ j

theorem row7 (b) : k_v7 (F := Ideal) b = refB256 b := row_eq (n := 256) b _ _
theorem row8 (b) : k_v8 (F := Ideal) b = refB256 b := row_eq (n := 256) b _ _
theorem row9 (b) : k_v9 (F := Ideal) b = refB256 b := row_eq (n := 256) b _ _
theorem row10 (b) : k_v10 (F := Ideal) b = refB256 b := row_eq (n := 256) b _ _
theorem row11 (b) : k_v11 (F := Ideal) b = refB256 b := row_eq (n := 256) b _ _
theorem row12 (b) : k_v12 (F := Ideal) b = refB256 b := row_eq (n := 256) b _ _
theorem row13 (b) : k_v13 (F := Ideal) b = refB256 b := row_eq (n := 256) b _ _
theorem row14 (b) : k_v14 (F := Ideal) b = refB128 b := row_eq (n := 128) b _ _

/-- Layer 0's matmul input. -/
theorem pre128 (a3 a0 a1) : k_v46 (F := Ideal) a3 a0 a1 = refPre128 a3 a0 a1 := rfl
theorem lin128 (u W b) : linK0 u W b = refLin128 u W b := rfl
theorem mu0 (t) : k_v54 (F := Ideal) t = refMu t := rfl
theorem var0 (t) : k_v55 (F := Ideal) k_c_14 t = refVar t := rfl
/-- Layers 1 and 2. -/
theorem pre256_1 (a4 h a1) : k_v78 (F := Ideal) a4 h (k_v3 a1) (k_v1 a1) = refPre256 a4 h a1 := rfl
theorem mu1 (t) : k_v86 (F := Ideal) t = refMu t := rfl
theorem var1 (t) : k_v87 (F := Ideal) k_c_23 t = refVar t := rfl
theorem pre256_2 (a5 h a1) : k_v110 (F := Ideal) a5 h (k_v3 a1) (k_v1 a1) = refPre256 a5 h a1 := rfl
theorem mu2 (t) : k_v118 (F := Ideal) t = refMu t := rfl
theorem var2 (t) : k_v119 (F := Ideal) k_c_32 t = refVar t := rfl
/-- The head's mean and variance over the 64 graphs. -/
theorem mu64 (z) : k_v125 (F := Ideal) z = refMu64 z := rfl
theorem var64 (z) : k_v126 (F := Ideal) k_c_35 z = refVar64 z := rfl

end Cert.KernelIdeal.KRef

end
-- ==== Proof.KValue3a.lean ====
/-
  The head of the idealized kernel program, read off the fold of buffer contents. From region 6's output zz the host
  takes the column means and variances over the 64 graphs; region 7 finds W_c2 and b_c2 zero-padded from 2 to 128
  columns and leaves relu((zz − μ)/√(σ² + ε))·W_c2p + b_c2p, of which the host keeps columns 0 and 1: the reference's
  last chain on (zz, μ, σ², W_c2, b_c2).
-/
import proofs.«138131_g70763881169291_cont_9to1c4b_616_12_alg».proof.Proof.KValue0
import proofs.«138131_g70763881169291_cont_9to1c4b_616_12_alg».proof.Proof.HeadR7
import proofs.«138131_g70763881169291_cont_9to1c4b_616_12_alg».proof.Proof.HostPads
import proofs.«138131_g70763881169291_cont_9to1c4b_616_12_alg».proof.Proof.KRef

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KChain Cert.Bridge

variable (m : (ℓ : Loc nD τ sig) → Buf (Elt Ideal) ℓ) (ρ : Dev nD → PrngReg) (c : Dev nD)

/-- The column means and variances of zz over the 64 graphs. -/
theorem muz_eq : W17 m ρ c (Proc.devRef .tc main_v125) = k_v125 (W16 m ρ c (Proc.devRef .tc main_v121)) := st_v125 (W16 m ρ c)

theorem varz_eq : W18 m ρ c (Proc.devRef .tc main_v126) = k_v126 k_c_35 (W16 m ρ c (Proc.devRef .tc main_v121)) := by
  refine (st_v126 (W17 m ρ c)).trans ?_
  rw [carry_v121_16_17]
  exact congrArg (fun z => k_v126 z _) (st_c_35 (W16 m ρ c))

/-- The program's result: the reference's last chain on zz and its statistics. -/
theorem out_eq : W20 m ρ c (Proc.devRef .tc main_v128)
    = refHead2 (W16 m ρ c (Proc.devRef .tc main_v121)) (k_v125 (W16 m ρ c (Proc.devRef .tc main_v121)))
        (k_v126 k_c_35 (W16 m ρ c (Proc.devRef .tc main_v121))) (arg m c main_arg22) (refB2 (arg m c main_arg23)) := by
  have e1 : W19 m ρ c (Proc.devRef .tc main_v127) = (dat7 (V18 m ρ) c).arrAt 5 cfg7.N := W19_arr m ρ c 5
  have e17 : W1 m ρ c (Proc.devRef .tc main_v17) = k_v17 (arg m c main_arg22) := st_v17 (W0 m ρ c)
  have e22 : W1 m ρ c (Proc.devRef .tc main_v22) = k_v22 (arg m c main_arg23) := st_v22 (W0 m ρ c)
  have hW : ∀ (k : Fin 128) (j : Fin 128), V18 m ρ c (Pipeline.arrRef spec7 3) (ix2 k j)
      = if h : j.val < 2 then (arg m c main_arg22 : FVec Ideal S128x2 .f32) (ix2 k ⟨j.val, h⟩) else (0 : EReal) := fun k j => by
    show W18 m ρ c (Proc.devRef .tc main_v17) (ix2 k j) = _
    rw [carry_v17_1_18, e17]
    exact padWc2_apply _ k j
  have hB : ∀ j : Fin 128, V18 m ρ c (Pipeline.arrRef spec7 4) (ix2 (0 : Fin 1) j)
      = if h : j.val < 2 then refB2 (arg m c main_arg23) (ix2 (0 : Fin 1) ⟨j.val, h⟩) else 0 := fun j => by
    show W18 m ρ c (Proc.devRef .tc main_v22) (ix2 (0 : Fin 1) j) = _
    rw [carry_v22_1_18, e22]
    refine (padBc2_apply _ j).trans ?_
    by_cases h : j.val < 2
    · rw [dif_pos h, dif_pos h, KRef.refB2_apply]
    · rw [dif_neg h, dif_neg h]
  refine (st_v128 (W19 m ρ c)).trans ?_
  rw [e1]
  refine (show k_v128 (F := Ideal) _ = sliceK _ from rfl).trans ((head_7 (V18 m ρ) c _ _ hW hB).trans ?_)
  show refHead2 (W18 m ρ c (Proc.devRef .tc main_v121)) (W18 m ρ c (Proc.devRef .tc main_v125)) (W18 m ρ c (Proc.devRef .tc main_v126)) _ _ = _
  rw [carry_v121_16_18, carry_v125_17_18, muz_eq, varz_eq]

end Cert.KernelIdeal.KValue

end
-- ==== Proof.Mm2Math.lean ====
/-
  One row block of the layer's second half as the kernel body computes it, read at an entry on the extended
  reals, and the two-column-halves layout of the kernel's output against the plain 10000 × 256 layout.
  A row block of 2000 rows: normalise by the row vectors mu and sqrt(var + eps), rectify, multiply by the
  256 × 256 weight into a zero accumulator, add the bias row, rectify. Its entry (r, j) is
  max (Σ_k max ((x(r,k) - mu(k)) / sqrt(var(k) + eps)) 0 · W(k,j) + b(j)) 0.
  The output array has 20000 rows of 128 columns: rows below 10000 hold columns 0..127 of the result, rows
  10000 and up hold columns 128..255. Slicing the two halves and concatenating them along the columns gives
  the result back.
-/
import proofs.«138131_g70763881169291_cont_9to1c4b_616_12_alg».proof.KernelIdeal
import proofs.«138131_g70763881169291_cont_9to1c4b_616_12_alg».proof.Proof.Gen.KernelIdeal
import proofs.«138131_g70763881169291_cont_9to1c4b_616_12_alg».proof.Proof.Gen.ReferenceIdeal
import proofs.«138131_g70763881169291_cont_9to1c4b_616_12_alg».proof.Proof.RefMm2Def
import proofs.«138131_g70763881169291_cont_9to1c4b_616_12_alg».proof.Proof.LibPlainMatmul
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx Cert.KernelIdeal
open Cert.KernelIdeal.Facts₀

/-- The host's reassembly of the kernel's output: the two row halves sliced out and concatenated along the columns. -/
def catK (o : FVec Ideal S20000x128 .f32) : FVec Ideal S10000x256 .f32 :=
  concatenate S10000x256 1
    [⟨S10000x128, extractStridedSlice S10000x128 ![0, 0] o slices_S20000x128_S10000x128_0_0⟩,
     ⟨S10000x128, extractStridedSlice S10000x128 ![10000, 0] o slices_S20000x128_S10000x128_10000_0⟩]
    concatenates_S10000x128_S10000x128_S10000x256_d1

namespace Mm2

/-- sqrt(var + eps) on a row vector, as the kernel body computes it. -/
def rowSqrtEps (v2 : FVec Ideal S1x256 .f32) : FVec Ideal S1x256 .f32 :=
  Idealize.ShloMosaic.sqrt (addf (shapeCast S1x256 v2 shapeCasts_S1x256_S1x256) (broadcast S1x256 (Scalar.ofBits .f32 0x3727C5AC#32)))

theorem rowSqrtEps_apply (v2 : FVec Ideal S1x256 .f32) (k : Fin 256) :
    rowSqrtEps v2 (ix2 (0 : Fin 1) k) = Ideal.sqrt (v2 (ix2 (0 : Fin 1) k) + Ideal.ofBits .f32 0x3727C5AC#32) := by
  unfold rowSqrtEps
  rw [shapeCast_self]
  rfl

/-- One row block from the prepared row vectors: v1 = mu, v6 = sqrt(var + eps), v7 the weight, v9 the bias. -/
def blk (v1 v6 : FVec Ideal S1x256 .f32) (v7 : FVec Ideal S256x256 .f32) (v9 : FVec Ideal S1x256 .f32)
    (x : FVec Ideal S2000x256 .f32) : FVec Ideal S2000x256 .f32 :=
  maximumf
    (addf
      (matmul dot_S2000x256_S256x256_S2000x256_1_0_0_1_n_n none
        (maximumf
          (divf (subf (shapeCast S2000x256 x shapeCasts_S2000x256_S2000x256) (broadcastTo S2000x256 v1 broadcasts_S1x256_S2000x256))
            (broadcastTo S2000x256 v6 broadcasts_S1x256_S2000x256))
          (broadcast S2000x256 (Scalar.ofBits .f32 0x00000000#32)))
        v7 (constant S2000x256 .f32 0x00000000#32))
      (broadcastTo S2000x256 v9 broadcasts_S1x256_S2000x256))
    (broadcast S2000x256 (Scalar.ofBits .f32 0x00000000#32))

/-- A row vector broadcast down the 2000 rows reads its column. -/
theorem bcastRow_apply (v : FVec Ideal S1x256 .f32) (r : Fin 2000) (j : Fin 256) :
    broadcastTo S2000x256 v broadcasts_S1x256_S2000x256 (ix2 r j) = v (ix2 (0 : Fin 1) j) :=
  broadcastTo_apply v _ (ix2 r j) (ix2 (0 : Fin 1) j) (fun a => by
    match a with
    | ⟨0, _⟩ => rfl
    | ⟨1, _⟩ => rfl)

/-- The normalised, rectified activation of a row block at an entry. -/
theorem blkNorm_apply (v1 v6 : FVec Ideal S1x256 .f32) (x : FVec Ideal S2000x256 .f32) (r : Fin 2000) (k : Fin 256) :
    maximumf
        (divf (subf (shapeCast S2000x256 x shapeCasts_S2000x256_S2000x256) (broadcastTo S2000x256 v1 broadcasts_S1x256_S2000x256))
          (broadcastTo S2000x256 v6 broadcasts_S1x256_S2000x256))
        (broadcast S2000x256 (Scalar.ofBits .f32 0x00000000#32)) (ix2 r k)
      = max (Ideal.div (x (ix2 r k) - v1 (ix2 (0 : Fin 1) k)) (v6 (ix2 (0 : Fin 1) k))) 0 := by
  rw [shapeCast_self, maximumf_apply, divf_apply, subf_apply, bcastRow_apply, bcastRow_apply]
  exact congrArg (max _) Ideal.ofBits_zero_f32

/-- One row block at an entry (r, j). -/
theorem blk_apply (v1 v6 : FVec Ideal S1x256 .f32) (v7 : FVec Ideal S256x256 .f32) (v9 : FVec Ideal S1x256 .f32)
    (x : FVec Ideal S2000x256 .f32) (r : Fin 2000) (j : Fin 256) :
    blk v1 v6 v7 v9 x (ix2 r j)
      = max ((∑ k : Fin 256, max (Ideal.div (x (ix2 r k) - v1 (ix2 (0 : Fin 1) k)) (v6 (ix2 (0 : Fin 1) k))) 0 * v7 (ix2 k j))
          + v9 (ix2 (0 : Fin 1) j)) 0 := by
  unfold blk
  rw [maximumf_apply, addf_apply, bcastRow_apply]
  refine congrArg₂ max (congrArg (· + v9 (ix2 (0 : Fin 1) j)) ?_) Ideal.ofBits_zero_f32
  refine (Cert.PlainMatmul.matmul_zero_apply 2000 256 256 none _ v7 r j).trans ?_
  exact Finset.sum_congr rfl fun k _ => by rw [blkNorm_apply]

/-- One row block from the row vectors as loaded: mu, var, the weight, the bias. -/
def blkOf (x1 x2 : FVec Ideal S1x256 .f32) (x3 : FVec Ideal S256x256 .f32) (x4 : FVec Ideal S1x256 .f32)
    (x : FVec Ideal S2000x256 .f32) : FVec Ideal S2000x256 .f32 :=
  blk (shapeCast S1x256 x1 shapeCasts_S1x256_S1x256) (rowSqrtEps x2) x3 (shapeCast S1x256 x4 shapeCasts_S1x256_S1x256) x

theorem blkOf_apply (x1 x2 : FVec Ideal S1x256 .f32) (x3 : FVec Ideal S256x256 .f32) (x4 : FVec Ideal S1x256 .f32)
    (x : FVec Ideal S2000x256 .f32) (r : Fin 2000) (j : Fin 256) :
    blkOf x1 x2 x3 x4 x (ix2 r j)
      = max ((∑ k : Fin 256,
                max (Ideal.div (x (ix2 r k) - x1 (ix2 (0 : Fin 1) k))
                  (Ideal.sqrt (x2 (ix2 (0 : Fin 1) k) + Ideal.ofBits .f32 0x3727C5AC#32))) 0 * x3 (ix2 k j))
          + x4 (ix2 (0 : Fin 1) j)) 0 := by
  unfold blkOf
  rw [blk_apply, shapeCast_self, shapeCast_self]
  refine congrArg₂ max (congrArg (· + x4 (ix2 (0 : Fin 1) j)) ?_) rfl
  exact Finset.sum_congr rfl fun k _ => by rw [rowSqrtEps_apply]

/-- The left column half of a row block. -/
theorem sliceLo_apply (b : FVec Ideal S2000x256 .f32) (r : Fin 2000) (q : Fin 128) :
    extractStridedSlice S2000x128 ![0, 0] b slices_S2000x256_o0_0_S2000x128 (ix2 r q)
      = b (ix2 r (⟨q.val, by have := q.isLt; omega⟩ : Fin 256)) :=
  extractStridedSlice_apply _ b _ (ix2 r q) _ (fun a => by
    match a with
    | ⟨0, _⟩ => show r.val = 0 + r.val; omega
    | ⟨1, _⟩ => show q.val = 0 + q.val; omega)

/-- The right column half of a row block. -/
theorem sliceHi_apply (b : FVec Ideal S2000x256 .f32) (r : Fin 2000) (q : Fin 128) :
    extractStridedSlice S2000x128 ![0, 128] b slices_S2000x256_o0_128_S2000x128 (ix2 r q)
      = b (ix2 r (⟨q.val + 128, by have := q.isLt; omega⟩ : Fin 256)) :=
  extractStridedSlice_apply _ b _ (ix2 r q) _ (fun a => by
    match a with
    | ⟨0, _⟩ => show r.val = 0 + r.val; omega
    | ⟨1, _⟩ => show q.val + 128 = 128 + q.val; omega)

/-- A 10000 × 256 array laid out as the kernel's output: 20000 rows of 128 columns, rows below 10000 the left
    column half, rows 10000 and up the right column half. -/
def halfRows (H : FVec Ideal S10000x256 .f32) : FVec Ideal S20000x128 .f32 := fun y =>
  H (ix2 (⟨(y 0).val % 10000, Nat.mod_lt _ (by decide)⟩ : Fin 10000)
    (⟨(y 1).val + 128 * ((y 0).val / 10000), by
      have h0 : (y 0).val < 20000 := (y 0).isLt
      have h1 : (y 1).val < 128 := (y 1).isLt
      omega⟩ : Fin 256))

theorem halfRows_apply (H : FVec Ideal S10000x256 .f32) (y : S20000x128.Idx) (i : Fin 10000) (j : Fin 256)
    (hi : i.val = (y 0).val % 10000) (hj : j.val = (y 1).val + 128 * ((y 0).val / 10000)) :
    halfRows H y = H (ix2 i j) := by
  unfold halfRows
  refine congrArg H (funext fun a => Fin.ext ?_)
  match a with
  | ⟨0, _⟩ => exact hi.symm
  | ⟨1, _⟩ => exact hj.symm

/-- Reassembling the two-halves layout gives the array back. -/
theorem catK_halfRows (H : FVec Ideal S10000x256 .f32) : catK (halfRows H) = H := by
  funext y
  obtain ⟨i, j, rfl⟩ : ∃ (i : Fin 10000) (j : Fin 256), y = ix2 i j := ⟨y 0, y 1, eq_ix2 y⟩
  have hi : i.val < 10000 := i.isLt
  have hj : j.val < 256 := j.isLt
  unfold catK
  by_cases h : j.val < 128
  · refine (concatenate_pair_apply_left (t := S10000x256) (s₁ := S10000x128) (s₂ := S10000x128) (1 : Fin 2) _ _ _ (ix2 i j) rfl (ix2 i (⟨j.val, h⟩ : Fin 128)) (fun b => by
      match b with
      | ⟨0, _⟩ => rfl
      | ⟨1, _⟩ => rfl)).trans ?_
    refine (extractStridedSlice_apply _ _ _ (ix2 i (⟨j.val, h⟩ : Fin 128))
      (ix2 (⟨i.val, by omega⟩ : Fin 20000) (⟨j.val, h⟩ : Fin 128)) (fun a => by
        match a with
        | ⟨0, _⟩ => show i.val = 0 + i.val; omega
        | ⟨1, _⟩ => show j.val = 0 + j.val; omega)).trans ?_
    exact halfRows_apply H _ i j (by show i.val = i.val % 10000; omega) (by show j.val = j.val + 128 * (i.val / 10000); omega)
  · refine (concatenate_pair_apply_right (t := S10000x256) (s₁ := S10000x128) (s₂ := S10000x128) (1 : Fin 2) _ _ _ (ix2 i j) rfl rfl (ix2 i (⟨j.val - 128, by omega⟩ : Fin 128)) (fun b hb => by
      match b with
      | ⟨0, _⟩ => rfl
      | ⟨1, _⟩ => exact absurd rfl hb) (by show (j.val - 128) + 128 = j.val; omega)).trans ?_
    refine (extractStridedSlice_apply _ _ _ (ix2 i (⟨j.val - 128, by omega⟩ : Fin 128))
      (ix2 (⟨i.val + 10000, by omega⟩ : Fin 20000) (⟨j.val - 128, by omega⟩ : Fin 128)) (fun a => by
        match a with
        | ⟨0, _⟩ => show i.val + 10000 = 10000 + i.val; omega
        | ⟨1, _⟩ => show j.val - 128 = 0 + (j.val - 128); omega)).trans ?_
    exact halfRows_apply H _ i j (by show i.val = (i.val + 10000) % 10000; omega)
      (by show j.val = (j.val - 128) + 128 * ((i.val + 10000) / 10000); omega)

theorem hz2 : (![0, 0] : Fin 2 → Nat) = fun _ => 0 := funext fun a => by fin_cases a <;> rfl

/-- The left column half of the row block at rows lo .. lo + 1999, stored at rows lo .. of the output, is the
    two-halves layout of the layer's second half there. -/
theorem pieceLo (lo : Nat) (hlo : lo + 2000 ≤ 10000)
    (inbX : ∀ a, (![lo, 0] : Fin 2 → Nat) a + S2000x256.size a ≤ S10000x256.size a)
    (inbO : ∀ a, (![lo, 0] : Fin 2 → Nat) a + S2000x128.size a ≤ S20000x128.size a)
    (x0 : Vec Ideal S10000x256 .f32) (x1 x2 : Vec Ideal S1x256 .f32) (x3 : Vec Ideal S256x256 .f32) (x4 : Vec Ideal S1x256 .f32)
    (x : S2000x128.Idx) :
    extractStridedSlice S2000x128 ![0, 0]
        (blkOf x1 x2 x3 x4 (View.ld (Val := Elt Ideal) (e' := .f32) x0 (Rect.unit (s := S10000x256) ![lo, 0] S2000x256.size inbX)))
        slices_S2000x256_o0_0_S2000x128 x
      = halfRows (refMm2 x0 x1 x2 x3 x4) ((Rect.unit (s := S20000x128) ![lo, 0] S2000x128.size inbO).emb x) := by
  obtain ⟨r, q, rfl⟩ : ∃ (r : Fin 2000) (q : Fin 128), x = ix2 r q := ⟨x 0, x 1, eq_ix2 x⟩
  have hr : r.val < 2000 := r.isLt
  have hq : q.val < 128 := q.isLt
  rw [sliceLo_apply, blkOf_apply,
    halfRows_apply _ _ (⟨lo + r.val, by omega⟩ : Fin 10000) (⟨q.val, by omega⟩ : Fin 256)
      (by show lo + r.val = (lo + 1 * r.val) % 10000; omega)
      (by show q.val = (0 + 1 * q.val) + 128 * ((lo + 1 * r.val) / 10000); omega),
    refMm2_apply]
  have e : ∀ k : Fin 256, View.ld (Val := Elt Ideal) (e' := .f32) x0 (Rect.unit (s := S10000x256) ![lo, 0] S2000x256.size inbX) (ix2 r k)
      = x0 (ix2 (⟨lo + r.val, by omega⟩ : Fin 10000) k) := fun k =>
    congrArg x0 (funext fun a => Fin.ext (by
      match a with
      | ⟨0, _⟩ => show lo + 1 * r.val = lo + r.val; omega
      | ⟨1, _⟩ => show 0 + 1 * k.val = k.val; omega))
  simp only [e]

/-- The right column half of the row block at rows lo .. lo + 1999, stored at rows 10000 + lo .. of the output. -/
theorem pieceHi (lo : Nat) (hlo : lo + 2000 ≤ 10000)
    (inbX : ∀ a, (![lo, 0] : Fin 2 → Nat) a + S2000x256.size a ≤ S10000x256.size a)
    (inbO : ∀ a, (![10000 + lo, 0] : Fin 2 → Nat) a + S2000x128.size a ≤ S20000x128.size a)
    (x0 : Vec Ideal S10000x256 .f32) (x1 x2 : Vec Ideal S1x256 .f32) (x3 : Vec Ideal S256x256 .f32) (x4 : Vec Ideal S1x256 .f32)
    (x : S2000x128.Idx) :
    extractStridedSlice S2000x128 ![0, 128]
        (blkOf x1 x2 x3 x4 (View.ld (Val := Elt Ideal) (e' := .f32) x0 (Rect.unit (s := S10000x256) ![lo, 0] S2000x256.size inbX)))
        slices_S2000x256_o0_128_S2000x128 x
      = halfRows (refMm2 x0 x1 x2 x3 x4) ((Rect.unit (s := S20000x128) ![10000 + lo, 0] S2000x128.size inbO).emb x) := by
  obtain ⟨r, q, rfl⟩ : ∃ (r : Fin 2000) (q : Fin 128), x = ix2 r q := ⟨x 0, x 1, eq_ix2 x⟩
  have hr : r.val < 2000 := r.isLt
  have hq : q.val < 128 := q.isLt
  rw [sliceHi_apply, blkOf_apply,
    halfRows_apply _ _ (⟨lo + r.val, by omega⟩ : Fin 10000) (⟨q.val + 128, by omega⟩ : Fin 256)
      (by show lo + r.val = (10000 + lo + 1 * r.val) % 10000; omega)
      (by show q.val + 128 = (0 + 1 * q.val) + 128 * ((10000 + lo + 1 * r.val) / 10000); omega),
    refMm2_apply]
  have e : ∀ k : Fin 256, View.ld (Val := Elt Ideal) (e' := .f32) x0 (Rect.unit (s := S10000x256) ![lo, 0] S2000x256.size inbX) (ix2 r k)
      = x0 (ix2 (⟨lo + r.val, by omega⟩ : Fin 10000) k) := fun k =>
    congrArg x0 (funext fun a => Fin.ext (by
      match a with
      | ⟨0, _⟩ => show lo + 1 * r.val = lo + r.val; omega
      | ⟨1, _⟩ => show 0 + 1 * k.val = k.val; omega))
  simp only [e]

end Mm2

end Cert.Bridge

end
-- ==== Proof.Mm2R1.lean ====
/-
  The kernel's second-half region of the first encoder layer, read as a value: the 20000 × 128 array the
  region leaves is the two-column-halves layout of relu(relu((t - mu)/sqrt(var + eps)) · Wb + bb) of the
  five arrays the region finds; the host's two row slices concatenated along the columns give that
  10000 × 256 result itself.
-/
import proofs.«138131_g70763881169291_cont_9to1c4b_616_12_alg».proof.Proof.Gen.KernelIdeal.Frame
import proofs.«138131_g70763881169291_cont_9to1c4b_616_12_alg».proof.Proof.Mm2Math
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Mm2

/-- What the body leaves in the output's buffer, from the five input arrays: each of the ten stored pieces is
    the corresponding tile of the two-halves layout of the layer's second half. -/
theorem out1_5_eq (x0 : Vec Ideal S10000x256 .f32) (x1 x2 : Vec Ideal S1x256 .f32) (x3 : Vec Ideal S256x256 .f32)
    (x4 : Vec Ideal S1x256 .f32) :
    out1_5 (F := Ideal) x0 x1 x2 x3 x4 = halfRows (refMm2 x0 x1 x2 x3 x4) := by
  funext y
  unfold out1_5
  rw [View.ld_unit_zero (S := S1x256) hz2 _ x1, View.ld_unit_zero (S := S1x256) hz2 _ x2,
    View.ld_unit_zero (S := S256x256) hz2 _ x3, View.ld_unit_zero (S := S1x256) hz2 _ x4]
  refine View.canon_apply_of_pieces (Val := Elt Ideal) (S := S20000x128) (e := .f32) (halfRows (refMm2 x0 x1 x2 x3 x4)) _ ?_ y (cover1_5 _ _ _ _ _ _ _ _ _ _ y)
  intro p hp
  simp only [List.mem_cons, List.not_mem_nil, or_false] at hp
  rcases hp with rfl | rfl | rfl | rfl | rfl | rfl | rfl | rfl | rfl | rfl
  · exact pieceHi 8000 (by omega) inb_S10000x256_S2000x256_8000_0 inb_S20000x128_S2000x128_18000_0 x0 x1 x2 x3 x4
  · exact pieceLo 8000 (by omega) inb_S10000x256_S2000x256_8000_0 inb_S20000x128_S2000x128_8000_0 x0 x1 x2 x3 x4
  · exact pieceHi 6000 (by omega) inb_S10000x256_S2000x256_6000_0 inb_S20000x128_S2000x128_16000_0 x0 x1 x2 x3 x4
  · exact pieceLo 6000 (by omega) inb_S10000x256_S2000x256_6000_0 inb_S20000x128_S2000x128_6000_0 x0 x1 x2 x3 x4
  · exact pieceHi 4000 (by omega) inb_S10000x256_S2000x256_4000_0 inb_S20000x128_S2000x128_14000_0 x0 x1 x2 x3 x4
  · exact pieceLo 4000 (by omega) inb_S10000x256_S2000x256_4000_0 inb_S20000x128_S2000x128_4000_0 x0 x1 x2 x3 x4
  · exact pieceHi 2000 (by omega) inb_S10000x256_S2000x256_2000_0 inb_S20000x128_S2000x128_12000_0 x0 x1 x2 x3 x4
  · exact pieceLo 2000 (by omega) inb_S10000x256_S2000x256_2000_0 inb_S20000x128_S2000x128_2000_0 x0 x1 x2 x3 x4
  · exact pieceHi 0 (by omega) inb_S10000x256_S2000x256_0_0 inb_S20000x128_S2000x128_10000_0 x0 x1 x2 x3 x4
  · exact pieceLo 0 (by omega) inb_S10000x256_S2000x256_0_0 inb_S20000x128_S2000x128_0_0 x0 x1 x2 x3 x4

/-! ## From the buffer to the array: the region has one grid point and every window's block is its whole array -/

/-- Input window 0's block is the whole array the region finds. -/
theorem iblk1_0 (c : Dev nD) (t : Fin cfg1.N) :
    (iblk1 V c 0 t : Vec Ideal S10000x256 .f32) = V c (Pipeline.arrRef spec1 0) := by
  unfold iblk1
  have hz' : (fun a => win1_0.index t a * main_v47.ty.shape.size a) = fun _ => 0 := funext fun a => Nat.zero_mul _
  exact Memref.read_access_unit_zero (Elt Ideal) main_v47 hz' (fun a => by rw [congrFun hz' a]; simp) _

/-- Input window 1's block is the whole array the region finds. -/
theorem iblk1_1 (c : Dev nD) (t : Fin cfg1.N) :
    (iblk1 V c 1 t : Vec Ideal S1x256 .f32) = V c (Pipeline.arrRef spec1 1) := by
  unfold iblk1
  have hz' : (fun a => win1_1.index t a * main_v54.ty.shape.size a) = fun _ => 0 := funext fun a => Nat.zero_mul _
  exact Memref.read_access_unit_zero (Elt Ideal) main_v54 hz' (fun a => by rw [congrFun hz' a]; simp) _

/-- Input window 2's block is the whole array the region finds. -/
theorem iblk1_2 (c : Dev nD) (t : Fin cfg1.N) :
    (iblk1 V c 2 t : Vec Ideal S1x256 .f32) = V c (Pipeline.arrRef spec1 2) := by
  unfold iblk1
  have hz' : (fun a => win1_2.index t a * main_v55.ty.shape.size a) = fun _ => 0 := funext fun a => Nat.zero_mul _
  exact Memref.read_access_unit_zero (Elt Ideal) main_v55 hz' (fun a => by rw [congrFun hz' a]; simp) _

/-- Input window 3's block is the whole array the region finds. -/
theorem iblk1_3 (c : Dev nD) (t : Fin cfg1.N) :
    (iblk1 V c 3 t : Vec Ideal S256x256 .f32) = V c (Pipeline.arrRef spec1 3) := by
  unfold iblk1
  have hz' : (fun a => win1_3.index t a * main_arg8.ty.shape.size a) = fun _ => 0 := funext fun a => Nat.zero_mul _
  exact Memref.read_access_unit_zero (Elt Ideal) main_arg8 hz' (fun a => by rw [congrFun hz' a]; simp) _

/-- Input window 4's block is the whole array the region finds. -/
theorem iblk1_4 (c : Dev nD) (t : Fin cfg1.N) :
    (iblk1 V c 4 t : Vec Ideal S1x256 .f32) = V c (Pipeline.arrRef spec1 4) := by
  unfold iblk1
  have hz' : (fun a => win1_4.index t a * main_v8.ty.shape.size a) = fun _ => 0 := funext fun a => Nat.zero_mul _
  exact Memref.read_access_unit_zero (Elt Ideal) main_v8 hz' (fun a => by rw [congrFun hz' a]; simp) _

/-- The layer's second half of the five arrays the region finds. -/
abbrev res1 (c : Dev nD) : FVec Ideal S10000x256 .f32 :=
  refMm2 (V c (Pipeline.arrRef spec1 0)) (V c (Pipeline.arrRef spec1 1)) (V c (Pipeline.arrRef spec1 2))
    (V c (Pipeline.arrRef spec1 3)) (V c (Pipeline.arrRef spec1 4))

/-- The one write-back writes the two-halves layout of the result: the output's block is its whole array. -/
theorem flushed1_eq (c : Dev nD) (t : Fin cfg1.N) (hf : (cfg1.win 5).flush t = true) :
    (dat1 V c).flushed 5 t = ((cfg1.win 5).blk t).view.read (Elt Ideal) (halfRows (res1 V c)) := by
  show (cfg1.win 5).cut (grid1.coords t) ((dat1 V c).after 5 t) = _
  rw [after1_5, iblk1_0, iblk1_1, iblk1_2, iblk1_3, iblk1_4, out1_5_eq]
  have hz' : (fun a => win1_5.index t a * main_v56.ty.shape.size a) = fun _ => 0 := funext fun a => Nat.zero_mul _
  exact (Memref.read_access_unit_zero (Elt Ideal) main_v56 hz' (fun a => by rw [congrFun hz' a]; simp) (halfRows (res1 V c))).symm

/-- So the output array ends holding the two-halves layout of the result. -/
theorem arr1_eq (c : Dev nD) : (dat1 V c).arrAt 5 cfg1.N = halfRows (res1 V c) :=
  (dat1 V c).arrAt_eq_of_cover 5 (halfRows (res1 V c)) (flushed1_eq V c) fun i =>
    ⟨t1_0, flush1_5 t1_0, by
      show i ∈ ((View.whole main_v56).slice (win1_5.rect t1_0)).set
      rw [View.set_slice_whole, Rect.mem_set_unit]
      intro a
      have h0 : (i 0 : Nat) < 20000 := (i 0).isLt
      have h1 : (i 1 : Nat) < 128 := (i 1).isLt
      match a with
      | ⟨0, _⟩ => show win1_5.index t1_0 0 * win1_5.size 0 ≤ (i 0 : Nat) ∧ (i 0 : Nat) < win1_5.index t1_0 0 * win1_5.size 0 + win1_5.xsize (grid1.coords t1_0) 0
                  rw [show win1_5.index t1_0 0 * win1_5.size 0 = 0 from by decide +kernel, show win1_5.xsize (grid1.coords t1_0) 0 = 20000 from by decide +kernel]; omega
      | ⟨1, _⟩ => show win1_5.index t1_0 1 * win1_5.size 1 ≤ (i 1 : Nat) ∧ (i 1 : Nat) < win1_5.index t1_0 1 * win1_5.size 1 + win1_5.xsize (grid1.coords t1_0) 1
                  rw [show win1_5.index t1_0 1 * win1_5.size 1 = 0 from by decide +kernel, show win1_5.xsize (grid1.coords t1_0) 1 = 128 from by decide +kernel]; omega⟩

end Mm2

open Mm2 in
/-- The region's output array, its two row halves sliced and concatenated along the columns as the host does,
    is the layer's second half of the arrays the region finds. -/
theorem mm2_1 (c : Dev nD) :
    catK ((dat1 (F := Ideal) V c).arrAt 5 cfg1.N)
      = refMm2 (V c (Pipeline.arrRef spec1 0)) (V c (Pipeline.arrRef spec1 1)) (V c (Pipeline.arrRef spec1 2))
          (V c (Pipeline.arrRef spec1 3)) (V c (Pipeline.arrRef spec1 4)) := by
  rw [arr1_eq]
  exact catK_halfRows _

end Cert.Bridge

end
-- ==== Proof.KValue1a.lean ====
/-
  Layer 0's second half of the idealized kernel program, read off the fold of buffer contents. After region 1 the
  host puts the two column halves of its output side by side: that array is
  h₁ = relu(relu((t₀ − μ₀)/√(σ₀² + ε))·W₀ᵦ + b₀ᵦ), the reference's chain of operations on (t₀, μ₀, σ₀²); and layer 1's
  matmul input u₁ = (1 + ε₁)·h₁ + (sum of h₁ over incoming edges).
-/
import proofs.«138131_g70763881169291_cont_9to1c4b_616_12_alg».proof.Proof.KValue0
import proofs.«138131_g70763881169291_cont_9to1c4b_616_12_alg».proof.Proof.Mm2R1

set_option maxRecDepth 16384

noncomputable section

namespace Cert.KernelIdeal.KValue

open Idealize.ShloMosaic Idealize.ShloMosaic.TcCoe Idealize.SL.Sem
open Cert.KernelIdeal Cert.KernelIdeal.Gen Cert.KernelIdeal.KChain Cert.Bridge

variable (m : (ℓ : Loc nD τ sig) → Buf (Elt Ideal) ℓ) (ρ : Dev nD → PrngReg) (c : Dev nD)

/-- The two rows of the edge list, reshaped, as the first stretch leaves them. -/
theorem v1_eq : W1 m ρ c (Proc.devRef .tc main_v1) = k_v1 (arg m c main_arg1) := st_v1 (W0 m ρ c)
theorem v3_eq : W1 m ρ c (Proc.devRef .tc main_v3) = k_v3 (arg m c main_arg1) := st_v3 (W0 m ρ c)

/-- After region 1 and the host's slices and concatenation: h₁. -/
theorem h1_eq : W6 m ρ c (Proc.devRef .tc main_v59)
    = refMm2 (W2 m ρ c (Proc.devRef .tc main_v47)) (k_v54 (W2 m ρ c (Proc.devRef .tc main_v47)))
        (k_v55 k_c_14 (W2 m ρ c (Proc.devRef .tc main_v47))) (arg m c main_arg8) (k_v8 (arg m c main_arg9)) := by
  have e1 : W5 m ρ c (Proc.devRef .tc main_v56) = (dat1 (V4 m ρ) c).arrAt 5 cfg1.N := W5_arr m ρ c 5
  have e2 := mm2_1 (V4 m ρ) c
  have e8 : W1 m ρ c (Proc.devRef .tc main_v8) = k_v8 (arg m c main_arg9) := st_v8 (W0 m ρ c)
  refine (st_v59 (W5 m ρ c)).trans ?_
  rw [e1]
  refine (show k_v59 (F := Ideal) _ = catK _ from rfl).trans (e2.trans ?_)
  show refMm2 (W4 m ρ c (Proc.devRef .tc main_v47)) (W4 m ρ c (Proc.devRef .tc main_v54)) (W4 m ρ c (Proc.devRef .tc main_v55))
      (W4 m ρ c (Proc.devRef .tc main_arg8)) (W4 m ρ c (Proc.devRef .tc main_v8)) = _
  rw [carry_v47_2_4, carry_v54_3_4, mu0_eq, var0_eq, carry_arg8_0_4, carry_v8_1_4, e8]
  all_goals rfl

/-- Layer 1's matmul input from h₁. -/
theorem u1_eq : W6 m ρ c (Proc.devRef .tc main_v78)
    = k_v78 (arg m c main_arg4) (W6 m ρ c (Proc.devRef .tc main_v59)) (k_v3 (arg m c main_arg1)) (k_v1 (arg m c main_arg1)) := by
  refine (st_v78 (W5 m ρ c)).trans ?_
  rw [carry_arg4_0_5, carry_v3_1_5, carry_v1_1_5, v3_eq, v1_eq]
  all_goals rfl

end Cert.KernelIdeal.KValue

end
-- ==== Proof.Mm2R3.lean ====
/-
  The kernel's second-half region of the second encoder layer, read as a value: the 20000 × 128 array the
  region leaves is the two-column-halves layout of relu(relu((t - mu)/sqrt(var + eps)) · Wb + bb) of the
  five arrays the region finds; the host's two row slices concatenated along the columns give that
  10000 × 256 result itself.
-/
import proofs.«138131_g70763881169291_cont_9to1c4b_616_12_alg».proof.Proof.Gen.KernelIdeal.Frame
import proofs.«138131_g70763881169291_cont_9to1c4b_616_12_alg».proof.Proof.Mm2Math
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Mm2

/-- What the body leaves in the output's buffer, from the five input arrays: each of the ten stored pieces is
    the corresponding tile of the two-halves layout of the layer's second half. -/
theorem out3_5_eq (x0 : Vec Ideal S10000x256 .f32) (x1 x2 : Vec Ideal S1x256 .f32) (x3 : Vec Ideal S256x256 .f32)
    (x4 : Vec Ideal S1x256 .f32) :
    out3_5 (F := Ideal) x0 x1 x2 x3 x4 = halfRows (refMm2 x0 x1 x2 x3 x4) := by
  funext y
  unfold out3_5
  rw [View.ld_unit_zero (S := S1x256) hz2 _ x1, View.ld_unit_zero (S := S1x256) hz2 _ x2,
    View.ld_unit_zero (S := S256x256) hz2 _ x3, View.ld_unit_zero (S := S1x256) hz2 _ x4]
  refine View.canon_apply_of_pieces (Val := Elt Ideal) (S := S20000x128) (e := .f32) (halfRows (refMm2 x0 x1 x2 x3 x4)) _ ?_ y (cover3_5 _ _ _ _ _ _ _ _ _ _ y)
  intro p hp
  simp only [List.mem_cons, List.not_mem_nil, or_false] at hp
  rcases hp with rfl | rfl | rfl | rfl | rfl | rfl | rfl | rfl | rfl | rfl
  · exact pieceHi 8000 (by omega) inb_S10000x256_S2000x256_8000_0 inb_S20000x128_S2000x128_18000_0 x0 x1 x2 x3 x4
  · exact pieceLo 8000 (by omega) inb_S10000x256_S2000x256_8000_0 inb_S20000x128_S2000x128_8000_0 x0 x1 x2 x3 x4
  · exact pieceHi 6000 (by omega) inb_S10000x256_S2000x256_6000_0 inb_S20000x128_S2000x128_16000_0 x0 x1 x2 x3 x4
  · exact pieceLo 6000 (by omega) inb_S10000x256_S2000x256_6000_0 inb_S20000x128_S2000x128_6000_0 x0 x1 x2 x3 x4
  · exact pieceHi 4000 (by omega) inb_S10000x256_S2000x256_4000_0 inb_S20000x128_S2000x128_14000_0 x0 x1 x2 x3 x4
  · exact pieceLo 4000 (by omega) inb_S10000x256_S2000x256_4000_0 inb_S20000x128_S2000x128_4000_0 x0 x1 x2 x3 x4
  · exact pieceHi 2000 (by omega) inb_S10000x256_S2000x256_2000_0 inb_S20000x128_S2000x128_12000_0 x0 x1 x2 x3 x4
  · exact pieceLo 2000 (by omega) inb_S10000x256_S2000x256_2000_0 inb_S20000x128_S2000x128_2000_0 x0 x1 x2 x3 x4
  · exact pieceHi 0 (by omega) inb_S10000x256_S2000x256_0_0 inb_S20000x128_S2000x128_10000_0 x0 x1 x2 x3 x4
  · exact pieceLo 0 (by omega) inb_S10000x256_S2000x256_0_0 inb_S20000x128_S2000x128_0_0 x0 x1 x2 x3 x4

/-! ## From the buffer to the array: the region has one grid point and every window's block is its whole array -/

/-- Input window 0's block is the whole array the region finds. -/
theorem iblk3_0 (c : Dev nD) (t : Fin cfg3.N) :
    (iblk3 V c 0 t : Vec Ideal S10000x256 .f32) = V c (Pipeline.arrRef spec3 0) := by
  unfold iblk3
  have hz' : (fun a => win3_0.index t a * main_v79.ty.shape.size a) = fun _ => 0 := funext fun a => Nat.zero_mul _
  exact Memref.read_access_unit_zero (Elt Ideal) main_v79 hz' (fun a => by rw [congrFun hz' a]; simp) _

/-- Input window 1's block is the whole array the region finds. -/
theorem iblk3_1 (c : Dev nD) (t : Fin cfg3.N) :
    (iblk3 V c 1 t : Vec Ideal S1x256 .f32) = V c (Pipeline.arrRef spec3 1) := by
  unfold iblk3
  have hz' : (fun a => win3_1.index t a * main_v86.ty.shape.size a) = fun _ => 0 := funext fun a => Nat.zero_mul _
  exact Memref.read_access_unit_zero (Elt Ideal) main_v86 hz' (fun a => by rw [congrFun hz' a]; simp) _

/-- Input window 2's block is the whole array the region finds. -/
theorem iblk3_2 (c : Dev nD) (t : Fin cfg3.N) :
    (iblk3 V c 2 t : Vec Ideal S1x256 .f32) = V c (Pipeline.arrRef spec3 2) := by
  unfold iblk3
  have hz' : (fun a => win3_2.index t a * main_v87.ty.shape.size a) = fun _ => 0 := funext fun a => Nat.zero_mul _
  exact Memref.read_access_unit_zero (Elt Ideal) main_v87 hz' (fun a => by rw [congrFun hz' a]; simp) _

/-- Input window 3's block is the whole array the region finds. -/
theorem iblk3_3 (c : Dev nD) (t : Fin cfg3.N) :
    (iblk3 V c 3 t : Vec Ideal S256x256 .f32) = V c (Pipeline.arrRef spec3 3) := by
  unfold iblk3
  have hz' : (fun a => win3_3.index t a * main_arg12.ty.shape.size a) = fun _ => 0 := funext fun a => Nat.zero_mul _
  exact Memref.read_access_unit_zero (Elt Ideal) main_arg12 hz' (fun a => by rw [congrFun hz' a]; simp) _

/-- Input window 4's block is the whole array the region finds. -/
theorem iblk3_4 (c : Dev nD) (t : Fin cfg3.N) :
    (iblk3 V c 4 t : Vec Ideal S1x256 .f32) = V c (Pipeline.arrRef spec3 4) := by
  unfold iblk3
  have hz' : (fun a => win3_4.index t a * main_v10.ty.shape.size a) = fun _ => 0 := funext fun a => Nat.zero_mul _
  exact Memref.read_access_unit_zero (Elt Ideal) main_v10 hz' (fun a => by rw [congrFun hz' a]; simp) _

/-- The layer's second half of the five arrays the region finds. -/
abbrev res3 (c : Dev nD) : FVec Ideal S10000x256 .f32 :=
  refMm2 (V c (Pipeline.arrRef spec3 0)) (V c (Pipeline.arrRef spec3 1)) (V c (Pipeline.arrRef spec3 2))
    (V c (Pipeline.arrRef spec3 3)) (V c (Pipeline.arrRef spec3 4))

/-- The one write-back writes the two-halves layout of the result: the output's block is its whole array. -/
theorem flushed3_eq (c : Dev nD) (t : Fin cfg3.N) (hf : (cfg3.win 5).flush t = true) :
    (dat3 V c).flushed 5 t = ((cfg3.win 5).blk t).view.read (Elt Ideal) (halfRows (res3 V c)) := by
  show (cfg3.win 5).cut (grid3.coords t) ((dat3 V c).after 5 t) = _
  rw [after3_5, iblk3_0, iblk3_1, iblk3_2, iblk3_3, iblk3_4, out3_5_eq]
  have hz' : (fun a => win3_5.index t a * main_v88.ty.shape.size a) = fun _ => 0 := funext fun a => Nat.zero_mul _
  exact (Memref.read_access_unit_zero (Elt Ideal) main_v88 hz' (fun a => by rw [congrFun hz' a]; simp) (halfRows (res3 V c))).symm

/-- So the output array ends holding the two-halves layout of the result. -/
theorem arr3_eq (c : Dev nD) : (dat3 V c).arrAt 5 cfg3.N = halfRows (res3 V c) :=
  (dat3 V c).arrAt_eq_of_cover 5 (halfRows (res3 V c)) (flushed3_eq V c) fun i =>
    ⟨t3_0, flush3_5 t3_0, by
      show i ∈ ((View.whole main_v88).slice (win3_5.rect t3_0)).set
      rw [View.set_slice_whole, Rect.mem_set_unit]
      intro a
      have h0 : (i 0 : Nat) < 20000 := (i 0).isLt
      have h1 : (i 1 : Nat) < 128 := (i 1).isLt
      match a with
      | ⟨0, _⟩ => show win3_5.index t3_0 0 * win3_5.size 0 ≤ (i 0 : Nat) ∧ (i 0 : Nat) < win3_5.index t3_0 0 * win3_5.size 0 + win3_5.xsize (grid3.coords t3_0) 0
                  rw [show win3_5.index t3_0 0 * win3_5.size 0 = 0 from by decide +kernel, show win3_5.xsize (grid3.coords t3_0) 0 = 20000 from by decide +kernel]; omega
      | ⟨1, _⟩ => show win3_5.index t3_0 1 * win3_5.size 1 ≤ (i 1 : Nat) ∧ (i 1 : Nat) < win3_5.index t3_0 1 * win3_5.size 1 + win3_5.xsize (grid3.coords t3_0) 1
                  rw [show win3_5.index t3_0 1 * win3_5.size 1 = 0 from by decide +kernel, show win3_5.xsize (grid3.coords t3_0) 1 = 128 from by decide +kernel]; omega⟩

end Mm2

open Mm2 in
/-- The region's output array, its two row halves sliced and concatenated along the columns as the host does,
    is the layer's second half of the arrays the region finds. -/
theorem mm2_3 (c : Dev nD) :
    catK ((dat3 (F := Ideal) V c).arrAt 5 cfg3.N)
      = refMm2 (V c (Pipeline.arrRef spec3 0)) (V c (Pipeline.arrRef spec3 1)) (V c (Pipeline.arrRef spec3 2))
          (V c (Pipeline.arrRef spec3 3)) (V c (Pipeline.arrRef spec3 4)) := by
  rw [arr3_eq]
  exact catK_halfRows _

end Cert.Bridge

end
-- ==== Proof.Mm1Math256.lean ====
/-
  The first linear map of layers 2 and 3 as the host computes it: the 10000 × 256 activations times a 256 × 256
  weight matrix plus a row of biases broadcast over the rows. Entry (i, j) is (Σ_k u (i, k) · W (k, j)) + b (0, j).
-/
import proofs.«138131_g70763881169291_cont_9to1c4b_616_12_alg».proof.Proof.Mm1Math

noncomputable section

namespace Cert.Bridge

open Idealize.ShloMosaic Idealize.ShloMosaic.ValueIdx
open Cert.KernelIdeal Cert.KernelIdeal.Gen

/-- The host's dimension numbers of the 10000 × 256 by 256 × 256 product are the plain ones. -/
theorem dotH256_eq : dot_S10000x256_S256x256_S10000x256_1_0_0_1_n_n = DotDims.plain 10000 256 256 := rfl

/-- The first linear map of layers 2 and 3 as the host computes it: u · W + b, the bias row broadcast over the rows. -/
def linK256 (u : FVec Ideal S10000x256 .f32) (W : FVec Ideal S256x256 .f32) (b : FVec Ideal S1x256 .f32) :
    FVec Ideal S10000x256 .f32 :=
  addf (Host.dotGeneral (F := Ideal) dot_S10000x256_S256x256_S10000x256_1_0_0_1_n_n none u W)
    (broadcastInDim S10000x256 ![0, 1] bcast_S1x256_S10000x256_0_1 b)

/-- Its entry (i, j): (Σ_k u (i, k) · W (k, j)) + b (0, j). -/
theorem linK256_apply (u : FVec Ideal S10000x256 .f32) (W : FVec Ideal S256x256 .f32) (b : FVec Ideal S1x256 .f32)
    (i : Fin 10000) (j : Fin 256) :
    linK256 u W b (ix2 i j) = (∑ k : Fin 256, u (ix2 i k) * W (ix2 k j)) + b (ix2 (0 : Fin 1) j) := by
  unfold linK256
  rw [addf_apply, dotH256_eq]
  exact congrArg₂ (· + ·) (plain_dotGeneral_apply 10000 256 256 none .single u W i j)
    (bcastRow_apply bcast_S1x256_S10000x256_0_1 b i j)

end Cert.Bridge

end
-- ==== Proof.Mm1R2.lean ====
/-
  The first linear map of layer 2 as the kernel computes it. The body cuts the 10000 rows into five blocks of
  2000 rows; on each block it multiplies the block of the activations by the 256 × 256 weight matrix into a zero
  accumulator and adds the bias row broadcast over the block's rows, and stores the block of the result. Read at
  one entry on the extended reals, entry (i, j) of the stored array is (Σ_k u (i, k) · W (k, j)) + b (0, j), which
  is the entry of the product as the host computes it; the five stores tile the array, so the whole array is that
  product.
-/
import proofs.«138131_g70763881169291_cont_9to1c4b_616_12_alg».proof.Proof.Gen.KernelIdeal.Frame
import proofs.«138131_g70763881169291_cont_9to1c4b_616_12_alg».proof.Proof.Mm1Math256
import proofs.«138131_g70763881169291_cont_9to1c4b_616_12_alg».proof.Proof.Mm1R0
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

/-- The kernel's dimension numbers of the 2000 × 256 by 256 × 256 product are the plain ones. -/
theorem mm1_dotK256_eq_r2 : dot_S2000x256_S256x256_S2000x256_1_0_0_1_n_n = DotDims.plain 2000 256 256 := rfl

/-- One row block's stored value at entry (p, q): the block of the activations times the weights, plus the bias row. -/
theorem mm1_pay3_apply_r2 (v0 : Vec Ideal S256x256 .f32) (v1 : Vec Ideal S1x256 .f32) (v3 : Vec Ideal S2000x256 .f32)
    (p : Fin 2000) (q : Fin 256) :
    k2_pay3 (F := Ideal) v0 v1 v3 (ix2 p q)
      = (∑ k : Fin 256, v3 (ix2 p k) * v0 (ix2 k q)) + v1 (ix2 (0 : Fin 1) q) := by
  unfold k2_pay3 k2_pay2
  dsimp only
  rw [shapeCast_self, shapeCast_self, addf_apply, mm1_dotK256_eq_r2]
  exact congrArg₂ (· + ·) (Cert.PlainMatmul.matmul_zero_apply 2000 256 256 none v3 v0 p q)
    (broadcastTo_1b_ab_apply v1 broadcasts_S1x256_S2000x256 p q)

/-- The five blocks' stored values are one function of the loaded blocks. -/
theorem mm1_pay4_eq_r2 (v0 : Vec Ideal S256x256 .f32) (v1 : Vec Ideal S1x256 .f32) (v : Vec Ideal S2000x256 .f32) :
    k2_pay4 (F := Ideal) v0 v1 v = k2_pay3 v0 v1 v := rfl
theorem mm1_pay5_eq_r2 (v0 : Vec Ideal S256x256 .f32) (v1 : Vec Ideal S1x256 .f32) (v : Vec Ideal S2000x256 .f32) :
    k2_pay5 (F := Ideal) v0 v1 v = k2_pay3 v0 v1 v := rfl
theorem mm1_pay6_eq_r2 (v0 : Vec Ideal S256x256 .f32) (v1 : Vec Ideal S1x256 .f32) (v : Vec Ideal S2000x256 .f32) :
    k2_pay6 (F := Ideal) v0 v1 v = k2_pay3 v0 v1 v := rfl
theorem mm1_pay1_eq_r2 (v0 : Vec Ideal S256x256 .f32) (v1 : Vec Ideal S1x256 .f32) (v : Vec Ideal S2000x256 .f32) :
    k2_pay1 (F := Ideal) v0 (k2_pay2 v1) (k2_pay7 v) (constant S2000x256 .f32 0x00000000#32) = k2_pay3 v0 v1 v := rfl

/-- A row block's stored value, at its entry (p, q), is the host's product at the array's entry under it. -/
theorem mm1_block_apply_r2 (x0 : Vec Ideal S10000x256 .f32) (x1 : Vec Ideal S256x256 .f32) (x2 : Vec Ideal S1x256 .f32)
    (o : Nat) (inbI : ∀ a, (![o, 0] : Fin 2 → Nat) a + S2000x256.size a ≤ S10000x256.size a)
    (inbO : ∀ a, (![o, 0] : Fin 2 → Nat) a + S2000x256.size a ≤ S10000x256.size a) (x : S2000x256.Idx) :
    k2_pay3 (F := Ideal) (View.ld x1 r2_0) (View.ld x2 r2_1) (View.ld x0 (Rect.unit (s := S10000x256) ![o, 0] S2000x256.size inbI)) x
      = linK256 x0 x1 x2 ((Rect.unit (s := S10000x256) ![o, 0] S2000x256.size inbO).emb x) := by
  obtain ⟨p, q, rfl⟩ : ∃ (p : Fin 2000) (q : Fin 256), x = ix2 p q := ⟨x 0, x 1, eq_ix2 x⟩
  have h0 : o + 2000 ≤ 10000 := inbO 0
  have hp : o + p.val < 10000 := by have := p.isLt; omega
  have eO : (Rect.unit (s := S10000x256) ![o, 0] S2000x256.size inbO).emb (ix2 p q) = ix2 ⟨o + p.val, hp⟩ q :=
    rowBlock_idx (R := 10000) (C := 256) o inbO p q hp
  have eI : ∀ k : Fin 256, (Rect.unit (s := S10000x256) ![o, 0] S2000x256.size inbI).idx (ix2 p k) = ix2 ⟨o + p.val, hp⟩ k :=
    fun k => rowBlock_idx (R := 10000) (C := 256) o inbI p k hp
  rw [eO, mm1_pay3_apply_r2, linK256_apply, View.ld_unit_zero zeros2 _ x1, View.ld_unit_zero zeros2 _ x2]
  refine congrArg (· + x2 (ix2 (0 : Fin 1) q)) (Finset.sum_congr rfl fun k _ => ?_)
  exact congrArg (· * x1 (ix2 k q)) (congrArg x0 (eI k))

/-- What the body leaves in the output buffer is the host's product of the loaded arrays: each of the five
    stores writes the block of it under its rows, and the stores tile the buffer. -/
theorem mm1_out2_3_eq (x0 : Vec Ideal S10000x256 .f32) (x1 : Vec Ideal S256x256 .f32) (x2 : Vec Ideal S1x256 .f32) :
    out2_3 (F := Ideal) x0 x1 x2 = linK256 x0 x1 x2 := by
  funext y
  unfold out2_3
  refine View.canon_apply_of_pieces (Val := Elt Ideal) (S := S10000x256) (e := .f32) (linK256 x0 x1 x2) _ ?_ y (cover2_3 _ _ _ _ _ y)
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, fun _ h => absurd h List.not_mem_nil⟩⟩⟩⟩⟩
  · exact (congrFun (mm1_pay1_eq_r2 _ _ _) x).trans (mm1_block_apply_r2 x0 x1 x2 8000 inb_S10000x256_S2000x256_8000_0 inb_S10000x256_S2000x256_8000_0 x)
  · exact (congrFun (mm1_pay6_eq_r2 _ _ _) x).trans (mm1_block_apply_r2 x0 x1 x2 6000 inb_S10000x256_S2000x256_6000_0 inb_S10000x256_S2000x256_6000_0 x)
  · exact (congrFun (mm1_pay5_eq_r2 _ _ _) x).trans (mm1_block_apply_r2 x0 x1 x2 4000 inb_S10000x256_S2000x256_4000_0 inb_S10000x256_S2000x256_4000_0 x)
  · exact (congrFun (mm1_pay4_eq_r2 _ _ _) x).trans (mm1_block_apply_r2 x0 x1 x2 2000 inb_S10000x256_S2000x256_2000_0 inb_S10000x256_S2000x256_2000_0 x)
  · exact mm1_block_apply_r2 x0 x1 x2 0 inb_S10000x256_S2000x256_0_0 inb_S10000x256_S2000x256_0_0 x

/-! ## From the buffer to the array: one grid point, whole-array blocks -/

section Region
variable (V : (c : Dev nD) → (b : Ref sig .tc) → Buf (Elt Ideal) ((c : Thread nD τ).loc b))

/-- Each input window's block is its whole array. -/
theorem mm1_iblk2_0_eq (c : Dev nD) (t : Fin cfg2.N) : iblk2 (F := Ideal) V c 0 t = V c (Pipeline.arrRef spec2 0) := by
  unfold iblk2
  exact Memref.read_access_unit_zero (Elt Ideal) main_v78 (funext fun a => Nat.zero_mul _) _ (V c main_v78)
theorem mm1_iblk2_1_eq (c : Dev nD) (t : Fin cfg2.N) : iblk2 (F := Ideal) V c 1 t = V c (Pipeline.arrRef spec2 1) := by
  unfold iblk2
  exact Memref.read_access_unit_zero (Elt Ideal) main_arg10 (funext fun a => Nat.zero_mul _) _ (V c main_arg10)
theorem mm1_iblk2_2_eq (c : Dev nD) (t : Fin cfg2.N) : iblk2 (F := Ideal) V c 2 t = V c (Pipeline.arrRef spec2 2) := by
  unfold iblk2
  exact Memref.read_access_unit_zero (Elt Ideal) main_v9 (funext fun a => Nat.zero_mul _) _ (V c main_v9)

/-- What the one grid point writes back is the host's product of the three arrays, read through the output
    window's block, which is the whole array. -/
theorem mm1_flushed2_eq (c : Dev nD) (t : Fin cfg2.N) :
    (dat2 (F := Ideal) V c).flushed 3 t
      = ((cfg2.win 3).blk t).view.read (Elt Ideal)
          (linK256 (V c (Pipeline.arrRef spec2 0)) (V c (Pipeline.arrRef spec2 1)) (V c (Pipeline.arrRef spec2 2))) := by
  show (cfg2.win 3).cut (grid2.coords t) ((dat2 (F := Ideal) V c).after 3 t) = _
  rw [after2_3, mm1_iblk2_0_eq, mm1_iblk2_1_eq, mm1_iblk2_2_eq, mm1_out2_3_eq]
  exact (Memref.read_access_unit_zero (Elt Ideal) main_v79 (funext fun a => Nat.zero_mul _) _ _).symm

/-- REGION 2: when the region is left its output array holds u · W + b as the host computes it. -/
theorem mm1_2 (c : Dev nD) :
    (dat2 (F := Ideal) V c).arrAt 3 cfg2.N
      = linK256 (V c (Pipeline.arrRef spec2 0)) (V c (Pipeline.arrRef spec2 1)) (V c (Pipeline.arrRef spec2 2)) :=
  (dat2 (F := Ideal) V c).arrAt_eq_of_cover 3 _ (fun t _ => mm1_flushed2_eq V c t) fun i =>
    ⟨t2_0, flush2_3 t2_0, by
      show i ∈ ((View.whole main_v79).slice (win2_3.rect t2_0)).set
      rw [View.set_slice_whole, Rect.mem_set_unit]
      intro a
      have h0 : (i 0 : Nat) < 10000 := (i 0).isLt
      have h1 : (i 1 : Nat) < 256 := (i 1).isLt
      match a with
      | ⟨0, _⟩ => show 0 * 10000 ≤ (i 0 : Nat) ∧ (i 0 : Nat) < 0 * 10000 + 10000; omega
      | ⟨1, _⟩ => show 0 * 256 ≤ (i 1 : Nat) ∧ (i 1 : Nat) < 0 * 256 + 256; omega⟩

end Region

end Cert.Bridge

end
-- ==== Proof.KValue1b.lean ====
/-
  Layer 1 of the idealized kernel program, read off the fold of buffer contents: t₁ = u₁·W₁ₐ + b₁ₐ from region 2 (and
  again from the host's own product), its column means and variances, and h₂ from region 3 after the host has put
  the two column halves side by side.
-/
import proofs.«138131_g70763881169291_cont_9to1c4b_616_12_alg».proof.Proof.KValue1a
import proofs.«138131_g70763881169291_cont_9to1c4b_616_12_alg».proof.Proof.Mm2R3
import proofs.«138131_g70763881169291_cont_9to1c4b_616_12_alg».proof.Proof.Mm1R2

set_option maxRecDepth 16384

noncomputable section

namespace Cert.KernelIdeal.KValue

open Idealize.ShloMosaic Idealize.ShloMosaic.TcCoe Idealize.SL.Sem
open Cert.KernelIdeal Cert.KernelIdeal.Gen Cert.KernelIdeal.KChain Cert.Bridge

variable (m : (ℓ : Loc nD τ sig) → Buf (Elt Ideal) ℓ) (ρ : Dev nD → PrngReg) (c : Dev nD)

/-- Region 2 leaves t₁ = u₁·W₁ₐ + b₁ₐ. -/
theorem t1_eq : W7 m ρ c (Proc.devRef .tc main_v79)
    = linK256 (W6 m ρ c (Proc.devRef .tc main_v78)) (W6 m ρ c (Proc.devRef .tc main_arg10)) (W6 m ρ c (Proc.devRef .tc main_v9)) :=
  (W7_arr m ρ c 3).trans (mm1_2 (V6 m ρ) c)

/-- The host's own copy of the product is the region's. -/
theorem ts1_eq : W8 m ρ c (Proc.devRef .tc main_v82) = W7 m ρ c (Proc.devRef .tc main_v79) := by
  rw [t1_eq]
  refine (st_v82 (W7 m ρ c)).trans ?_
  rw [step_v78_6, step_arg10_6, step_v9_6]
  all_goals rfl

theorem mu1_eq : W8 m ρ c (Proc.devRef .tc main_v86) = k_v86 (W7 m ρ c (Proc.devRef .tc main_v79)) := by
  rw [← ts1_eq]; exact st_v86 (W7 m ρ c)

theorem var1_eq : W9 m ρ c (Proc.devRef .tc main_v87) = k_v87 k_c_23 (W7 m ρ c (Proc.devRef .tc main_v79)) := by
  refine (st_v87 (W8 m ρ c)).trans ?_
  rw [ts1_eq]
  exact congrArg (fun z => k_v87 z _) (st_c_23 (W7 m ρ c))

/-- After region 3 and the host's slices and concatenation: h₂. -/
theorem h2_eq : W11 m ρ c (Proc.devRef .tc main_v91)
    = refMm2 (W7 m ρ c (Proc.devRef .tc main_v79)) (k_v86 (W7 m ρ c (Proc.devRef .tc main_v79)))
        (k_v87 k_c_23 (W7 m ρ c (Proc.devRef .tc main_v79))) (arg m c main_arg12) (k_v10 (arg m c main_arg13)) := by
  have e1 : W10 m ρ c (Proc.devRef .tc main_v88) = (dat3 (V9 m ρ) c).arrAt 5 cfg3.N := W10_arr m ρ c 5
  have e2 := mm2_3 (V9 m ρ) c
  have e8 : W1 m ρ c (Proc.devRef .tc main_v10) = k_v10 (arg m c main_arg13) := st_v10 (W0 m ρ c)
  refine (st_v91 (W10 m ρ c)).trans ?_
  rw [e1]
  refine (show k_v91 (F := Ideal) _ = catK _ from rfl).trans (e2.trans ?_)
  show refMm2 (W9 m ρ c (Proc.devRef .tc main_v79)) (W9 m ρ c (Proc.devRef .tc main_v86)) (W9 m ρ c (Proc.devRef .tc main_v87))
      (W9 m ρ c (Proc.devRef .tc main_arg12)) (W9 m ρ c (Proc.devRef .tc main_v10)) = _
  rw [carry_v79_7_9, carry_v86_8_9, mu1_eq, var1_eq, carry_arg12_0_9, carry_v10_1_9, e8]
  all_goals rfl

end Cert.KernelIdeal.KValue

end
-- ==== Proof.Mm1R4.lean ====
/-
  The first linear map of layer 3 as the kernel computes it. The body cuts the 10000 rows into five blocks of
  2000 rows; on each block it multiplies the block of the activations by the 256 × 256 weight matrix into a zero
  accumulator and adds the bias row broadcast over the block's rows, and stores the block of the result. Read at
  one entry on the extended reals, entry (i, j) of the stored array is (Σ_k u (i, k) · W (k, j)) + b (0, j), which
  is the entry of the product as the host computes it; the five stores tile the array, so the whole array is that
  product.
-/
import proofs.«138131_g70763881169291_cont_9to1c4b_616_12_alg».proof.Proof.Gen.KernelIdeal.Frame
import proofs.«138131_g70763881169291_cont_9to1c4b_616_12_alg».proof.Proof.Mm1Math256
import proofs.«138131_g70763881169291_cont_9to1c4b_616_12_alg».proof.Proof.Mm1R0
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

/-- The kernel's dimension numbers of the 2000 × 256 by 256 × 256 product are the plain ones. -/
theorem mm1_dotK256_eq_r4 : dot_S2000x256_S256x256_S2000x256_1_0_0_1_n_n = DotDims.plain 2000 256 256 := rfl

/-- One row block's stored value at entry (p, q): the block of the activations times the weights, plus the bias row. -/
theorem mm1_pay3_apply_r4 (v0 : Vec Ideal S256x256 .f32) (v1 : Vec Ideal S1x256 .f32) (v3 : Vec Ideal S2000x256 .f32)
    (p : Fin 2000) (q : Fin 256) :
    k4_pay3 (F := Ideal) v0 v1 v3 (ix2 p q)
      = (∑ k : Fin 256, v3 (ix2 p k) * v0 (ix2 k q)) + v1 (ix2 (0 : Fin 1) q) := by
  unfold k4_pay3 k4_pay2
  dsimp only
  rw [shapeCast_self, shapeCast_self, addf_apply, mm1_dotK256_eq_r4]
  exact congrArg₂ (· + ·) (Cert.PlainMatmul.matmul_zero_apply 2000 256 256 none v3 v0 p q)
    (broadcastTo_1b_ab_apply v1 broadcasts_S1x256_S2000x256 p q)

/-- The five blocks' stored values are one function of the loaded blocks. -/
theorem mm1_pay4_eq_r4 (v0 : Vec Ideal S256x256 .f32) (v1 : Vec Ideal S1x256 .f32) (v : Vec Ideal S2000x256 .f32) :
    k4_pay4 (F := Ideal) v0 v1 v = k4_pay3 v0 v1 v := rfl
theorem mm1_pay5_eq_r4 (v0 : Vec Ideal S256x256 .f32) (v1 : Vec Ideal S1x256 .f32) (v : Vec Ideal S2000x256 .f32) :
    k4_pay5 (F := Ideal) v0 v1 v = k4_pay3 v0 v1 v := rfl
theorem mm1_pay6_eq_r4 (v0 : Vec Ideal S256x256 .f32) (v1 : Vec Ideal S1x256 .f32) (v : Vec Ideal S2000x256 .f32) :
    k4_pay6 (F := Ideal) v0 v1 v = k4_pay3 v0 v1 v := rfl
theorem mm1_pay1_eq_r4 (v0 : Vec Ideal S256x256 .f32) (v1 : Vec Ideal S1x256 .f32) (v : Vec Ideal S2000x256 .f32) :
    k4_pay1 (F := Ideal) v0 (k4_pay2 v1) (k4_pay7 v) (constant S2000x256 .f32 0x00000000#32) = k4_pay3 v0 v1 v := rfl

/-- A row block's stored value, at its entry (p, q), is the host's product at the array's entry under it. -/
theorem mm1_block_apply_r4 (x0 : Vec Ideal S10000x256 .f32) (x1 : Vec Ideal S256x256 .f32) (x2 : Vec Ideal S1x256 .f32)
    (o : Nat) (inbI : ∀ a, (![o, 0] : Fin 2 → Nat) a + S2000x256.size a ≤ S10000x256.size a)
    (inbO : ∀ a, (![o, 0] : Fin 2 → Nat) a + S2000x256.size a ≤ S10000x256.size a) (x : S2000x256.Idx) :
    k4_pay3 (F := Ideal) (View.ld x1 r4_0) (View.ld x2 r4_1) (View.ld x0 (Rect.unit (s := S10000x256) ![o, 0] S2000x256.size inbI)) x
      = linK256 x0 x1 x2 ((Rect.unit (s := S10000x256) ![o, 0] S2000x256.size inbO).emb x) := by
  obtain ⟨p, q, rfl⟩ : ∃ (p : Fin 2000) (q : Fin 256), x = ix2 p q := ⟨x 0, x 1, eq_ix2 x⟩
  have h0 : o + 2000 ≤ 10000 := inbO 0
  have hp : o + p.val < 10000 := by have := p.isLt; omega
  have eO : (Rect.unit (s := S10000x256) ![o, 0] S2000x256.size inbO).emb (ix2 p q) = ix2 ⟨o + p.val, hp⟩ q :=
    rowBlock_idx (R := 10000) (C := 256) o inbO p q hp
  have eI : ∀ k : Fin 256, (Rect.unit (s := S10000x256) ![o, 0] S2000x256.size inbI).idx (ix2 p k) = ix2 ⟨o + p.val, hp⟩ k :=
    fun k => rowBlock_idx (R := 10000) (C := 256) o inbI p k hp
  rw [eO, mm1_pay3_apply_r4, linK256_apply, View.ld_unit_zero zeros2 _ x1, View.ld_unit_zero zeros2 _ x2]
  refine congrArg (· + x2 (ix2 (0 : Fin 1) q)) (Finset.sum_congr rfl fun k _ => ?_)
  exact congrArg (· * x1 (ix2 k q)) (congrArg x0 (eI k))

/-- What the body leaves in the output buffer is the host's product of the loaded arrays: each of the five
    stores writes the block of it under its rows, and the stores tile the buffer. -/
theorem mm1_out4_3_eq (x0 : Vec Ideal S10000x256 .f32) (x1 : Vec Ideal S256x256 .f32) (x2 : Vec Ideal S1x256 .f32) :
    out4_3 (F := Ideal) x0 x1 x2 = linK256 x0 x1 x2 := by
  funext y
  unfold out4_3
  refine View.canon_apply_of_pieces (Val := Elt Ideal) (S := S10000x256) (e := .f32) (linK256 x0 x1 x2) _ ?_ y (cover4_3 _ _ _ _ _ y)
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, fun _ h => absurd h List.not_mem_nil⟩⟩⟩⟩⟩
  · exact (congrFun (mm1_pay1_eq_r4 _ _ _) x).trans (mm1_block_apply_r4 x0 x1 x2 8000 inb_S10000x256_S2000x256_8000_0 inb_S10000x256_S2000x256_8000_0 x)
  · exact (congrFun (mm1_pay6_eq_r4 _ _ _) x).trans (mm1_block_apply_r4 x0 x1 x2 6000 inb_S10000x256_S2000x256_6000_0 inb_S10000x256_S2000x256_6000_0 x)
  · exact (congrFun (mm1_pay5_eq_r4 _ _ _) x).trans (mm1_block_apply_r4 x0 x1 x2 4000 inb_S10000x256_S2000x256_4000_0 inb_S10000x256_S2000x256_4000_0 x)
  · exact (congrFun (mm1_pay4_eq_r4 _ _ _) x).trans (mm1_block_apply_r4 x0 x1 x2 2000 inb_S10000x256_S2000x256_2000_0 inb_S10000x256_S2000x256_2000_0 x)
  · exact mm1_block_apply_r4 x0 x1 x2 0 inb_S10000x256_S2000x256_0_0 inb_S10000x256_S2000x256_0_0 x

/-! ## From the buffer to the array: one grid point, whole-array blocks -/

section Region
variable (V : (c : Dev nD) → (b : Ref sig .tc) → Buf (Elt Ideal) ((c : Thread nD τ).loc b))

/-- Each input window's block is its whole array. -/
theorem mm1_iblk4_0_eq (c : Dev nD) (t : Fin cfg4.N) : iblk4 (F := Ideal) V c 0 t = V c (Pipeline.arrRef spec4 0) := by
  unfold iblk4
  exact Memref.read_access_unit_zero (Elt Ideal) main_v110 (funext fun a => Nat.zero_mul _) _ (V c main_v110)
theorem mm1_iblk4_1_eq (c : Dev nD) (t : Fin cfg4.N) : iblk4 (F := Ideal) V c 1 t = V c (Pipeline.arrRef spec4 1) := by
  unfold iblk4
  exact Memref.read_access_unit_zero (Elt Ideal) main_arg14 (funext fun a => Nat.zero_mul _) _ (V c main_arg14)
theorem mm1_iblk4_2_eq (c : Dev nD) (t : Fin cfg4.N) : iblk4 (F := Ideal) V c 2 t = V c (Pipeline.arrRef spec4 2) := by
  unfold iblk4
  exact Memref.read_access_unit_zero (Elt Ideal) main_v11 (funext fun a => Nat.zero_mul _) _ (V c main_v11)

/-- What the one grid point writes back is the host's product of the three arrays, read through the output
    window's block, which is the whole array. -/
theorem mm1_flushed4_eq (c : Dev nD) (t : Fin cfg4.N) :
    (dat4 (F := Ideal) V c).flushed 3 t
      = ((cfg4.win 3).blk t).view.read (Elt Ideal)
          (linK256 (V c (Pipeline.arrRef spec4 0)) (V c (Pipeline.arrRef spec4 1)) (V c (Pipeline.arrRef spec4 2))) := by
  show (cfg4.win 3).cut (grid4.coords t) ((dat4 (F := Ideal) V c).after 3 t) = _
  rw [after4_3, mm1_iblk4_0_eq, mm1_iblk4_1_eq, mm1_iblk4_2_eq, mm1_out4_3_eq]
  exact (Memref.read_access_unit_zero (Elt Ideal) main_v111 (funext fun a => Nat.zero_mul _) _ _).symm

/-- REGION 4: when the region is left its output array holds u · W + b as the host computes it. -/
theorem mm1_4 (c : Dev nD) :
    (dat4 (F := Ideal) V c).arrAt 3 cfg4.N
      = linK256 (V c (Pipeline.arrRef spec4 0)) (V c (Pipeline.arrRef spec4 1)) (V c (Pipeline.arrRef spec4 2)) :=
  (dat4 (F := Ideal) V c).arrAt_eq_of_cover 3 _ (fun t _ => mm1_flushed4_eq V c t) fun i =>
    ⟨t4_0, flush4_3 t4_0, by
      show i ∈ ((View.whole main_v111).slice (win4_3.rect t4_0)).set
      rw [View.set_slice_whole, Rect.mem_set_unit]
      intro a
      have h0 : (i 0 : Nat) < 10000 := (i 0).isLt
      have h1 : (i 1 : Nat) < 256 := (i 1).isLt
      match a with
      | ⟨0, _⟩ => show 0 * 10000 ≤ (i 0 : Nat) ∧ (i 0 : Nat) < 0 * 10000 + 10000; omega
      | ⟨1, _⟩ => show 0 * 256 ≤ (i 1 : Nat) ∧ (i 1 : Nat) < 0 * 256 + 256; omega⟩

end Region

end Cert.Bridge

end
-- ==== Proof.Mm2R5.lean ====
/-
  The kernel's second-half region of the third encoder layer, read as a value: the 10240 × 256 array the
  region leaves holds relu(relu((t - mu)/sqrt(var + eps)) · Wb + bb) of the five arrays the region finds
  in its first 10000 rows and zeros in the last 240.
-/
import proofs.«138131_g70763881169291_cont_9to1c4b_616_12_alg».proof.Proof.Gen.KernelIdeal.Frame
import proofs.«138131_g70763881169291_cont_9to1c4b_616_12_alg».proof.Proof.Mm2Math
import Idealize.ShloMosaic.Lib.Pipeline.Value
import Idealize.ShloMosaic.Lib.Tactic

set_option maxRecDepth 16384

noncomputable section

namespace Cert.Bridge

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen

variable (V : (c : Dev nD) → (b : Ref sig .tc) → Buf (Elt Ideal) ((c : Thread nD τ).loc b))

namespace Mm2

/-- A 10000 × 256 array followed by 240 rows of zeros. -/
def padRows (H : FVec Ideal S10000x256 .f32) : FVec Ideal S10240x256 .f32 := fun y =>
  if h : (y 0).val < 10000 then H (ix2 (⟨(y 0).val, h⟩ : Fin 10000) (⟨(y 1).val, (y 1).isLt⟩ : Fin 256)) else 0

theorem padRows_of_lt (H : FVec Ideal S10000x256 .f32) (y : S10240x256.Idx) (i : Fin 10000) (j : Fin 256)
    (hi : (y 0).val = i.val) (hj : (y 1).val = j.val) : padRows H y = H (ix2 i j) := by
  unfold padRows
  rw [dif_pos (by rw [hi]; exact i.isLt)]
  exact congrArg H (funext fun a => Fin.ext (by
    match a with
    | ⟨0, _⟩ => exact hi
    | ⟨1, _⟩ => exact hj))

theorem padRows_of_ge (H : FVec Ideal S10000x256 .f32) (y : S10240x256.Idx) (h : 10000 ≤ (y 0).val) : padRows H y = 0 := by
  unfold padRows
  rw [dif_neg (by omega)]

/-- The row block at rows lo .. lo + 1999, stored at the same rows of the output, is the padded result there. -/
theorem piece5 (lo : Nat) (hlo : lo + 2000 ≤ 10000)
    (inbX : ∀ a, (![lo, 0] : Fin 2 → Nat) a + S2000x256.size a ≤ S10000x256.size a)
    (inbO : ∀ a, (![lo, 0] : Fin 2 → Nat) a + S2000x256.size a ≤ S10240x256.size a)
    (x0 : Vec Ideal S10000x256 .f32) (x1 x2 : Vec Ideal S1x256 .f32) (x3 : Vec Ideal S256x256 .f32) (x4 : Vec Ideal S1x256 .f32) (x : S2000x256.Idx) :
    blkOf x1 x2 x3 x4 (View.ld (Val := Elt Ideal) (e' := .f32) x0 (Rect.unit (s := S10000x256) ![lo, 0] S2000x256.size inbX)) x
      = padRows (refMm2 x0 x1 x2 x3 x4) ((Rect.unit (s := S10240x256) ![lo, 0] S2000x256.size inbO).emb x) := by
  obtain ⟨r, q, rfl⟩ : ∃ (r : Fin 2000) (q : Fin 256), x = ix2 r q := ⟨x 0, x 1, eq_ix2 x⟩
  have hr : r.val < 2000 := r.isLt
  rw [blkOf_apply,
    padRows_of_lt _ _ (⟨lo + r.val, by omega⟩ : Fin 10000) q
      (by show lo + 1 * r.val = lo + r.val; omega) (by show 0 + 1 * q.val = q.val; omega),
    refMm2_apply]
  have e : ∀ k : Fin 256, View.ld (Val := Elt Ideal) (e' := .f32) x0 (Rect.unit (s := S10000x256) ![lo, 0] S2000x256.size inbX) (ix2 r k)
      = x0 (ix2 (⟨lo + r.val, by omega⟩ : Fin 10000) k) := fun k =>
    congrArg x0 (funext fun a => Fin.ext (by
      match a with
      | ⟨0, _⟩ => show lo + 1 * r.val = lo + r.val; omega
      | ⟨1, _⟩ => show 0 + 1 * k.val = k.val; omega))
  simp only [e]

/-- The zero block stored at rows 10000 .. 10239 is the padding. -/
theorem pieceZ (inbZ : ∀ a, (![10000, 0] : Fin 2 → Nat) a + S240x256.size a ≤ S10240x256.size a)
    (H : FVec Ideal S10000x256 .f32) (x : S240x256.Idx) :
    broadcast S240x256 (Scalar.ofBits (F := Ideal) .f32 0x00000000#32) x
      = padRows H ((Rect.unit (s := S10240x256) ![10000, 0] S240x256.size inbZ).emb x) := by
  rw [padRows_of_ge _ _ (by show 10000 ≤ 10000 + 1 * (x 0).val; omega)]
  exact Ideal.ofBits_zero_f32

/-- What the body leaves in the output's buffer, from the five input arrays: each of the six stored pieces is the
    corresponding tile of the padded result. -/
theorem out5_eq (c : Dev nD) (arg0 : Memref sig .tc .vmem S10000x256 .f32) (harg0 : arg0.IsWhole) (arg1 : Memref sig .tc .vmem S1x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S10240x256 .f32) (harg5 : arg5.IsWhole)
    (x0 : Vec Ideal S10000x256 .f32) (x1 x2 : Vec Ideal S1x256 .f32) (x3 : Vec Ideal S256x256 .f32) (x4 : Vec Ideal S1x256 .f32) :
    out5_A_5 (F := Ideal) c arg0 harg0 arg1 harg1 arg2 harg2 arg3 harg3 arg4 harg4 arg5 harg5 x0 x1 x2 x3 x4 = padRows (refMm2 x0 x1 x2 x3 x4) := by
  funext y
  have hcov := cover5_A_5 (F := Ideal) c arg0 harg0 arg1 harg1 arg2 harg2 arg3 harg3 arg4 harg4 arg5 harg5 x0 x1 x2 x3 x4 y
  unfold out5_A_5
  rw [View.read_writes_eq_canon _ _ _ (cover5_A_5 c arg0 harg0 arg1 harg1 arg2 harg2 arg3 harg3 arg4 harg4 arg5 harg5 x0 x1 x2 x3 x4)]
  revert hcov
  unfold kernelRun5_A
  dsimp only
  try sl_unfold_words
  simp only [View.readAt_eq_ld, harg0.read_unread, harg1.read_unread, harg2.read_unread, harg3.read_unread, harg4.read_unread,
    View.ld_unit_zero (S := S1x256) hz2, View.ld_unit_zero (S := S256x256) hz2]
  intro hcov
  refine View.canon_apply_of_pieces (Val := Elt Ideal) (S := S10240x256) (e := .f32) (padRows (refMm2 x0 x1 x2 x3 x4)) _ ?_ y hcov
  intro p hp
  simp only [List.mem_cons, List.not_mem_nil, or_false] at hp
  rcases hp with rfl | rfl | rfl | rfl | rfl | rfl
  · exact pieceZ inb_S10240x256_S240x256_10000_0 _
  · exact piece5 8000 (by omega) inb_S10000x256_S2000x256_8000_0 inb_S10240x256_S2000x256_8000_0 x0 x1 x2 x3 x4
  · exact piece5 6000 (by omega) inb_S10000x256_S2000x256_6000_0 inb_S10240x256_S2000x256_6000_0 x0 x1 x2 x3 x4
  · exact piece5 4000 (by omega) inb_S10000x256_S2000x256_4000_0 inb_S10240x256_S2000x256_4000_0 x0 x1 x2 x3 x4
  · exact piece5 2000 (by omega) inb_S10000x256_S2000x256_2000_0 inb_S10240x256_S2000x256_2000_0 x0 x1 x2 x3 x4
  · exact piece5 0 (by omega) inb_S10000x256_S2000x256_0_0 inb_S10240x256_S2000x256_0_0 x0 x1 x2 x3 x4

/-- Input window 0's block is the whole array the region finds. -/
theorem iblk5_0 (c : Dev nD) (t : Fin cfg5.N) :
    (iblk5 V c 0 t : Vec Ideal S10000x256 .f32) = V c (Pipeline.arrRef spec5 0) := by
  unfold iblk5
  have hz' : (fun a => win5_0.index t a * main_v111.ty.shape.size a) = fun _ => 0 := funext fun a => Nat.zero_mul _
  exact Memref.read_access_unit_zero (Elt Ideal) main_v111 hz' (fun a => by rw [congrFun hz' a]; simp) _

/-- Input window 1's block is the whole array the region finds. -/
theorem iblk5_1 (c : Dev nD) (t : Fin cfg5.N) :
    (iblk5 V c 1 t : Vec Ideal S1x256 .f32) = V c (Pipeline.arrRef spec5 1) := by
  unfold iblk5
  have hz' : (fun a => win5_1.index t a * main_v118.ty.shape.size a) = fun _ => 0 := funext fun a => Nat.zero_mul _
  exact Memref.read_access_unit_zero (Elt Ideal) main_v118 hz' (fun a => by rw [congrFun hz' a]; simp) _

/-- Input window 2's block is the whole array the region finds. -/
theorem iblk5_2 (c : Dev nD) (t : Fin cfg5.N) :
    (iblk5 V c 2 t : Vec Ideal S1x256 .f32) = V c (Pipeline.arrRef spec5 2) := by
  unfold iblk5
  have hz' : (fun a => win5_2.index t a * main_v119.ty.shape.size a) = fun _ => 0 := funext fun a => Nat.zero_mul _
  exact Memref.read_access_unit_zero (Elt Ideal) main_v119 hz' (fun a => by rw [congrFun hz' a]; simp) _

/-- Input window 3's block is the whole array the region finds. -/
theorem iblk5_3 (c : Dev nD) (t : Fin cfg5.N) :
    (iblk5 V c 3 t : Vec Ideal S256x256 .f32) = V c (Pipeline.arrRef spec5 3) := by
  unfold iblk5
  have hz' : (fun a => win5_3.index t a * main_arg16.ty.shape.size a) = fun _ => 0 := funext fun a => Nat.zero_mul _
  exact Memref.read_access_unit_zero (Elt Ideal) main_arg16 hz' (fun a => by rw [congrFun hz' a]; simp) _

/-- Input window 4's block is the whole array the region finds. -/
theorem iblk5_4 (c : Dev nD) (t : Fin cfg5.N) :
    (iblk5 V c 4 t : Vec Ideal S1x256 .f32) = V c (Pipeline.arrRef spec5 4) := by
  unfold iblk5
  have hz' : (fun a => win5_4.index t a * main_v12.ty.shape.size a) = fun _ => 0 := funext fun a => Nat.zero_mul _
  exact Memref.read_access_unit_zero (Elt Ideal) main_v12 hz' (fun a => by rw [congrFun hz' a]; simp) _

/-- The layer's second half of the five arrays the region finds. -/
abbrev res5 (c : Dev nD) : FVec Ideal S10000x256 .f32 :=
  refMm2 (V c (Pipeline.arrRef spec5 0)) (V c (Pipeline.arrRef spec5 1)) (V c (Pipeline.arrRef spec5 2))
    (V c (Pipeline.arrRef spec5 3)) (V c (Pipeline.arrRef spec5 4))

/-- The output's buffer after the one grid point holds the padded result. -/
theorem outsAt5_eq (c : Dev nD) (t : Fin cfg5.N) : outsAt5 V c t = padRows (res5 V c) := by
  unfold outsAt5
  refine (out5_eq c (ms5_0 t) (hs5_0 t) (ms5_1 t) (hs5_1 t) (ms5_2 t) (hs5_2 t) (ms5_3 t) (hs5_3 t) (ms5_4 t) (hs5_4 t)
    (ms5_5 t) (hs5_5 t) (iblk5 V c 0 t) (iblk5 V c 1 t) (iblk5 V c 2 t) (iblk5 V c 3 t) (iblk5 V c 4 t)).trans ?_
  rw [iblk5_0, iblk5_1, iblk5_2, iblk5_3, iblk5_4]

/-- The one write-back writes the padded result: the output's block is its whole array. -/
theorem flushed5_eq (c : Dev nD) (t : Fin cfg5.N) (hf : (cfg5.win 5).flush t = true) :
    (dat5 V c).flushed 5 t = ((cfg5.win 5).blk t).view.read (Elt Ideal) (padRows (res5 V c)) := by
  show (cfg5.win 5).cut (grid5.coords t) ((dat5 V c).after 5 t) = _
  rw [after5_5, outsAt5_eq]
  have hz' : (fun a => win5_5.index t a * main_v120.ty.shape.size a) = fun _ => 0 := funext fun a => Nat.zero_mul _
  exact (Memref.read_access_unit_zero (Elt Ideal) main_v120 hz' (fun a => by rw [congrFun hz' a]; simp) (padRows (res5 V c))).symm

/-- So the output array ends holding the padded result. -/
theorem arr5_eq (c : Dev nD) : (dat5 V c).arrAt 5 cfg5.N = padRows (res5 V c) :=
  (dat5 V c).arrAt_eq_of_cover 5 (padRows (res5 V c)) (flushed5_eq V c) fun i =>
    ⟨t5_0, flush5_5 t5_0, by
      show i ∈ ((View.whole main_v120).slice (win5_5.rect t5_0)).set
      rw [View.set_slice_whole, Rect.mem_set_unit]
      intro a
      have h0 : (i 0 : Nat) < 10240 := (i 0).isLt
      have h1 : (i 1 : Nat) < 256 := (i 1).isLt
      match a with
      | ⟨0, _⟩ => show win5_5.index t5_0 0 * win5_5.size 0 ≤ (i 0 : Nat) ∧ (i 0 : Nat) < win5_5.index t5_0 0 * win5_5.size 0 + win5_5.xsize (grid5.coords t5_0) 0
                  rw [show win5_5.index t5_0 0 * win5_5.size 0 = 0 from by decide +kernel, show win5_5.xsize (grid5.coords t5_0) 0 = 10240 from by decide +kernel]; omega
      | ⟨1, _⟩ => show win5_5.index t5_0 1 * win5_5.size 1 ≤ (i 1 : Nat) ∧ (i 1 : Nat) < win5_5.index t5_0 1 * win5_5.size 1 + win5_5.xsize (grid5.coords t5_0) 1
                  rw [show win5_5.index t5_0 1 * win5_5.size 1 = 0 from by decide +kernel, show win5_5.xsize (grid5.coords t5_0) 1 = 256 from by decide +kernel]; omega⟩

end Mm2

open Mm2 in
/-- The region's output array at an entry: the layer's second half of the arrays the region finds in the first
    10000 rows, zero in the last 240. -/
theorem mm2_5 (c : Dev nD) : ∀ (i : Fin 10240) (j : Fin 256),
    ((dat5 (F := Ideal) V c).arrAt 5 cfg5.N) (ix2 i j)
      = if h : i.val < 10000 then
          refMm2 (V c (Pipeline.arrRef spec5 0)) (V c (Pipeline.arrRef spec5 1)) (V c (Pipeline.arrRef spec5 2))
            (V c (Pipeline.arrRef spec5 3)) (V c (Pipeline.arrRef spec5 4)) (ix2 (⟨i.val, h⟩ : Fin 10000) j)
        else 0 := by
  intro i j
  rw [arr5_eq]
  rfl

end Cert.Bridge

end
-- ==== Proof.KValue2.lean ====
/-
  Layer 2 of the idealized kernel program, read off the fold of buffer contents: u₂ = (1 + ε₂)·h₂ + (sum of h₂ over
  incoming edges), t₂ = u₂·W₂ₐ + b₂ₐ from region 4 (and again from the host's own product), its column means and
  variances, and region 5's output: h₃ = relu(relu((t₂ − μ₂)/√(σ₂² + ε))·W₂ᵦ + b₂ᵦ) in rows 0 … 9999 and zeros in the
  240 padding rows below.
-/
import proofs.«138131_g70763881169291_cont_9to1c4b_616_12_alg».proof.Proof.KValue1b
import proofs.«138131_g70763881169291_cont_9to1c4b_616_12_alg».proof.Proof.Mm1R4
import proofs.«138131_g70763881169291_cont_9to1c4b_616_12_alg».proof.Proof.Mm2R5

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KChain Cert.Bridge

variable (m : (ℓ : Loc nD τ sig) → Buf (Elt Ideal) ℓ) (ρ : Dev nD → PrngReg) (c : Dev nD)

/-- Layer 2's matmul input from h₂. -/
theorem u2_eq : W11 m ρ c (Proc.devRef .tc main_v110)
    = k_v110 (arg m c main_arg5) (W11 m ρ c (Proc.devRef .tc main_v91)) (k_v3 (arg m c main_arg1)) (k_v1 (arg m c main_arg1)) := by
  refine (st_v110 (W10 m ρ c)).trans ?_
  rw [carry_arg5_0_10, carry_v3_1_10, carry_v1_1_10, v3_eq, v1_eq]
  all_goals rfl

/-- Region 4 leaves t₂ = u₂·W₂ₐ + b₂ₐ. -/
theorem t2_eq : W12 m ρ c (Proc.devRef .tc main_v111)
    = linK256 (W11 m ρ c (Proc.devRef .tc main_v110)) (W11 m ρ c (Proc.devRef .tc main_arg14)) (W11 m ρ c (Proc.devRef .tc main_v11)) :=
  (W12_arr m ρ c 3).trans (mm1_4 (V11 m ρ) c)

/-- The host's own copy of the product is the region's. -/
theorem ts2_eq : W13 m ρ c (Proc.devRef .tc main_v114) = W12 m ρ c (Proc.devRef .tc main_v111) := by
  rw [t2_eq]
  refine (st_v114 (W12 m ρ c)).trans ?_
  rw [step_v110_11, step_arg14_11, step_v11_11]
  all_goals rfl

theorem mu2_eq : W13 m ρ c (Proc.devRef .tc main_v118) = k_v118 (W12 m ρ c (Proc.devRef .tc main_v111)) := by
  rw [← ts2_eq]; exact st_v118 (W12 m ρ c)

theorem var2_eq : W14 m ρ c (Proc.devRef .tc main_v119) = k_v119 k_c_32 (W12 m ρ c (Proc.devRef .tc main_v111)) := by
  refine (st_v119 (W13 m ρ c)).trans ?_
  rw [ts2_eq]
  exact congrArg (fun z => k_v119 z _) (st_c_32 (W12 m ρ c))

/-- h₃ as the reference's chain of operations on (t₂, μ₂, σ₂²). -/
def h3 : FVec Ideal Cert.ReferenceIdeal.S10000x256 .f32 :=
  refMm2 (W12 m ρ c (Proc.devRef .tc main_v111)) (k_v118 (W12 m ρ c (Proc.devRef .tc main_v111)))
    (k_v119 k_c_32 (W12 m ρ c (Proc.devRef .tc main_v111))) (arg m c main_arg16) (k_v12 (arg m c main_arg17))

/-- Region 5's output: h₃ in the first 10000 rows, zeros below. -/
theorem h3pad_eq (i : Fin 10240) (j : Fin 256) :
    (W15 m ρ c (Proc.devRef .tc main_v120) : S10240x256.Idx → EReal) (ix2 i j)
      = if h : i.val < 10000 then h3 m ρ c (ix2 ⟨i.val, h⟩ j) else 0 := by
  have e1 : W15 m ρ c (Proc.devRef .tc main_v120) = (dat5 (V14 m ρ) c).arrAt 5 cfg5.N := W15_arr m ρ c 5
  have e12 : W1 m ρ c (Proc.devRef .tc main_v12) = k_v12 (arg m c main_arg17) := st_v12 (W0 m ρ c)
  rw [e1, mm2_5 (V14 m ρ) c i j]
  show (if h : i.val < 10000 then refMm2 (W14 m ρ c (Proc.devRef .tc main_v111)) (W14 m ρ c (Proc.devRef .tc main_v118))
      (W14 m ρ c (Proc.devRef .tc main_v119)) (W14 m ρ c (Proc.devRef .tc main_arg16)) (W14 m ρ c (Proc.devRef .tc main_v12)) (ix2 ⟨i.val, h⟩ j) else 0) = _
  rw [carry_v111_12_14, carry_v118_13_14, mu2_eq, var2_eq, carry_arg16_0_14, carry_v12_1_14, e12]
  all_goals rfl

end Cert.KernelIdeal.KValue

end
-- ==== Proof.PoolR6.lean ====
/-
  Pooling and the first head layer. The region reads the last layer's output padded with zero rows from 10000 to
  10239, the row of graph numbers padded with the number 64 on the same columns, two weight matrices and two bias
  rows. It builds the 64 × 10240 array that is 1 where the graph number of column n is the row g and 0 elsewhere,
  multiplies it by the padded node rows (the sum of the rows of each graph), sums its lanes (the number of rows of
  each graph), divides each sum row by its count raised to at least one, and applies the two affine maps. The
  reference scatters the unpadded rows and ones into zero arrays by the graph numbers. A graph number outside
  0 … 63 matches no row of the comparison and lands outside the scatter's operand, so it drops out of both; the pad
  number 64 matches no row and the padded node rows are zero.
-/
import proofs.«138131_g70763881169291_cont_9to1c4b_616_12_alg».proof.Proof.Gen.KernelIdeal.Frame
import proofs.«138131_g70763881169291_cont_9to1c4b_616_12_alg».proof.Proof.RefPoolDef
import proofs.«138131_g70763881169291_cont_9to1c4b_616_12_alg».proof.Proof.PoolMath
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.Affine

set_option maxRecDepth 16384

noncomputable section

open Idealize.ShloMosaic Idealize.ShloMosaic.TcCoe Idealize.SL.Sem
open Idealize.ShloMosaic.Pipeline (Dat)
open Idealize.ShloMosaic.ValueIdx

namespace Cert.Bridge

open Cert.KernelIdeal

/-- Both offsets of a whole-array access are zero. -/
theorem pool_zero_offsets : (![0, 0] : Fin 2 → Nat) = fun _ => 0 := funext fun a => by fin_cases a <;> rfl

/-! ## The region's output array is the body's arithmetic on the arrays it reads

One grid point, every window's block its whole array. -/

section Array
variable {F : FTy → Type} [FloatOps F]
variable (V : (c : Dev nD) → (b : Ref sig .tc) → Buf (Elt F) ((c : Thread nD τ).loc b))

theorem pool_iblk6_0 (c : Dev nD) (t : Fin cfg6.N) : Gen.iblk6 V c 0 t = V c (Pipeline.arrRef spec6 0) := by
  unfold Gen.iblk6
  have hz' : (fun a => win6_0.index t a * main_v120.ty.shape.size a) = fun _ => 0 := funext fun a => Nat.zero_mul _
  exact Memref.read_access_unit_zero (Elt F) main_v120 hz' (fun a => by rw [congrFun hz' a]; simp) _

theorem pool_iblk6_1 (c : Dev nD) (t : Fin cfg6.N) : Gen.iblk6 V c 1 t = V c (Pipeline.arrRef spec6 1) := by
  unfold Gen.iblk6
  have hz' : (fun a => win6_1.index t a * main_v27.ty.shape.size a) = fun _ => 0 := funext fun a => Nat.zero_mul _
  exact Memref.read_access_unit_zero (Elt F) main_v27 hz' (fun a => by rw [congrFun hz' a]; simp) _

theorem pool_iblk6_2 (c : Dev nD) (t : Fin cfg6.N) : Gen.iblk6 V c 2 t = V c (Pipeline.arrRef spec6 2) := by
  unfold Gen.iblk6
  have hz' : (fun a => win6_2.index t a * main_arg18.ty.shape.size a) = fun _ => 0 := funext fun a => Nat.zero_mul _
  exact Memref.read_access_unit_zero (Elt F) main_arg18 hz' (fun a => by rw [congrFun hz' a]; simp) _

theorem pool_iblk6_3 (c : Dev nD) (t : Fin cfg6.N) : Gen.iblk6 V c 3 t = V c (Pipeline.arrRef spec6 3) := by
  unfold Gen.iblk6
  have hz' : (fun a => win6_3.index t a * main_v13.ty.shape.size a) = fun _ => 0 := funext fun a => Nat.zero_mul _
  exact Memref.read_access_unit_zero (Elt F) main_v13 hz' (fun a => by rw [congrFun hz' a]; simp) _

theorem pool_iblk6_4 (c : Dev nD) (t : Fin cfg6.N) : Gen.iblk6 V c 4 t = V c (Pipeline.arrRef spec6 4) := by
  unfold Gen.iblk6
  have hz' : (fun a => win6_4.index t a * main_arg20.ty.shape.size a) = fun _ => 0 := funext fun a => Nat.zero_mul _
  exact Memref.read_access_unit_zero (Elt F) main_arg20 hz' (fun a => by rw [congrFun hz' a]; simp) _

theorem pool_iblk6_5 (c : Dev nD) (t : Fin cfg6.N) : Gen.iblk6 V c 5 t = V c (Pipeline.arrRef spec6 5) := by
  unfold Gen.iblk6
  have hz' : (fun a => win6_5.index t a * main_v14.ty.shape.size a) = fun _ => 0 := funext fun a => Nat.zero_mul _
  exact Memref.read_access_unit_zero (Elt F) main_v14 hz' (fun a => by rw [congrFun hz' a]; simp) _

/-- The payload of equal arrays is equal. -/
theorem pool_k6_congr {a a' : Vec F S1x10240 .i32} {b b' : Vec F S10240x256 .f32} {p p' : Vec F S256x256 .f32}
    {q q' : Vec F S1x256 .f32} {r r' : Vec F S256x128 .f32} {s s' : Vec F S1x128 .f32}
    (ha : a = a') (hb : b = b') (hp : p = p') (hq : q = q') (hr : r = r') (hs : s = s') :
    Gen.k6_pay1 a b p q r s = Gen.k6_pay1 a' b' p' q' r' s' := by
  subst ha hb hp hq hr hs; rfl

/-- The output array when the region is left: the body's one payload of the six arrays it reads (the graph numbers
    first, as the body loads them). -/
theorem pool_arr6 (c : Dev nD) : (Gen.dat6 V c).arrAt 6 cfg6.N
    = Gen.k6_pay1 (V c (Pipeline.arrRef spec6 1)) (V c (Pipeline.arrRef spec6 0)) (V c (Pipeline.arrRef spec6 2))
        (V c (Pipeline.arrRef spec6 3)) (V c (Pipeline.arrRef spec6 4)) (V c (Pipeline.arrRef spec6 5)) := by
  refine (Gen.dat6 V c).arrAt_eq_of_cover 6 _ (fun t _ => ?_) (fun i => ⟨Gen.t6_0, Gen.flush6_6 _, ?_⟩)
  · show (cfg6.win 6).cut (cfg6.grid.coords t) ((Gen.dat6 V c).after 6 t) = _
    rw [Gen.after6_6]
    unfold Gen.out6_6
    rw [View.canon_unit_zero pool_zero_offsets]
    simp only [View.ld_unit_zero (S := S10240x256) pool_zero_offsets, View.ld_unit_zero (S := S1x10240) pool_zero_offsets,
      View.ld_unit_zero (S := S256x256) pool_zero_offsets, View.ld_unit_zero (S := S1x256) pool_zero_offsets,
      View.ld_unit_zero (S := S256x128) pool_zero_offsets, View.ld_unit_zero (S := S1x128) pool_zero_offsets]
    have e : Gen.k6_pay1 (Gen.iblk6 V c 1 t) (Gen.iblk6 V c 0 t) (Gen.iblk6 V c 2 t) (Gen.iblk6 V c 3 t)
          (Gen.iblk6 V c 4 t) (Gen.iblk6 V c 5 t)
        = Gen.k6_pay1 (V c (Pipeline.arrRef spec6 1)) (V c (Pipeline.arrRef spec6 0)) (V c (Pipeline.arrRef spec6 2))
          (V c (Pipeline.arrRef spec6 3)) (V c (Pipeline.arrRef spec6 4)) (V c (Pipeline.arrRef spec6 5)) :=
      pool_k6_congr (pool_iblk6_1 V c t) (pool_iblk6_0 V c t) (pool_iblk6_2 V c t) (pool_iblk6_3 V c t) (pool_iblk6_4 V c t) (pool_iblk6_5 V c t)
    have hz' : (fun a => win6_6.index t a * main_v121.ty.shape.size a) = fun _ => 0 := funext fun a => Nat.zero_mul _
    exact (congrArg ((cfg6.win 6).cut (cfg6.grid.coords t)) e).trans
      (Memref.read_access_unit_zero (Elt F) main_v121 hz' (fun a => by rw [congrFun hz' a]; simp) _).symm
  · show i ∈ ((View.whole main_v121).slice (win6_6.rect Gen.t6_0)).set
    rw [View.set_slice_whole, Rect.mem_set_unit]
    intro a
    rw [show win6_6.index Gen.t6_0 a = 0 from rfl, Nat.zero_mul, Nat.zero_add]
    exact ⟨Nat.zero_le _, (i a).isLt⟩
end Array

/-! ## The pooling arithmetic -/

section Pool
variable [Cert.ReferenceIdeal.Facts₀]

/-- The single-precision word of 1.0 is the extended real 1. -/
theorem pool_one_bits : Ideal.ofBits .f32 0x3F800000#32 = 1 := by
  simp [Ideal.ofBits, Ideal.ieee]
  rw [← EReal.coe_mul]
  norm_num

/-- A select of two constants on the comparison of a row of words, laid over G rows, with the row number: at
    (g, n) it is the first constant when word n is the word of g, the second otherwise. -/
theorem pool_onehot_at {G N : ℕ} (xb : IVec ⟨2, ![1, N]⟩ 32) (hbc : (⟨2, ![1, N]⟩ : Shape).Broadcasts ⟨2, ![G, N]⟩)
    (hio : (⟨2, ![G, N]⟩ : Shape).Iotas .tc 32 [0]) (one zero : Ideal .f32) (g : Fin G) (n : Fin N) :
    select (cmpi .eq (broadcastTo ⟨2, ![G, N]⟩ xb hbc) (iota .tc ⟨2, ![G, N]⟩ 32 [0] hio))
        (broadcast ⟨2, ![G, N]⟩ one) (broadcast ⟨2, ![G, N]⟩ zero) (ix2 g n)
      = if xb (ix2 (0 : Fin 1) n) = BitVec.ofNat 32 g.val then one else zero := by
  rw [select_apply, broadcast_apply, broadcast_apply]
  have hc : cmpi .eq (broadcastTo ⟨2, ![G, N]⟩ xb hbc) (iota .tc ⟨2, ![G, N]⟩ 32 [0] hio) (ix2 g n)
      = IntOp.cmpi .eq (xb (ix2 (0 : Fin 1) n)) (BitVec.ofNat 32 g.val) := by
    show IntOp.cmpi .eq (broadcastTo ⟨2, ![G, N]⟩ xb hbc (ix2 g n)) (iota .tc ⟨2, ![G, N]⟩ 32 [0] hio (ix2 g n)) = _
    rw [broadcastTo_1b_ab_apply, iota_single_apply]
    rfl
  rw [hc]
  by_cases h : xb (ix2 (0 : Fin 1) n) = BitVec.ofNat 32 g.val
  · rw [if_pos h, IntOp.cmpi_eq.mpr h, select_one]
  · rw [if_neg h, eq_zero_of_ne_one (mt IntOp.cmpi_eq.mp h), select_zero]

/-- The 64 × 10240 array of ones and zeros the body builds from the padded graph numbers. -/
def pool_onehot (xb : IVec S1x10240 32) : FVec Ideal S64x10240 .f32 :=
  select (cmpi .eq (broadcastTo S64x10240 xb Gen.broadcasts_S1x10240_S64x10240)
      (iota .tc S64x10240 32 [0] Gen.iota_S64x10240_d0_w32))
    (broadcast S64x10240 (FloatOps.ofBits (F := Ideal) .f32 0x3F800000#32))
    (broadcast S64x10240 (FloatOps.ofBits (F := Ideal) .f32 0x00000000#32))

theorem pool_onehot_apply (xb : IVec S1x10240 32) (g : Fin 64) (n : Fin 10240) :
    pool_onehot xb (ix2 g n) = if xb (ix2 (0 : Fin 1) n) = BitVec.ofNat 32 g.val then (1 : EReal) else 0 := by
  unfold pool_onehot
  rw [pool_onehot_at]
  show (if _ then Ideal.ofBits .f32 0x3F800000#32 else Ideal.ofBits .f32 0x00000000#32) = _
  rw [pool_one_bits, Ideal.ofBits_zero_f32]

/-- The kernel's segment sums: the one-hot array times the padded node rows. -/
def pool_sumsK (xb : IVec S1x10240 32) (xh : FVec Ideal S10240x256 .f32) : FVec Ideal S64x256 .f32 :=
  matmul dot_S64x10240_S10240x256_S64x256_1_0_0_1_n_n (some .fp32) (pool_onehot xb) xh
    (constant S64x256 .f32 0x00000000#32)

/-- The kernel's segment counts: the lane sums of the one-hot array, as a column. -/
def pool_cntK (xb : IVec S1x10240 32) : FVec Ideal S64x1 .f32 :=
  shapeCast S64x1 (multiReduction .add [1] S64 (pool_onehot xb) 0x00000000#32 Gen.reduces_S64x10240_S64 (.inl rfl) rfl)
    Gen.shapeCasts_S64_S64x1

/-- What the kernel does with sums and counts: the mean per graph and the two affine maps. -/
def pool_tailK (S : FVec Ideal S64x256 .f32) (Cn : FVec Ideal S64x1 .f32) (Wp : FVec Ideal S256x256 .f32)
    (bp1 : FVec Ideal S1x256 .f32) (Wc1 : FVec Ideal S256x128 .f32) (bc11 : FVec Ideal S1x128 .f32) :
    FVec Ideal S64x128 .f32 :=
  addf
    (matmul dot_S64x256_S256x128_S64x128_1_0_0_1_n_n none
      (addf
        (matmul dot_S64x256_S256x256_S64x256_1_0_0_1_n_n none
          (divf S
            (broadcastTo S64x256 (maximumf Cn (broadcast S64x1 (FloatOps.ofBits (F := Ideal) .f32 0x3F800000#32)))
              Gen.broadcasts_S64x1_S64x256))
          Wp (constant S64x256 .f32 0x00000000#32))
        (broadcastTo S64x256 bp1 Gen.broadcasts_S1x256_S64x256))
      Wc1 (constant S64x128 .f32 0x00000000#32))
    (broadcastTo S64x128 bc11 Gen.broadcasts_S1x128_S64x128)

theorem pool_kernel_split (xb : IVec S1x10240 32) (xh : FVec Ideal S10240x256 .f32) (Wp : FVec Ideal S256x256 .f32)
    (bp1 : FVec Ideal S1x256 .f32) (Wc1 : FVec Ideal S256x128 .f32) (bc11 : FVec Ideal S1x128 .f32) :
    Gen.k6_pay1 (F := Ideal) xb xh Wp bp1 Wc1 bc11
      = pool_tailK (pool_sumsK xb xh) (pool_cntK xb) Wp bp1 Wc1 bc11 := by
  unfold Gen.k6_pay1 pool_tailK pool_sumsK pool_cntK pool_onehot
  simp only [shapeCast_self]

/-- The reference's segment sums. -/
def pool_sumsR (h3 : FVec Ideal Cert.ReferenceIdeal.S10000x256 .f32) (batch : IVec Cert.ReferenceIdeal.S10000 32) :
    FVec Ideal Cert.ReferenceIdeal.S64x256 .f32 :=
  Host.scatterAdd (F := Ideal) Cert.ReferenceIdeal.scatter_S64x256_S10000x1_S10000x256_1_0_0_1
    (broadcastInDim Cert.ReferenceIdeal.S64x256 ![] Cert.ReferenceIdeal.Facts₀.bcast_S_S64x256
      (constant (F := Ideal) Cert.ReferenceIdeal.S_ .f32 0x00000000#32))
    (broadcastInDim Cert.ReferenceIdeal.S10000x1 ![0] Cert.ReferenceIdeal.Facts₀.bcast_S10000_S10000x1_0 batch) h3

/-- The reference's segment counts. -/
def pool_cntR (batch : IVec Cert.ReferenceIdeal.S10000 32) : FVec Ideal Cert.ReferenceIdeal.S64x1 .f32 :=
  Host.scatterAdd (F := Ideal) Cert.ReferenceIdeal.scatter_S64x1_S10000x1_S10000x1_1_0_0_1
    (broadcastInDim Cert.ReferenceIdeal.S64x1 ![] Cert.ReferenceIdeal.Facts₀.bcast_S_S64x1
      (constant (F := Ideal) Cert.ReferenceIdeal.S_ .f32 0x00000000#32))
    (broadcastInDim Cert.ReferenceIdeal.S10000x1 ![0] Cert.ReferenceIdeal.Facts₀.bcast_S10000_S10000x1_0 batch)
    (broadcastInDim Cert.ReferenceIdeal.S10000x1 ![] Cert.ReferenceIdeal.Facts₀.bcast_S_S10000x1
      (constant (F := Ideal) Cert.ReferenceIdeal.S_ .f32 0x3F800000#32))

/-- What the reference does with sums and counts. -/
def pool_tailR (S : FVec Ideal S64x256 .f32) (Cn : FVec Ideal S64x1 .f32) (Wp : FVec Ideal S256x256 .f32)
    (bp1 : FVec Ideal S1x256 .f32) (Wc1 : FVec Ideal S256x128 .f32) (bc11 : FVec Ideal S1x128 .f32) :
    FVec Ideal S64x128 .f32 :=
  addf
    (Host.dotGeneral (F := Ideal) Cert.ReferenceIdeal.dot_S64x256_S256x128_S64x128_1_0_0_1_n_n none
      (addf
        (Host.dotGeneral (F := Ideal) Cert.ReferenceIdeal.dot_S64x256_S256x256_S64x256_1_0_0_1_n_n none
          (Host.divf (F := Ideal) S
            (broadcastInDim Cert.ReferenceIdeal.S64x256 ![0, 1] Cert.ReferenceIdeal.Facts₀.bcast_S64x1_S64x256_0_1
              (maximumf Cn
                (broadcastInDim Cert.ReferenceIdeal.S64x1 ![] Cert.ReferenceIdeal.Facts₀.bcast_S_S64x1
                  (constant (F := Ideal) Cert.ReferenceIdeal.S_ .f32 0x3F800000#32)))))
          Wp)
        (broadcastInDim Cert.ReferenceIdeal.S64x256 ![0, 1] Cert.ReferenceIdeal.Facts₀.bcast_S1x256_S64x256_0_1 bp1))
      Wc1)
    (broadcastInDim Cert.ReferenceIdeal.S64x128 ![0, 1] Cert.ReferenceIdeal.Facts₀.bcast_S1x128_S64x128_0_1 bc11)

theorem pool_ref_split (h3 : FVec Ideal Cert.ReferenceIdeal.S10000x256 .f32) (batch : IVec Cert.ReferenceIdeal.S10000 32)
    (Wp : FVec Ideal S256x256 .f32) (bp1 : FVec Ideal S1x256 .f32) (Wc1 : FVec Ideal S256x128 .f32)
    (bc11 : FVec Ideal S1x128 .f32) :
    refPool h3 batch Wp bp1 Wc1 bc11 = pool_tailR (pool_sumsR h3 batch) (pool_cntR batch) Wp bp1 Wc1 bc11 := rfl

/-- From equal sums and counts the two programs compute the same array: a product into zeros is the product with no
    accumulator, the two ways of laying a row or a column over a matrix agree, a splat of a constant is the host's
    broadcast of it, and the quotient is the same function. -/
theorem pool_tail_eq (S : FVec Ideal S64x256 .f32) (Cn : FVec Ideal S64x1 .f32) (Wp : FVec Ideal S256x256 .f32)
    (bp1 : FVec Ideal S1x256 .f32) (Wc1 : FVec Ideal S256x128 .f32) (bc11 : FVec Ideal S1x128 .f32) :
    pool_tailK S Cn Wp bp1 Wc1 bc11 = pool_tailR S Cn Wp bp1 Wc1 bc11 := by
  unfold pool_tailK pool_tailR
  refine congrArg₂ addf ?_ (PoolMath.broadcastTo_row_eq bc11 _ _)
  refine (PoolMath.matmul_zero_eq_dotGeneral _ Cert.ReferenceIdeal.dot_S64x256_S256x128_S64x128_1_0_0_1_n_n rfl rfl
    none none .single _ Wc1).trans ?_
  refine congrArg (fun l => FloatOps.dotGeneral Cert.ReferenceIdeal.dot_S64x256_S256x128_S64x128_1_0_0_1_n_n none
    .single l Wc1) ?_
  refine congrArg₂ addf ?_ (PoolMath.broadcastTo_row_eq bp1 _ _)
  refine (PoolMath.matmul_zero_eq_dotGeneral _ Cert.ReferenceIdeal.dot_S64x256_S256x256_S64x256_1_0_0_1_n_n rfl rfl
    none none .single _ Wp).trans ?_
  refine congrArg (fun l => FloatOps.dotGeneral Cert.ReferenceIdeal.dot_S64x256_S256x256_S64x256_1_0_0_1_n_n none
    .single l Wp) ?_
  refine congrArg (Host.divf (F := Ideal) S) ?_
  refine (PoolMath.broadcastTo_col_eq _ _ Cert.ReferenceIdeal.Facts₀.bcast_S64x1_S64x256_0_1).trans ?_
  refine congrArg (fun v : FVec Ideal Cert.ReferenceIdeal.S64x1 .f32 =>
    broadcastInDim Cert.ReferenceIdeal.S64x256 ![0, 1] Cert.ReferenceIdeal.Facts₀.bcast_S64x1_S64x256_0_1 v) ?_
  refine congrArg (maximumf Cn) (funext fun q => ?_)
  exact (broadcastInDim_scalar_apply Cert.ReferenceIdeal.Facts₀.bcast_S_S64x1
    (constant (F := Ideal) Cert.ReferenceIdeal.S_ .f32 0x3F800000#32) q).symm
end Pool

/-! ## Sums and counts agree -/

section Segments
variable [Cert.ReferenceIdeal.Facts₀]

/-- The kernel's segment sum at (g, c): the sum of h3 (n, c) over the rows n < 10000 whose graph number is the word of g. -/
theorem pool_sumsK_apply (xb : IVec S1x10240 32) (xh : FVec Ideal S10240x256 .f32)
    (h3 : FVec Ideal Cert.ReferenceIdeal.S10000x256 .f32) (batch : IVec Cert.ReferenceIdeal.S10000 32)
    (hpad : ∀ (i : Fin 10240) (j : Fin 256), xh (ix2 i j) = if h : i.val < 10000 then h3 (ix2 ⟨i.val, h⟩ j) else 0)
    (hb : ∀ n : Fin 10240, xb (ix2 (0 : Fin 1) n) = if h : n.val < 10000 then batch (ix1 ⟨n.val, h⟩) else 64#32)
    (g : Fin 64) (c : Fin 256) :
    pool_sumsK xb xh (ix2 g c)
      = ∑ n ∈ Finset.univ.filter (fun n : Fin 10000 => batch (ix1 n) = BitVec.ofNat 32 g.val), h3 (ix2 n c) := by
  unfold pool_sumsK
  refine (PoolMath.matmul_zero_apply _ rfl _ _ _ g c).trans ?_
  refine (Finset.sum_congr rfl fun n _ => congrArg (· * xh (ix2 n c)) (pool_onehot_apply xb g n)).trans ?_
  exact PoolMath.onehot_sum (N := 10000) (N' := 10240) (by decide) (BitVec.ofNat 32 g.val)
    (fun n => xb (ix2 (0 : Fin 1) n)) (fun n => xh (ix2 n c)) (fun n => batch (ix1 n)) (fun n => h3 (ix2 n c))
    (fun n h => by rw [hb n, dif_pos h]) (fun n h => by rw [hpad n c, dif_pos h])
    (fun n hn => by rw [hpad n c, dif_neg (not_lt.mpr hn), mul_zero])

/-- The reference's segment sum at (g, c): the same sum, the graph number read as a signed integer. -/
theorem pool_sumsR_apply (h3 : FVec Ideal Cert.ReferenceIdeal.S10000x256 .f32)
    (batch : IVec Cert.ReferenceIdeal.S10000 32) (g : Fin 64) (c : Fin 256) :
    pool_sumsR h3 batch (ix2 g c)
      = ∑ n ∈ Finset.univ.filter (fun n : Fin 10000 => (batch (ix1 n)).toInt = (g.val : ℤ)), h3 (ix2 n c) := by
  unfold pool_sumsR
  refine (PoolMath.scatter_rows_apply Cert.ReferenceIdeal.Facts₀.scatter_S64x256_S10000x1_S10000x256_1_0_0_1_wf
    _ _ h3 g c).trans ?_
  rw [broadcastInDim_scalar_apply, constant_apply, Ideal.ofBits_zero_f32, zero_add]
  refine Finset.sum_congr (Finset.filter_congr fun n _ => ?_) fun _ _ => rfl
  rw [PoolMath.broadcastInDim_a_a1_apply]

theorem pool_sums_eq (xb : IVec S1x10240 32) (xh : FVec Ideal S10240x256 .f32)
    (h3 : FVec Ideal Cert.ReferenceIdeal.S10000x256 .f32) (batch : IVec Cert.ReferenceIdeal.S10000 32)
    (hpad : ∀ (i : Fin 10240) (j : Fin 256), xh (ix2 i j) = if h : i.val < 10000 then h3 (ix2 ⟨i.val, h⟩ j) else 0)
    (hb : ∀ n : Fin 10240, xb (ix2 (0 : Fin 1) n) = if h : n.val < 10000 then batch (ix1 ⟨n.val, h⟩) else 64#32) :
    pool_sumsK xb xh = pool_sumsR h3 batch := by
  funext q
  obtain ⟨g, c, rfl⟩ : ∃ (g : Fin 64) (c : Fin 256), q = ix2 g c := ⟨q 0, q 1, eq_ix2 q⟩
  rw [pool_sumsK_apply xb xh h3 batch hpad hb, pool_sumsR_apply]
  exact Finset.sum_congr (Finset.filter_congr fun n _ => PoolMath.eq_ofNat_iff _ g) fun _ _ => rfl

/-- The kernel's segment count at (g, 0): the number of rows n < 10000 whose graph number is the word of g; the pad
    number 64 is the word of no g < 64. -/
theorem pool_cntK_apply (xb : IVec S1x10240 32) (batch : IVec Cert.ReferenceIdeal.S10000 32)
    (hb : ∀ n : Fin 10240, xb (ix2 (0 : Fin 1) n) = if h : n.val < 10000 then batch (ix1 ⟨n.val, h⟩) else 64#32)
    (g : Fin 64) :
    pool_cntK xb (ix2 g (0 : Fin 1))
      = ∑ n ∈ Finset.univ.filter (fun n : Fin 10000 => batch (ix1 n) = BitVec.ofNat 32 g.val), (1 : EReal) := by
  unfold pool_cntK
  rw [PoolMath.shapeCast_a_a1_apply]
  refine (Ideal.multiReduction_add_single (pool_onehot xb) 0x00000000#32 Gen.reduces_S64x10240_S64 _ _ (ix1 g)).trans ?_
  show ∑ k : Fin 10240, pool_onehot xb (Gen.reduces_S64x10240_S64.lift (ix1 g) k) = _
  have hl : ∀ k : Fin 10240, Gen.reduces_S64x10240_S64.lift (ix1 g) k = ix2 g k := fun k =>
    funext fun a => Fin.ext (by
      match a with
      | ⟨0, _⟩ => rfl
      | ⟨1, _⟩ => rfl)
  refine (Finset.sum_congr rfl (g := fun k : Fin 10240 =>
    (if xb (ix2 (0 : Fin 1) k) = BitVec.ofNat 32 g.val then (1 : EReal) else 0) * 1) fun k _ => by
    rw [hl k, pool_onehot_apply xb g k, mul_one]).trans ?_
  exact PoolMath.onehot_sum (N := 10000) (N' := 10240) (by decide) (BitVec.ofNat 32 g.val)
    (fun n => xb (ix2 (0 : Fin 1) n)) (fun _ => (1 : EReal)) (fun n => batch (ix1 n)) (fun _ => (1 : EReal))
    (fun n h => by rw [hb n, dif_pos h]) (fun _ _ => rfl)
    (fun n hn => by rw [hb n, dif_neg (not_lt.mpr hn), if_neg (PoolMath.pad_ne g), zero_mul])

/-- The reference's segment count at (g, 0). -/
theorem pool_cntR_apply (batch : IVec Cert.ReferenceIdeal.S10000 32) (g : Fin 64) :
    pool_cntR batch (ix2 g (0 : Fin 1))
      = ∑ n ∈ Finset.univ.filter (fun n : Fin 10000 => (batch (ix1 n)).toInt = (g.val : ℤ)), (1 : EReal) := by
  unfold pool_cntR
  refine (PoolMath.scatter_rows_apply Cert.ReferenceIdeal.Facts₀.scatter_S64x1_S10000x1_S10000x1_1_0_0_1_wf
    _ _ _ g (0 : Fin 1)).trans ?_
  rw [broadcastInDim_scalar_apply, constant_apply, Ideal.ofBits_zero_f32, zero_add]
  refine Finset.sum_congr (Finset.filter_congr fun n _ => ?_) fun n _ => ?_
  · rw [PoolMath.broadcastInDim_a_a1_apply]
  · rw [broadcastInDim_scalar_apply, constant_apply, pool_one_bits]

theorem pool_cnt_eq (xb : IVec S1x10240 32) (batch : IVec Cert.ReferenceIdeal.S10000 32)
    (hb : ∀ n : Fin 10240, xb (ix2 (0 : Fin 1) n) = if h : n.val < 10000 then batch (ix1 ⟨n.val, h⟩) else 64#32) :
    pool_cntK xb = pool_cntR batch := by
  funext q
  obtain ⟨g, z, rfl⟩ : ∃ (g : Fin 64) (z : Fin 1), q = ix2 g z := ⟨q 0, q 1, eq_ix2 q⟩
  obtain rfl : z = 0 := Subsingleton.elim _ _
  rw [pool_cntK_apply xb batch hb, pool_cntR_apply]
  exact Finset.sum_congr (Finset.filter_congr fun n _ => PoolMath.eq_ofNat_iff _ g) fun _ _ => rfl

/-- The body's payload is the reference's pooling stage, when the node rows and graph numbers the region reads are
    the reference's, padded. -/
theorem pool_core (xb : IVec S1x10240 32) (xh : FVec Ideal S10240x256 .f32) (Wp : FVec Ideal S256x256 .f32)
    (bp1 : FVec Ideal S1x256 .f32) (Wc1 : FVec Ideal S256x128 .f32) (bc11 : FVec Ideal S1x128 .f32)
    (h3 : FVec Ideal Cert.ReferenceIdeal.S10000x256 .f32) (batch : IVec Cert.ReferenceIdeal.S10000 32)
    (hpad : ∀ (i : Fin 10240) (j : Fin 256), xh (ix2 i j) = if h : i.val < 10000 then h3 (ix2 ⟨i.val, h⟩ j) else 0)
    (hb : ∀ n : Fin 10240, xb (ix2 (0 : Fin 1) n) = if h : n.val < 10000 then batch (ix1 ⟨n.val, h⟩) else 64#32) :
    Gen.k6_pay1 (F := Ideal) xb xh Wp bp1 Wc1 bc11 = refPool h3 batch Wp bp1 Wc1 bc11 := by
  rw [pool_kernel_split, pool_ref_split, pool_sums_eq xb xh h3 batch hpad hb, pool_cnt_eq xb batch hb]
  exact pool_tail_eq _ _ Wp bp1 Wc1 bc11

/-- Region 6 leaves the reference's pooling stage of the unpadded node rows and graph numbers in its output array. -/
theorem pool_6 (V : (c : Dev nD) → (b : Ref sig .tc) → Buf (Elt Ideal) ((c : Thread nD τ).loc b)) (c : Dev nD)
    (h3 : FVec Ideal Cert.ReferenceIdeal.S10000x256 .f32) (batch : IVec Cert.ReferenceIdeal.S10000 32)
    (hpad : ∀ (i : Fin 10240) (j : Fin 256), V c (Pipeline.arrRef spec6 0) (ix2 i j)
      = if h : i.val < 10000 then h3 (ix2 ⟨i.val, h⟩ j) else 0)
    (hb : ∀ n : Fin 10240, V c (Pipeline.arrRef spec6 1) (ix2 (0 : Fin 1) n)
      = if h : n.val < 10000 then batch (ix1 ⟨n.val, h⟩) else 64#32) :
    (Gen.dat6 (F := Ideal) V c).arrAt 6 cfg6.N
      = refPool h3 batch (V c (Pipeline.arrRef spec6 2)) (V c (Pipeline.arrRef spec6 3))
          (V c (Pipeline.arrRef spec6 4)) (V c (Pipeline.arrRef spec6 5)) := by
  rw [pool_arr6]
  exact pool_core _ _ _ _ _ _ h3 batch hpad hb
end Segments

end Cert.Bridge

end
-- ==== Proof.KValue3b.lean ====
/-
  Pooling in the idealized kernel program, read off the fold of buffer contents. Region 6 finds h₃ zero-padded to
  10240 rows and the batch ids padded with the id 64 (which no graph row 0 … 63 matches): it leaves
  zz = (pooled·Wₚ + bₚ)·W_c1 + b_c1 with pooled = (sum of h₃ over the rows of each graph)/max(count, 1), the reference's
  own chain on (h₃, batch).
-/
import proofs.«138131_g70763881169291_cont_9to1c4b_616_12_alg».proof.Proof.KValue2
import proofs.«138131_g70763881169291_cont_9to1c4b_616_12_alg».proof.Proof.PoolR6
import proofs.«138131_g70763881169291_cont_9to1c4b_616_12_alg».proof.Proof.HostPads

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KChain Cert.Bridge

variable (m : (ℓ : Loc nD τ sig) → Buf (Elt Ideal) ℓ) (ρ : Dev nD → PrngReg) (c : Dev nD)

/-- The head's first linear output, as the reference's chain on (h₃, batch). -/
def zz : FVec Ideal Cert.ReferenceIdeal.S64x128 .f32 :=
  refPool (h3 m ρ c) (arg m c main_arg2) (arg m c main_arg18) (k_v13 (arg m c main_arg19)) (arg m c main_arg20) (k_v14 (arg m c main_arg21))

/-- Region 6 leaves zz. -/
theorem zz_eq : W16 m ρ c (Proc.devRef .tc main_v121) = zz m ρ c := by
  have e1 : W16 m ρ c (Proc.devRef .tc main_v121) = (dat6 (V15 m ρ) c).arrAt 6 cfg6.N := W16_arr m ρ c 6
  have e13 : W1 m ρ c (Proc.devRef .tc main_v13) = k_v13 (arg m c main_arg19) := st_v13 (W0 m ρ c)
  have e14 : W1 m ρ c (Proc.devRef .tc main_v14) = k_v14 (arg m c main_arg21) := st_v14 (W0 m ρ c)
  have e27 : W1 m ρ c (Proc.devRef .tc main_v27) = k_v27 (arg m c main_arg2) := st_v27 (W0 m ρ c)
  have hpad : ∀ (i : Fin 10240) (j : Fin 256), V15 m ρ c (Pipeline.arrRef spec6 0) (ix2 i j)
      = if h : i.val < 10000 then h3 m ρ c (ix2 ⟨i.val, h⟩ j) else 0 := fun i j => h3pad_eq m ρ c i j
  have hb : ∀ n : Fin 10240, V15 m ρ c (Pipeline.arrRef spec6 1) (ix2 (0 : Fin 1) n)
      = if h : n.val < 10000 then (arg m c main_arg2) (ix1 ⟨n.val, h⟩) else 64#32 := fun n => by
    show W15 m ρ c (Proc.devRef .tc main_v27) (ix2 (0 : Fin 1) n) = _
    rw [carry_v27_1_15, e27]
    exact padBatch_apply _ n
  rw [e1, pool_6 (V15 m ρ) c (h3 m ρ c) (arg m c main_arg2) hpad hb]
  show refPool _ _ (W15 m ρ c (Proc.devRef .tc main_arg18)) (W15 m ρ c (Proc.devRef .tc main_v13))
      (W15 m ρ c (Proc.devRef .tc main_arg20)) (W15 m ρ c (Proc.devRef .tc main_v14)) = _
  rw [carry_arg18_0_15, carry_v13_1_15, carry_arg20_0_15, carry_v14_1_15, e13, e14]
  all_goals rfl

end Cert.KernelIdeal.KValue

end
-- ==== Proof.Spec.lean ====
/-
  The specification both programs meet: the class scores of the 64 graphs as ONE function of the 24 argument
  arrays. Three layers h ↦ relu(relu(bn(u·Wₐ + bₐ))·Wᵦ + bᵦ) with u = (1 + ε)·h + (sum of h over incoming edges) and bn
  the normalisation by the column means and variances; then per-graph mean pooling, two affine maps, the
  normalisation over the 64 graphs, a rectifier and the last affine map. Every stage is the reference's own chain
  of operations.
-/
import proofs.«138131_g70763881169291_cont_9to1c4b_616_12_alg».proof.Proof.RefChains

noncomputable section

namespace Cert.Bridge

open Idealize.ShloMosaic Cert.ReferenceIdeal

variable [Cert.ReferenceIdeal.Facts₀]

/-- The result as a function of the arguments, in the order of @main's parameters. -/
def spec (a0 : FVec Ideal S10000x128 .f32) (a1 : IVec S2x320000 32) (a2 : IVec S10000 32) (a3 a4 a5 : FVec Ideal S_ .f32)
    (a6 : FVec Ideal S128x256 .f32) (a7 : FVec Ideal S256 .f32) (a8 : FVec Ideal S256x256 .f32) (a9 : FVec Ideal S256 .f32)
    (a10 : FVec Ideal S256x256 .f32) (a11 : FVec Ideal S256 .f32) (a12 : FVec Ideal S256x256 .f32) (a13 : FVec Ideal S256 .f32)
    (a14 : FVec Ideal S256x256 .f32) (a15 : FVec Ideal S256 .f32) (a16 : FVec Ideal S256x256 .f32) (a17 : FVec Ideal S256 .f32)
    (a18 : FVec Ideal S256x256 .f32) (a19 : FVec Ideal S256 .f32) (a20 : FVec Ideal S256x128 .f32) (a21 : FVec Ideal S128 .f32)
    (a22 : FVec Ideal S128x2 .f32) (a23 : FVec Ideal S2 .f32) : FVec Ideal S64x2 .f32 :=
  refHead2
    (refPool (refLayer256 a5 a14 a15 a16 a17 (refLayer256 a4 a10 a11 a12 a13 (refLayer128 a3 a6 a7 a8 a9 a0 a1) a1) a1) a2 a18 (refB256 a19) a20 (refB128 a21))
    (refMu64 (refPool (refLayer256 a5 a14 a15 a16 a17 (refLayer256 a4 a10 a11 a12 a13 (refLayer128 a3 a6 a7 a8 a9 a0 a1) a1) a1) a2 a18 (refB256 a19) a20 (refB128 a21)))
    (refVar64 (refPool (refLayer256 a5 a14 a15 a16 a17 (refLayer256 a4 a10 a11 a12 a13 (refLayer128 a3 a6 a7 a8 a9 a0 a1) a1) a1) a2 a18 (refB256 a19) a20 (refB128 a21)))
    a22 (refB2 a23)

end Cert.Bridge

end
-- ==== Proof.KValue4.lean ====
/-
  The idealized kernel program's result is the specification of its 24 argument arrays. Each boundary value of the
  fold — t₀, h₁, u₁, t₁, h₂, u₂, t₂, h₃, zz, the result — is rewritten into the reference's stage names: the host
  stretches by the table of equalities between the two programs' composed terms, the bias rows by "reshaped is
  broadcast", the regions by their value lemmas (already in the reference's names).
-/
import proofs.«138131_g70763881169291_cont_9to1c4b_616_12_alg».proof.Proof.KValue3a
import proofs.«138131_g70763881169291_cont_9to1c4b_616_12_alg».proof.Proof.KValue3b
import proofs.«138131_g70763881169291_cont_9to1c4b_616_12_alg».proof.Proof.Mm1Math256
import proofs.«138131_g70763881169291_cont_9to1c4b_616_12_alg».proof.Proof.Spec

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KChain Cert.Bridge

variable (m : (ℓ : Loc nD τ sig) → Buf (Elt Ideal) ℓ) (ρ : Dev nD → PrngReg) (c : Dev nD)

theorem lin256 (u W b) : linK256 u W b = refLin256 u W b := rfl

theorem t0_ref : W2 m ρ c (Proc.devRef .tc main_v47) = refLin128 (refPre128 (arg m c main_arg3) (arg m c main_arg0) (arg m c main_arg1)) (arg m c main_arg6) (refB256 (arg m c main_arg7)) := by
  rw [t0_eq, u0_eq, step_arg6_0, b0a_eq, KRef.pre128, KRef.row7, KRef.lin128]
  all_goals rfl

theorem h1_ref : W6 m ρ c (Proc.devRef .tc main_v59) = (refLayer128 (arg m c main_arg3) (arg m c main_arg6) (arg m c main_arg7) (arg m c main_arg8) (arg m c main_arg9) (arg m c main_arg0) (arg m c main_arg1)) := by
  rw [h1_eq, KRef.mu0, KRef.var0, KRef.row8, t0_ref]
  all_goals rfl

theorem u1_ref : W6 m ρ c (Proc.devRef .tc main_v78) = refPre256 (arg m c main_arg4) (refLayer128 (arg m c main_arg3) (arg m c main_arg6) (arg m c main_arg7) (arg m c main_arg8) (arg m c main_arg9) (arg m c main_arg0) (arg m c main_arg1)) (arg m c main_arg1) := by
  rw [u1_eq, h1_ref, KRef.pre256_1]

theorem t1_ref : W7 m ρ c (Proc.devRef .tc main_v79) = refLin256 (refPre256 (arg m c main_arg4) (refLayer128 (arg m c main_arg3) (arg m c main_arg6) (arg m c main_arg7) (arg m c main_arg8) (arg m c main_arg9) (arg m c main_arg0) (arg m c main_arg1)) (arg m c main_arg1)) (arg m c main_arg10) (refB256 (arg m c main_arg11)) := by
  have e9 : W1 m ρ c (Proc.devRef .tc main_v9) = k_v9 (arg m c main_arg11) := st_v9 (W0 m ρ c)
  rw [t1_eq, u1_ref, carry_arg10_0_6, carry_v9_1_6, e9, KRef.row9, lin256]
  all_goals rfl

theorem h2_ref : W11 m ρ c (Proc.devRef .tc main_v91) = (refLayer256 (arg m c main_arg4) (arg m c main_arg10) (arg m c main_arg11) (arg m c main_arg12) (arg m c main_arg13) (refLayer128 (arg m c main_arg3) (arg m c main_arg6) (arg m c main_arg7) (arg m c main_arg8) (arg m c main_arg9) (arg m c main_arg0) (arg m c main_arg1)) (arg m c main_arg1)) := by
  rw [h2_eq, KRef.mu1, KRef.var1, KRef.row10, t1_ref]
  all_goals rfl

theorem u2_ref : W11 m ρ c (Proc.devRef .tc main_v110) = refPre256 (arg m c main_arg5) (refLayer256 (arg m c main_arg4) (arg m c main_arg10) (arg m c main_arg11) (arg m c main_arg12) (arg m c main_arg13) (refLayer128 (arg m c main_arg3) (arg m c main_arg6) (arg m c main_arg7) (arg m c main_arg8) (arg m c main_arg9) (arg m c main_arg0) (arg m c main_arg1)) (arg m c main_arg1)) (arg m c main_arg1) := by
  rw [u2_eq, h2_ref, KRef.pre256_2]

theorem t2_ref : W12 m ρ c (Proc.devRef .tc main_v111) = refLin256 (refPre256 (arg m c main_arg5) (refLayer256 (arg m c main_arg4) (arg m c main_arg10) (arg m c main_arg11) (arg m c main_arg12) (arg m c main_arg13) (refLayer128 (arg m c main_arg3) (arg m c main_arg6) (arg m c main_arg7) (arg m c main_arg8) (arg m c main_arg9) (arg m c main_arg0) (arg m c main_arg1)) (arg m c main_arg1)) (arg m c main_arg1)) (arg m c main_arg14) (refB256 (arg m c main_arg15)) := by
  have e11 : W1 m ρ c (Proc.devRef .tc main_v11) = k_v11 (arg m c main_arg15) := st_v11 (W0 m ρ c)
  rw [t2_eq, u2_ref, carry_arg14_0_11, carry_v11_1_11, e11, KRef.row11, lin256]
  all_goals rfl

theorem h3_ref : h3 m ρ c = (refLayer256 (arg m c main_arg5) (arg m c main_arg14) (arg m c main_arg15) (arg m c main_arg16) (arg m c main_arg17) (refLayer256 (arg m c main_arg4) (arg m c main_arg10) (arg m c main_arg11) (arg m c main_arg12) (arg m c main_arg13) (refLayer128 (arg m c main_arg3) (arg m c main_arg6) (arg m c main_arg7) (arg m c main_arg8) (arg m c main_arg9) (arg m c main_arg0) (arg m c main_arg1)) (arg m c main_arg1)) (arg m c main_arg1)) := by
  unfold h3
  rw [KRef.mu2, KRef.var2, KRef.row12, t2_ref]
  all_goals rfl

theorem zz_ref : zz m ρ c = refPool (refLayer256 (arg m c main_arg5) (arg m c main_arg14) (arg m c main_arg15) (arg m c main_arg16) (arg m c main_arg17) (refLayer256 (arg m c main_arg4) (arg m c main_arg10) (arg m c main_arg11) (arg m c main_arg12) (arg m c main_arg13) (refLayer128 (arg m c main_arg3) (arg m c main_arg6) (arg m c main_arg7) (arg m c main_arg8) (arg m c main_arg9) (arg m c main_arg0) (arg m c main_arg1)) (arg m c main_arg1)) (arg m c main_arg1)) (arg m c main_arg2) (arg m c main_arg18) (refB256 (arg m c main_arg19)) (arg m c main_arg20) (refB128 (arg m c main_arg21)) := by
  unfold zz
  rw [h3_ref, KRef.row13, KRef.row14]

/-- The result buffer at the last boundary is the specification of the launch arrays. -/
theorem kvalue : W20 m ρ c (Proc.devRef .tc main_v128)
    = spec (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) := by
  rw [out_eq, zz_eq, KRef.mu64, KRef.var64, zz_ref]
  all_goals rfl

end Cert.KernelIdeal.KValue

end
-- ==== Proof.KSpecRun.lean ====
/-
  The idealized kernel program's half of the claim: every weakly fair execution of @main from a memory with zero
  counters terminates, nothing faulting, with the result buffer at the specification of the launched argument
  arrays and every argument array unchanged — the run with the result read at the last boundary of the fold,
  and that boundary's value computed stage by stage.
-/
import proofs.«138131_g70763881169291_cont_9to1c4b_616_12_alg».proof.Proof.KernelRun
import proofs.«138131_g70763881169291_cont_9to1c4b_616_12_alg».proof.Proof.KValue4

set_option maxRecDepth 16384

noncomputable section

namespace Cert.KernelIdeal.Gen

open Idealize.ShloMosaic Idealize.ShloMosaic.TcCoe Idealize.SL.Sem Cert.Bridge

theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v128) = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨(h c).1.trans (Cert.KernelIdeal.KValue.kvalue m ρ c), (h c).2⟩) (run_value (F := Ideal) m ρ)

end Cert.KernelIdeal.Gen

end
-- ==== Proof.RefRunOps.lean ====
import proofs.«138131_g70763881169291_cont_9to1c4b_616_12_alg».proof.ReferenceIdeal
import Idealize.ShloMosaic.Lib.StableHlo.Run

/-! The reference program's @main as a list of its host operations, window by window: a called function's
    operations stand in its call's place, over the call's record of buffers. Each window of @main is the
    straight line of its list; every operation touches TensorCore references only and allocates nothing. -/

set_option synthInstance.maxSize 4096

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- The 86 operations of window 0 of @main, in order. -/
abbrev ops0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_cst (constant S_ .f32 0x00000000#32),
    StableHlo.unary main_cst main_v4 (broadcastInDim S10000x128 ![] bcast_S_S10000x128 : (⟨S_, .f32⟩ : BufTy).Contents (Elt F) → (⟨S10000x128, .f32⟩ : BufTy).Contents (Elt F)),
    StableHlo.nullary main_c (constantI S_ 32 0#32),
    StableHlo.unary main_c main_v5 (broadcastInDim S320000 ![] bcast_S_S320000 : (⟨S_, .i32⟩ : BufTy).Contents (Elt F) → (⟨S320000, .i32⟩ : BufTy).Contents (Elt F)),
    StableHlo.binary main_v1 main_v5 main_v6 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v7 (broadcastInDim S320000 ![] bcast_S_S320000 : (⟨S_, .i32⟩ : BufTy).Contents (Elt F) → (⟨S320000, .i32⟩ : BufTy).Contents (Elt F)),
    StableHlo.binary main_v1 main_v7 main_v8 (addi : (⟨S320000, .i32⟩ : BufTy).Contents (Elt F) → (⟨S320000, .i32⟩ : BufTy).Contents (Elt F) → (⟨S320000, .i32⟩ : BufTy).Contents (Elt F)),
    StableHlo.ternary main_v6 main_v8 main_v1 main_v9 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v9 main_v10 (broadcastInDim S320000x1 ![0] bcast_S320000_S320000x1_0 : (⟨S320000, .i32⟩ : BufTy).Contents (Elt F) → (⟨S320000x1, .i32⟩ : BufTy).Contents (Elt F)),
    StableHlo.binary main_arg0 main_v10 main_v11 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_1 (constantI S_ 32 0#32),
    StableHlo.unary main_c_1 main_v12 (broadcastInDim S320000 ![] bcast_S_S320000 : (⟨S_, .i32⟩ : BufTy).Contents (Elt F) → (⟨S320000, .i32⟩ : BufTy).Contents (Elt F)),
    StableHlo.binary main_v3 main_v12 main_v13 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v14 (broadcastInDim S320000 ![] bcast_S_S320000 : (⟨S_, .i32⟩ : BufTy).Contents (Elt F) → (⟨S320000, .i32⟩ : BufTy).Contents (Elt F)),
    StableHlo.binary main_v3 main_v14 main_v15 (addi : (⟨S320000, .i32⟩ : BufTy).Contents (Elt F) → (⟨S320000, .i32⟩ : BufTy).Contents (Elt F) → (⟨S320000, .i32⟩ : BufTy).Contents (Elt F)),
    StableHlo.ternary main_v13 main_v15 main_v3 main_v16 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v16 main_v17 (broadcastInDim S320000x1 ![0] bcast_S320000_S320000x1_0 : (⟨S320000, .i32⟩ : BufTy).Contents (Elt F) → (⟨S320000x1, .i32⟩ : BufTy).Contents (Elt F)),
    StableHlo.ternary main_v4 main_v17 main_v11 main_v18 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    StableHlo.nullary main_cst_3 (constant S_ .f32 0x3F800000#32),
    StableHlo.binary main_cst_3 main_arg3 main_v19 (addf : (⟨S_, .f32⟩ : BufTy).Contents (Elt F) → (⟨S_, .f32⟩ : BufTy).Contents (Elt F) → (⟨S_, .f32⟩ : BufTy).Contents (Elt F)),
    StableHlo.unary main_v19 main_v20 (broadcastInDim S10000x128 ![] bcast_S_S10000x128 : (⟨S_, .f32⟩ : BufTy).Contents (Elt F) → (⟨S10000x128, .f32⟩ : BufTy).Contents (Elt F)),
    StableHlo.binary main_v20 main_arg0 main_v21 (mulf : (⟨S10000x128, .f32⟩ : BufTy).Contents (Elt F) → (⟨S10000x128, .f32⟩ : BufTy).Contents (Elt F) → (⟨S10000x128, .f32⟩ : BufTy).Contents (Elt F)),
    StableHlo.binary main_v21 main_v18 main_v22 (addf : (⟨S10000x128, .f32⟩ : BufTy).Contents (Elt F) → (⟨S10000x128, .f32⟩ : BufTy).Contents (Elt F) → (⟨S10000x128, .f32⟩ : BufTy).Contents (Elt F)),
    StableHlo.binary main_v22 main_arg6 main_v23 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.unary main_arg7 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S10000x256 ![0, 1] bcast_S1x256_S10000x256_0_1 : (⟨S1x256, .f32⟩ : BufTy).Contents (Elt F) → (⟨S10000x256, .f32⟩ : BufTy).Contents (Elt F)),
    StableHlo.binary main_v23 main_v25 main_v26 (addf : (⟨S10000x256, .f32⟩ : BufTy).Contents (Elt F) → (⟨S10000x256, .f32⟩ : BufTy).Contents (Elt F) → (⟨S10000x256, .f32⟩ : BufTy).Contents (Elt F)),
    StableHlo.nullary main_cst_4 (constant S_ .f32 0x00000000#32),
    StableHlo.binary main_v26 main_cst_4 main_v27 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.unary main_v27 main_v28 (broadcastInDim S1x256 ![1] bcast_S256_S1x256_1 : (⟨S256, .f32⟩ : BufTy).Contents (Elt F) → (⟨S1x256, .f32⟩ : BufTy).Contents (Elt F)),
    StableHlo.nullary main_cst_5 (constant S_ .f32 0x461C4000#32),
    StableHlo.unary main_cst_5 main_v29 (broadcastInDim S1x256 ![] bcast_S_S1x256 : (⟨S_, .f32⟩ : BufTy).Contents (Elt F) → (⟨S1x256, .f32⟩ : BufTy).Contents (Elt F)),
    StableHlo.binary main_v28 main_v29 main_v30 (Host.divf : (⟨S1x256, .f32⟩ : BufTy).Contents (Elt F) → (⟨S1x256, .f32⟩ : BufTy).Contents (Elt F) → (⟨S1x256, .f32⟩ : BufTy).Contents (Elt F)),
    StableHlo.nullary main_c_6 (constantI S_ 32 0#32),
    StableHlo.TRef.nullary main_call0.cst (constant S_ .f32 0x00000000#32),
    StableHlo.TRef.binary (.of main_v26 : StableHlo.TRef sig ⟨S10000x256, .f32⟩) main_call0.cst main_call0.v0 (fun x v => Host.reduceAdd x v reducesTo_S10000x256_S256_d0 h_S_),
    StableHlo.TRef.unary main_call0.v0 main_call0.v1 (broadcastInDim S1x256 ![1] bcast_S256_S1x256_1),
    StableHlo.TRef.nullary main_call0.cst_0 (constant S_ .f32 0x461C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S10000x256 ![0, 1] bcast_S1x256_S10000x256_0_1),
    StableHlo.TRef.binary (.of main_v26 : StableHlo.TRef sig ⟨S10000x256, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x256_S256_d0 h_S_),
    StableHlo.TRef.unary main_call0.v9 main_call0.v10 (broadcastInDim S1x256 ![1] bcast_S256_S1x256_1),
    StableHlo.TRef.unary main_call0.v8 main_call0.v11 (broadcastInDim S1x256 ![] bcast_S_S1x256),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x256 ![] bcast_S_S1x256),
    StableHlo.TRef.ternary main_call0.v13 main_call0.v12 main_call0.call0.v1 main_call0.call0.v2 (fun p a b => select (broadcastInDim S1x256 ![] bcast_S_S1x256 p) a b),
    StableHlo.unary main_v30 main_v32 (broadcastInDim S10000x256 ![0, 1] bcast_S1x256_S10000x256_0_1 : (⟨S1x256, .f32⟩ : BufTy).Contents (Elt F) → (⟨S10000x256, .f32⟩ : BufTy).Contents (Elt F)),
    StableHlo.binary main_v26 main_v32 main_v33 (subf : (⟨S10000x256, .f32⟩ : BufTy).Contents (Elt F) → (⟨S10000x256, .f32⟩ : BufTy).Contents (Elt F) → (⟨S10000x256, .f32⟩ : BufTy).Contents (Elt F)),
    StableHlo.nullary main_cst_7 (constant S_ .f32 0x3727C5AC#32),
    StableHlo.unary main_cst_7 main_v34 (broadcastInDim S1x256 ![] bcast_S_S1x256 : (⟨S_, .f32⟩ : BufTy).Contents (Elt F) → (⟨S1x256, .f32⟩ : BufTy).Contents (Elt F)),
    StableHlo.binary main_v31 main_v34 main_v35 (addf : (⟨S1x256, .f32⟩ : BufTy).Contents (Elt F) → (⟨S1x256, .f32⟩ : BufTy).Contents (Elt F) → (⟨S1x256, .f32⟩ : BufTy).Contents (Elt F)),
    StableHlo.unary main_v35 main_v36 (Host.sqrt : (⟨S1x256, .f32⟩ : BufTy).Contents (Elt F) → (⟨S1x256, .f32⟩ : BufTy).Contents (Elt F)),
    StableHlo.unary main_v36 main_v37 (broadcastInDim S10000x256 ![0, 1] bcast_S1x256_S10000x256_0_1 : (⟨S1x256, .f32⟩ : BufTy).Contents (Elt F) → (⟨S10000x256, .f32⟩ : BufTy).Contents (Elt F)),
    StableHlo.binary main_v33 main_v37 main_v38 (Host.divf : (⟨S10000x256, .f32⟩ : BufTy).Contents (Elt F) → (⟨S10000x256, .f32⟩ : BufTy).Contents (Elt F) → (⟨S10000x256, .f32⟩ : BufTy).Contents (Elt F)),
    StableHlo.TRef.nullary main_call1.cst (constant S_ .f32 0x00000000#32),
    StableHlo.TRef.unary main_call1.cst main_call1.v0 (broadcastInDim S10000x256 ![] bcast_S_S10000x256),
    StableHlo.TRef.binary (.of main_v38 : StableHlo.TRef sig ⟨S10000x256, .f32⟩) main_call1.v0 main_call1.v1 maximumf,
    StableHlo.binary main_v39 main_arg8 main_v40 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg9 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S10000x256 ![0, 1] bcast_S1x256_S10000x256_0_1 : (⟨S1x256, .f32⟩ : BufTy).Contents (Elt F) → (⟨S10000x256, .f32⟩ : BufTy).Contents (Elt F)),
    StableHlo.binary main_v40 main_v42 main_v43 (addf : (⟨S10000x256, .f32⟩ : BufTy).Contents (Elt F) → (⟨S10000x256, .f32⟩ : BufTy).Contents (Elt F) → (⟨S10000x256, .f32⟩ : BufTy).Contents (Elt F)),
    StableHlo.TRef.nullary main_call2.cst (constant S_ .f32 0x00000000#32),
    StableHlo.TRef.unary main_call2.cst main_call2.v0 (broadcastInDim S10000x256 ![] bcast_S_S10000x256),
    StableHlo.TRef.binary (.of main_v43 : StableHlo.TRef sig ⟨S10000x256, .f32⟩) main_call2.v0 main_call2.v1 maximumf,
    StableHlo.nullary main_cst_8 (constant S_ .f32 0x00000000#32),
    StableHlo.unary main_cst_8 main_v45 (broadcastInDim S10000x256 ![] bcast_S_S10000x256 : (⟨S_, .f32⟩ : BufTy).Contents (Elt F) → (⟨S10000x256, .f32⟩ : BufTy).Contents (Elt F)),
    StableHlo.nullary main_c_9 (constantI S_ 32 0#32),
    StableHlo.unary main_c_9 main_v46 (broadcastInDim S320000 ![] bcast_S_S320000 : (⟨S_, .i32⟩ : BufTy).Contents (Elt F) → (⟨S320000, .i32⟩ : BufTy).Contents (Elt F)),
    StableHlo.binary main_v1 main_v46 main_v47 (cmpi .slt : (⟨S320000, .i32⟩ : BufTy).Contents (Elt F) → (⟨S320000, .i32⟩ : BufTy).Contents (Elt F) → (⟨S320000, .i1⟩ : BufTy).Contents (Elt F)) ]

/-- The 86 operations of window 1 of @main, in order. -/
abbrev ops1 : List (HloOp τ sig (Elt F)) :=
  [ StableHlo.nullary main_c_10 (constantI S_ 32 10000#32),
    StableHlo.unary main_c_10 main_v48 (broadcastInDim S320000 ![] bcast_S_S320000 : (⟨S_, .i32⟩ : BufTy).Contents (Elt F) → (⟨S320000, .i32⟩ : BufTy).Contents (Elt F)),
    StableHlo.binary main_v1 main_v48 main_v49 (addi : (⟨S320000, .i32⟩ : BufTy).Contents (Elt F) → (⟨S320000, .i32⟩ : BufTy).Contents (Elt F) → (⟨S320000, .i32⟩ : BufTy).Contents (Elt F)),
    StableHlo.ternary main_v47 main_v49 main_v1 main_v50 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v50 main_v51 (broadcastInDim S320000x1 ![0] bcast_S320000_S320000x1_0 : (⟨S320000, .i32⟩ : BufTy).Contents (Elt F) → (⟨S320000x1, .i32⟩ : BufTy).Contents (Elt F)),
    StableHlo.binary main_v44 main_v51 main_v52 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_11 (constantI S_ 32 0#32),
    StableHlo.unary main_c_11 main_v53 (broadcastInDim S320000 ![] bcast_S_S320000 : (⟨S_, .i32⟩ : BufTy).Contents (Elt F) → (⟨S320000, .i32⟩ : BufTy).Contents (Elt F)),
    StableHlo.binary main_v3 main_v53 main_v54 (cmpi .slt : (⟨S320000, .i32⟩ : BufTy).Contents (Elt F) → (⟨S320000, .i32⟩ : BufTy).Contents (Elt F) → (⟨S320000, .i1⟩ : BufTy).Contents (Elt F)),
    StableHlo.nullary main_c_12 (constantI S_ 32 10000#32),
    StableHlo.unary main_c_12 main_v55 (broadcastInDim S320000 ![] bcast_S_S320000 : (⟨S_, .i32⟩ : BufTy).Contents (Elt F) → (⟨S320000, .i32⟩ : BufTy).Contents (Elt F)),
    StableHlo.binary main_v3 main_v55 main_v56 (addi : (⟨S320000, .i32⟩ : BufTy).Contents (Elt F) → (⟨S320000, .i32⟩ : BufTy).Contents (Elt F) → (⟨S320000, .i32⟩ : BufTy).Contents (Elt F)),
    StableHlo.ternary main_v54 main_v56 main_v3 main_v57 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v57 main_v58 (broadcastInDim S320000x1 ![0] bcast_S320000_S320000x1_0 : (⟨S320000, .i32⟩ : BufTy).Contents (Elt F) → (⟨S320000x1, .i32⟩ : BufTy).Contents (Elt F)),
    StableHlo.ternary main_v45 main_v58 main_v52 main_v59 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.nullary main_cst_13 (constant S_ .f32 0x3F800000#32),
    StableHlo.binary main_cst_13 main_arg4 main_v60 (addf : (⟨S_, .f32⟩ : BufTy).Contents (Elt F) → (⟨S_, .f32⟩ : BufTy).Contents (Elt F) → (⟨S_, .f32⟩ : BufTy).Contents (Elt F)),
    StableHlo.unary main_v60 main_v61 (broadcastInDim S10000x256 ![] bcast_S_S10000x256 : (⟨S_, .f32⟩ : BufTy).Contents (Elt F) → (⟨S10000x256, .f32⟩ : BufTy).Contents (Elt F)),
    StableHlo.binary main_v61 main_v44 main_v62 (mulf : (⟨S10000x256, .f32⟩ : BufTy).Contents (Elt F) → (⟨S10000x256, .f32⟩ : BufTy).Contents (Elt F) → (⟨S10000x256, .f32⟩ : BufTy).Contents (Elt F)),
    StableHlo.binary main_v62 main_v59 main_v63 (addf : (⟨S10000x256, .f32⟩ : BufTy).Contents (Elt F) → (⟨S10000x256, .f32⟩ : BufTy).Contents (Elt F) → (⟨S10000x256, .f32⟩ : BufTy).Contents (Elt F)),
    StableHlo.binary main_v63 main_arg10 main_v64 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg11 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S10000x256 ![0, 1] bcast_S1x256_S10000x256_0_1 : (⟨S1x256, .f32⟩ : BufTy).Contents (Elt F) → (⟨S10000x256, .f32⟩ : BufTy).Contents (Elt F)),
    StableHlo.binary main_v64 main_v66 main_v67 (addf : (⟨S10000x256, .f32⟩ : BufTy).Contents (Elt F) → (⟨S10000x256, .f32⟩ : BufTy).Contents (Elt F) → (⟨S10000x256, .f32⟩ : BufTy).Contents (Elt F)),
    StableHlo.nullary main_cst_14 (constant S_ .f32 0x00000000#32),
    StableHlo.binary main_v67 main_cst_14 main_v68 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.unary main_v68 main_v69 (broadcastInDim S1x256 ![1] bcast_S256_S1x256_1 : (⟨S256, .f32⟩ : BufTy).Contents (Elt F) → (⟨S1x256, .f32⟩ : BufTy).Contents (Elt F)),
    StableHlo.nullary main_cst_15 (constant S_ .f32 0x461C4000#32),
    StableHlo.unary main_cst_15 main_v70 (broadcastInDim S1x256 ![] bcast_S_S1x256 : (⟨S_, .f32⟩ : BufTy).Contents (Elt F) → (⟨S1x256, .f32⟩ : BufTy).Contents (Elt F)),
    StableHlo.binary main_v69 main_v70 main_v71 (Host.divf : (⟨S1x256, .f32⟩ : BufTy).Contents (Elt F) → (⟨S1x256, .f32⟩ : BufTy).Contents (Elt F) → (⟨S1x256, .f32⟩ : BufTy).Contents (Elt F)),
    StableHlo.nullary main_c_16 (constantI S_ 32 0#32),
    StableHlo.TRef.nullary main_call3.cst (constant S_ .f32 0x00000000#32),
    StableHlo.TRef.binary (.of main_v67 : StableHlo.TRef sig ⟨S10000x256, .f32⟩) main_call3.cst main_call3.v0 (fun x v => Host.reduceAdd x v reducesTo_S10000x256_S256_d0 h_S_),
    StableHlo.TRef.unary main_call3.v0 main_call3.v1 (broadcastInDim S1x256 ![1] bcast_S256_S1x256_1),
    StableHlo.TRef.nullary main_call3.cst_0 (constant S_ .f32 0x461C4000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S10000x256 ![0, 1] bcast_S1x256_S10000x256_0_1),
    StableHlo.TRef.binary (.of main_v67 : StableHlo.TRef sig ⟨S10000x256, .f32⟩) main_call3.v4 main_call3.v5 subf,
    StableHlo.TRef.binary main_call3.v5 main_call3.v5 main_call3.v6 mulf,
    StableHlo.TRef.unary (.of main_c_16 : StableHlo.TRef sig ⟨S_, .i32⟩) main_call3.v7 (sitofp .f32),
    StableHlo.TRef.nullary main_call3.cst_1 (constant S_ .f32 0x461C4000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S10000x256_S256_d0 h_S_),
    StableHlo.TRef.unary main_call3.v9 main_call3.v10 (broadcastInDim S1x256 ![1] bcast_S256_S1x256_1),
    StableHlo.TRef.unary main_call3.v8 main_call3.v11 (broadcastInDim S1x256 ![] bcast_S_S1x256),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x256 ![] bcast_S_S1x256),
    StableHlo.TRef.ternary main_call3.v13 main_call3.v12 main_call3.call0.v1 main_call3.call0.v2 (fun p a b => select (broadcastInDim S1x256 ![] bcast_S_S1x256 p) a b),
    StableHlo.unary main_v71 main_v73 (broadcastInDim S10000x256 ![0, 1] bcast_S1x256_S10000x256_0_1 : (⟨S1x256, .f32⟩ : BufTy).Contents (Elt F) → (⟨S10000x256, .f32⟩ : BufTy).Contents (Elt F)),
    StableHlo.binary main_v67 main_v73 main_v74 (subf : (⟨S10000x256, .f32⟩ : BufTy).Contents (Elt F) → (⟨S10000x256, .f32⟩ : BufTy).Contents (Elt F) → (⟨S10000x256, .f32⟩ : BufTy).Contents (Elt F)),
    StableHlo.nullary main_cst_17 (constant S_ .f32 0x3727C5AC#32),
    StableHlo.unary main_cst_17 main_v75 (broadcastInDim S1x256 ![] bcast_S_S1x256 : (⟨S_, .f32⟩ : BufTy).Contents (Elt F) → (⟨S1x256, .f32⟩ : BufTy).Contents (Elt F)),
    StableHlo.binary main_v72 main_v75 main_v76 (addf : (⟨S1x256, .f32⟩ : BufTy).Contents (Elt F) → (⟨S1x256, .f32⟩ : BufTy).Contents (Elt F) → (⟨S1x256, .f32⟩ : BufTy).Contents (Elt F)),
    StableHlo.unary main_v76 main_v77 (Host.sqrt : (⟨S1x256, .f32⟩ : BufTy).Contents (Elt F) → (⟨S1x256, .f32⟩ : BufTy).Contents (Elt F)),
    StableHlo.unary main_v77 main_v78 (broadcastInDim S10000x256 ![0, 1] bcast_S1x256_S10000x256_0_1 : (⟨S1x256, .f32⟩ : BufTy).Contents (Elt F) → (⟨S10000x256, .f32⟩ : BufTy).Contents (Elt F)),
    StableHlo.binary main_v74 main_v78 main_v79 (Host.divf : (⟨S10000x256, .f32⟩ : BufTy).Contents (Elt F) → (⟨S10000x256, .f32⟩ : BufTy).Contents (Elt F) → (⟨S10000x256, .f32⟩ : BufTy).Contents (Elt F)),
    StableHlo.TRef.nullary main_call4.cst (constant S_ .f32 0x00000000#32),
    StableHlo.TRef.unary main_call4.cst main_call4.v0 (broadcastInDim S10000x256 ![] bcast_S_S10000x256),
    StableHlo.TRef.binary (.of main_v79 : StableHlo.TRef sig ⟨S10000x256, .f32⟩) main_call4.v0 main_call4.v1 maximumf,
    StableHlo.binary main_v80 main_arg12 main_v81 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg13 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S10000x256 ![0, 1] bcast_S1x256_S10000x256_0_1 : (⟨S1x256, .f32⟩ : BufTy).Contents (Elt F) → (⟨S10000x256, .f32⟩ : BufTy).Contents (Elt F)),
    StableHlo.binary main_v81 main_v83 main_v84 (addf : (⟨S10000x256, .f32⟩ : BufTy).Contents (Elt F) → (⟨S10000x256, .f32⟩ : BufTy).Contents (Elt F) → (⟨S10000x256, .f32⟩ : BufTy).Contents (Elt F)),
    StableHlo.TRef.nullary main_call5.cst (constant S_ .f32 0x00000000#32),
    StableHlo.TRef.unary main_call5.cst main_call5.v0 (broadcastInDim S10000x256 ![] bcast_S_S10000x256),
    StableHlo.TRef.binary (.of main_v84 : StableHlo.TRef sig ⟨S10000x256, .f32⟩) main_call5.v0 main_call5.v1 maximumf,
    StableHlo.nullary main_cst_18 (constant S_ .f32 0x00000000#32),
    StableHlo.unary main_cst_18 main_v86 (broadcastInDim S10000x256 ![] bcast_S_S10000x256 : (⟨S_, .f32⟩ : BufTy).Contents (Elt F) → (⟨S10000x256, .f32⟩ : BufTy).Contents (Elt F)),
    StableHlo.nullary main_c_19 (constantI S_ 32 0#32),
    StableHlo.unary main_c_19 main_v87 (broadcastInDim S320000 ![] bcast_S_S320000 : (⟨S_, .i32⟩ : BufTy).Contents (Elt F) → (⟨S320000, .i32⟩ : BufTy).Contents (Elt F)),
    StableHlo.binary main_v1 main_v87 main_v88 (cmpi .slt : (⟨S320000, .i32⟩ : BufTy).Contents (Elt F) → (⟨S320000, .i32⟩ : BufTy).Contents (Elt F) → (⟨S320000, .i1⟩ : BufTy).Contents (Elt F)),
    StableHlo.nullary main_c_20 (constantI S_ 32 10000#32),
    StableHlo.unary main_c_20 main_v89 (broadcastInDim S320000 ![] bcast_S_S320000 : (⟨S_, .i32⟩ : BufTy).Contents (Elt F) → (⟨S320000, .i32⟩ : BufTy).Contents (Elt F)),
    StableHlo.binary main_v1 main_v89 main_v90 (addi : (⟨S320000, .i32⟩ : BufTy).Contents (Elt F) → (⟨S320000, .i32⟩ : BufTy).Contents (Elt F) → (⟨S320000, .i32⟩ : BufTy).Contents (Elt F)),
    StableHlo.ternary main_v88 main_v90 main_v1 main_v91 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v91 main_v92 (broadcastInDim S320000x1 ![0] bcast_S320000_S320000x1_0 : (⟨S320000, .i32⟩ : BufTy).Contents (Elt F) → (⟨S320000x1, .i32⟩ : BufTy).Contents (Elt F)),
    StableHlo.binary main_v85 main_v92 main_v93 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_21 (constantI S_ 32 0#32),
    StableHlo.unary main_c_21 main_v94 (broadcastInDim S320000 ![] bcast_S_S320000 : (⟨S_, .i32⟩ : BufTy).Contents (Elt F) → (⟨S320000, .i32⟩ : BufTy).Contents (Elt F)),
    StableHlo.binary main_v3 main_v94 main_v95 (cmpi .slt : (⟨S320000, .i32⟩ : BufTy).Contents (Elt F) → (⟨S320000, .i32⟩ : BufTy).Contents (Elt F) → (⟨S320000, .i1⟩ : BufTy).Contents (Elt F)) ]

/-- The 86 operations of window 2 of @main, in order. -/
abbrev ops2 : List (HloOp τ sig (Elt F)) :=
  [ StableHlo.nullary main_c_22 (constantI S_ 32 10000#32),
    StableHlo.unary main_c_22 main_v96 (broadcastInDim S320000 ![] bcast_S_S320000 : (⟨S_, .i32⟩ : BufTy).Contents (Elt F) → (⟨S320000, .i32⟩ : BufTy).Contents (Elt F)),
    StableHlo.binary main_v3 main_v96 main_v97 (addi : (⟨S320000, .i32⟩ : BufTy).Contents (Elt F) → (⟨S320000, .i32⟩ : BufTy).Contents (Elt F) → (⟨S320000, .i32⟩ : BufTy).Contents (Elt F)),
    StableHlo.ternary main_v95 main_v97 main_v3 main_v98 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v98 main_v99 (broadcastInDim S320000x1 ![0] bcast_S320000_S320000x1_0 : (⟨S320000, .i32⟩ : BufTy).Contents (Elt F) → (⟨S320000x1, .i32⟩ : BufTy).Contents (Elt F)),
    StableHlo.ternary main_v86 main_v99 main_v93 main_v100 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.nullary main_cst_23 (constant S_ .f32 0x3F800000#32),
    StableHlo.binary main_cst_23 main_arg5 main_v101 (addf : (⟨S_, .f32⟩ : BufTy).Contents (Elt F) → (⟨S_, .f32⟩ : BufTy).Contents (Elt F) → (⟨S_, .f32⟩ : BufTy).Contents (Elt F)),
    StableHlo.unary main_v101 main_v102 (broadcastInDim S10000x256 ![] bcast_S_S10000x256 : (⟨S_, .f32⟩ : BufTy).Contents (Elt F) → (⟨S10000x256, .f32⟩ : BufTy).Contents (Elt F)),
    StableHlo.binary main_v102 main_v85 main_v103 (mulf : (⟨S10000x256, .f32⟩ : BufTy).Contents (Elt F) → (⟨S10000x256, .f32⟩ : BufTy).Contents (Elt F) → (⟨S10000x256, .f32⟩ : BufTy).Contents (Elt F)),
    StableHlo.binary main_v103 main_v100 main_v104 (addf : (⟨S10000x256, .f32⟩ : BufTy).Contents (Elt F) → (⟨S10000x256, .f32⟩ : BufTy).Contents (Elt F) → (⟨S10000x256, .f32⟩ : BufTy).Contents (Elt F)),
    StableHlo.binary main_v104 main_arg14 main_v105 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg15 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S10000x256 ![0, 1] bcast_S1x256_S10000x256_0_1 : (⟨S1x256, .f32⟩ : BufTy).Contents (Elt F) → (⟨S10000x256, .f32⟩ : BufTy).Contents (Elt F)),
    StableHlo.binary main_v105 main_v107 main_v108 (addf : (⟨S10000x256, .f32⟩ : BufTy).Contents (Elt F) → (⟨S10000x256, .f32⟩ : BufTy).Contents (Elt F) → (⟨S10000x256, .f32⟩ : BufTy).Contents (Elt F)),
    StableHlo.nullary main_cst_24 (constant S_ .f32 0x00000000#32),
    StableHlo.binary main_v108 main_cst_24 main_v109 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.unary main_v109 main_v110 (broadcastInDim S1x256 ![1] bcast_S256_S1x256_1 : (⟨S256, .f32⟩ : BufTy).Contents (Elt F) → (⟨S1x256, .f32⟩ : BufTy).Contents (Elt F)),
    StableHlo.nullary main_cst_25 (constant S_ .f32 0x461C4000#32),
    StableHlo.unary main_cst_25 main_v111 (broadcastInDim S1x256 ![] bcast_S_S1x256 : (⟨S_, .f32⟩ : BufTy).Contents (Elt F) → (⟨S1x256, .f32⟩ : BufTy).Contents (Elt F)),
    StableHlo.binary main_v110 main_v111 main_v112 (Host.divf : (⟨S1x256, .f32⟩ : BufTy).Contents (Elt F) → (⟨S1x256, .f32⟩ : BufTy).Contents (Elt F) → (⟨S1x256, .f32⟩ : BufTy).Contents (Elt F)),
    StableHlo.nullary main_c_26 (constantI S_ 32 0#32),
    StableHlo.TRef.nullary main_call6.cst (constant S_ .f32 0x00000000#32),
    StableHlo.TRef.binary (.of main_v108 : StableHlo.TRef sig ⟨S10000x256, .f32⟩) main_call6.cst main_call6.v0 (fun x v => Host.reduceAdd x v reducesTo_S10000x256_S256_d0 h_S_),
    StableHlo.TRef.unary main_call6.v0 main_call6.v1 (broadcastInDim S1x256 ![1] bcast_S256_S1x256_1),
    StableHlo.TRef.nullary main_call6.cst_0 (constant S_ .f32 0x461C4000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S10000x256 ![0, 1] bcast_S1x256_S10000x256_0_1),
    StableHlo.TRef.binary (.of main_v108 : StableHlo.TRef sig ⟨S10000x256, .f32⟩) main_call6.v4 main_call6.v5 subf,
    StableHlo.TRef.binary main_call6.v5 main_call6.v5 main_call6.v6 mulf,
    StableHlo.TRef.unary (.of main_c_26 : StableHlo.TRef sig ⟨S_, .i32⟩) main_call6.v7 (sitofp .f32),
    StableHlo.TRef.nullary main_call6.cst_1 (constant S_ .f32 0x461C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S10000x256_S256_d0 h_S_),
    StableHlo.TRef.unary main_call6.v9 main_call6.v10 (broadcastInDim S1x256 ![1] bcast_S256_S1x256_1),
    StableHlo.TRef.unary main_call6.v8 main_call6.v11 (broadcastInDim S1x256 ![] bcast_S_S1x256),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1x256 ![] bcast_S_S1x256),
    StableHlo.TRef.ternary main_call6.v13 main_call6.v12 main_call6.call0.v1 main_call6.call0.v2 (fun p a b => select (broadcastInDim S1x256 ![] bcast_S_S1x256 p) a b),
    StableHlo.unary main_v112 main_v114 (broadcastInDim S10000x256 ![0, 1] bcast_S1x256_S10000x256_0_1 : (⟨S1x256, .f32⟩ : BufTy).Contents (Elt F) → (⟨S10000x256, .f32⟩ : BufTy).Contents (Elt F)),
    StableHlo.binary main_v108 main_v114 main_v115 (subf : (⟨S10000x256, .f32⟩ : BufTy).Contents (Elt F) → (⟨S10000x256, .f32⟩ : BufTy).Contents (Elt F) → (⟨S10000x256, .f32⟩ : BufTy).Contents (Elt F)),
    StableHlo.nullary main_cst_27 (constant S_ .f32 0x3727C5AC#32),
    StableHlo.unary main_cst_27 main_v116 (broadcastInDim S1x256 ![] bcast_S_S1x256 : (⟨S_, .f32⟩ : BufTy).Contents (Elt F) → (⟨S1x256, .f32⟩ : BufTy).Contents (Elt F)),
    StableHlo.binary main_v113 main_v116 main_v117 (addf : (⟨S1x256, .f32⟩ : BufTy).Contents (Elt F) → (⟨S1x256, .f32⟩ : BufTy).Contents (Elt F) → (⟨S1x256, .f32⟩ : BufTy).Contents (Elt F)),
    StableHlo.unary main_v117 main_v118 (Host.sqrt : (⟨S1x256, .f32⟩ : BufTy).Contents (Elt F) → (⟨S1x256, .f32⟩ : BufTy).Contents (Elt F)),
    StableHlo.unary main_v118 main_v119 (broadcastInDim S10000x256 ![0, 1] bcast_S1x256_S10000x256_0_1 : (⟨S1x256, .f32⟩ : BufTy).Contents (Elt F) → (⟨S10000x256, .f32⟩ : BufTy).Contents (Elt F)),
    StableHlo.binary main_v115 main_v119 main_v120 (Host.divf : (⟨S10000x256, .f32⟩ : BufTy).Contents (Elt F) → (⟨S10000x256, .f32⟩ : BufTy).Contents (Elt F) → (⟨S10000x256, .f32⟩ : BufTy).Contents (Elt F)),
    StableHlo.TRef.nullary main_call7.cst (constant S_ .f32 0x00000000#32),
    StableHlo.TRef.unary main_call7.cst main_call7.v0 (broadcastInDim S10000x256 ![] bcast_S_S10000x256),
    StableHlo.TRef.binary (.of main_v120 : StableHlo.TRef sig ⟨S10000x256, .f32⟩) main_call7.v0 main_call7.v1 maximumf,
    StableHlo.binary main_v121 main_arg16 main_v122 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg17 main_v123 (broadcastInDim S1x256 ![1] bcast_S256_S1x256_1 : (⟨S256, .f32⟩ : BufTy).Contents (Elt F) → (⟨S1x256, .f32⟩ : BufTy).Contents (Elt F)),
    StableHlo.unary main_v123 main_v124 (broadcastInDim S10000x256 ![0, 1] bcast_S1x256_S10000x256_0_1 : (⟨S1x256, .f32⟩ : BufTy).Contents (Elt F) → (⟨S10000x256, .f32⟩ : BufTy).Contents (Elt F)),
    StableHlo.binary main_v122 main_v124 main_v125 (addf : (⟨S10000x256, .f32⟩ : BufTy).Contents (Elt F) → (⟨S10000x256, .f32⟩ : BufTy).Contents (Elt F) → (⟨S10000x256, .f32⟩ : BufTy).Contents (Elt F)),
    StableHlo.TRef.nullary main_call8.cst (constant S_ .f32 0x00000000#32),
    StableHlo.TRef.unary main_call8.cst main_call8.v0 (broadcastInDim S10000x256 ![] bcast_S_S10000x256),
    StableHlo.TRef.binary (.of main_v125 : StableHlo.TRef sig ⟨S10000x256, .f32⟩) main_call8.v0 main_call8.v1 maximumf,
    StableHlo.nullary main_cst_28 (constant S_ .f32 0x00000000#32),
    StableHlo.unary main_cst_28 main_v127 (broadcastInDim S64x256 ![] bcast_S_S64x256 : (⟨S_, .f32⟩ : BufTy).Contents (Elt F) → (⟨S64x256, .f32⟩ : BufTy).Contents (Elt F)),
    StableHlo.unary main_arg2 main_v128 (broadcastInDim S10000x1 ![0] bcast_S10000_S10000x1_0 : (⟨S10000, .i32⟩ : BufTy).Contents (Elt F) → (⟨S10000x1, .i32⟩ : BufTy).Contents (Elt F)),
    StableHlo.ternary main_v127 main_v128 main_v126 main_v129 ((fun x i u => Host.scatterAdd scatter_S64x256_S10000x1_S10000x256_1_0_0_1 x i u) : (⟨S64x256, .f32⟩ : BufTy).Contents (Elt F) → (⟨S10000x1, .i32⟩ : BufTy).Contents (Elt F) → (⟨S10000x256, .f32⟩ : BufTy).Contents (Elt F) → (⟨S64x256, .f32⟩ : BufTy).Contents (Elt F)),
    StableHlo.nullary main_cst_29 (constant S_ .f32 0x3F800000#32),
    StableHlo.unary main_cst_29 main_v130 (broadcastInDim S10000x1 ![] bcast_S_S10000x1 : (⟨S_, .f32⟩ : BufTy).Contents (Elt F) → (⟨S10000x1, .f32⟩ : BufTy).Contents (Elt F)),
    StableHlo.nullary main_cst_30 (constant S_ .f32 0x00000000#32),
    StableHlo.unary main_cst_30 main_v131 (broadcastInDim S64x1 ![] bcast_S_S64x1 : (⟨S_, .f32⟩ : BufTy).Contents (Elt F) → (⟨S64x1, .f32⟩ : BufTy).Contents (Elt F)),
    StableHlo.unary main_arg2 main_v132 (broadcastInDim S10000x1 ![0] bcast_S10000_S10000x1_0 : (⟨S10000, .i32⟩ : BufTy).Contents (Elt F) → (⟨S10000x1, .i32⟩ : BufTy).Contents (Elt F)),
    StableHlo.ternary main_v131 main_v132 main_v130 main_v133 ((fun x i u => Host.scatterAdd scatter_S64x1_S10000x1_S10000x1_1_0_0_1 x i u) : (⟨S64x1, .f32⟩ : BufTy).Contents (Elt F) → (⟨S10000x1, .i32⟩ : BufTy).Contents (Elt F) → (⟨S10000x1, .f32⟩ : BufTy).Contents (Elt F) → (⟨S64x1, .f32⟩ : BufTy).Contents (Elt F)),
    StableHlo.nullary main_cst_31 (constant S_ .f32 0x3F800000#32),
    StableHlo.unary main_cst_31 main_v134 (broadcastInDim S64x1 ![] bcast_S_S64x1 : (⟨S_, .f32⟩ : BufTy).Contents (Elt F) → (⟨S64x1, .f32⟩ : BufTy).Contents (Elt F)),
    StableHlo.binary main_v133 main_v134 main_v135 (maximumf : (⟨S64x1, .f32⟩ : BufTy).Contents (Elt F) → (⟨S64x1, .f32⟩ : BufTy).Contents (Elt F) → (⟨S64x1, .f32⟩ : BufTy).Contents (Elt F)),
    StableHlo.unary main_v135 main_v136 (broadcastInDim S64x256 ![0, 1] bcast_S64x1_S64x256_0_1 : (⟨S64x1, .f32⟩ : BufTy).Contents (Elt F) → (⟨S64x256, .f32⟩ : BufTy).Contents (Elt F)),
    StableHlo.binary main_v129 main_v136 main_v137 (Host.divf : (⟨S64x256, .f32⟩ : BufTy).Contents (Elt F) → (⟨S64x256, .f32⟩ : BufTy).Contents (Elt F) → (⟨S64x256, .f32⟩ : BufTy).Contents (Elt F)),
    StableHlo.binary main_v137 main_arg18 main_v138 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    StableHlo.unary main_arg19 main_v139 (broadcastInDim S1x256 ![1] bcast_S256_S1x256_1 : (⟨S256, .f32⟩ : BufTy).Contents (Elt F) → (⟨S1x256, .f32⟩ : BufTy).Contents (Elt F)),
    StableHlo.unary main_v139 main_v140 (broadcastInDim S64x256 ![0, 1] bcast_S1x256_S64x256_0_1 : (⟨S1x256, .f32⟩ : BufTy).Contents (Elt F) → (⟨S64x256, .f32⟩ : BufTy).Contents (Elt F)),
    StableHlo.binary main_v138 main_v140 main_v141 (addf : (⟨S64x256, .f32⟩ : BufTy).Contents (Elt F) → (⟨S64x256, .f32⟩ : BufTy).Contents (Elt F) → (⟨S64x256, .f32⟩ : BufTy).Contents (Elt F)),
    StableHlo.binary main_v141 main_arg20 main_v142 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    StableHlo.unary main_arg21 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S64x128 ![0, 1] bcast_S1x128_S64x128_0_1 : (⟨S1x128, .f32⟩ : BufTy).Contents (Elt F) → (⟨S64x128, .f32⟩ : BufTy).Contents (Elt F)),
    StableHlo.binary main_v142 main_v144 main_v145 (addf : (⟨S64x128, .f32⟩ : BufTy).Contents (Elt F) → (⟨S64x128, .f32⟩ : BufTy).Contents (Elt F) → (⟨S64x128, .f32⟩ : BufTy).Contents (Elt F)) ]

/-- The 45 operations of window 3 of @main, in order. -/
abbrev ops3 : List (HloOp τ sig (Elt F)) :=
  [ StableHlo.nullary main_cst_32 (constant S_ .f32 0x00000000#32),
    StableHlo.binary main_v145 main_cst_32 main_v146 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    StableHlo.unary main_v146 main_v147 (broadcastInDim S1x128 ![1] bcast_S128_S1x128_1 : (⟨S128, .f32⟩ : BufTy).Contents (Elt F) → (⟨S1x128, .f32⟩ : BufTy).Contents (Elt F)),
    StableHlo.nullary main_cst_33 (constant S_ .f32 0x42800000#32),
    StableHlo.unary main_cst_33 main_v148 (broadcastInDim S1x128 ![] bcast_S_S1x128 : (⟨S_, .f32⟩ : BufTy).Contents (Elt F) → (⟨S1x128, .f32⟩ : BufTy).Contents (Elt F)),
    StableHlo.binary main_v147 main_v148 main_v149 (Host.divf : (⟨S1x128, .f32⟩ : BufTy).Contents (Elt F) → (⟨S1x128, .f32⟩ : BufTy).Contents (Elt F) → (⟨S1x128, .f32⟩ : BufTy).Contents (Elt F)),
    StableHlo.nullary main_c_34 (constantI S_ 32 0#32),
    StableHlo.TRef.nullary main_call9.cst (constant S_ .f32 0x00000000#32),
    StableHlo.TRef.binary (.of main_v145 : StableHlo.TRef sig ⟨S64x128, .f32⟩) main_call9.cst main_call9.v0 (fun x v => Host.reduceAdd x v reducesTo_S64x128_S128_d0 h_S_),
    StableHlo.TRef.unary main_call9.v0 main_call9.v1 (broadcastInDim S1x128 ![1] bcast_S128_S1x128_1),
    StableHlo.TRef.nullary main_call9.cst_0 (constant S_ .f32 0x42800000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S64x128 ![0, 1] bcast_S1x128_S64x128_0_1),
    StableHlo.TRef.binary (.of main_v145 : StableHlo.TRef sig ⟨S64x128, .f32⟩) main_call9.v4 main_call9.v5 subf,
    StableHlo.TRef.binary main_call9.v5 main_call9.v5 main_call9.v6 mulf,
    StableHlo.TRef.unary (.of main_c_34 : StableHlo.TRef sig ⟨S_, .i32⟩) main_call9.v7 (sitofp .f32),
    StableHlo.TRef.nullary main_call9.cst_1 (constant S_ .f32 0x42800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S64x128_S128_d0 h_S_),
    StableHlo.TRef.unary main_call9.v9 main_call9.v10 (broadcastInDim S1x128 ![1] bcast_S128_S1x128_1),
    StableHlo.TRef.unary main_call9.v8 main_call9.v11 (broadcastInDim S1x128 ![] bcast_S_S1x128),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S1x128 ![] bcast_S_S1x128),
    StableHlo.TRef.ternary main_call9.v13 main_call9.v12 main_call9.call0.v1 main_call9.call0.v2 (fun p a b => select (broadcastInDim S1x128 ![] bcast_S_S1x128 p) a b),
    StableHlo.unary main_v149 main_v151 (broadcastInDim S64x128 ![0, 1] bcast_S1x128_S64x128_0_1 : (⟨S1x128, .f32⟩ : BufTy).Contents (Elt F) → (⟨S64x128, .f32⟩ : BufTy).Contents (Elt F)),
    StableHlo.binary main_v145 main_v151 main_v152 (subf : (⟨S64x128, .f32⟩ : BufTy).Contents (Elt F) → (⟨S64x128, .f32⟩ : BufTy).Contents (Elt F) → (⟨S64x128, .f32⟩ : BufTy).Contents (Elt F)),
    StableHlo.nullary main_cst_35 (constant S_ .f32 0x3727C5AC#32),
    StableHlo.unary main_cst_35 main_v153 (broadcastInDim S1x128 ![] bcast_S_S1x128 : (⟨S_, .f32⟩ : BufTy).Contents (Elt F) → (⟨S1x128, .f32⟩ : BufTy).Contents (Elt F)),
    StableHlo.binary main_v150 main_v153 main_v154 (addf : (⟨S1x128, .f32⟩ : BufTy).Contents (Elt F) → (⟨S1x128, .f32⟩ : BufTy).Contents (Elt F) → (⟨S1x128, .f32⟩ : BufTy).Contents (Elt F)),
    StableHlo.unary main_v154 main_v155 (Host.sqrt : (⟨S1x128, .f32⟩ : BufTy).Contents (Elt F) → (⟨S1x128, .f32⟩ : BufTy).Contents (Elt F)),
    StableHlo.unary main_v155 main_v156 (broadcastInDim S64x128 ![0, 1] bcast_S1x128_S64x128_0_1 : (⟨S1x128, .f32⟩ : BufTy).Contents (Elt F) → (⟨S64x128, .f32⟩ : BufTy).Contents (Elt F)),
    StableHlo.binary main_v152 main_v156 main_v157 (Host.divf : (⟨S64x128, .f32⟩ : BufTy).Contents (Elt F) → (⟨S64x128, .f32⟩ : BufTy).Contents (Elt F) → (⟨S64x128, .f32⟩ : BufTy).Contents (Elt F)),
    StableHlo.TRef.nullary main_call10.cst (constant S_ .f32 0x00000000#32),
    StableHlo.TRef.unary main_call10.cst main_call10.v0 (broadcastInDim S64x128 ![] bcast_S_S64x128),
    StableHlo.TRef.binary (.of main_v157 : StableHlo.TRef sig ⟨S64x128, .f32⟩) main_call10.v0 main_call10.v1 maximumf,
    StableHlo.binary main_v158 main_arg22 main_v159 ((fun l r => Host.dotGeneral dot_S64x128_S128x2_S64x2_1_0_0_1_n_n none l r) : (⟨S64x128, .f32⟩ : BufTy).Contents (Elt F) → (⟨S128x2, .f32⟩ : BufTy).Contents (Elt F) → (⟨S64x2, .f32⟩ : BufTy).Contents (Elt F)),
    StableHlo.unary main_arg23 main_v160 (broadcastInDim S1x2 ![1] bcast_S2_S1x2_1 : (⟨S2, .f32⟩ : BufTy).Contents (Elt F) → (⟨S1x2, .f32⟩ : BufTy).Contents (Elt F)),
    StableHlo.unary main_v160 main_v161 (broadcastInDim S64x2 ![0, 1] bcast_S1x2_S64x2_0_1 : (⟨S1x2, .f32⟩ : BufTy).Contents (Elt F) → (⟨S64x2, .f32⟩ : BufTy).Contents (Elt F)),
    StableHlo.binary main_v159 main_v161 main_v162 (addf : (⟨S64x2, .f32⟩ : BufTy).Contents (Elt F) → (⟨S64x2, .f32⟩ : BufTy).Contents (Elt F) → (⟨S64x2, .f32⟩ : BufTy).Contents (Elt F)) ]

/-- @main's 303 operations, in order. -/
abbrev ops : List (HloOp τ sig (Elt F)) :=
  ops0 ++ (ops1 ++ (ops2 ++ (ops3)))

set_option maxRecDepth 8192 in
set_option maxHeartbeats 4000000 in
theorem main_part0_eq (c : Dev nD) : main_part0 (F := F) c = seq ops0 := by
  simp only [main_part0, fn_relu.body, fn_relu_2.body, fn_var.body, fn_var_0.body, fn_where.body, fn_where_1.body, seq, bind_assoc, pure_bind] <;> rfl

set_option maxRecDepth 8192 in
set_option maxHeartbeats 4000000 in
theorem main_part1_eq (c : Dev nD) : main_part1 (F := F) c = seq ops1 := by
  simp only [main_part1, fn_relu.body, fn_relu_2.body, fn_var.body, fn_var_0.body, fn_where.body, fn_where_1.body, seq, bind_assoc, pure_bind] <;> rfl

set_option maxRecDepth 8192 in
set_option maxHeartbeats 4000000 in
theorem main_part2_eq (c : Dev nD) : main_part2 (F := F) c = seq ops2 := by
  simp only [main_part2, fn_relu.body, fn_relu_2.body, fn_var.body, fn_var_0.body, fn_where.body, fn_where_1.body, seq, bind_assoc, pure_bind] <;> rfl

set_option maxRecDepth 8192 in
set_option maxHeartbeats 4000000 in
theorem main_part3_eq (c : Dev nD) : main_part3 (F := F) c = seq ops3 := by
  simp only [main_part3, fn_relu.body, fn_relu_2.body, fn_var.body, fn_var_0.body, fn_where.body, fn_where_1.body, seq, bind_assoc, pure_bind] <;> rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., binary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., unary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRunWrites.lean ====
import proofs.«138131_g70763881169291_cont_9to1c4b_616_12_alg».proof.Proof.RefRunOps

/-! Which buffers the reference's operations write: per window of @main the list of its operations' result
    buffers, and that every operation of the window writes into that list. A buffer outside the list keeps
    its contents across the window. -/

set_option synthInstance.maxSize 4096

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- An operation whose one result buffer is in a list of references writes into that list. -/
theorem writes_sub_of_mem {Val : EltTy → Type} {W : List (Ref sig .tc)} {y : Ref sig .tc} (op : HloOp τ sig Val)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The contents after two lists of operations in a row: the second list's fold over the first's. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The result buffers of window 0's operations, in order. -/
abbrev written0 : List (Ref sig .tc) :=
  [main_v0, main_v1, main_v2, main_v3, main_cst, main_v4, main_c, main_v5, main_v6, main_c_0, main_v7, main_v8, main_v9, main_v10, main_v11, main_c_1, main_v12, main_v13, main_c_2, main_v14, main_v15, main_v16, main_v17, main_v18, main_cst_3, main_v19, main_v20, main_v21, main_v22, main_v23, main_v24, main_v25, main_v26, main_cst_4, main_v27, main_v28, main_cst_5, main_v29, main_v30, main_c_6, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v32, main_v33, main_cst_7, main_v34, main_v35, main_v36, main_v37, main_v38, main_call1.cst.ref, main_call1.v0.ref, main_call1.v1.ref, main_v40, main_v41, main_v42, main_v43, main_call2.cst.ref, main_call2.v0.ref, main_call2.v1.ref, main_cst_8, main_v45, main_c_9, main_v46, main_v47]

set_option maxRecDepth 8192 in
theorem ops0_writes : (ops0 : List (HloOp τ sig (Elt F))).Forall fun op => op.writes ⊆ (written0.map (Proc.devRef (τ := τ) .tc)).toFinset :=
  ⟨writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide)⟩

/-- A buffer that no operation of window 0 writes keeps its contents across the window. -/
theorem keep0 (b : Ref sig .tc) (hb : b ∉ written0) (V : Valuation τ sig (Elt F)) :
    after ops0 V (Proc.devRef .tc b) = V (Proc.devRef .tc b) :=
  after_of_writes_sub ops0 V ops0_writes hb

/-- The result buffers of window 1's operations, in order. -/
abbrev written1 : List (Ref sig .tc) :=
  [main_c_10, main_v48, main_v49, main_v50, main_v51, main_v52, main_c_11, main_v53, main_v54, main_c_12, main_v55, main_v56, main_v57, main_v58, main_v59, main_cst_13, main_v60, main_v61, main_v62, main_v63, main_v64, main_v65, main_v66, main_v67, main_cst_14, main_v68, main_v69, main_cst_15, main_v70, main_v71, main_c_16, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.v12.ref, main_call3.cst_3.ref, main_call3.v13.ref, main_call3.cst_4.ref, main_call3.call0.v0.ref, main_call3.call0.v1.ref, main_call3.call0.v2.ref, main_v73, main_v74, main_cst_17, main_v75, main_v76, main_v77, main_v78, main_v79, main_call4.cst.ref, main_call4.v0.ref, main_call4.v1.ref, main_v81, main_v82, main_v83, main_v84, main_call5.cst.ref, main_call5.v0.ref, main_call5.v1.ref, main_cst_18, main_v86, main_c_19, main_v87, main_v88, main_c_20, main_v89, main_v90, main_v91, main_v92, main_v93, main_c_21, main_v94, main_v95]

set_option maxRecDepth 8192 in
theorem ops1_writes : (ops1 : List (HloOp τ sig (Elt F))).Forall fun op => op.writes ⊆ (written1.map (Proc.devRef (τ := τ) .tc)).toFinset :=
  ⟨writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide)⟩

/-- A buffer that no operation of window 1 writes keeps its contents across the window. -/
theorem keep1 (b : Ref sig .tc) (hb : b ∉ written1) (V : Valuation τ sig (Elt F)) :
    after ops1 V (Proc.devRef .tc b) = V (Proc.devRef .tc b) :=
  after_of_writes_sub ops1 V ops1_writes hb

/-- The result buffers of window 2's operations, in order. -/
abbrev written2 : List (Ref sig .tc) :=
  [main_c_22, main_v96, main_v97, main_v98, main_v99, main_v100, main_cst_23, main_v101, main_v102, main_v103, main_v104, main_v105, main_v106, main_v107, main_v108, main_cst_24, main_v109, main_v110, main_cst_25, main_v111, main_v112, main_c_26, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.v12.ref, main_call6.cst_3.ref, main_call6.v13.ref, main_call6.cst_4.ref, main_call6.call0.v0.ref, main_call6.call0.v1.ref, main_call6.call0.v2.ref, main_v114, main_v115, main_cst_27, main_v116, main_v117, main_v118, main_v119, main_v120, main_call7.cst.ref, main_call7.v0.ref, main_call7.v1.ref, main_v122, main_v123, main_v124, main_v125, main_call8.cst.ref, main_call8.v0.ref, main_call8.v1.ref, main_cst_28, main_v127, main_v128, main_v129, main_cst_29, main_v130, main_cst_30, main_v131, main_v132, main_v133, main_cst_31, main_v134, main_v135, main_v136, main_v137, main_v138, main_v139, main_v140, main_v141, main_v142, main_v143, main_v144, main_v145]

set_option maxRecDepth 8192 in
theorem ops2_writes : (ops2 : List (HloOp τ sig (Elt F))).Forall fun op => op.writes ⊆ (written2.map (Proc.devRef (τ := τ) .tc)).toFinset :=
  ⟨writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide)⟩

/-- A buffer that no operation of window 2 writes keeps its contents across the window. -/
theorem keep2 (b : Ref sig .tc) (hb : b ∉ written2) (V : Valuation τ sig (Elt F)) :
    after ops2 V (Proc.devRef .tc b) = V (Proc.devRef .tc b) :=
  after_of_writes_sub ops2 V ops2_writes hb

/-- The result buffers of window 3's operations, in order. -/
abbrev written3 : List (Ref sig .tc) :=
  [main_cst_32, main_v146, main_v147, main_cst_33, main_v148, main_v149, main_c_34, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.v12.ref, main_call9.cst_3.ref, main_call9.v13.ref, main_call9.cst_4.ref, main_call9.call0.v0.ref, main_call9.call0.v1.ref, main_call9.call0.v2.ref, main_v151, main_v152, main_cst_35, main_v153, main_v154, main_v155, main_v156, main_v157, main_call10.cst.ref, main_call10.v0.ref, main_call10.v1.ref, main_v159, main_v160, main_v161, main_v162]

set_option maxRecDepth 8192 in
theorem ops3_writes : (ops3 : List (HloOp τ sig (Elt F))).Forall fun op => op.writes ⊆ (written3.map (Proc.devRef (τ := τ) .tc)).toFinset :=
  ⟨writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide), writes_sub_of_mem _ rfl (by decide)⟩

/-- A buffer that no operation of window 3 writes keeps its contents across the window. -/
theorem keep3 (b : Ref sig .tc) (hb : b ∉ written3) (V : Valuation τ sig (Elt F)) :
    after ops3 V (Proc.devRef .tc b) = V (Proc.devRef .tc b) :=
  after_of_writes_sub ops3 V ops3_writes hb

end Cert.ReferenceIdeal.RefRun

end
-- ==== Proof.RefReadDefs.lean ====
import proofs.«138131_g70763881169291_cont_9to1c4b_616_12_alg».proof.Proof.RefChains

/-! Pieces of a layer with the edge-list columns left open: a window of the reference's @main reads some of them from
    buffers an earlier window wrote, so a layer's value is first stated over those buffers' contents and only then
    recognised as the layer's closed form. -/

set_option synthInstance.maxSize 4096

noncomputable section

namespace Cert.Bridge

open Cert.ReferenceIdeal Idealize.ShloMosaic

open Cert.ReferenceIdeal.Facts₀

variable [Cert.ReferenceIdeal.Facts₀]

/-- The 10000 x 256 array of zeros a scatter-add starts from. -/
def refZeros256 : FVec Ideal S10000x256 .f32 :=
  broadcastInDim S10000x256 ![] bcast_S_S10000x256 (constant (F := Ideal) S_ .f32 0x00000000#32)

/-- Which node numbers are negative. -/
def refNegMask (r : IVec S320000 32) : IVec S320000 1 :=
  cmpi .slt r (broadcastInDim S320000 ![] bcast_S_S320000 (constantI S_ 32 0#32))

/-- Node numbers with 10000 added where the mask says so, as a column. -/
def refWrapWith (c : IVec S320000 1) (r : IVec S320000 32) : IVec S320000x1 32 :=
  broadcastInDim S320000x1 ![0] bcast_S320000_S320000x1_0
    (select c (addi r (broadcastInDim S320000 ![] bcast_S_S320000 (constantI S_ 32 10000#32))) r)

/-- A 256-column layer over an open scatter-add: the initial array, the target column and the gathered rows are
    arguments. -/
def refLayer256Of (eps : FVec Ideal S_ .f32) (Wa : FVec Ideal S256x256 .f32) (ba : FVec Ideal S256 .f32)
    (Wb : FVec Ideal S256x256 .f32) (bb : FVec Ideal S256 .f32) (h zeros : FVec Ideal S10000x256 .f32)
    (dstC : IVec S320000x1 32) (gathered : FVec Ideal S320000x256 .f32) : FVec Ideal S10000x256 .f32 :=
  let t := refLin256
    (addf
      (mulf (broadcastInDim S10000x256 ![] bcast_S_S10000x256 (addf (constant (F := Ideal) S_ .f32 0x3F800000#32) eps)) h)
      (Host.scatterAdd (F := Ideal) scatter_S10000x256_S320000x1_S320000x256_1_0_0_1 zeros dstC gathered))
    Wa (refB256 ba)
  refMm2 t (refMu t) (refVar t) Wb (refB256 bb)

/-- With the zeros, the wrapped target column and the rows gathered at the wrapped source column, it is the layer. -/
theorem refLayer256Of_eq (eps : FVec Ideal S_ .f32) (Wa : FVec Ideal S256x256 .f32) (ba : FVec Ideal S256 .f32)
    (Wb : FVec Ideal S256x256 .f32) (bb : FVec Ideal S256 .f32) (h : FVec Ideal S10000x256 .f32) (e : IVec S2x320000 32) :
    refLayer256Of eps Wa ba Wb bb h refZeros256 (refWrapWith (refNegMask (refRow1 e)) (refRow1 e))
        (Host.gather gather_S10000x256_S320000x1_S320000x256_1_0_n_n_0_1_1256 h (refWrapWith (refNegMask (refRow0 e)) (refRow0 e)))
      = refLayer256 eps Wa ba Wb bb h e := rfl

end Cert.Bridge

end
-- ==== Proof.RefReadW0.lean ====
import proofs.«138131_g70763881169291_cont_9to1c4b_616_12_alg».proof.Proof.RefRunWrites
import proofs.«138131_g70763881169291_cont_9to1c4b_616_12_alg».proof.Proof.RefReadDefs

/-! Window 0 of the reference's @main read at the buffers later windows read: the two rows of the edge list, layer 0's output, and the first values of layer 1's aggregation. -/

set_option synthInstance.maxSize 4096

noncomputable section

namespace Cert.Bridge

open Cert.ReferenceIdeal Cert.ReferenceIdeal.RefRun Idealize.ShloMosaic Idealize.ShloMosaic.TcCoe Idealize.SL.Sem Idealize.ShloMosaic.StableHlo

variable [Cert.ReferenceIdeal.Facts]
open Cert.ReferenceIdeal.Facts₀ Cert.ReferenceIdeal.Facts

set_option maxRecDepth 8192 in
set_option maxHeartbeats 4000000 in
theorem ref_w0_v1 (V : Valuation τ sig (Elt Ideal)) :
    after ops0 V (Proc.devRef .tc main_v1) = refRow0 (V (Proc.devRef .tc main_arg1)) := by
  simp only [ops0]
  after_results_simp
  all_goals rfl

set_option maxRecDepth 8192 in
set_option maxHeartbeats 4000000 in
theorem ref_w0_v3 (V : Valuation τ sig (Elt Ideal)) :
    after ops0 V (Proc.devRef .tc main_v3) = refRow1 (V (Proc.devRef .tc main_arg1)) := by
  simp only [ops0]
  after_results_simp
  all_goals rfl

set_option maxRecDepth 8192 in
set_option maxHeartbeats 4000000 in
theorem ref_w0_v45 (V : Valuation τ sig (Elt Ideal)) :
    after ops0 V (Proc.devRef .tc main_v45) = refZeros256 := by
  simp only [ops0]
  after_results_simp
  all_goals rfl

set_option maxRecDepth 8192 in
set_option maxHeartbeats 4000000 in
theorem ref_w0_v47 (V : Valuation τ sig (Elt Ideal)) :
    after ops0 V (Proc.devRef .tc main_v47) = refNegMask (refRow0 (V (Proc.devRef .tc main_arg1))) := by
  simp only [ops0]
  after_results_simp
  all_goals rfl

set_option maxRecDepth 8192 in
set_option maxHeartbeats 4000000 in
theorem ref_w0_v44 (V : Valuation τ sig (Elt Ideal)) :
    after ops0 V (Proc.devRef .tc main_v44) = refLayer128 (V (Proc.devRef .tc main_arg3)) (V (Proc.devRef .tc main_arg6)) (V (Proc.devRef .tc main_arg7)) (V (Proc.devRef .tc main_arg8)) (V (Proc.devRef .tc main_arg9)) (V (Proc.devRef .tc main_arg0)) (V (Proc.devRef .tc main_arg1)) := by
  simp only [ops0]
  after_results_simp
  all_goals rfl

end Cert.Bridge

end
-- ==== Proof.RefReadW1.lean ====
import proofs.«138131_g70763881169291_cont_9to1c4b_616_12_alg».proof.Proof.RefRunWrites
import proofs.«138131_g70763881169291_cont_9to1c4b_616_12_alg».proof.Proof.RefReadDefs

/-! Window 1 of the reference's @main read at the buffers later windows read: layer 1's output over the buffers window 0 wrote, and the first values of layer 2's aggregation. -/

set_option synthInstance.maxSize 4096

noncomputable section

namespace Cert.Bridge

open Cert.ReferenceIdeal Cert.ReferenceIdeal.RefRun Idealize.ShloMosaic Idealize.ShloMosaic.TcCoe Idealize.SL.Sem Idealize.ShloMosaic.StableHlo

variable [Cert.ReferenceIdeal.Facts]
open Cert.ReferenceIdeal.Facts₀ Cert.ReferenceIdeal.Facts

set_option maxRecDepth 8192 in
set_option maxHeartbeats 4000000 in
theorem ref_w1_v85 (V : Valuation τ sig (Elt Ideal)) :
    after ops1 V (Proc.devRef .tc main_v85) = (refLayer256Of (V (Proc.devRef .tc main_arg4)) (V (Proc.devRef .tc main_arg10)) (V (Proc.devRef .tc main_arg11)) (V (Proc.devRef .tc main_arg12)) (V (Proc.devRef .tc main_arg13)) (V (Proc.devRef .tc main_v44)) (V (Proc.devRef .tc main_v45)) (refWrapWith (refNegMask (V (Proc.devRef .tc main_v3))) (V (Proc.devRef .tc main_v3))) (Host.gather gather_S10000x256_S320000x1_S320000x256_1_0_n_n_0_1_1256 (V (Proc.devRef .tc main_v44)) (refWrapWith (V (Proc.devRef .tc main_v47)) (V (Proc.devRef .tc main_v1))))) := by
  simp only [ops1]
  after_results_simp
  all_goals rfl

set_option maxRecDepth 8192 in
set_option maxHeartbeats 4000000 in
theorem ref_w1_v86 (V : Valuation τ sig (Elt Ideal)) :
    after ops1 V (Proc.devRef .tc main_v86) = refZeros256 := by
  simp only [ops1]
  after_results_simp
  all_goals rfl

set_option maxRecDepth 8192 in
set_option maxHeartbeats 4000000 in
theorem ref_w1_v95 (V : Valuation τ sig (Elt Ideal)) :
    after ops1 V (Proc.devRef .tc main_v95) = refNegMask (V (Proc.devRef .tc main_v3)) := by
  simp only [ops1]
  after_results_simp
  all_goals rfl

set_option maxRecDepth 8192 in
set_option maxHeartbeats 4000000 in
theorem ref_w1_v93 (V : Valuation τ sig (Elt Ideal)) :
    after ops1 V (Proc.devRef .tc main_v93) = Host.gather gather_S10000x256_S320000x1_S320000x256_1_0_n_n_0_1_1256 (refLayer256Of (V (Proc.devRef .tc main_arg4)) (V (Proc.devRef .tc main_arg10)) (V (Proc.devRef .tc main_arg11)) (V (Proc.devRef .tc main_arg12)) (V (Proc.devRef .tc main_arg13)) (V (Proc.devRef .tc main_v44)) (V (Proc.devRef .tc main_v45)) (refWrapWith (refNegMask (V (Proc.devRef .tc main_v3))) (V (Proc.devRef .tc main_v3))) (Host.gather gather_S10000x256_S320000x1_S320000x256_1_0_n_n_0_1_1256 (V (Proc.devRef .tc main_v44)) (refWrapWith (V (Proc.devRef .tc main_v47)) (V (Proc.devRef .tc main_v1))))) (refWrapWith (refNegMask (V (Proc.devRef .tc main_v1))) (V (Proc.devRef .tc main_v1))) := by
  simp only [ops1]
  after_results_simp
  all_goals rfl

end Cert.Bridge

end
-- ==== Proof.RefReadW2.lean ====
import proofs.«138131_g70763881169291_cont_9to1c4b_616_12_alg».proof.Proof.RefRunWrites
import proofs.«138131_g70763881169291_cont_9to1c4b_616_12_alg».proof.Proof.RefReadDefs

/-! Window 2 of the reference's @main read at the one buffer window 3 reads: the pooled head's input, over layer 2's open aggregation. -/

set_option synthInstance.maxSize 4096

noncomputable section

namespace Cert.Bridge

open Cert.ReferenceIdeal Cert.ReferenceIdeal.RefRun Idealize.ShloMosaic Idealize.ShloMosaic.TcCoe Idealize.SL.Sem Idealize.ShloMosaic.StableHlo

variable [Cert.ReferenceIdeal.Facts]
open Cert.ReferenceIdeal.Facts₀ Cert.ReferenceIdeal.Facts

set_option maxRecDepth 8192 in
set_option maxHeartbeats 4000000 in
theorem ref_w2_v145 (V : Valuation τ sig (Elt Ideal)) :
    after ops2 V (Proc.devRef .tc main_v145) = refPool (refLayer256Of (V (Proc.devRef .tc main_arg5)) (V (Proc.devRef .tc main_arg14)) (V (Proc.devRef .tc main_arg15)) (V (Proc.devRef .tc main_arg16)) (V (Proc.devRef .tc main_arg17)) (V (Proc.devRef .tc main_v85)) (V (Proc.devRef .tc main_v86)) (refWrapWith (V (Proc.devRef .tc main_v95)) (V (Proc.devRef .tc main_v3))) (V (Proc.devRef .tc main_v93))) (V (Proc.devRef .tc main_arg2)) (V (Proc.devRef .tc main_arg18)) (refB256 (V (Proc.devRef .tc main_arg19))) (V (Proc.devRef .tc main_arg20)) (refB128 (V (Proc.devRef .tc main_arg21))) := by
  simp only [ops2]
  after_results_simp
  all_goals rfl

end Cert.Bridge

end
-- ==== Proof.RefReadW3.lean ====
import proofs.«138131_g70763881169291_cont_9to1c4b_616_12_alg».proof.Proof.RefRunWrites
import proofs.«138131_g70763881169291_cont_9to1c4b_616_12_alg».proof.Proof.RefReadDefs

/-! Window 3 of the reference's @main read at the result: the final head over the pooled array. -/

set_option synthInstance.maxSize 4096

noncomputable section

namespace Cert.Bridge

open Cert.ReferenceIdeal Cert.ReferenceIdeal.RefRun Idealize.ShloMosaic Idealize.ShloMosaic.TcCoe Idealize.SL.Sem Idealize.ShloMosaic.StableHlo

variable [Cert.ReferenceIdeal.Facts]
open Cert.ReferenceIdeal.Facts₀ Cert.ReferenceIdeal.Facts

set_option maxRecDepth 8192 in
set_option maxHeartbeats 4000000 in
theorem ref_w3_v162 (V : Valuation τ sig (Elt Ideal)) :
    after ops3 V (Proc.devRef .tc main_v162) = refHead2 (V (Proc.devRef .tc main_v145)) (refMu64 (V (Proc.devRef .tc main_v145))) (refVar64 (V (Proc.devRef .tc main_v145))) (V (Proc.devRef .tc main_arg22)) (refB2 (V (Proc.devRef .tc main_arg23))) := by
  simp only [ops3]
  after_results_simp
  all_goals rfl

end Cert.Bridge

end
-- ==== Proof.RefRead.lean ====
import proofs.«138131_g70763881169291_cont_9to1c4b_616_12_alg».proof.Proof.RefReadW0
import proofs.«138131_g70763881169291_cont_9to1c4b_616_12_alg».proof.Proof.RefReadW1
import proofs.«138131_g70763881169291_cont_9to1c4b_616_12_alg».proof.Proof.RefReadW2
import proofs.«138131_g70763881169291_cont_9to1c4b_616_12_alg».proof.Proof.RefReadW3

/-! The reference's result buffer as the named stages: three layers, the pooled head's input, the final head. The windows' reads are chained, each finished layer entering the next as one term. -/

set_option synthInstance.maxSize 4096

noncomputable section

namespace Cert.Bridge

open Cert.ReferenceIdeal Cert.ReferenceIdeal.RefRun Idealize.ShloMosaic Idealize.ShloMosaic.TcCoe Idealize.SL.Sem Idealize.ShloMosaic.StableHlo

variable [Cert.ReferenceIdeal.Facts]
open Cert.ReferenceIdeal.Facts₀ Cert.ReferenceIdeal.Facts

variable (V : Valuation τ sig (Elt Ideal))

/-- Layer 1's output after windows 0 and 1. -/
theorem ref_s2_v85 : after ops1 (after ops0 V) (Proc.devRef .tc main_v85) = (refLayer256 (V (Proc.devRef .tc main_arg4)) (V (Proc.devRef .tc main_arg10)) (V (Proc.devRef .tc main_arg11)) (V (Proc.devRef .tc main_arg12)) (V (Proc.devRef .tc main_arg13)) (refLayer128 (V (Proc.devRef .tc main_arg3)) (V (Proc.devRef .tc main_arg6)) (V (Proc.devRef .tc main_arg7)) (V (Proc.devRef .tc main_arg8)) (V (Proc.devRef .tc main_arg9)) (V (Proc.devRef .tc main_arg0)) (V (Proc.devRef .tc main_arg1))) (V (Proc.devRef .tc main_arg1))) := by
  rw [ref_w1_v85, keep0 main_arg4 (by decide), keep0 main_arg10 (by decide), keep0 main_arg11 (by decide), keep0 main_arg12 (by decide), keep0 main_arg13 (by decide), ref_w0_v44, ref_w0_v45, ref_w0_v3, ref_w0_v47, ref_w0_v1]
  exact refLayer256Of_eq _ _ _ _ _ _ _

/-- The rows of layer 1's output gathered for layer 2's aggregation, after windows 0 and 1. -/
theorem ref_s2_v93 : after ops1 (after ops0 V) (Proc.devRef .tc main_v93)
    = Host.gather gather_S10000x256_S320000x1_S320000x256_1_0_n_n_0_1_1256 (refLayer256 (V (Proc.devRef .tc main_arg4)) (V (Proc.devRef .tc main_arg10)) (V (Proc.devRef .tc main_arg11)) (V (Proc.devRef .tc main_arg12)) (V (Proc.devRef .tc main_arg13)) (refLayer128 (V (Proc.devRef .tc main_arg3)) (V (Proc.devRef .tc main_arg6)) (V (Proc.devRef .tc main_arg7)) (V (Proc.devRef .tc main_arg8)) (V (Proc.devRef .tc main_arg9)) (V (Proc.devRef .tc main_arg0)) (V (Proc.devRef .tc main_arg1))) (V (Proc.devRef .tc main_arg1))) (refWrapWith (refNegMask (refRow0 (V (Proc.devRef .tc main_arg1)))) (refRow0 (V (Proc.devRef .tc main_arg1)))) := by
  rw [ref_w1_v93, keep0 main_arg4 (by decide), keep0 main_arg10 (by decide), keep0 main_arg11 (by decide), keep0 main_arg12 (by decide), keep0 main_arg13 (by decide), ref_w0_v44, ref_w0_v45, ref_w0_v3, ref_w0_v47, ref_w0_v1, refLayer256Of_eq]

/-- The pooled head's input after windows 0, 1 and 2. -/
theorem ref_s3_v145 : after ops2 (after ops1 (after ops0 V)) (Proc.devRef .tc main_v145) = (refPool (refLayer256 (V (Proc.devRef .tc main_arg5)) (V (Proc.devRef .tc main_arg14)) (V (Proc.devRef .tc main_arg15)) (V (Proc.devRef .tc main_arg16)) (V (Proc.devRef .tc main_arg17)) (refLayer256 (V (Proc.devRef .tc main_arg4)) (V (Proc.devRef .tc main_arg10)) (V (Proc.devRef .tc main_arg11)) (V (Proc.devRef .tc main_arg12)) (V (Proc.devRef .tc main_arg13)) (refLayer128 (V (Proc.devRef .tc main_arg3)) (V (Proc.devRef .tc main_arg6)) (V (Proc.devRef .tc main_arg7)) (V (Proc.devRef .tc main_arg8)) (V (Proc.devRef .tc main_arg9)) (V (Proc.devRef .tc main_arg0)) (V (Proc.devRef .tc main_arg1))) (V (Proc.devRef .tc main_arg1))) (V (Proc.devRef .tc main_arg1))) (V (Proc.devRef .tc main_arg2)) (V (Proc.devRef .tc main_arg18)) (refB256 (V (Proc.devRef .tc main_arg19))) (V (Proc.devRef .tc main_arg20)) (refB128 (V (Proc.devRef .tc main_arg21)))) := by
  rw [ref_w2_v145, keep1 main_arg5 (by decide), keep0 main_arg5 (by decide), keep1 main_arg14 (by decide), keep0 main_arg14 (by decide), keep1 main_arg15 (by decide), keep0 main_arg15 (by decide), keep1 main_arg16 (by decide), keep0 main_arg16 (by decide), keep1 main_arg17 (by decide), keep0 main_arg17 (by decide), keep1 main_arg2 (by decide), keep0 main_arg2 (by decide), keep1 main_arg18 (by decide), keep0 main_arg18 (by decide), keep1 main_arg19 (by decide), keep0 main_arg19 (by decide), keep1 main_arg20 (by decide), keep0 main_arg20 (by decide), keep1 main_arg21 (by decide), keep0 main_arg21 (by decide),
    ref_s2_v85, ref_s2_v93, ref_w1_v86, ref_w1_v95, keep1 main_v3 (by decide), ref_w0_v3, refLayer256Of_eq]

/-- The reference's result buffer, from any contents `V` of the device's buffers: the final head of the pooled
    third layer, every stage a named function of the argument arrays. -/
theorem ref_result : after ops V (Proc.devRef .tc main_v162)
    = refHead2 (refPool (refLayer256 (V (Proc.devRef .tc main_arg5)) (V (Proc.devRef .tc main_arg14)) (V (Proc.devRef .tc main_arg15)) (V (Proc.devRef .tc main_arg16)) (V (Proc.devRef .tc main_arg17)) (refLayer256 (V (Proc.devRef .tc main_arg4)) (V (Proc.devRef .tc main_arg10)) (V (Proc.devRef .tc main_arg11)) (V (Proc.devRef .tc main_arg12)) (V (Proc.devRef .tc main_arg13)) (refLayer128 (V (Proc.devRef .tc main_arg3)) (V (Proc.devRef .tc main_arg6)) (V (Proc.devRef .tc main_arg7)) (V (Proc.devRef .tc main_arg8)) (V (Proc.devRef .tc main_arg9)) (V (Proc.devRef .tc main_arg0)) (V (Proc.devRef .tc main_arg1))) (V (Proc.devRef .tc main_arg1))) (V (Proc.devRef .tc main_arg1))) (V (Proc.devRef .tc main_arg2)) (V (Proc.devRef .tc main_arg18)) (refB256 (V (Proc.devRef .tc main_arg19))) (V (Proc.devRef .tc main_arg20)) (refB128 (V (Proc.devRef .tc main_arg21)))) (refMu64 (refPool (refLayer256 (V (Proc.devRef .tc main_arg5)) (V (Proc.devRef .tc main_arg14)) (V (Proc.devRef .tc main_arg15)) (V (Proc.devRef .tc main_arg16)) (V (Proc.devRef .tc main_arg17)) (refLayer256 (V (Proc.devRef .tc main_arg4)) (V (Proc.devRef .tc main_arg10)) (V (Proc.devRef .tc main_arg11)) (V (Proc.devRef .tc main_arg12)) (V (Proc.devRef .tc main_arg13)) (refLayer128 (V (Proc.devRef .tc main_arg3)) (V (Proc.devRef .tc main_arg6)) (V (Proc.devRef .tc main_arg7)) (V (Proc.devRef .tc main_arg8)) (V (Proc.devRef .tc main_arg9)) (V (Proc.devRef .tc main_arg0)) (V (Proc.devRef .tc main_arg1))) (V (Proc.devRef .tc main_arg1))) (V (Proc.devRef .tc main_arg1))) (V (Proc.devRef .tc main_arg2)) (V (Proc.devRef .tc main_arg18)) (refB256 (V (Proc.devRef .tc main_arg19))) (V (Proc.devRef .tc main_arg20)) (refB128 (V (Proc.devRef .tc main_arg21))))) (refVar64 (refPool (refLayer256 (V (Proc.devRef .tc main_arg5)) (V (Proc.devRef .tc main_arg14)) (V (Proc.devRef .tc main_arg15)) (V (Proc.devRef .tc main_arg16)) (V (Proc.devRef .tc main_arg17)) (refLayer256 (V (Proc.devRef .tc main_arg4)) (V (Proc.devRef .tc main_arg10)) (V (Proc.devRef .tc main_arg11)) (V (Proc.devRef .tc main_arg12)) (V (Proc.devRef .tc main_arg13)) (refLayer128 (V (Proc.devRef .tc main_arg3)) (V (Proc.devRef .tc main_arg6)) (V (Proc.devRef .tc main_arg7)) (V (Proc.devRef .tc main_arg8)) (V (Proc.devRef .tc main_arg9)) (V (Proc.devRef .tc main_arg0)) (V (Proc.devRef .tc main_arg1))) (V (Proc.devRef .tc main_arg1))) (V (Proc.devRef .tc main_arg1))) (V (Proc.devRef .tc main_arg2)) (V (Proc.devRef .tc main_arg18)) (refB256 (V (Proc.devRef .tc main_arg19))) (V (Proc.devRef .tc main_arg20)) (refB128 (V (Proc.devRef .tc main_arg21))))) (V (Proc.devRef .tc main_arg22)) (refB2 (V (Proc.devRef .tc main_arg23))) := by
  simp only [ops, after_app]
  rw [ref_w3_v162, keep2 main_arg22 (by decide), keep1 main_arg22 (by decide), keep0 main_arg22 (by decide), keep2 main_arg23 (by decide), keep1 main_arg23 (by decide), keep0 main_arg23 (by decide), ref_s3_v145]

/-- The same at the launch contents of device `c`. -/
theorem result_eq (m : (ℓ : Loc nD τ sig) → Buf (Elt Ideal) ℓ) (c : Dev nD) :
    after ops (fun b => m (c, b)) (Proc.devRef .tc main_v162)
      = refHead2 (refPool (refLayer256 (m (c, Proc.devRef .tc main_arg5)) (m (c, Proc.devRef .tc main_arg14)) (m (c, Proc.devRef .tc main_arg15)) (m (c, Proc.devRef .tc main_arg16)) (m (c, Proc.devRef .tc main_arg17)) (refLayer256 (m (c, Proc.devRef .tc main_arg4)) (m (c, Proc.devRef .tc main_arg10)) (m (c, Proc.devRef .tc main_arg11)) (m (c, Proc.devRef .tc main_arg12)) (m (c, Proc.devRef .tc main_arg13)) (refLayer128 (m (c, Proc.devRef .tc main_arg3)) (m (c, Proc.devRef .tc main_arg6)) (m (c, Proc.devRef .tc main_arg7)) (m (c, Proc.devRef .tc main_arg8)) (m (c, Proc.devRef .tc main_arg9)) (m (c, Proc.devRef .tc main_arg0)) (m (c, Proc.devRef .tc main_arg1))) (m (c, Proc.devRef .tc main_arg1))) (m (c, Proc.devRef .tc main_arg1))) (m (c, Proc.devRef .tc main_arg2)) (m (c, Proc.devRef .tc main_arg18)) (refB256 (m (c, Proc.devRef .tc main_arg19))) (m (c, Proc.devRef .tc main_arg20)) (refB128 (m (c, Proc.devRef .tc main_arg21)))) (refMu64 (refPool (refLayer256 (m (c, Proc.devRef .tc main_arg5)) (m (c, Proc.devRef .tc main_arg14)) (m (c, Proc.devRef .tc main_arg15)) (m (c, Proc.devRef .tc main_arg16)) (m (c, Proc.devRef .tc main_arg17)) (refLayer256 (m (c, Proc.devRef .tc main_arg4)) (m (c, Proc.devRef .tc main_arg10)) (m (c, Proc.devRef .tc main_arg11)) (m (c, Proc.devRef .tc main_arg12)) (m (c, Proc.devRef .tc main_arg13)) (refLayer128 (m (c, Proc.devRef .tc main_arg3)) (m (c, Proc.devRef .tc main_arg6)) (m (c, Proc.devRef .tc main_arg7)) (m (c, Proc.devRef .tc main_arg8)) (m (c, Proc.devRef .tc main_arg9)) (m (c, Proc.devRef .tc main_arg0)) (m (c, Proc.devRef .tc main_arg1))) (m (c, Proc.devRef .tc main_arg1))) (m (c, Proc.devRef .tc main_arg1))) (m (c, Proc.devRef .tc main_arg2)) (m (c, Proc.devRef .tc main_arg18)) (refB256 (m (c, Proc.devRef .tc main_arg19))) (m (c, Proc.devRef .tc main_arg20)) (refB128 (m (c, Proc.devRef .tc main_arg21))))) (refVar64 (refPool (refLayer256 (m (c, Proc.devRef .tc main_arg5)) (m (c, Proc.devRef .tc main_arg14)) (m (c, Proc.devRef .tc main_arg15)) (m (c, Proc.devRef .tc main_arg16)) (m (c, Proc.devRef .tc main_arg17)) (refLayer256 (m (c, Proc.devRef .tc main_arg4)) (m (c, Proc.devRef .tc main_arg10)) (m (c, Proc.devRef .tc main_arg11)) (m (c, Proc.devRef .tc main_arg12)) (m (c, Proc.devRef .tc main_arg13)) (refLayer128 (m (c, Proc.devRef .tc main_arg3)) (m (c, Proc.devRef .tc main_arg6)) (m (c, Proc.devRef .tc main_arg7)) (m (c, Proc.devRef .tc main_arg8)) (m (c, Proc.devRef .tc main_arg9)) (m (c, Proc.devRef .tc main_arg0)) (m (c, Proc.devRef .tc main_arg1))) (m (c, Proc.devRef .tc main_arg1))) (m (c, Proc.devRef .tc main_arg1))) (m (c, Proc.devRef .tc main_arg2)) (m (c, Proc.devRef .tc main_arg18)) (refB256 (m (c, Proc.devRef .tc main_arg19))) (m (c, Proc.devRef .tc main_arg20)) (refB128 (m (c, Proc.devRef .tc main_arg21))))) (m (c, Proc.devRef .tc main_arg22)) (refB2 (m (c, Proc.devRef .tc main_arg23))) :=
  ref_result (fun b => m (c, b))

end Cert.Bridge

end
-- ==== Proof.RefRun.lean ====
import proofs.«138131_g70763881169291_cont_9to1c4b_616_12_alg».proof.Proof.RefRunOps

/-! The reference program's run: @main is the straight line of its operation list, so every weakly fair
    execution terminates with each TensorCore buffer at the fold of the operations' results over the launch
    contents; and no operation writes an argument's buffer, so the arguments end as launched. -/

set_option synthInstance.maxSize 4096

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

set_option maxRecDepth 8192 in
/-- @main runs its four windows in order: the straight line of the concatenated list. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- On every device, for any float values, from any memory with zero counters: every weakly fair execution of
    @main terminates, and every TensorCore buffer ends at the fold of the operations' results over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefFrame.lean ====
import proofs.«138131_g70763881169291_cont_9to1c4b_616_12_alg».proof.Defs
import proofs.«138131_g70763881169291_cont_9to1c4b_616_12_alg».proof.Proof.RefRun
import proofs.«138131_g70763881169291_cont_9to1c4b_616_12_alg».proof.Proof.RefRunWrites

/-! The reference program's frame: it runs (every weakly fair execution terminates without a fault), and since
    none of its operations writes an argument's buffer, each argument array ends as launched. -/

set_option synthInstance.maxSize 4096

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- A buffer that none of the four windows writes keeps its contents across the whole of @main. -/
theorem keep (b : Ref sig .tc) (h0 : b ∉ written0) (h1 : b ∉ written1) (h2 : b ∉ written2) (h3 : b ∉ written3)
    (V : Valuation τ sig (Elt F)) : after ops V (Proc.devRef .tc b) = V (Proc.devRef .tc b) := by
  simp only [ops, after_app]
  rw [keep3 b h3, keep2 b h2, keep1 b h1, keep0 b h0]

theorem keep_arg0 (V : Valuation τ sig (Elt F)) : after ops V (Proc.devRef .tc main_arg0) = V (Proc.devRef .tc main_arg0) :=
  keep main_arg0 (by decide) (by decide) (by decide) (by decide) V
theorem keep_arg1 (V : Valuation τ sig (Elt F)) : after ops V (Proc.devRef .tc main_arg1) = V (Proc.devRef .tc main_arg1) :=
  keep main_arg1 (by decide) (by decide) (by decide) (by decide) V
theorem keep_arg2 (V : Valuation τ sig (Elt F)) : after ops V (Proc.devRef .tc main_arg2) = V (Proc.devRef .tc main_arg2) :=
  keep main_arg2 (by decide) (by decide) (by decide) (by decide) V
theorem keep_arg3 (V : Valuation τ sig (Elt F)) : after ops V (Proc.devRef .tc main_arg3) = V (Proc.devRef .tc main_arg3) :=
  keep main_arg3 (by decide) (by decide) (by decide) (by decide) V
theorem keep_arg4 (V : Valuation τ sig (Elt F)) : after ops V (Proc.devRef .tc main_arg4) = V (Proc.devRef .tc main_arg4) :=
  keep main_arg4 (by decide) (by decide) (by decide) (by decide) V
theorem keep_arg5 (V : Valuation τ sig (Elt F)) : after ops V (Proc.devRef .tc main_arg5) = V (Proc.devRef .tc main_arg5) :=
  keep main_arg5 (by decide) (by decide) (by decide) (by decide) V
theorem keep_arg6 (V : Valuation τ sig (Elt F)) : after ops V (Proc.devRef .tc main_arg6) = V (Proc.devRef .tc main_arg6) :=
  keep main_arg6 (by decide) (by decide) (by decide) (by decide) V
theorem keep_arg7 (V : Valuation τ sig (Elt F)) : after ops V (Proc.devRef .tc main_arg7) = V (Proc.devRef .tc main_arg7) :=
  keep main_arg7 (by decide) (by decide) (by decide) (by decide) V
theorem keep_arg8 (V : Valuation τ sig (Elt F)) : after ops V (Proc.devRef .tc main_arg8) = V (Proc.devRef .tc main_arg8) :=
  keep main_arg8 (by decide) (by decide) (by decide) (by decide) V
theorem keep_arg9 (V : Valuation τ sig (Elt F)) : after ops V (Proc.devRef .tc main_arg9) = V (Proc.devRef .tc main_arg9) :=
  keep main_arg9 (by decide) (by decide) (by decide) (by decide) V
theorem keep_arg10 (V : Valuation τ sig (Elt F)) : after ops V (Proc.devRef .tc main_arg10) = V (Proc.devRef .tc main_arg10) :=
  keep main_arg10 (by decide) (by decide) (by decide) (by decide) V
theorem keep_arg11 (V : Valuation τ sig (Elt F)) : after ops V (Proc.devRef .tc main_arg11) = V (Proc.devRef .tc main_arg11) :=
  keep main_arg11 (by decide) (by decide) (by decide) (by decide) V
theorem keep_arg12 (V : Valuation τ sig (Elt F)) : after ops V (Proc.devRef .tc main_arg12) = V (Proc.devRef .tc main_arg12) :=
  keep main_arg12 (by decide) (by decide) (by decide) (by decide) V
theorem keep_arg13 (V : Valuation τ sig (Elt F)) : after ops V (Proc.devRef .tc main_arg13) = V (Proc.devRef .tc main_arg13) :=
  keep main_arg13 (by decide) (by decide) (by decide) (by decide) V
theorem keep_arg14 (V : Valuation τ sig (Elt F)) : after ops V (Proc.devRef .tc main_arg14) = V (Proc.devRef .tc main_arg14) :=
  keep main_arg14 (by decide) (by decide) (by decide) (by decide) V
theorem keep_arg15 (V : Valuation τ sig (Elt F)) : after ops V (Proc.devRef .tc main_arg15) = V (Proc.devRef .tc main_arg15) :=
  keep main_arg15 (by decide) (by decide) (by decide) (by decide) V
theorem keep_arg16 (V : Valuation τ sig (Elt F)) : after ops V (Proc.devRef .tc main_arg16) = V (Proc.devRef .tc main_arg16) :=
  keep main_arg16 (by decide) (by decide) (by decide) (by decide) V
theorem keep_arg17 (V : Valuation τ sig (Elt F)) : after ops V (Proc.devRef .tc main_arg17) = V (Proc.devRef .tc main_arg17) :=
  keep main_arg17 (by decide) (by decide) (by decide) (by decide) V
theorem keep_arg18 (V : Valuation τ sig (Elt F)) : after ops V (Proc.devRef .tc main_arg18) = V (Proc.devRef .tc main_arg18) :=
  keep main_arg18 (by decide) (by decide) (by decide) (by decide) V
theorem keep_arg19 (V : Valuation τ sig (Elt F)) : after ops V (Proc.devRef .tc main_arg19) = V (Proc.devRef .tc main_arg19) :=
  keep main_arg19 (by decide) (by decide) (by decide) (by decide) V
theorem keep_arg20 (V : Valuation τ sig (Elt F)) : after ops V (Proc.devRef .tc main_arg20) = V (Proc.devRef .tc main_arg20) :=
  keep main_arg20 (by decide) (by decide) (by decide) (by decide) V
theorem keep_arg21 (V : Valuation τ sig (Elt F)) : after ops V (Proc.devRef .tc main_arg21) = V (Proc.devRef .tc main_arg21) :=
  keep main_arg21 (by decide) (by decide) (by decide) (by decide) V
theorem keep_arg22 (V : Valuation τ sig (Elt F)) : after ops V (Proc.devRef .tc main_arg22) = V (Proc.devRef .tc main_arg22) :=
  keep main_arg22 (by decide) (by decide) (by decide) (by decide) V
theorem keep_arg23 (V : Valuation τ sig (Elt F)) : after ops V (Proc.devRef .tc main_arg23) = V (Proc.devRef .tc main_arg23) :=
  keep main_arg23 (by decide) (by decide) (by decide) (by decide) V

/-- The reference runs from any memory with zero counters, and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _),
      (h c main_arg6).trans (keep_arg6 _),
      (h c main_arg7).trans (keep_arg7 _),
      (h c main_arg8).trans (keep_arg8 _),
      (h c main_arg9).trans (keep_arg9 _),
      (h c main_arg10).trans (keep_arg10 _),
      (h c main_arg11).trans (keep_arg11 _),
      (h c main_arg12).trans (keep_arg12 _),
      (h c main_arg13).trans (keep_arg13 _),
      (h c main_arg14).trans (keep_arg14 _),
      (h c main_arg15).trans (keep_arg15 _),
      (h c main_arg16).trans (keep_arg16 _),
      (h c main_arg17).trans (keep_arg17 _),
      (h c main_arg18).trans (keep_arg18 _),
      (h c main_arg19).trans (keep_arg19 _),
      (h c main_arg20).trans (keep_arg20 _),
      (h c main_arg21).trans (keep_arg21 _),
      (h c main_arg22).trans (keep_arg22 _),
      (h c main_arg23).trans (keep_arg23 _)⟩)
    (run m ρ)

end Cert.ReferenceIdeal.RefRun

/-- The frame claim of the reference program, as the certificate states it (the precondition is not used). -/
theorem Cert.frame_ri [hReferenceIdeal : Cert.ReferenceIdeal.Facts] [hPre_finite_inputs : Cert.Pre_finite_inputs.Facts] :
    Cert.frame_ReferenceIdeal (hReferenceIdeal := hReferenceIdeal) (hPre_finite_inputs := hPre_finite_inputs) :=
  fun m g _ => Cert.ReferenceIdeal.RefRun.frame (F := Idealize.ShloMosaic.Ideal) m g

end
-- ==== Proof.RefSpecRun.lean ====
import proofs.«138131_g70763881169291_cont_9to1c4b_616_12_alg».proof.Proof.Spec
import proofs.«138131_g70763881169291_cont_9to1c4b_616_12_alg».proof.Proof.RefRead
import proofs.«138131_g70763881169291_cont_9to1c4b_616_12_alg».proof.Proof.RefFrame

/-! The reference half of the equivalence in one statement: the reference runs from any memory with zero counters,
    its result buffer ends at the specification of its argument arrays, and the arguments end unchanged. -/

set_option synthInstance.maxSize 4096

noncomputable section

namespace Cert.ReferenceIdeal.RefRun

open Cert.ReferenceIdeal Idealize.ShloMosaic Idealize.ShloMosaic.TcCoe Idealize.SL.Sem Idealize.ShloMosaic.StableHlo

variable [Facts]
open Facts₀ Facts

/-- From any contents `V` of the device's buffers, the result buffer ends at the specification of the argument
    buffers' contents. -/
theorem after_spec (V : Valuation τ sig (Elt Ideal)) :
    after ops V (Proc.devRef .tc main_v162)
      = Cert.Bridge.spec (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) :=
  Cert.Bridge.ref_result V

/-- Every weakly fair execution of the reference terminates with the result at the specification of the launch
    contents of the arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v162) = Cert.Bridge.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c main_v162).trans (after_spec (launchContents m c)),
      (h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _),
      (h c main_arg6).trans (keep_arg6 _),
      (h c main_arg7).trans (keep_arg7 _),
      (h c main_arg8).trans (keep_arg8 _),
      (h c main_arg9).trans (keep_arg9 _),
      (h c main_arg10).trans (keep_arg10 _),
      (h c main_arg11).trans (keep_arg11 _),
      (h c main_arg12).trans (keep_arg12 _),
      (h c main_arg13).trans (keep_arg13 _),
      (h c main_arg14).trans (keep_arg14 _),
      (h c main_arg15).trans (keep_arg15 _),
      (h c main_arg16).trans (keep_arg16 _),
      (h c main_arg17).trans (keep_arg17 _),
      (h c main_arg18).trans (keep_arg18 _),
      (h c main_arg19).trans (keep_arg19 _),
      (h c main_arg20).trans (keep_arg20 _),
      (h c main_arg21).trans (keep_arg21 _),
      (h c main_arg22).trans (keep_arg22 _),
      (h c main_arg23).trans (keep_arg23 _)⟩)
    (run m ρ)

end Cert.ReferenceIdeal.RefRun

end
-- ==== Proof.lean ====
/-
  The proof of `Cert.Claim`: a three-layer graph-isomorphism encoder with per-graph mean pooling and a two-layer head,
  written as eight kernel regions among host operations, against the same network in plain array operations.

  The three frames: the two kernel programs' are the generated frame certificates; the reference's is its run with
  the result dropped (no operation writes an argument). The idealized kernel program is the kernel program's own text
  read on the extended reals (no rewrite was applied), so nothing is owed for it.

  The value claim: at the ideal instance both programs end with the class scores at ONE function of the 24 argument
  arrays (`Cert.Bridge.spec`). What joins the two sides: a matrix product computed five row blocks at a time is the
  whole product row by row; a 256-column result stored as two 128-column halves in the upper and lower half of a
  20000-row array, then sliced and concatenated, is the result itself; per-graph sums as a product with the 0/1
  membership matrix of the (padded) batch ids are the sums over each graph's rows (0·x = 0 and 1·x = x hold for every
  extended real, and an out-of-range id contributes to neither side); a product with a weight matrix zero-padded
  from 2 to 128 columns, of which columns 0 and 1 are kept, is the product with the unpadded matrix; and a bias
  reshaped to a row is the bias broadcast to a row. Every other operation is the same in both programs.
-/
import proofs.«138131_g70763881169291_cont_9to1c4b_616_12_alg».proof.Defs
import proofs.«138131_g70763881169291_cont_9to1c4b_616_12_alg».proof.Proof.Gen.Kernel
import proofs.«138131_g70763881169291_cont_9to1c4b_616_12_alg».proof.Proof.Gen.Kernel.Frame
import proofs.«138131_g70763881169291_cont_9to1c4b_616_12_alg».proof.Proof.Gen.KernelIdeal
import proofs.«138131_g70763881169291_cont_9to1c4b_616_12_alg».proof.Proof.Gen.KernelIdeal.Frame
import proofs.«138131_g70763881169291_cont_9to1c4b_616_12_alg».proof.Proof.Gen.ReferenceIdeal
import proofs.«138131_g70763881169291_cont_9to1c4b_616_12_alg».proof.Proof.Gen.Pre_finite_inputs
import proofs.«138131_g70763881169291_cont_9to1c4b_616_12_alg».proof.Proof.KSpecRun
import proofs.«138131_g70763881169291_cont_9to1c4b_616_12_alg».proof.Proof.RefSpecRun
import proofs.«138131_g70763881169291_cont_9to1c4b_616_12_alg».proof.Proof.RefFrame
import Idealize.ShloMosaic.Adequacy
import Idealize.ShloMosaic.Init

set_option maxRecDepth 16384

noncomputable section

namespace Cert.Proof

open Idealize.ShloMosaic Idealize.SL.Sem

/-- Both idealized programs end with equal results: each ends at the specification of its own argument arrays,
    and the two memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    Cert.KernelIdeal.Gen.run_spec m ρ, ?_⟩
  refine (θ_run Cert.ReferenceIdeal.defs _ _).mono (fun r h c => ⟨(h c).1.trans ?_, (h c).2⟩)
    (Cert.ReferenceIdeal.RefRun.run_spec m' ρ')
  obtain ⟨h0, h1, h2, h3, h4, h5, h6, h7, h8, h9, h10, h11, h12, h13, h14, h15, h16, h17, h18, h19, h20, h21, h22, h23⟩ := hagree c
  rw [h0, h1, h2, h3, h4, h5, h6, h7, h8, h9, h10, h11, h12, h13, h14, h15, h16, h17, h18, h19, h20, h21, h22, h23]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.frame_ri,
  trivial,
  algebraic⟩

end Cert.Proof

end
